-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S20000x128 : Shape := ⟨2, ![20000, 128]⟩
abbrev S80000x32 : Shape := ⟨2, ![80000, 32]⟩
abbrev S900000x8 : Shape := ⟨2, ![900000, 8]⟩
abbrev S128x128 : Shape := ⟨2, ![128, 128]⟩
abbrev S128x32 : Shape := ⟨2, ![128, 32]⟩
abbrev S128x8 : Shape := ⟨2, ![128, 8]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S80000x32 : S_.BroadcastsInDim S80000x32 (![] : Fin 0 → Fin S80000x32.rank)
  reducesTo_S80000x32_S_d0_1 : S80000x32.ReducesTo [0, 1] S_
  bcast_S_S900000x8 : S_.BroadcastsInDim S900000x8 (![] : Fin 0 → Fin S900000x8.rank)
  reducesTo_S900000x8_S_d0_1 : S900000x8.ReducesTo [0, 1] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S128x8 : S_.BroadcastsInDim S128x8 (![] : Fin 0 → Fin S128x8.rank)
  reducesTo_S128x8_S_d0_1 : S128x8.ReducesTo [0, 1] S_
  bcast_S_S4096x200 : S_.BroadcastsInDim S4096x200 (![] : Fin 0 → Fin S4096x200.rank)
  reducesTo_S4096x200_S_d0_1 : S4096x200.ReducesTo [0, 1] S_

variable [Facts]

def fn_part2 {F : FTy → Type} [FloatOps F] (main_v28 : IVec S_ 1) (main_v33 : IVec S4096x200 1) : IVec S_ 1 :=
  let main_c_12 : IVec S_ 1 := constantI S_ 1 1#1
  let main_v34 : IVec S_ 1 := (fun x v => Host.reduce IntOp.andi x v reducesTo_S4096x200_S_d0_1 h_S_) main_v33 main_c_12
  let main_v35 : IVec S_ 1 := andi main_v28 main_v34
  main_v35

def fn_part1 {F : FTy → Type} [FloatOps F] (main_arg0 : IVec S4096x200 32) (main_arg5 : FVec F S128x32 .f32) (main_arg6 : FVec F S128x8 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128x8 .f32 := Host.absf main_arg6
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_c_10 : IVec S_ 32 := constantI S_ 32 0#32
  let main_v29 : IVec S4096x200 32 := broadcastInDim S4096x200 ![] bcast_S_S4096x200 main_c_10
  let main_v30 : IVec S4096x200 1 := cmpi .sge main_arg0 main_v29
  let main_c_11 : IVec S_ 32 := constantI S_ 32 999999#32
  let main_v31 : IVec S4096x200 32 := broadcastInDim S4096x200 ![] bcast_S_S4096x200 main_c_11
  let main_v32 : IVec S4096x200 1 := cmpi .sle main_arg0 main_v31
  let main_v33 : IVec S4096x200 1 := andi main_v30 main_v32
  fn_part2 (F := F) main_v28 main_v33

def fn {F : FTy → Type} [FloatOps F] (main_arg0 : IVec S4096x200 32) (main_arg1 : FVec F S20000x128 .f32) (main_arg2 : FVec F S80000x32 .f32) (main_arg3 : FVec F S900000x8 .f32) (main_arg4 : FVec F S128x128 .f32) (main_arg5 : FVec F S128x32 .f32) (main_arg6 : FVec F S128x8 .f32) : IVec S_ 1 :=
  let main_v0 : FVec F S20000x128 .f32 := Host.absf main_arg1
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S80000x32 .f32 := Host.absf main_arg2
  let main_cst_0 : FVec F S_ .f32 := constant S_ .f32 0x7F800000#32
  let main_v5 : FVec F S80000x32 .f32 := broadcastInDim S80000x32 ![] bcast_S_S80000x32 main_cst_0
  let main_v6 : IVec S80000x32 1 := cmpf .olt main_v4 main_v5
  let main_c_1 : IVec S_ 1 := constantI S_ 1 1#1
  let main_v7 : IVec S_ 1 := (fun x v => Host.reduce IntOp.andi x v reducesTo_S80000x32_S_d0_1 h_S_) main_v6 main_c_1
  let main_v8 : IVec S_ 1 := andi main_v3 main_v7
  let main_v9 : FVec F S900000x8 .f32 := Host.absf main_arg3
  let main_cst_2 : FVec F S_ .f32 := constant S_ .f32 0x7F800000#32
  let main_v10 : FVec F S900000x8 .f32 := broadcastInDim S900000x8 ![] bcast_S_S900000x8 main_cst_2
  let main_v11 : IVec S900000x8 1 := cmpf .olt main_v9 main_v10
  let main_c_3 : IVec S_ 1 := constantI S_ 1 1#1
  let main_v12 : IVec S_ 1 := (fun x v => Host.reduce IntOp.andi x v reducesTo_S900000x8_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_arg6 main_v13 main_v16
-- ==== Kernel.lean ====
abbrev S4096x200 : Shape := ⟨2, ![4096, 200]⟩
abbrev S20000x128 : Shape := ⟨2, ![20000, 128]⟩
abbrev S80000x32 : Shape := ⟨2, ![80000, 32]⟩
abbrev S900000x8 : Shape := ⟨2, ![900000, 8]⟩
abbrev S128x128 : Shape := ⟨2, ![128, 128]⟩
abbrev S128x32 : Shape := ⟨2, ![128, 32]⟩
abbrev S128x8 : Shape := ⟨2, ![128, 8]⟩
abbrev S_ : Shape := ⟨0, ![]⟩
abbrev S32x128 : Shape := ⟨2, ![32, 128]⟩
abbrev S8x128 : Shape := ⟨2, ![8, 128]⟩
abbrev S1000000x128 : Shape := ⟨2, ![1000000, 128]⟩
abbrev S20000x32 : Shape := ⟨2, ![20000, 32]⟩
abbrev S20000x8 : Shape := ⟨2, ![20000, 8]⟩
abbrev S819200 : Shape := ⟨1, ![819200]⟩
abbrev S819200x128 : Shape := ⟨2, ![819200, 128]⟩
abbrev S25600 : Shape := ⟨1, ![25600]⟩
abbrev S128 : Shape := ⟨1, ![128]⟩
abbrev S4096x200x128 : Shape := ⟨3, ![4096, 200, 128]⟩

abbrev nBuf : Table → Nat
  | .hbm => 29
  | .local .tc .vmem => 11
  | .local .scVector .vmem => 5
  | _ => 0

abbrev bufTy : (tb : Table) → Fin (nBuf tb) → BufTy
  | .hbm, ⟨0, _⟩ => ⟨S4096x200, .i32⟩
  | .hbm, ⟨1, _⟩ => ⟨S20000x128, .f32⟩
  | .hbm, ⟨2, _⟩ => ⟨S80000x32, .f32⟩
  | .hbm, ⟨3, _⟩ => ⟨S900000x8, .f32⟩
  | .hbm, ⟨4, _⟩ => ⟨S128x128, .f32⟩
  | .hbm, ⟨5, _⟩ => ⟨S128x32, .f32⟩
  | .hbm, ⟨6, _⟩ => ⟨S128x8, .f32⟩
  | .hbm, ⟨7, _⟩ => ⟨S20000x128, .bf16⟩
  | .hbm, ⟨8, _⟩ => ⟨S80000x32, .bf16⟩
  | .hbm, ⟨9, _⟩ => ⟨S900000x8, .bf16⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .bf16⟩
  | .hbm, ⟨15, _⟩ => ⟨S32x128, .f32⟩
  | .hbm, ⟨16, _⟩ => ⟨S_, .f32⟩
  | .hbm, ⟨17, _⟩ => ⟨S32x128, .f32⟩
  | .hbm, ⟨18, _⟩ => ⟨S32x128, .f32⟩
  | .hbm, ⟨19, _⟩ => ⟨S32x128, .bf16⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S8x128, .bf16⟩
  | .hbm, ⟨25, _⟩ => ⟨S1000000x128, .f32⟩
  | .hbm, ⟨26, _⟩ => ⟨S819200, .i32⟩
  | .hbm, ⟨27, _⟩ => ⟨S819200x128, .f32⟩
  | .hbm, ⟨28, _⟩ => ⟨S4096x200x128, .f32⟩
  | .local .tc .vmem, ⟨0, _⟩ => ⟨S20000x128, .bf16⟩
  | .local .tc .vmem, ⟨1, _⟩ => ⟨S20000x128, .bf16⟩
  | .local .tc .vmem, ⟨2, _⟩ => ⟨S20000x32, .bf16⟩
  | .local .tc .vmem, ⟨3, _⟩ => ⟨S20000x32, .bf16⟩
  | .local .tc .vmem, ⟨4, _⟩ => ⟨S20000x8, .bf16⟩
  | .local .tc .vmem, ⟨5, _⟩ => ⟨S20000x8, .bf16⟩
  | .local .tc .vmem, ⟨6, _⟩ => ⟨S128x128, .bf16⟩
  | .local .tc .vmem, ⟨7, _⟩ => ⟨S32x128, .bf16⟩
  | .local .tc .vmem, ⟨8, _⟩ => ⟨S8x128, .bf16⟩
  | .local .tc .vmem, ⟨9, _⟩ => ⟨S20000x128, .f32⟩
  | .local .tc .vmem, ⟨10, _⟩ => ⟨S20000x128, .f32⟩
  | .local .scVector .vmem, ⟨0, _⟩ => ⟨S25600, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v16_scv : Ref sig .scVector := ⟨.hbm, 26, rfl⟩
abbrev main_v15_scv : Ref sig .scVector := ⟨.hbm, 25, rfl⟩
abbrev main_v17_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c1_i32_0 : BitVec 32 := 1#32
  let v3 : BitVec 1 := Scalar.cmpi .sge arg0 c1_i32_0
  let c5_i32 : BitVec 32 := 5#32
  let v4 : BitVec 1 := Scalar.cmpi .slt arg0 c5_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c5_i32_2 : BitVec 32 := 5#32
  let v8 : BitVec 1 := Scalar.cmpi .sge arg0 c5_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c44_i32 : BitVec 32 := 44#32
  let v1 : BitVec 32 := Scalar.maxsi c0_i32 v0
  let v2 : BitVec 32 := Scalar.minsi c44_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S20000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := v2
  ![v3.toNat]
def k1_mult2 : BitVec 32 :=
  let c0_i32 : BitVec 32 := 0#32
  c0_i32
def k1_mult3 : BitVec 32 :=
  let c128_i32 : BitVec 32 := 128#32
  c128_i32
def k1_mult4 : BitVec 32 :=
  let c256_i32 : BitVec 32 := 256#32
  c256_i32
@[reducible] def k1_t1_loop : Scf.Loop 32 :=
  let c0_i32_7 : BitVec 32 := 0#32
  let c50_i32 : BitVec 32 := 50#32
  let v13 : BitVec 32 := Scalar.addi c0_i32_7 c50_i32
  let c1_i32 : BitVec 32 := 1#32
  ⟨c0_i32_7, v13, c1_i32⟩
def k1_mult5 (k1_t1 : Fin k1_t1_loop.trips) : BitVec 32 :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c128_i32_12 : BitVec 32 := 128#32
  let v20 : BitVec 32 := Scalar.muli v19 c128_i32_12
  v20
def k1_off2 (k1_t1 : Fin k1_t1_loop.trips) (c0_i32_11 : BitVec 32) : Fin 1 → Nat :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let v19 : BitVec 32 := Scalar.addi v18 c0_i32_11
  let c128_i32_12 : BitVec 32 := 128#32
  let v20 : BitVec 32 := Scalar.muli v19 c128_i32_12
  let v21 : BitVec 32 := v20
  ![v21.toNat]
def k1_mult6 (k1_t1 : Fin k1_t1_loop.trips) : BitVec 32 :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c128_i32_15 : BitVec 32 := 128#32
  let v24 : BitVec 32 := Scalar.muli v19 c128_i32_15
  v24
def k1_off3 (i : grid1.Coords) (k1_t1 : Fin k1_t1_loop.trips) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := v2
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let v19 : BitVec 32 := Scalar.addi v18 c0_i32_11
  let c128_i32_15 : BitVec 32 := 128#32
  let v24 : BitVec 32 := Scalar.muli v19 c128_i32_15
  let v25 : BitVec 32 := v24
  let v26 : BitVec 32 := Scalar.addi v3 v25
  let c0_i32_16 : BitVec 32 := 0#32
  ![v26.toNat, 0]
def k1_cond1 (k1_t1 : Fin k1_t1_loop.trips) : BitVec 1 :=
  let c0_i32_7 : BitVec 32 := 0#32
  let c1_i32 : BitVec 32 := 1#32
  let arg18 : BitVec 32 := Scf.iv c0_i32_7 c1_i32 k1_t1
  let c0_i32_18 : BitVec 32 := 0#32
  let v29 : BitVec 1 := Scalar.cmpi .sgt arg18 c0_i32_18
  let v30 : BitVec 32 := Scalar.extui v29
  let c0_i32_19 : BitVec 32 := 0#32
  let v31 : BitVec 1 := Scalar.cmpi .ne v30 c0_i32_19
  v31

def k1_mult7 (k1_t1 : Fin k1_t1_loop.trips) : BitVec 32 :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c1_i32_66 : BitVec 32 := 1#32
  let v99 : BitVec 32 := Scalar.subi v19 c1_i32_66
  let c128_i32_67 : BitVec 32 := 128#32
  let v100 : BitVec 32 := Scalar.muli v99 c128_i32_67
  v100
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := v2
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c1_i32_66 : BitVec 32 := 1#32
  let v99 : BitVec 32 := Scalar.subi v19 c1_i32_66
  let c128_i32_67 : BitVec 32 := 128#32
  let v100 : BitVec 32 := Scalar.muli v99 c128_i32_67
  let v101 : BitVec 32 := v100
  let v102 : BitVec 32 := Scalar.addi v3 v101
  let c0_i32_68 : BitVec 32 := 0#32
  ![v102.toNat, 0]
def k1_cond2 (k1_t1 : Fin k1_t1_loop.trips) : BitVec 1 :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c3_i32 : BitVec 32 := 3#32
  let v32 : BitVec 32 := Scalar.addi v19 c3_i32
  let c200_i32 : BitVec 32 := 200#32
  let v33 : BitVec 1 := Scalar.cmpi .slt v32 c200_i32
  let v34 : BitVec 32 := Scalar.extui v33
  let c0_i32_20 : BitVec 32 := 0#32
  let v35 : BitVec 1 := Scalar.cmpi .ne v34 c0_i32_20
  v35

def k1_mult8 (k1_t1 : Fin k1_t1_loop.trips) : BitVec 32 :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c3_i32_66 : BitVec 32 := 3#32
  let v99 : BitVec 32 := Scalar.addi v19 c3_i32_66
  let c128_i32_67 : BitVec 32 := 128#32
  let v100 : BitVec 32 := Scalar.muli v99 c128_i32_67
  v100
def k1_off5 (k1_t1 : Fin k1_t1_loop.trips) : Fin 1 → Nat :=
  let c4_i32 : BitVec 32 := 4#32
  let c0_i32_7 : BitVec 32 := 0#32
  let c1_i32 : BitVec 32 := 1#32
  let arg18 : BitVec 32 := Scf.iv c0_i32_7 c1_i32 k1_t1
  let v18 : BitVec 32 := Scalar.muli c4_i32 arg18
  let c0_i32_11 : BitVec 32 := 0#32
  let v19 : BitVec 32 := Scalar.addi v18 c0_i32_11
  let c3_i32_66 : BitVec 32 := 3#32
  let v99 : BitVec 32 := Scalar.addi v19 c3_i32_66
  let c128_i32_67 : BitVec 32 := 128#32
  let v100 : BitVec 32 := Scalar.muli v99 c128_i32_67
  let v101 : BitVec 32 := v100
  ![v101.toNat]
def k1_mult9 (k1_t1 : Fin k1_t1_loop.trips) : BitVec 32 :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c128_i32_23 : BitVec 32 := 128#32
  let v38 : BitVec 32 := Scalar.muli v37 c128_i32_23
  v38
def k1_mult10 (k1_t1 : Fin k1_t1_loop.trips) : BitVec 32 :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c128_i32_26 : BitVec 32 := 128#32
  let v42 : BitVec 32 := Scalar.muli v37 c128_i32_26
  v42
def k1_mult11 (k1_t1 : Fin k1_t1_loop.trips) : BitVec 32 :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c1_i32_29 : BitVec 32 := 1#32
  let v47 : BitVec 32 := Scalar.subi v37 c1_i32_29
  let c128_i32_30 : BitVec 32 := 128#32
  let v48 : BitVec 32 := Scalar.muli v47 c128_i32_30
  v48
def k1_off6 (i : grid1.Coords) (k1_t1 : Fin k1_t1_loop.trips) (c1_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := v2
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let v37 : BitVec 32 := Scalar.addi v36 c1_i32_22
  let c1_i32_29 : BitVec 32 := 1#32
  let v47 : BitVec 32 := Scalar.subi v37 c1_i32_29
  let c128_i32_30 : BitVec 32 := 128#32
  let v48 : BitVec 32 := Scalar.muli v47 c128_i32_30
  let v49 : BitVec 32 := v48
  let v50 : BitVec 32 := Scalar.addi v3 v49
  let c0_i32_31 : BitVec 32 := 0#32
  ![v50.toNat, 0]
def k1_cond3 (k1_t1 : Fin k1_t1_loop.trips) : BitVec 1 :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c3_i32_33 : BitVec 32 := 3#32
  let v53 : BitVec 32 := Scalar.addi v37 c3_i32_33
  let c200_i32_34 : BitVec 32 := 200#32
  let v54 : BitVec 1 := Scalar.cmpi .slt v53 c200_i32_34
  let v55 : BitVec 32 := Scalar.extui v54
  let c0_i32_35 : BitVec 32 := 0#32
  let v56 : BitVec 1 := Scalar.cmpi .ne v55 c0_i32_35
  v56

def k1_mult12 (k1_t1 : Fin k1_t1_loop.trips) : BitVec 32 :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c3_i32_66 : BitVec 32 := 3#32
  let v99 : BitVec 32 := Scalar.addi v37 c3_i32_66
  let c128_i32_67 : BitVec 32 := 128#32
  let v100 : BitVec 32 := Scalar.muli v99 c128_i32_67
  v100
def k1_off7 (k1_t1 : Fin k1_t1_loop.trips) : Fin 1 → Nat :=
  let c4_i32_21 : BitVec 32 := 4#32
  let c0_i32_7 : BitVec 32 := 0#32
  let c1_i32 : BitVec 32 := 1#32
  let arg18 : BitVec 32 := Scf.iv c0_i32_7 c1_i32 k1_t1
  let v36 : BitVec 32 := Scalar.muli c4_i32_21 arg18
  let c1_i32_22 : BitVec 32 := 1#32
  let v37 : BitVec 32 := Scalar.addi v36 c1_i32_22
  let c3_i32_66 : BitVec 32 := 3#32
  let v99 : BitVec 32 := Scalar.addi v37 c3_i32_66
  let c128_i32_67 : BitVec 32 := 128#32
  let v100 : BitVec 32 := Scalar.muli v99 c128_i32_67
  let v101 : BitVec 32 := v100
  ![v101.toNat]
def k1_mult13 (k1_t1 : Fin k1_t1_loop.trips) : BitVec 32 :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c128_i32_38 : BitVec 32 := 128#32
  let v59 : BitVec 32 := Scalar.muli v58 c128_i32_38
  v59
def k1_mult14 (k1_t1 : Fin k1_t1_loop.trips) : BitVec 32 :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c128_i32_41 : BitVec 32 := 128#32
  let v63 : BitVec 32 := Scalar.muli v58 c128_i32_41
  v63
def k1_mult15 (k1_t1 : Fin k1_t1_loop.trips) : BitVec 32 :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c1_i32_44 : BitVec 32 := 1#32
  let v68 : BitVec 32 := Scalar.subi v58 c1_i32_44
  let c128_i32_45 : BitVec 32 := 128#32
  let v69 : BitVec 32 := Scalar.muli v68 c128_i32_45
  v69
def k1_cond4 (k1_t1 : Fin k1_t1_loop.trips) : BitVec 1 :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c3_i32_48 : BitVec 32 := 3#32
  let v74 : BitVec 32 := Scalar.addi v58 c3_i32_48
  let c200_i32_49 : BitVec 32 := 200#32
  let v75 : BitVec 1 := Scalar.cmpi .slt v74 c200_i32_49
  let v76 : BitVec 32 := Scalar.extui v75
  let c0_i32_50 : BitVec 32 := 0#32
  let v77 : BitVec 1 := Scalar.cmpi .ne v76 c0_i32_50
  v77

def k1_mult16 (k1_t1 : Fin k1_t1_loop.trips) : BitVec 32 :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c3_i32_66 : BitVec 32 := 3#32
  let v99 : BitVec 32 := Scalar.addi v58 c3_i32_66
  let c128_i32_67 : BitVec 32 := 128#32
  let v100 : BitVec 32 := Scalar.muli v99 c128_i32_67
  v100
def k1_off8 (k1_t1 : Fin k1_t1_loop.trips) : Fin 1 → Nat :=
  let c4_i32_36 : BitVec 32 := 4#32
  let c0_i32_7 : BitVec 32 := 0#32
  let c1_i32 : BitVec 32 := 1#32
  let arg18 : BitVec 32 := Scf.iv c0_i32_7 c1_i32 k1_t1
  let v57 : BitVec 32 := Scalar.muli c4_i32_36 arg18
  let c2_i32_37 : BitVec 32 := 2#32
  let v58 : BitVec 32 := Scalar.addi v57 c2_i32_37
  let c3_i32_66 : BitVec 32 := 3#32
  let v99 : BitVec 32 := Scalar.addi v58 c3_i32_66
  let c128_i32_67 : BitVec 32 := 128#32
  let v100 : BitVec 32 := Scalar.muli v99 c128_i32_67
  let v101 : BitVec 32 := v100
  ![v101.toNat]
def k1_mult17 (k1_t1 : Fin k1_t1_loop.trips) : BitVec 32 :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c128_i32_53 : BitVec 32 := 128#32
  let v80 : BitVec 32 := Scalar.muli v79 c128_i32_53
  v80
def k1_mult18 (k1_t1 : Fin k1_t1_loop.trips) : BitVec 32 :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c128_i32_56 : BitVec 32 := 128#32
  let v84 : BitVec 32 := Scalar.muli v79 c128_i32_56
  v84
def k1_mult19 (k1_t1 : Fin k1_t1_loop.trips) : BitVec 32 :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c1_i32_59 : BitVec 32 := 1#32
  let v89 : BitVec 32 := Scalar.subi v79 c1_i32_59
  let c128_i32_60 : BitVec 32 := 128#32
  let v90 : BitVec 32 := Scalar.muli v89 c128_i32_60
  v90
def k1_cond5 (k1_t1 : Fin k1_t1_loop.trips) : BitVec 1 :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c3_i32_63 : BitVec 32 := 3#32
  let v95 : BitVec 32 := Scalar.addi v79 c3_i32_63
  let c200_i32_64 : BitVec 32 := 200#32
  let v96 : BitVec 1 := Scalar.cmpi .slt v95 c200_i32_64
  let v97 : BitVec 32 := Scalar.extui v96
  let c0_i32_65 : BitVec 32 := 0#32
  let v98 : BitVec 1 := Scalar.cmpi .ne v97 c0_i32_65
  v98

def k1_mult20 (k1_t1 : Fin k1_t1_loop.trips) : BitVec 32 :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c3_i32_66 : BitVec 32 := 3#32
  let v99 : BitVec 32 := Scalar.addi v79 c3_i32_66
  let c128_i32_67 : BitVec 32 := 128#32
  let v100 : BitVec 32 := Scalar.muli v99 c128_i32_67
  v100
def k1_off9 (k1_t1 : Fin k1_t1_loop.trips) : Fin 1 → Nat :=
  let c4_i32_51 : BitVec 32 := 4#32
  let c0_i32_7 : BitVec 32 := 0#32
  let c1_i32 : BitVec 32 := 1#32
  let arg18 : BitVec 32 := Scf.iv c0_i32_7 c1_i32 k1_t1
  let v78 : BitVec 32 := Scalar.muli c4_i32_51 arg18
  let c3_i32_52 : BitVec 32 := 3#32
  let v79 : BitVec 32 := Scalar.addi v78 c3_i32_52
  let c3_i32_66 : BitVec 32 := 3#32
  let v99 : BitVec 32 := Scalar.addi v79 c3_i32_66
  let c128_i32_67 : BitVec 32 := 128#32
  let v100 : BitVec 32 := Scalar.muli v99 c128_i32_67
  let v101 : BitVec 32 := v100
  ![v101.toNat]
def k1_mult21 : BitVec 32 :=
  let c25472_i32 : BitVec 32 := 25472#32
  c25472_i32
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := v2
  let c25472_i32 : BitVec 32 := 25472#32
  let v14 : BitVec 32 := c25472_i32
  let v15 : BitVec 32 := Scalar.addi v3 v14
  let c0_i32_9 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bitsLt_bf16_f32 : FTy.bits .bf16 < FTy.bits .f32
  transposes_S128x128_S128x128_1_0 : S128x128.Transposes [1, 0] S128x128
  bcast_S_S128x128 : S_.BroadcastsInDim S128x128 (![] : Fin 0 → Fin S128x128.rank)
  transposes_S128x32_S32x128_1_0 : S128x32.Transposes [1, 0] S32x128
  bcast_S_S32x128 : S_.BroadcastsInDim S32x128 (![] : Fin 0 → Fin S32x128.rank)
  transposes_S128x8_S8x128_1_0 : S128x8.Transposes [1, 0] S8x128
  bcast_S_S8x128 : S_.BroadcastsInDim S8x128 (![] : Fin 0 → Fin S8x128.rank)
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S20000x8_S20000x8_0_0 : ∀ a, (![0, 0] : Fin 2 → Nat) a + S20000x8.size a ≤ S20000x8.size a
  h_S20000x8 : 0 < S20000x8.numel
  shapeCasts_S20000x8_S20000x8 : S20000x8.ShapeCasts S20000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S4096x200_S819200 : S4096x200.ShapeCasts S819200
  inb_S25600_S128_0 : ∀ a, (![0] : Fin 1 → Nat) a + S128.size a ≤ S25600.size a
  inb_S1000000x128_S1000000x128_0_0 : ∀ a, (![0, 0] : Fin 2 → Nat) a + S1000000x128.size a ≤ S1000000x128.size a
  gathers_S1000000x128_S128x128 : S1000000x128.Gathers 0 S128x128
  inb_S25600_S128_128 : ∀ a, (![128] : Fin 1 → Nat) a + S128.size a ≤ S25600.size a
  inb_S25600_S128_256 : ∀ a, (![256] : Fin 1 → Nat) a + S128.size a ≤ S25600.size a
  shapeCasts_S819200x128_S4096x200x128 : S819200x128.ShapeCasts S4096x200x128
  dot_S20000x128_S128x128_S20000x128_1_0_0_1_n_n_wf : DotDims.WF S20000x128 S128x128 S20000x128 [1] [0] [0] [1] [] []
  dot_S20000x32_S32x128_S20000x128_1_0_0_1_n_n_wf : DotDims.WF S20000x32 S32x128 S20000x128 [1] [0] [0] [1] [] []
  dot_S20000x8_S8x128_S20000x128_1_0_0_1_n_n_wf : DotDims.WF S20000x8 S8x128 S20000x128 [1] [0] [0] [1] [] []
  hcc1_scratch5 : 11 + S_.numel ≤ 20
  hcc1_scratch6 : 12 + S_.numel ≤ 20
  hcc1_scratch7 : 13 + S_.numel ≤ 20
  hcc1_scratch8 : 14 + S_.numel ≤ 20
  hcc1_scratch9 : 15 + S_.numel ≤ 20
  hcc1_scratch10 : 16 + S_.numel ≤ 20
  hcc1_scratch11 : 17 + S_.numel ≤ 20
  hcc1_scratch12 : 18 + S_.numel ≤ 20
  hcc1_scoped0 : 19 + S_.numel ≤ 20
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S20000x128.size a
  hwx0_0 : ∀ i : grid0.Coords, EltTy.bits .bf16 = 32 ∨ (Rect.block (s := S20000x128) S20000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x32.size a ≤ S80000x32.size a
  hwx0_1 : ∀ i : grid0.Coords, EltTy.bits .bf16 = 32 ∨ (Rect.block (s := S80000x32) S20000x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x8.size a ≤ S900000x8.size a
  hwx0_2 : ∀ i : grid0.Coords, EltTy.bits .bf16 = 32 ∨ (Rect.block (s := S900000x8) S20000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .bf16 = 32 ∨ (Rect.block (s := S8x128) S8x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S20000x128.size a ≤ S1000000x128.size a
  hwx0_6 : ∀ i : grid0.Coords, EltTy.bits .f32 = 32 ∨ (Rect.block (s := S1000000x128) S20000x128.size (cc0_transform_6 i) (hinb0_6 i)).WholeWords (EltTy.packing .f32)
  hcore1 : grid1.bound 0 ≤ τ.nSC
  hsub1 : grid1.bound 1 ≤ τ.nSub
  k1_mult1_dvd : ∀ i : grid1.Coords, 128 ∣ (k1_mult1 i).toNat
  k1_off1_inb : ∀ i : grid1.Coords, ∀ a, (k1_off1 i) a + S25600.size a ≤ S819200.size a
  k1_mult2_dvd : 128 ∣ k1_mult2.toNat
  k1_mult3_dvd : 128 ∣ k1_mult3.toNat
  k1_mult4_dvd : 128 ∣ k1_mult4.toNat
  k1_t1_ok : k1_t1_loop.OK
  k1_mult5_dvd : ∀ k1_t1 : Fin k1_t1_loop.trips, 128 ∣ (k1_mult5 k1_t1).toNat
  k1_off2_inb : ∀ k1_t1 : Fin k1_t1_loop.trips, ∀ (r : Fin 4), ∀ a, (k1_off2 k1_t1 (BitVec.ofNat 32 r.val)) a + S128.size a ≤ S25600.size a
  k1_mult6_dvd : ∀ k1_t1 : Fin k1_t1_loop.trips, 128 ∣ (k1_mult6 k1_t1).toNat
  k1_off3_inb : ∀ (i : grid1.Coords) (k1_t1 : Fin k1_t1_loop.trips), ∀ (r : Fin 4), ∀ a, (k1_off3 i k1_t1 (BitVec.ofNat 32 r.val)) a + S128x128.size a ≤ S819200x128.size a
  k1_mult7_dvd : ∀ k1_t1 : Fin k1_t1_loop.trips, ∀ (k1_h1 : k1_cond1 k1_t1 = 1#1), 128 ∣ (k1_mult7 k1_t1).toNat
  k1_off4_inb : ∀ (i : grid1.Coords) (k1_t1 : Fin k1_t1_loop.trips), ∀ (k1_h1 : k1_cond1 k1_t1 = 1#1), ∀ a, (k1_off4 i k1_t1) a + S128x128.size a ≤ S819200x128.size a
  k1_mult8_dvd : ∀ k1_t1 : Fin k1_t1_loop.trips, ∀ (k1_h2 : k1_cond2 k1_t1 = 1#1), 128 ∣ (k1_mult8 k1_t1).toNat
  k1_off5_inb : ∀ k1_t1 : Fin k1_t1_loop.trips, ∀ (k1_h2 : k1_cond2 k1_t1 = 1#1), ∀ a, (k1_off5 k1_t1) a + S128.size a ≤ S25600.size a
  k1_mult9_dvd : ∀ k1_t1 : Fin k1_t1_loop.trips, 128 ∣ (k1_mult9 k1_t1).toNat
  k1_mult10_dvd : ∀ k1_t1 : Fin k1_t1_loop.trips, 128 ∣ (k1_mult10 k1_t1).toNat
  k1_mult11_dvd : ∀ k1_t1 : Fin k1_t1_loop.trips, 128 ∣ (k1_mult11 k1_t1).toNat
  k1_off6_inb : ∀ (i : grid1.Coords) (k1_t1 : Fin k1_t1_loop.trips), ∀ (r : Fin 3), ∀ a, (k1_off6 i k1_t1 (BitVec.ofNat 32 (1 + r.val))) a + S128x128.size a ≤ S819200x128.size a
  k1_mult12_dvd : ∀ k1_t1 : Fin k1_t1_loop.trips, ∀ (k1_h3 : k1_cond3 k1_t1 = 1#1), 128 ∣ (k1_mult12 k1_t1).toNat
  k1_off7_inb : ∀ k1_t1 : Fin k1_t1_loop.trips, ∀ (k1_h3 : k1_cond3 k1_t1 = 1#1), ∀ a, (k1_off7 k1_t1) a + S128.size a ≤ S25600.size a
  k1_mult13_dvd : ∀ k1_t1 : Fin k1_t1_loop.trips, 128 ∣ (k1_mult13 k1_t1).toNat
  k1_mult14_dvd : ∀ k1_t1 : Fin k1_t1_loop.trips, 128 ∣ (k1_mult14 k1_t1).toNat
  k1_mult15_dvd : ∀ k1_t1 : Fin k1_t1_loop.trips, 128 ∣ (k1_mult15 k1_t1).toNat
  k1_mult16_dvd : ∀ k1_t1 : Fin k1_t1_loop.trips, ∀ (k1_h4 : k1_cond4 k1_t1 = 1#1), 128 ∣ (k1_mult16 k1_t1).toNat
  k1_off8_inb : ∀ k1_t1 : Fin k1_t1_loop.trips, ∀ (k1_h4 : k1_cond4 k1_t1 = 1#1), ∀ a, (k1_off8 k1_t1) a + S128.size a ≤ S25600.size a
  k1_mult17_dvd : ∀ k1_t1 : Fin k1_t1_loop.trips, 128 ∣ (k1_mult17 k1_t1).toNat
  k1_mult18_dvd : ∀ k1_t1 : Fin k1_t1_loop.trips, 128 ∣ (k1_mult18 k1_t1).toNat
  k1_mult19_dvd : ∀ k1_t1 : Fin k1_t1_loop.trips, 128 ∣ (k1_mult19 k1_t1).toNat
  k1_mult20_dvd : ∀ k1_t1 : Fin k1_t1_loop.trips, ∀ (k1_h5 : k1_cond5 k1_t1 = 1#1), 128 ∣ (k1_mult20 k1_t1).toNat
  k1_off9_inb : ∀ k1_t1 : Fin k1_t1_loop.trips, ∀ (k1_h5 : k1_cond5 k1_t1 = 1#1), ∀ a, (k1_off9 k1_t1) a + S128.size a ≤ S25600.size a
  k1_mult21_dvd : 128 ∣ k1_mult21.toNat
  k1_off10_inb : ∀ i : grid1.Coords, ∀ a, (k1_off10 i) a + S128x128.size a ≤ S819200x128.size a

variable [Facts₀]

abbrev cc1_scratch5 : DmaSems sig S_ := SemArray.consecutive 11 S_ hcc1_scratch5
abbrev cc1_scratch6 : DmaSems sig S_ := SemArray.consecutive 12 S_ hcc1_scratch6
abbrev cc1_scratch7 : DmaSems sig S_ := SemArray.consecutive 13 S_ hcc1_scratch7
abbrev cc1_scratch8 : DmaSems sig S_ := SemArray.consecutive 14 S_ hcc1_scratch8
abbrev cc1_scratch9 : DmaSems sig S_ := SemArray.consecutive 15 S_ hcc1_scratch9
abbrev cc1_scratch10 : DmaSems sig S_ := SemArray.consecutive 16 S_ hcc1_scratch10
abbrev cc1_scratch11 : DmaSems sig S_ := SemArray.consecutive 17 S_ hcc1_scratch11
abbrev cc1_scratch12 : DmaSems sig S_ := SemArray.consecutive 18 S_ hcc1_scratch12
abbrev cc1_scoped0 : DmaSems sig S_ := SemArray.consecutive 19 S_ hcc1_scoped0
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x32_S32x128_S20000x128_1_0_0_1_n_n : DotDims S20000x32 S32x128 S20000x128 where
  lhsContracting := [1]
  rhsContracting := [0]
  lhsNonContracting := [0]
  rhsNonContracting := [1]
  lhsBatch := []
  rhsBatch := []
  wf := dot_S20000x32_S32x128_S20000x128_1_0_0_1_n_n_wf
def dot_S20000x8_S8x128_S20000x128_1_0_0_1_n_n : DotDims S20000x8 S8x128 S20000x128 where
  lhsContracting := [1]
  rhsContracting := [0]
  lhsNonContracting := [0]
  rhsNonContracting := [1]
  lhsBatch := []
  rhsBatch := []
  wf := dot_S20000x8_S8x128_S20000x128_1_0_0_1_n_n_wf

abbrev win0_0 : Pipeline.Window sig grid0 :=
  Pipeline.Window.ofSpec (Memref.whole main_v0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S20000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S20000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S4096x200 : Shape := ⟨2, ![4096, 200]⟩
abbrev S20000x128 : Shape := ⟨2, ![20000, 128]⟩
abbrev S80000x32 : Shape := ⟨2, ![80000, 32]⟩
abbrev S900000x8 : Shape := ⟨2, ![900000, 8]⟩
abbrev S128x128 : Shape := ⟨2, ![128, 128]⟩
abbrev S128x32 : Shape := ⟨2, ![128, 32]⟩
abbrev S128x8 : Shape := ⟨2, ![128, 8]⟩
abbrev S819200 : Shape := ⟨1, ![819200]⟩
abbrev S_ : Shape := ⟨0, ![]⟩
abbrev S819200x128 : Shape := ⟨2, ![819200, 128]⟩
abbrev S819200x1 : Shape := ⟨2, ![819200, 1]⟩
abbrev S1 : Shape := ⟨1, ![1]⟩
abbrev S1x1 : Shape := ⟨2, ![1, 1]⟩
abbrev S819200x32 : Shape := ⟨2, ![819200, 32]⟩
abbrev S32x128 : Shape := ⟨2, ![32, 128]⟩
abbrev S819200x8 : Shape := ⟨2, ![819200, 8]⟩
abbrev S8x128 : Shape := ⟨2, ![8, 128]⟩
abbrev S4096x200x128 : Shape := ⟨3, ![4096, 200, 128]⟩

abbrev nBuf : Space → Nat
  | .hbm => 164
  | .vmem => 0
  | .smem => 0
  | _ => 0

abbrev hbmTy0_0 (i : Nat) : BufTy := match i % 128 with
  | 0 => ⟨S4096x200, .i32⟩
  | 1 => ⟨S20000x128, .f32⟩
  | 2 => ⟨S80000x32, .f32⟩
  | 3 => ⟨S900000x8, .f32⟩
  | 4 => ⟨S128x128, .f32⟩
  | 5 => ⟨S128x32, .f32⟩
  | 6 => ⟨S128x8, .f32⟩
  | 7 => ⟨S819200, .i32⟩
  | 8 => ⟨S_, .f32⟩
  | 9 => ⟨S819200x128, .f32⟩
  | 10 => ⟨S_, .i32⟩
  | 11 => ⟨S819200, .i32⟩
  | 12 => ⟨S819200, .i1⟩
  | 13 => ⟨S_, .i32⟩
  | 14 => ⟨S819200, .i32⟩
  | 15 => ⟨S819200, .i1⟩
  | 16 => ⟨S819200, .i1⟩
  | 17 => ⟨S_, .i32⟩
  | 18 => ⟨S819200, .i32⟩
  | 19 => ⟨S819200, .i32⟩
  | 20 => ⟨S_, .i32⟩
  | 21 => ⟨S_, .i32⟩
  | 22 => ⟨S_, .i32⟩
  | 23 => ⟨S819200, .i32⟩
  | 24 => ⟨S819200, .i32⟩
  | 25 => ⟨S_, .i32⟩
  | 26 => ⟨S819200, .i32⟩
  | 27 => ⟨S819200, .i32⟩
  | 28 => ⟨S_, .i32⟩
  | 29 => ⟨S819200, .i32⟩
  | 30 => ⟨S819200, .i1⟩
  | 31 => ⟨S_, .i32⟩
  | 32 => ⟨S819200, .i32⟩
  | 33 => ⟨S819200, .i32⟩
  | 34 => ⟨S819200, .i32⟩
  | 35 => ⟨S819200x1, .i32⟩
  | 36 => ⟨S1, .i32⟩
  | 37 => ⟨S_, .i32⟩
  | 38 => ⟨S819200x1, .i32⟩
  | 39 => ⟨S819200x1, .i1⟩
  | 40 => ⟨S1x1, .i32⟩
  | 41 => ⟨S819200x1, .i32⟩
  | 42 => ⟨S819200x1, .i1⟩
  | 43 => ⟨S819200x1, .i1⟩
  | 44 => ⟨S_, .i1⟩
  | 45 => ⟨S819200, .i1⟩
  | 46 => ⟨S819200x128, .f32⟩
  | 47 => ⟨S819200x128, .i1⟩
  | 48 => ⟨S_, .f32⟩
  | 49 => ⟨S819200x128, .f32⟩
  | 50 => ⟨S819200x128, .f32⟩
  | 51 => ⟨S128x128, .f32⟩
  | 52 => ⟨S819200x128, .f32⟩
  | 53 => ⟨S819200x1, .i1⟩
  | 54 => ⟨S_, .f32⟩
  | 55 => ⟨S_, .f32⟩
  | 56 => ⟨S819200x128, .i1⟩
  | 57 => ⟨S819200x128, .f32⟩
  | 58 => ⟨S819200x128, .f32⟩
  | 59 => ⟨S819200x128, .f32⟩
  | 60 => ⟨S_, .i32⟩
  | 61 => ⟨S819200, .i32⟩
  | 62 => ⟨S819200, .i1⟩
  | 63 => ⟨S_, .i32⟩
  | 64 => ⟨S819200, .i32⟩
  | 65 => ⟨S819200, .i1⟩
  | 66 => ⟨S819200, .i1⟩
  | 67 => ⟨S_, .i32⟩
  | 68 => ⟨S819200, .i32⟩
  | 69 => ⟨S819200, .i32⟩
  | 70 => ⟨S_, .i32⟩
  | 71 => ⟨S_, .i32⟩
  | 72 => ⟨S_, .i32⟩
  | 73 => ⟨S819200, .i32⟩
  | 74 => ⟨S819200, .i32⟩
  | 75 => ⟨S_, .i32⟩
  | 76 => ⟨S819200, .i32⟩
  | 77 => ⟨S819200, .i32⟩
  | 78 => ⟨S_, .i32⟩
  | 79 => ⟨S819200, .i32⟩
  | 80 => ⟨S819200, .i1⟩
  | 81 => ⟨S_, .i32⟩
  | 82 => ⟨S819200, .i32⟩
  | 83 => ⟨S819200, .i32⟩
  | 84 => ⟨S819200, .i32⟩
  | 85 => ⟨S819200x1, .i32⟩
  | 86 => ⟨S1, .i32⟩
  | 87 => ⟨S_, .i32⟩
  | 88 => ⟨S819200x1, .i32⟩
  | 89 => ⟨S819200x1, .i1⟩
  | 90 => ⟨S1x1, .i32⟩
  | 91 => ⟨S819200x1, .i32⟩
  | 92 => ⟨S819200x1, .i1⟩
  | 93 => ⟨S819200x1, .i1⟩
  | 94 => ⟨S_, .i1⟩
  | 95 => ⟨S819200, .i1⟩
  | 96 => ⟨S819200x32, .f32⟩
  | 97 => ⟨S819200x32, .i1⟩
  | 98 => ⟨S_, .f32⟩
  | 99 => ⟨S819200x32, .f32⟩
  | 100 => ⟨S819200x32, .f32⟩
  | 101 => ⟨S32x128, .f32⟩
  | 102 => ⟨S819200x128, .f32⟩
  | 103 => ⟨S819200x1, .i1⟩
  | 104 => ⟨S_, .f32⟩
  | 105 => ⟨S_, .f32⟩
  | 106 => ⟨S819200x128, .i1⟩
  | 107 => ⟨S819200x128, .f32⟩
  | 108 => ⟨S819200x128, .f32⟩
  | 109 => ⟨S819200x128, .f32⟩
  | 110 => ⟨S_, .i32⟩
  | 111 => ⟨S819200, .i32⟩
  | 112 => ⟨S819200, .i1⟩
  | 113 => ⟨S_, .i32⟩
  | 114 => ⟨S819200, .i32⟩
  | 115 => ⟨S819200, .i1⟩
  | 116 => ⟨S819200, .i1⟩
  | 117 => ⟨S_, .i32⟩
  | 118 => ⟨S819200, .i32⟩
  | 119 => ⟨S819200, .i32⟩
  | 120 => ⟨S_, .i32⟩
  | 121 => ⟨S_, .i32⟩
  | 122 => ⟨S_, .i32⟩
  | 123 => ⟨S819200, .i32⟩
  | 124 => ⟨S819200, .i32⟩
  | 125 => ⟨S_, .i32⟩
  | 126 => ⟨S819200, .i32⟩
  | 127 => ⟨S819200, .i32⟩
  | _ => ⟨S4096x200, .i32⟩

abbrev hbmTy0_1 (i : Nat) : BufTy := match i % 128 with
  | 0 => ⟨S_, .i32⟩
  | 1 => ⟨S819200, .i32⟩
  | 2 => ⟨S819200, .i1⟩
  | 3 => ⟨S_, .i32⟩
  | 4 => ⟨S819200, .i32⟩
  | 5 => ⟨S819200, .i32⟩
  | 6 => ⟨S819200, .i32⟩
  | 7 => ⟨S819200x1, .i32⟩
  | 8 => ⟨S1, .i32⟩
  | 9 => ⟨S_, .i32⟩
  | 10 => ⟨S819200x1, .i32⟩
  | 11 => ⟨S819200x1, .i1⟩
  | 12 => ⟨S1x1, .i32⟩
  | 13 => ⟨S819200x1, .i32⟩
  | 14 => ⟨S819200x1, .i1⟩
  | 15 => ⟨S819200x1, .i1⟩
  | 16 => ⟨S_, .i1⟩
  | 17 => ⟨S819200, .i1⟩
  | 18 => ⟨S819200x8, .f32⟩
  | 19 => ⟨S819200x8, .i1⟩
  | 20 => ⟨S_, .f32⟩
  | 21 => ⟨S819200x8, .f32⟩
  | 22 => ⟨S819200x8, .f32⟩
  | 23 => ⟨S8x128, .f32⟩
  | 24 => ⟨S819200x128, .f32⟩
  | 25 => ⟨S819200x1, .i1⟩
  | 26 => ⟨S_, .f32⟩
  | 27 => ⟨S_, .f32⟩
  | 28 => ⟨S819200x128, .i1⟩
  | 29 => ⟨S819200x128, .f32⟩
  | 30 => ⟨S819200x128, .f32⟩
  | 31 => ⟨S819200x128, .f32⟩
  | 32 => ⟨S4096x200x128, .f32⟩
  | 33 => ⟨S_, .f32⟩
  | 34 => ⟨S4096x200x128, .f32⟩
  | 35 => ⟨S4096x200x128, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v9 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v14 : Ref sig .tc := ⟨.hbm, 58, rfl⟩
abbrev main_v15 : Ref sig .tc := ⟨.hbm, 59, rfl⟩
abbrev main_c_5 : Ref sig .tc := ⟨.hbm, 60, rfl⟩
abbrev main_v16 : Ref sig .tc := ⟨.hbm, 61, rfl⟩
abbrev main_v17 : Ref sig .tc := ⟨.hbm, 62, rfl⟩
abbrev main_c_6 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_c_7 : Ref sig .tc := ⟨.hbm, 67, rfl⟩
abbrev main_v21 : Ref sig .tc := ⟨.hbm, 68, rfl⟩
abbrev main_v22 : Ref sig .tc := ⟨.hbm, 69, rfl⟩
abbrev main_c_8 : Ref sig .tc := ⟨.hbm, 70, rfl⟩
abbrev main_c_9 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v23 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_c_0 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_c_1 : Ref sig .tc := ⟨.hbm, 86, rfl⟩
abbrev main_call4_c_2 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_c_3 : Ref sig .tc := ⟨.hbm, 94, rfl⟩
abbrev main_call4_v12 : Ref sig .tc := ⟨.hbm, 95, rfl⟩
abbrev main_call4_v13 : Ref sig .tc := ⟨.hbm, 96, rfl⟩
abbrev main_call4_v14 : Ref sig .tc := ⟨.hbm, 97, rfl⟩
abbrev main_call4_cst : Ref sig .tc := ⟨.hbm, 98, rfl⟩
abbrev main_call4_v15 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_cst_10 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v28 : Ref sig .tc := ⟨.hbm, 108, rfl⟩
abbrev main_v29 : Ref sig .tc := ⟨.hbm, 109, rfl⟩
abbrev main_c_11 : Ref sig .tc := ⟨.hbm, 110, rfl⟩
abbrev main_v30 : Ref sig .tc := ⟨.hbm, 111, rfl⟩
abbrev main_v31 : Ref sig .tc := ⟨.hbm, 112, rfl⟩
abbrev main_c_12 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_c_13 : Ref sig .tc := ⟨.hbm, 117, rfl⟩
abbrev main_v35 : Ref sig .tc := ⟨.hbm, 118, rfl⟩
abbrev main_v36 : Ref sig .tc := ⟨.hbm, 119, rfl⟩
abbrev main_c_14 : Ref sig .tc := ⟨.hbm, 120, rfl⟩
abbrev main_c_15 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v37 : Ref sig .tc := ⟨.hbm, 127, rfl⟩
abbrev main_call7_c : Ref sig .tc := ⟨.hbm, 128, rfl⟩
abbrev main_call7_v0 : Ref sig .tc := ⟨.hbm, 129, rfl⟩
abbrev main_call7_v1 : Ref sig .tc := ⟨.hbm, 130, rfl⟩
abbrev main_call7_c_0 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_v5 : Ref sig .tc := ⟨.hbm, 135, rfl⟩
abbrev main_call7_c_1 : Ref sig .tc := ⟨.hbm, 136, rfl⟩
abbrev main_call7_c_2 : Ref sig .tc := ⟨.hbm, 137, rfl⟩
abbrev main_call7_v6 : Ref sig .tc := ⟨.hbm, 138, rfl⟩
abbrev main_call7_v7 : Ref sig .tc := ⟨.hbm, 139, rfl⟩
abbrev main_call7_v8 : Ref sig .tc := ⟨.hbm, 140, rfl⟩
abbrev main_call7_v9 : Ref sig .tc := ⟨.hbm, 141, rfl⟩
abbrev main_call7_v10 : Ref sig .tc := ⟨.hbm, 142, rfl⟩
abbrev main_call7_v11 : Ref sig .tc := ⟨.hbm, 143, rfl⟩
abbrev main_call7_c_3 : Ref sig .tc := ⟨.hbm, 144, rfl⟩
abbrev main_call7_v12 : Ref sig .tc := ⟨.hbm, 145, rfl⟩
abbrev main_call7_v13 : Ref sig .tc := ⟨.hbm, 146, rfl⟩
abbrev main_call7_v14 : Ref sig .tc := ⟨.hbm, 147, rfl⟩
abbrev main_call7_cst : Ref sig .tc := ⟨.hbm, 148, rfl⟩
abbrev main_call7_v15 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_cst_16 : Ref sig .tc := ⟨.hbm, 154, rfl⟩
abbrev main_call8_v0 : Ref sig .tc := ⟨.hbm, 155, rfl⟩
abbrev main_call8_v1 : Ref sig .tc := ⟨.hbm, 156, rfl⟩
abbrev main_call8_v2 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_cst_17 : Ref sig .tc := ⟨.hbm, 161, rfl⟩
abbrev main_v45 : Ref sig .tc := ⟨.hbm, 162, rfl⟩
abbrev main_v46 : Ref sig .tc := ⟨.hbm, 163, rfl⟩

abbrev nD : Nat := 1
abbrev τ : Topo := Topo.v7x

variable {F : FTy → Type} [FloatOps F]

class Facts₀ : Prop where
  shapeCasts_S4096x200_S819200 : S4096x200.ShapeCasts S819200
  bcast_S_S819200x128 : S_.BroadcastsInDim S819200x128 (![] : Fin 0 → Fin S819200x128.rank)
  bcast_S_S819200 : S_.BroadcastsInDim S819200 (![] : Fin 0 → Fin S819200.rank)
  bcast_S819200_S819200x1_0 : S819200.BroadcastsInDim S819200x1 (![0] : Fin 1 → Fin S819200x1.rank)
  bcast_S_S819200x1 : S_.BroadcastsInDim S819200x1 (![] : Fin 0 → Fin S819200x1.rank)
  bcast_S1_S1x1_1 : S1.BroadcastsInDim S1x1 (![1] : Fin 1 → Fin S1x1.rank)
  bcast_S1x1_S819200x1_0_1 : S1x1.BroadcastsInDim S819200x1 (![0, 1] : Fin 2 → Fin S819200x1.rank)
  reducesTo_S819200x1_S819200_d1 : S819200x1.ReducesTo [1] S819200
  h_S_ : 0 < S_.numel
  bcast_S819200_S819200x128_0 : S819200.BroadcastsInDim S819200x128 (![0] : Fin 1 → Fin S819200x128.rank)
  transposes_S128x128_S128x128_1_0 : S128x128.Transposes [1, 0] S128x128
  bcast_S819200x1_S819200x128_0_1 : S819200x1.BroadcastsInDim S819200x128 (![0, 1] : Fin 2 → Fin S819200x128.rank)
  bcast_S819200_S819200x32_0 : S819200.BroadcastsInDim S819200x32 (![0] : Fin 1 → Fin S819200x32.rank)
  bcast_S_S819200x32 : S_.BroadcastsInDim S819200x32 (![] : Fin 0 → Fin S819200x32.rank)
  transposes_S128x32_S32x128_1_0 : S128x32.Transposes [1, 0] S32x128
  bcast_S819200_S819200x8_0 : S819200.BroadcastsInDim S819200x8 (![0] : Fin 1 → Fin S819200x8.rank)
  bcast_S_S819200x8 : S_.BroadcastsInDim S819200x8 (![] : Fin 0 → Fin S819200x8.rank)
  transposes_S128x8_S8x128_1_0 : S128x8.Transposes [1, 0] S8x128
  shapeCasts_S819200x128_S4096x200x128 : S819200x128.ShapeCasts S4096x200x128
  bcast_S_S4096x200x128 : S_.BroadcastsInDim S4096x200x128 (![] : Fin 0 → Fin S4096x200x128.rank)
  gather_S20000x128_S819200x1_S819200x128_1_0_n_n_0_1_1128_wf : GatherDims.WF S20000x128 S819200x1 S819200x128 [1] [0] [] [0] [] 1 ![1, 128]
  dot_S819200x128_S128x128_S819200x128_1_0_0_1_n_n_wf : DotDims.WF S819200x128 S128x128 S819200x128 [1] [0] [0] [1] [] []
  gather_S80000x32_S819200x1_S819200x32_1_0_n_n_0_1_132_wf : GatherDims.WF S80000x32 S819200x1 S819200x32 [1] [0] [] [0] [] 1 ![1, 32]
  dot_S819200x32_S32x128_S819200x128_1_0_0_1_n_n_wf : DotDims.WF S819200x32 S32x128 S819200x128 [1] [0] [0] [1] [] []
  gather_S900000x8_S819200x1_S819200x8_1_0_n_n_0_1_18_wf : GatherDims.WF S900000x8 S819200x1 S819200x8 [1] [0] [] [0] [] 1 ![1, 8]
  dot_S819200x8_S8x128_S819200x128_1_0_0_1_n_n_wf : DotDims.WF S819200x8 S8x128 S819200x128 [1] [0] [0] [1] [] []

variable [Facts₀]

def gather_S20000x128_S819200x1_S819200x128_1_0_n_n_0_1_1128 : GatherDims S20000x128 S819200x1 S819200x128 where
  offsetDims := [1]
  collapsedSliceDims := [0]
  operandBatchingDims := []
  startIndicesBatchingDims := []
  startIndexMap := [0]
  indexVectorDim := 1
  sliceSizes := ![1, 128]
  wf := gather_S20000x128_S819200x1_S819200x128_1_0_n_n_0_1_1128_wf
def dot_S819200x128_S128x128_S819200x128_1_0_0_1_n_n : DotDims S819200x128 S128x128 S819200x128 where
  lhsContracting := [1]
  rhsContracting := [0]
  lhsNonContracting := [0]
  rhsNonContracting := [1]
  lhsBatch := []
  rhsBatch := []
  wf := dot_S819200x128_S128x128_S819200x128_1_0_0_1_n_n_wf
def gather_S80000x32_S819200x1_S819200x32_1_0_n_n_0_1_132 : GatherDims S80000x32 S819200x1 S819200x32 where
  offsetDims := [1]
  collapsedSliceDims := [0]
  operandBatchingDims := []
  startIndicesBatchingDims := []
  startIndexMap := [0]
  indexVectorDim := 1
  sliceSizes := ![1, 32]
  wf := gather_S80000x32_S819200x1_S819200x32_1_0_n_n_0_1_132_wf
def dot_S819200x32_S32x128_S819200x128_1_0_0_1_n_n : DotDims S819200x32 S32x128 S819200x128 where
  lhsContracting := [1]
  rhsContracting := [0]
  lhsNonContracting := [0]
  rhsNonContracting := [1]
  lhsBatch := []
  rhsBatch := []
  wf := dot_S819200x32_S32x128_S819200x128_1_0_0_1_n_n_wf
def gather_S900000x8_S819200x1_S819200x8_1_0_n_n_0_1_18 : GatherDims S900000x8 S819200x1 S819200x8 where
  offsetDims := [1]
  collapsedSliceDims := [0]
  operandBatchingDims := []
  startIndicesBatchingDims := []
  startIndexMap := [0]
  indexVectorDim := 1
  sliceSizes := ![1, 8]
  wf := gather_S900000x8_S819200x1_S819200x8_1_0_n_n_0_1_18_wf
def dot_S819200x8_S8x128_S819200x128_1_0_0_1_n_n : DotDims S819200x8 S8x128 S819200x128 where
  lhsContracting := [1]
  rhsContracting := [0]
  lhsNonContracting := [0]
  rhsNonContracting := [1]
  lhsBatch := []
  rhsBatch := []
  wf := dot_S819200x8_S8x128_S819200x128_1_0_0_1_n_n_wf

class Facts : Prop extends Facts₀ where

variable [Facts]
-- ==== Proof.KernelHand.Common.lean ====
/-
  What every hand module about the idealized kernel shares: the program as the SparseCore launch theorem sees it
  (its configuration, body table and variants), the ghost algebra — the launch handshakes' rounds, the TensorCore
  pipeline's staging cells' rounds, and the counters of the tiles' own copies —, and the three arrays the
  SparseCore call works on: the flattened ids, the table the TensorCore call built, and the gathered rows.
-/
import proofs.«202745_g55851754717770_cont_9to1_m_910_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«202745_g55851754717770_cont_9to1_m_910_12_alg».proof.Proof.Gen.Kernel
import proofs.«202745_g55851754717770_cont_9to1_m_910_12_alg».proof.Proof.Gen.Kernel.Skeleton
import proofs.«202745_g55851754717770_cont_9to1_m_910_12_alg».proof.Proof.Gen.Kernel.Launch
import proofs.«202745_g55851754717770_cont_9to1_m_910_12_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI Idealize.SL.Sem
open scoped Idealize.SL.BI
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost algebra -/

/-- The launch handshakes' rounds. -/
abbrev UH : Type := URounds (GSem nD τ sig) ℕ
/-- The TensorCore pipeline's staging cells' rounds. -/
abbrev UR : Type := URounds (GSem nD τ sig) Unit
/-- Both, beside the counters of the tiles' own copies (found by instance). -/
abbrev UU : Type := UH × (UR × Counters)

/-- The handshakes' component. -/
def EH : Emb UH (MT nD τ sig (HIx 1) (Elt F) ℕ UU ℕ) := embL
/-- The staging cells' component. -/
def ER : Emb UR (MT nD τ sig (HIx 1) (Elt F) ℕ UU ℕ) := (Emb.inl : Emb UR (UR × Counters)).trans embR

instance EH_landsIn : (EH : Emb UH (MT nD τ sig (HIx 1) (Elt F) ℕ UU ℕ)).LandsIn (upEmb : UEmb _ (MT nD τ sig (HIx 1) (Elt F) ℕ UU ℕ)) := by
  unfold EH; infer_instance
instance ER_landsIn : (ER : Emb UR (MT nD τ sig (HIx 1) (Elt F) ℕ UU ℕ)).LandsIn (upEmb : UEmb _ (MT nD τ sig (HIx 1) (Elt F) ℕ UU ℕ)) := by
  unfold ER embR; infer_instance

example : CountersIn UU := inferInstance

/-! ## The arrays of the SparseCore call -/

/-- The flattened ids, the table and the gathered rows, as locations of device `d`. -/
abbrev idsLoc (d : Dev nD) : Loc nD τ sig := (SparseCore.T d).loc main_v16
abbrev tblLoc (d : Dev nD) : Loc nD τ sig := (SparseCore.T d).loc main_v15
abbrev outLoc (d : Dev nD) : Loc nD τ sig := (SparseCore.T d).loc main_v17

/-- The same arrays as a tile's memrefs name them. -/
abbrev idsV : Memref sig .scVector .hbm S819200 .i32 := Memref.whole main_v16_scv
abbrev tblV : Memref sig .scVector .hbm S1000000x128 .f32 := Memref.whole main_v15_scv
abbrev outV : Memref sig .scVector .hbm S819200x128 .f32 := Memref.whole main_v17_scv

/-- A tile's place in the grid, and its number: twice the subcore plus the core. -/
abbrev cV (L : grid1.Coords) : Fin τ.nSC := (L 0).castLE hcore1
abbrev jV (L : grid1.Coords) : Fin τ.nSub := (L 1).castLE hsub1
def wid (L : grid1.Coords) : ℕ := 2 * (L 1).val + (L 0).val

def coordsV (c : Fin (grid1.bound 0)) (s : Fin (grid1.bound 1)) : grid1.Coords :=
  fun | 0 => c | 1 => s | ⟨_ + 2, h⟩ => absurd h (Nat.not_lt.2 (Nat.le_add_left _ _))

/-- Tile number `w`'s 25600 ids, and its 25600 rows of the result. -/
def idsSet (w : ℕ) : Finset S819200.Idx := Finset.univ.filter fun r => w * 25600 ≤ (r 0).val ∧ (r 0).val < (w + 1) * 25600
def outSet (w : ℕ) : Finset S819200x128.Idx := Finset.univ.filter fun r => w * 25600 ≤ (r 0).val ∧ (r 0).val < (w + 1) * 25600

/-- What the SparseCore call leaves in the result: row `r` is row `ids r` of the table (a row the ids name; rows
    beyond the table are never asked for under the precondition, and read as row 0 here). -/
def gatherOf (tbl : S1000000x128.Idx → Elt F .f32) (ids : S819200.Idx → BitVec 32) : S819200x128.Idx → Elt F .f32 :=
  fun i => tbl (ValueIdx.ix2 (if h : (ids (ValueIdx.ix1 (i 0))).toNat < 1000000 then ⟨(ids (ValueIdx.ix1 (i 0))).toNat, h⟩ else ⟨0, by decide⟩) (i 1))

end Cert.Kernel.Hand

end
-- ==== Proof.KernelHand.Stmts.lean ====
/-
  The statement of one tile's task, as a proposition: a tile of the SparseCore call, at any place of the grid, from its
  own 25600 ids, a read share of the whole table and its own 25600 rows of the result, runs to the end and leaves in
  those rows, row by row, the table's rows its ids name. The launch is proved from this proposition; the tile's body
  proves it.
-/
import proofs.«202745_g55851754717770_cont_9to1_m_910_12_alg».proof.Proof.KernelHand.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- What a tile is handed, with the result's rows at `f`. -/
def tileRes (d : Dev nD) (w : ℕ) (q : PosShare TreeShare) (ids : Buf (Elt F) (idsLoc d)) (tbl : Buf (Elt F) (tblLoc d))
    (f : Buf (Elt F) (outLoc d)) : sProp 𝕄 :=
  iprop((idsLoc d ↦[idsSet w]{fullShare} ids) ∗ (tblLoc d ↦{q} tbl) ∗ (outLoc d ↦[outSet w]{fullShare} f))

/-- One tile's task. -/
def TileBodyStmt : Prop :=
  ∀ (hF : (K (F := F)).Facts) (d : Dev nD) (L : grid1.Coords)
    (ids : Buf (Elt F) (idsLoc d)) (tbl : Buf (Elt F) (tblLoc d)) (f0 : Buf (Elt F) (outLoc d)) (q : PosShare TreeShare)
    (hin : ∀ r ∈ idsSet (wid L), (ids r : BitVec 32).toNat < 1000000)
    (O : CellTallies nD τ sig (HIx 1)) (W : Waits sig (HIx 1)) (hO : ∀ g, O g none = 0),
    iprop(levAts (K (F := F)).L (K (F := F)).lev ∗ tileRes d (wid L) q ids tbl f0
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0)
          (fun _ => iprop(tileRes d (wid L) q ids tbl (gatherOf tbl ids)
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄)

end Cert.Kernel.Hand

end
-- ==== Proof.KernelHand.Launch.lean ====
/-
  The SparseCore call as the launch theorem wants it stated: what the call hands each SparseCore and each tile and what
  comes back. A SparseCore's share: the ids and the result rows of its sixteen tiles (tile number 2·i + c for subcore i
  of SparseCore c) and a read share of the whole table; a tile's: its own ids and rows and a read share split off its
  SparseCore's. The result rows come back at the gathered rows.
-/
import proofs.«202745_g55851754717770_cont_9to1_m_910_12_alg».proof.Proof.KernelHand.Stmts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

variable (ids : (d : Dev nD) → Buf (Elt F) (idsLoc d)) (tbl : (d : Dev nD) → Buf (Elt F) (tblLoc d)) (f0 : (d : Dev nD) → Buf (Elt F) (outLoc d))

/-- The read share of the table SparseCore `c` is handed, and tile `i`'s of it. -/
abbrev qC (c : ℕ) : PosShare TreeShare := shareTokN fullShare c
abbrev qT (c i : ℕ) : PosShare TreeShare := shareTokN (qC c) i

/-- Tile number `w`'s ids and its rows of the result at `f`. -/
def tileIO (d : Dev nD) (w : ℕ) (f : Buf (Elt F) (outLoc d)) : sProp 𝕄 :=
  iprop((idsLoc d ↦[idsSet w]{fullShare} ids d) ∗ (outLoc d ↦[outSet w]{fullShare} f))

omit [FloatOps F] in
theorem tileRes_iff (d : Dev nD) (w : ℕ) (q : PosShare TreeShare) (f : Buf (Elt F) (outLoc d)) :
    (tileRes d w q (ids d) (tbl d) f : sProp 𝕄) ⊣⊢ iprop(tileIO ids d w f ∗ (tblLoc d ↦{q} tbl d)) := by
  unfold tileRes tileIO
  constructor
  · iintro ⟨Hi, Ht, Ho⟩
    isplitl [Hi Ho]
    · isplitl [Hi] <;> iassumption
    · iexact Ht
  · iintro ⟨⟨Hi, Ho⟩, Ht⟩
    isplitl [Hi]; · iexact Hi
    isplitl [Ht] <;> iassumption

/-- The call's payloads. -/
def P : (K (F := F)).Pay (nD := nD) (Val := Elt F) (Name := ℕ) (U := UU) where
  st := fun _ d c => iprop((bigSep Finset.univ fun i : Fin 16 => tileIO ids d (2 * i.val + c.val) (f0 d)) ∗ (tblLoc d ↦{qC c.val} tbl d))
  dn := fun _ d c => iprop((bigSep Finset.univ fun i : Fin 16 => tileIO ids d (2 * i.val + c.val) (gatherOf (tbl d) (ids d))) ∗ (tblLoc d ↦{qC c.val} tbl d))
  go := fun _ d c i => tileRes d (2 * i.val + c.val) (qT c.val i.val) (ids d) (tbl d) (f0 d)
  td := fun _ d c i => tileRes d (2 * i.val + c.val) (qT c.val i.val) (ids d) (tbl d) (gatherOf (tbl d) (ids d))
  x := fun _ _ => iprop(emp)

instance P_storable : (P (F := F) ids tbl f0).IsStorable where
  st _ d c := by unfold P tileIO; infer_instance
  dn _ d c := by unfold P tileIO; infer_instance
  go _ _ _ _ := by unfold P tileRes; infer_instance
  td _ _ _ _ := by unfold P tileRes; infer_instance

/-! ## A SparseCore's operands split among its tiles -/

omit [FloatOps F] in
theorem bigSep_tiles (Φ : ℕ → sProp 𝕄) :
    (bigSep Finset.univ fun i : Fin ((K (F := F)).nSub 0) => Φ i.val) = bigSep Finset.univ fun i : Fin 16 => Φ i.val := rfl

theorem vecSplit : (K (F := F)).VecSplit' (P ids tbl f0) 0 := by
  intro d c
  show iprop((bigSep Finset.univ fun i : Fin 16 => tileIO ids d (2 * i.val + c.val) (f0 d)) ∗ (tblLoc d ↦{qC c.val} tbl d)) ⊢ |={Set.univ}=> iprop(
      (bigSep Finset.univ fun i : Fin ((K (F := F)).nSub 0) => tileRes d (2 * i.val + c.val) (qT c.val i.val) (ids d) (tbl d) (f0 d))
      ∗ ((bigSep Finset.univ fun i : Fin ((K (F := F)).nSub 0) => tileRes d (2 * i.val + c.val) (qT c.val i.val) (ids d) (tbl d) (gatherOf (tbl d) (ids d)))
          -∗ iprop((bigSep Finset.univ fun i : Fin 16 => tileIO ids d (2 * i.val + c.val) (gatherOf (tbl d) (ids d))) ∗ (tblLoc d ↦{qC c.val} tbl d))))
  rw [bigSep_tiles (F := F) (fun i => tileRes d (2 * i + c.val) (qT c.val i) (ids d) (tbl d) (f0 d)),
    bigSep_tiles (F := F) (fun i => tileRes d (2 * i + c.val) (qT c.val i) (ids d) (tbl d) (gatherOf (tbl d) (ids d)))]
  have e1 : ∀ f : Buf (Elt F) (outLoc d), (bigSep Finset.univ fun i : Fin 16 => (tileRes d (2 * i.val + c.val) (qT c.val i.val) (ids d) (tbl d) f : sProp 𝕄))
      ⊣⊢ iprop((bigSep Finset.univ fun i : Fin 16 => tileIO ids d (2 * i.val + c.val) f) ∗ bigSep Finset.univ fun i : Fin 16 => (tblLoc d ↦{shareTok (qC c.val) 16 i} tbl d)) := by
    intro f
    rw [← bigSep_sep']
    exact ⟨bigSep_mono fun i _ => (tileRes_iff ids tbl d _ _ f).1, bigSep_mono fun i _ => (tileRes_iff ids tbl d _ _ f).2⟩
  iintro ⟨Hio, Ht⟩
  ihave H := (pointsTo_toks (qC c.val) 16).1 $$ Ht
  icases H with ⟨Hrem, Htoks⟩
  imodintro
  isplitl [Hio Htoks]
  · iapply (e1 (f0 d)).2
    isplitl [Hio] <;> iassumption
  iintro Htd
  ihave H := (e1 (gatherOf (tbl d) (ids d))).1 $$ Htd
  icases H with ⟨Hio, Htoks⟩
  isplitl [Hio]; · iexact Hio
  iapply (pointsTo_toks (qC c.val) 16).2
  isplitl [Hrem] <;> iassumption

/-! ## The tile obligation, from one tile's task -/

theorem defs₀_vector (c : Fin τ.nSC) (s : Fin τ.nSub) :
    defs₀ (F := F) (.scVector c s) 1 ()
      = SparseCore.onTile hcore1 hsub1 (fun c s => cc1__sc_gather (coordsV c s)
          idsV (Memref.isWhole_whole _) tblV (Memref.isWhole_whole _) outV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _)
          cc1_scratch5 cc1_scratch6 cc1_scratch7 cc1_scratch8 cc1_scratch9 cc1_scratch10 cc1_scratch11 cc1_scratch12 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, for the launch theorem: the body table's row is the kernel function at the tile's place, and
    the tile's number there is twice its subcore plus its SparseCore. -/
theorem tileObl (htb : TileBodyStmt (F := F)) (hin : ∀ (d : Dev nD) (r : S819200.Idx), (ids d r : BitVec 32).toNat < 1000000) :
    (K (F := F)).TileObl (D (F := F)) 𝒱 (P ids tbl f0) v₀ 0 := by
  intro d c i O W hO _ _
  simp only [show (P ids tbl f0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hpre : ∀ (A X B C E : sProp 𝕄), iprop(A ∗ X ∗ B ∗ C ∗ E) ⊢ iprop(A ∗ B ∗ C ∗ E) := by
    intro A X B C E
    iintro ⟨HA, -, HB, HC⟩
    isplitl [HA]; · iexact HA
    isplitl [HB]; · iexact HB
    iexact HC
  exact (hpre _ _ _ _ _).trans ((htb facts d (coordsV ⟨_, hc.1⟩ ⟨_, hc.2⟩) (ids d) (tbl d) (f0 d) (qT c.val i.val) (fun r _ => hin d r) O W hO).trans
    (wp_mono frame _ _ fun _ => obl_post))

end Cert.Kernel.Hand

end
-- ==== Proof.KernelHand.Rows.lean ====
/-
  The 819200 ids, and the 819200 rows of the result, fall into the 32 tiles' stretches of 25600: tile number
  2·i + c (subcore i of SparseCore c) owns rows (2·i + c)·25600 … (2·i + c + 1)·25600 − 1. The stretches are pairwise
  disjoint and cover everything, so an array held whole is the 32 stretches held one by one, at the same contents.
-/
import proofs.«202745_g55851754717770_cont_9to1_m_910_12_alg».proof.Proof.KernelHand.Common

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A tile's number from its SparseCore and subcore. -/
abbrev widOf (a : Fin 2 × Fin 16) : ℕ := 2 * a.2.val + a.1.val

theorem widOf_inj {a b : Fin 2 × Fin 16} (h : widOf a = widOf b) : a = b := by
  obtain ⟨⟨c, hc⟩, ⟨i, hi⟩⟩ := a; obtain ⟨⟨c', hc'⟩, ⟨i', hi'⟩⟩ := b
  simp only [widOf] at h
  have h1 : c = c' := by omega
  have h2 : i = i' := by omega
  subst h1; subst h2; rfl

theorem idsSets_disjoint : ∀ a ∈ (Finset.univ : Finset (Fin 2 × Fin 16)), ∀ b ∈ (Finset.univ : Finset (Fin 2 × Fin 16)), a ≠ b →
    Disjoint (idsSet (widOf a)) (idsSet (widOf b)) := by
  intro a _ b _ hab
  have hne : widOf a ≠ widOf b := fun h => hab (widOf_inj h)
  refine Finset.disjoint_left.mpr fun r h1 h2 => ?_
  have h1' := (Finset.mem_filter.mp h1).2
  have h2' := (Finset.mem_filter.mp h2).2
  rcases Nat.lt_or_gt_of_ne hne with h | h
  · have : (widOf a + 1) * 25600 ≤ widOf b * 25600 := Nat.mul_le_mul_right _ h
    omega
  · have : (widOf b + 1) * 25600 ≤ widOf a * 25600 := Nat.mul_le_mul_right _ h
    omega

theorem outSets_disjoint : ∀ a ∈ (Finset.univ : Finset (Fin 2 × Fin 16)), ∀ b ∈ (Finset.univ : Finset (Fin 2 × Fin 16)), a ≠ b →
    Disjoint (outSet (widOf a)) (outSet (widOf b)) := by
  intro a _ b _ hab
  have hne : widOf a ≠ widOf b := fun h => hab (widOf_inj h)
  refine Finset.disjoint_left.mpr fun r h1 h2 => ?_
  have h1' := (Finset.mem_filter.mp h1).2
  have h2' := (Finset.mem_filter.mp h2).2
  rcases Nat.lt_or_gt_of_ne hne with h | h
  · have : (widOf a + 1) * 25600 ≤ widOf b * 25600 := Nat.mul_le_mul_right _ h
    omega
  · have : (widOf b + 1) * 25600 ≤ widOf a * 25600 := Nat.mul_le_mul_right _ h
    omega

/-- The tile that owns row `n`. -/
theorem owner_exists (n : ℕ) (hn : n < 819200) : ∃ a : Fin 2 × Fin 16, widOf a * 25600 ≤ n ∧ n < (widOf a + 1) * 25600 := by
  have hw : n / 25600 < 32 := by omega
  refine ⟨(⟨(n / 25600) % 2, Nat.mod_lt _ (by decide)⟩, ⟨(n / 25600) / 2, by omega⟩), ?_⟩
  have e : 2 * ((n / 25600) / 2) + (n / 25600) % 2 = n / 25600 := by omega
  show (2 * ((n / 25600) / 2) + (n / 25600) % 2) * 25600 ≤ n ∧ n < (2 * ((n / 25600) / 2) + (n / 25600) % 2 + 1) * 25600
  rw [e]
  constructor
  · exact Nat.div_mul_le_self n 25600
  · have := Nat.lt_div_mul_add (a := n) (b := 25600) (by decide)
    rw [Nat.add_mul, Nat.one_mul]; omega

theorem idsSets_cover : (Finset.univ : Finset (Fin 2 × Fin 16)).biUnion (fun a => idsSet (widOf a)) = Finset.univ := by
  refine Finset.eq_univ_iff_forall.mpr fun r => ?_
  obtain ⟨a, ha⟩ := owner_exists (r 0).val (r 0).isLt
  exact Finset.mem_biUnion.mpr ⟨a, Finset.mem_univ _, Finset.mem_filter.mpr ⟨Finset.mem_univ _, ha⟩⟩

theorem outSets_cover : (Finset.univ : Finset (Fin 2 × Fin 16)).biUnion (fun a => outSet (widOf a)) = Finset.univ := by
  refine Finset.eq_univ_iff_forall.mpr fun r => ?_
  obtain ⟨a, ha⟩ := owner_exists (r 0).val (r 0).isLt
  exact Finset.mem_biUnion.mpr ⟨a, Finset.mem_univ _, Finset.mem_filter.mpr ⟨Finset.mem_univ _, ha⟩⟩

/-- The ids held whole are the 32 stretches, SparseCore by SparseCore and tile by tile. -/
theorem ids_split (d : Dev nD) (f : Buf (Elt F) (idsLoc d)) :
    (idsLoc d ↦{fullShare} f : sProp 𝕄)
      = bigSep Finset.univ fun c : Fin 2 => bigSep Finset.univ fun i : Fin 16 => (idsLoc d ↦[idsSet (2 * i.val + c.val)]{fullShare} f : sProp 𝕄) := by
  rw [← bigSep_univ_prod (fun a : Fin 2 × Fin 16 => (idsLoc d ↦[idsSet (widOf a)]{fullShare} f : sProp 𝕄)),
    ← pointsTo_biUnion Finset.univ (ℓ := idsLoc d) (fun a => idsSet (widOf a)) idsSets_disjoint, idsSets_cover]

/-- The result's rows held whole are the 32 stretches. -/
theorem out_split (d : Dev nD) (f : Buf (Elt F) (outLoc d)) :
    (outLoc d ↦{fullShare} f : sProp 𝕄)
      = bigSep Finset.univ fun c : Fin 2 => bigSep Finset.univ fun i : Fin 16 => (outLoc d ↦[outSet (2 * i.val + c.val)]{fullShare} f : sProp 𝕄) := by
  rw [← bigSep_univ_prod (fun a : Fin 2 × Fin 16 => (outLoc d ↦[outSet (widOf a)]{fullShare} f : sProp 𝕄)),
    ← pointsTo_biUnion Finset.univ (ℓ := outLoc d) (fun a => outSet (widOf a)) outSets_disjoint, outSets_cover]

end Cert.Kernel.Hand

end
-- ==== Proof.KernelHand.Vals.lean ====
/-
  @main of the idealized kernel as its host operations around the two calls: the eighteen operations before the
  TensorCore call (the three tables cast, the three projections transposed, scaled and cast), the reshape of the ids
  before the SparseCore call, the reshape of the gathered rows after it; and the contents of the TensorCore's arrays
  after each stretch, as pure functions of the launch memory.
-/
import proofs.«202745_g55851754717770_cont_9to1_m_910_12_alg».proof.Proof.KernelHand.Common
import Idealize.ShloMosaic.Lib.Pipeline.Frame

noncomputable section

namespace Cert.Kernel.Hand

open Cert.Kernel Cert.Kernel.Gen

open Idealize.ShloMosaic Idealize.ShloMosaic.StableHlo
open Idealize.ShloMosaic.SparseCore (S V T)
open Idealize.SL.Sem

variable {F : FTy → Type} [FloatOps F]

/-- The operations before the TensorCore call. -/
abbrev opsA : List (HloOp τ sig (Elt F)) :=
  [ unary main_arg1 main_v0 ((truncf .bf16 · bitsLt_bf16_f32) : (⟨S20000x128, .f32⟩ : BufTy).Contents (Elt F) → (⟨S20000x128, .bf16⟩ : BufTy).Contents (Elt F)),
    unary main_arg2 main_v1 ((truncf .bf16 · bitsLt_bf16_f32) : (⟨S80000x32, .f32⟩ : BufTy).Contents (Elt F) → (⟨S80000x32, .bf16⟩ : BufTy).Contents (Elt F)),
    unary main_arg3 main_v2 ((truncf .bf16 · bitsLt_bf16_f32) : (⟨S900000x8, .f32⟩ : BufTy).Contents (Elt F) → (⟨S900000x8, .bf16⟩ : BufTy).Contents (Elt F)),
    unary main_arg4 main_v3 ((transpose S128x128 [1, 0] · transposes_S128x128_S128x128_1_0) : (⟨S128x128, .f32⟩ : BufTy).Contents (Elt F) → (⟨S128x128, .f32⟩ : BufTy).Contents (Elt F)),
    nullary main_cst (constant S_ .f32 0x413504F3#32),
    unary main_cst main_v4 (broadcastInDim S128x128 ![] bcast_S_S128x128 : (⟨S_, .f32⟩ : BufTy).Contents (Elt F) → (⟨S128x128, .f32⟩ : BufTy).Contents (Elt F)),
    binary main_v3 main_v4 main_v5 (mulf : (⟨S128x128, .f32⟩ : BufTy).Contents (Elt F) → (⟨S128x128, .f32⟩ : BufTy).Contents (Elt F) → (⟨S128x128, .f32⟩ : BufTy).Contents (Elt F)),
    unary main_v5 main_v6 ((truncf .bf16 · bitsLt_bf16_f32) : (⟨S128x128, .f32⟩ : BufTy).Contents (Elt F) → (⟨S128x128, .bf16⟩ : BufTy).Contents (Elt F)),
    unary main_arg5 main_v7 ((transpose S32x128 [1, 0] · transposes_S128x32_S32x128_1_0) : (⟨S128x32, .f32⟩ : BufTy).Contents (Elt F) → (⟨S32x128, .f32⟩ : BufTy).Contents (Elt F)),
    nullary main_cst_0 (constant S_ .f32 0x413504F3#32),
    unary main_cst_0 main_v8 (broadcastInDim S32x128 ![] bcast_S_S32x128 : (⟨S_, .f32⟩ : BufTy).Contents (Elt F) → (⟨S32x128, .f32⟩ : BufTy).Contents (Elt F)),
    binary main_v7 main_v8 main_v9 (mulf : (⟨S32x128, .f32⟩ : BufTy).Contents (Elt F) → (⟨S32x128, .f32⟩ : BufTy).Contents (Elt F) → (⟨S32x128, .f32⟩ : BufTy).Contents (Elt F)),
    unary main_v9 main_v10 ((truncf .bf16 · bitsLt_bf16_f32) : (⟨S32x128, .f32⟩ : BufTy).Contents (Elt F) → (⟨S32x128, .bf16⟩ : BufTy).Contents (Elt F)),
    unary main_arg6 main_v11 ((transpose S8x128 [1, 0] · transposes_S128x8_S8x128_1_0) : (⟨S128x8, .f32⟩ : BufTy).Contents (Elt F) → (⟨S8x128, .f32⟩ : BufTy).Contents (Elt F)),
    nullary main_cst_1 (constant S_ .f32 0x413504F3#32),
    unary main_cst_1 main_v12 (broadcastInDim S8x128 ![] bcast_S_S8x128 : (⟨S_, .f32⟩ : BufTy).Contents (Elt F) → (⟨S8x128, .f32⟩ : BufTy).Contents (Elt F)),
    binary main_v11 main_v12 main_v13 (mulf : (⟨S8x128, .f32⟩ : BufTy).Contents (Elt F) → (⟨S8x128, .f32⟩ : BufTy).Contents (Elt F) → (⟨S8x128, .f32⟩ : BufTy).Contents (Elt F)),
    unary main_v13 main_v14 ((truncf .bf16 · bitsLt_bf16_f32) : (⟨S8x128, .f32⟩ : BufTy).Contents (Elt F) → (⟨S8x128, .bf16⟩ : BufTy).Contents (Elt F)) ]

/-- The reshape of the ids, between the two calls. -/
abbrev opsB : List (HloOp τ sig (Elt F)) := [ StableHlo.reshape main_arg0 main_v16 rfl shapeCasts_S4096x200_S819200 ]

/-- The reshape of the gathered rows, after the SparseCore call. -/
abbrev opsC : List (HloOp τ sig (Elt F)) := [ StableHlo.reshape main_v17 main_v18 rfl shapeCasts_S819200x128_S4096x200x128 ]

theorem main_eq (d : Dev nD) :
    main (F := F) d = (seq opsA >>= fun _ => (Prog.lift (.customCall (SparseCore.inner (Pipeline.entry 0)) ()) >>= fun _ =>
      (seq opsB >>= fun _ => ((sc (F := F)).run d 0 >>= fun _ => (seq opsC >>= fun _ => pure ⟨⟩))))) := rfl

/-! ## The three stretches run within the TensorCore's unscoped arrays -/

theorem opsA_sub : ∀ op ∈ (opsA : List (HloOp τ sig (Elt F))), op.bufs ⊆ Pipeline.ucRefs τ sig :=
  List.forall_iff_forall_mem.mp (show (opsA : List (HloOp τ sig (Elt F))).Forall fun op => op.bufs ⊆ Pipeline.ucRefs τ sig from
    ⟨Pipeline.sub_ucRefs _ (unary_bufs_sub ..), Pipeline.sub_ucRefs _ (unary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..)⟩)
theorem opsB_sub : ∀ op ∈ (opsB : List (HloOp τ sig (Elt F))), op.bufs ⊆ Pipeline.ucRefs τ sig :=
  List.forall_iff_forall_mem.mp (show (opsB : List (HloOp τ sig (Elt F))).Forall fun op => op.bufs ⊆ Pipeline.ucRefs τ sig from
    Pipeline.sub_ucRefs _ (reshape_bufs_sub ..))
theorem opsC_sub : ∀ op ∈ (opsC : List (HloOp τ sig (Elt F))), op.bufs ⊆ Pipeline.ucRefs τ sig :=
  List.forall_iff_forall_mem.mp (show (opsC : List (HloOp τ sig (Elt F))).Forall fun op => op.bufs ⊆ Pipeline.ucRefs τ sig from
    Pipeline.sub_ucRefs _ (reshape_bufs_sub ..))

theorem opsA_fresh : ∀ op ∈ (opsA : List (HloOp τ sig (Elt F))), op.fresh = ∅ :=
  List.forall_iff_forall_mem.mp (show (opsA : List (HloOp τ sig (Elt F))).Forall fun op => op.fresh = ∅ from
    ⟨rfl, rfl, rfl, rfl, rfl, rfl, rfl, rfl, rfl, rfl, rfl, rfl, rfl, rfl, rfl, rfl, rfl, rfl⟩)
theorem opsB_fresh : ∀ op ∈ (opsB : List (HloOp τ sig (Elt F))), op.fresh = ∅ :=
  List.forall_iff_forall_mem.mp (show (opsB : List (HloOp τ sig (Elt F))).Forall fun op => op.fresh = ∅ from rfl)
theorem opsC_fresh : ∀ op ∈ (opsC : List (HloOp τ sig (Elt F))), op.fresh = ∅ :=
  List.forall_iff_forall_mem.mp (show (opsC : List (HloOp τ sig (Elt F))).Forall fun op => op.fresh = ∅ from rfl)

omit [FloatOps F] in
/-- Before the SparseCore call the TensorCore owes only start signals, none at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

end Cert.Kernel.Hand

end
-- ==== Proof.KernelHand.TableStmt.lean ====
/-
  The table the TensorCore call builds, as a pure function of its six operands, and the statement of that call as a
  proposition. The call runs a grid of fifty points; point `t` writes rows `20000 t … 20000 t + 19999` of the table.
  Those rows are one matrix product: for `t = 0` the first operand (all of it) times the fourth; for `1 ≤ t < 5` rows
  `20000 (t - 1) …` of the second times the fifth; for `5 ≤ t` rows `20000 (t - 5) …` of the third times the sixth —
  each product into a zero accumulator. The launch of the whole program is proved from this proposition; the region's
  proof proves it.
-/
import proofs.«202745_g55851754717770_cont_9to1_m_910_12_alg».proof.Proof.KernelHand.Common
import Idealize.ShloMosaic.Lib.Pipeline.Regions

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The pipeline of the call, pinned -/

/-- The call prefetches no table: the one admissible contents. -/
abbrev adm : (p : Fin 1) → (pcfgs (F := F) p).Adm := fun p => (cfgs p).toPCfg_adm
/-- The program's pipelines at those contents. -/
abbrev pcsPin : Fin 1 → Pipeline.Cfg sig Λ₀ := Pipeline.pin (pcfgs (F := F)) adm
/-- Their staging cells are pairwise distinct. -/
theorem cellOf_inj' : Function.Injective (Pipeline.cellOf (nD := nD) (τ := τ) (pcsPin (F := F))) := Gen.cellOf_inj

/-! ## The table -/

/-- The rows grid point `t` writes: the product the point's condition selects, of the blocks of the operands the
    point's index maps name. -/
def tblBlock (t : Fin grid0.N) (a0 : S20000x128.Idx → Elt F .bf16) (a1 : S80000x32.Idx → Elt F .bf16)
    (a2 : S900000x8.Idx → Elt F .bf16) (a3 : S128x128.Idx → Elt F .bf16) (a4 : S32x128.Idx → Elt F .bf16)
    (a5 : S8x128.Idx → Elt F .bf16) : Vec F S20000x128 .f32 :=
  if k0_cond1 (grid0.coords t) = 1#1 then
    k0_pay1 ((win0_0.blk t).view.read (Elt F) a0) ((win0_3.blk t).view.read (Elt F) a3)
  else if k0_cond2 (grid0.coords t) = 1#1 then
    k0_pay2 ((win0_1.blk t).view.read (Elt F) a1) ((win0_4.blk t).view.read (Elt F) a4)
  else
    k0_pay3 ((win0_2.blk t).view.read (Elt F) a2) ((win0_5.blk t).view.read (Elt F) a5)

/-- The whole table: row `r` is row `r % 20000` of what point `r / 20000` writes. -/
def tableOf (a0 : S20000x128.Idx → Elt F .bf16) (a1 : S80000x32.Idx → Elt F .bf16)
    (a2 : S900000x8.Idx → Elt F .bf16) (a3 : S128x128.Idx → Elt F .bf16) (a4 : S32x128.Idx → Elt F .bf16)
    (a5 : S8x128.Idx → Elt F .bf16) : S1000000x128.Idx → Elt F .f32 :=
  fun i => tblBlock ⟨(i 0).val / 20000, by rw [N_0]; have := ValueIdx.idx2_lt0 i; omega⟩ a0 a1 a2 a3 a4 a5
    (ValueIdx.ix2 ⟨(i 0).val % 20000, Nat.mod_lt _ (by decide)⟩ (i 1))

/-! ## The call -/

/-- The six operands of the call on device `d`, whole. -/
def tableOperands (d : Dev nD) (a0 : Buf (Elt F) ((SparseCore.T (τ := τ) d).loc main_v0)) (a1 : Buf (Elt F) ((SparseCore.T (τ := τ) d).loc main_v1))
    (a2 : Buf (Elt F) ((SparseCore.T (τ := τ) d).loc main_v2)) (a3 : Buf (Elt F) ((SparseCore.T (τ := τ) d).loc main_v6)) (a4 : Buf (Elt F) ((SparseCore.T (τ := τ) d).loc main_v10))
    (a5 : Buf (Elt F) ((SparseCore.T (τ := τ) d).loc main_v14)) : sProp 𝕄 :=
  iprop((((SparseCore.T (τ := τ) d).loc main_v0) ↦{fullShare} a0) ∗ (((SparseCore.T (τ := τ) d).loc main_v1) ↦{fullShare} a1) ∗ (((SparseCore.T (τ := τ) d).loc main_v2) ↦{fullShare} a2)
    ∗ (((SparseCore.T (τ := τ) d).loc main_v6) ↦{fullShare} a3) ∗ (((SparseCore.T (τ := τ) d).loc main_v10) ↦{fullShare} a4) ∗ (((SparseCore.T (τ := τ) d).loc main_v14) ↦{fullShare} a5))

/-- The TensorCore call: from the region boundary, the ghost state of the pipeline's staging cells as the launch deals
    it, the six operands and the result array whole, and what the TensorCore owes (nothing at index `none`), the call
    runs to the end and leaves the operands as they were and the result array at the table; the waits it recorded
    are at index `none`. -/
def TableRegionStmt : Prop :=
  ∀ (d : Dev nD) (a0 : Buf (Elt F) ((SparseCore.T (τ := τ) d).loc main_v0)) (a1 : Buf (Elt F) ((SparseCore.T (τ := τ) d).loc main_v1))
    (a2 : Buf (Elt F) ((SparseCore.T (τ := τ) d).loc main_v2)) (a3 : Buf (Elt F) ((SparseCore.T (τ := τ) d).loc main_v6)) (a4 : Buf (Elt F) ((SparseCore.T (τ := τ) d).loc main_v10))
    (a5 : Buf (Elt F) ((SparseCore.T (τ := τ) d).loc main_v14)) (f15 : Buf (Elt F) ((SparseCore.T (τ := τ) d).loc main_v15))
    (O : CellTallies nD τ sig (HIx 1)) (W : Waits sig (HIx 1)) (hO : ∀ g, O g none = 0) (Φ : PUnit → sProp 𝕄),
    iprop(levAts (K (F := F)).L (K (F := F)).lev ∗ boundary (SparseCore.T (τ := τ) d)
        ∗ Pipeline.cellsGhost (pcsPin (F := F)) ER 0 d ∗ Pipeline.toksInit (pcsPin (F := F)) ER 0 d
        ∗ tableOperands d a0 a1 a2 a3 a4 a5 ∗ (((SparseCore.T (τ := τ) d).loc main_v15) ↦{fullShare} f15)
        ∗ owes (SparseCore.T (τ := τ) d) O W
        ∗ (iprop(boundary (SparseCore.T (τ := τ) d) ∗ tableOperands d a0 a1 a2 a3 a4 a5
            ∗ (((SparseCore.T (τ := τ) d).loc main_v15) ↦{fullShare} tableOf a0 a1 a2 a3 a4 a5)
            ∗ ∃ W', ⌜∀ p ∈ W', p ∈ W ∨ p.2 = none⌝ ∗ owes (SparseCore.T (τ := τ) d) O W') -∗ Φ ⟨⟩))
      ⊢ (wp frame (wpE ((K (F := F)).defs (D (F := F))) 𝒱 (SparseCore.T (τ := τ) d) none) Set.univ
          (Prog.lift (.customCall (SparseCore.inner (Pipeline.entry 0)) ())) Φ : sProp 𝕄)

end Cert.Kernel.Hand

end
-- ==== Proof.KernelHand.Main.lean ====
/-
  @main of the idealized kernel on a device's TensorCore, inside the SparseCore launch: the eighteen host operations,
  the TensorCore call that builds the table, the reshape of the ids, the SparseCore call that gathers the rows, and
  the reshape of the result; every array's contents after each stretch is a pure function of the launch memory, and
  the arrays come out at the last of them.
-/
import proofs.«202745_g55851754717770_cont_9to1_m_910_12_alg».proof.Proof.KernelHand.Launch
import proofs.«202745_g55851754717770_cont_9to1_m_910_12_alg».proof.Proof.KernelHand.Rows
import proofs.«202745_g55851754717770_cont_9to1_m_910_12_alg».proof.Proof.KernelHand.Vals
import proofs.«202745_g55851754717770_cont_9to1_m_910_12_alg».proof.Proof.KernelHand.TableStmt

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)
open Idealize.ShloMosaic.Transfers (shareDrop shareTokN shareTok pointsTo_toks)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents after each stretch -/

abbrev dr (b : Ref sig .tc) : DevRef τ sig := Proc.devRef .tc b

/-- At launch; after the eighteen operations; with the table built; with the ids reshaped; with the rows gathered;
    with the result reshaped. -/
def V0 (d : Dev nD) : Valuation τ sig (Elt F) := fun b => m (d, b)
def VA (d : Dev nD) : Valuation τ sig (Elt F) := after opsA (V0 m d)
def tblOf (d : Dev nD) : Buf (Elt F) (tblLoc d) :=
  tableOf (VA m d (dr main_v0)) (VA m d (dr main_v1)) (VA m d (dr main_v2)) (VA m d (dr main_v6)) (VA m d (dr main_v10)) (VA m d (dr main_v14))
def VB (d : Dev nD) : Valuation τ sig (Elt F) := Function.update (VA m d) (dr main_v15) (tblOf m d)
def VC (d : Dev nD) : Valuation τ sig (Elt F) := after opsB (VB m d)
def idsOf (d : Dev nD) : Buf (Elt F) (idsLoc d) := VC m d (dr main_v16)
def out0 (d : Dev nD) : Buf (Elt F) (outLoc d) := VC m d (dr main_v17)
def outOf (d : Dev nD) : Buf (Elt F) (outLoc d) := gatherOf (tblOf m d) (idsOf m d)
def VD (d : Dev nD) : Valuation τ sig (Elt F) := Function.update (VC m d) (dr main_v17) (outOf m d)
def VE (d : Dev nD) : Valuation τ sig (Elt F) := after opsC (VD m d)

/-- The SparseCore call's payloads at those contents. -/
abbrev PP : (K (F := F)).Pay (nD := nD) (Val := Elt F) (Name := ℕ) (U := UU) := P (idsOf m) (tblOf m) (out0 m)

/-! ## The held arrays, around the two calls -/

/-- The TensorCore call's seven arrays. -/
abbrev T7 : Finset (DevRef τ sig) := {dr main_v0, dr main_v1, dr main_v2, dr main_v6, dr main_v10, dr main_v14, dr main_v15}
/-- The SparseCore call's three. -/
abbrev T3 : Finset (DevRef τ sig) := {dr main_v16, dr main_v15, dr main_v17}

omit [FloatOps F] in
theorem T7_sub : T7 ⊆ Pipeline.ucRefs τ sig := by decide
omit [FloatOps F] in
theorem T3_sub : T3 ⊆ Pipeline.ucRefs τ sig := by decide

omit [FloatOps F] in
theorem held_T7 (d : Dev nD) (W : Valuation τ sig (Elt F)) :
    (held (SparseCore.T d) T7 W : sProp 𝕄)
      = iprop(((SparseCore.T d).loc main_v0 ↦{fullShare} W (dr main_v0)) ∗ ((SparseCore.T d).loc main_v1 ↦{fullShare} W (dr main_v1)) ∗ ((SparseCore.T d).loc main_v2 ↦{fullShare} W (dr main_v2))
        ∗ ((SparseCore.T d).loc main_v6 ↦{fullShare} W (dr main_v6)) ∗ ((SparseCore.T d).loc main_v10 ↦{fullShare} W (dr main_v10)) ∗ ((SparseCore.T d).loc main_v14 ↦{fullShare} W (dr main_v14))
        ∗ ((SparseCore.T d).loc main_v15 ↦{fullShare} W (dr main_v15))) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄)
      = iprop((idsLoc d ↦{fullShare} W (dr main_v16)) ∗ (tblLoc d ↦{fullShare} W (dr main_v15)) ∗ (outLoc d ↦{fullShare} W (dr main_v17))) := by
  unfold held T3
  rw [SparseCore.bigSep_insert' (by decide), SparseCore.bigSep_insert' (by decide), bigSep_singleton]

omit [FloatOps F] in
/-- Outside a set, a valuation updated inside it is the valuation. -/
theorem held_update_out (d : Dev nD) (S₀ : Finset (DevRef τ sig)) (W : Valuation τ sig (Elt F)) (b : DevRef τ sig) (hb : b ∈ S₀) (x : b.ty.Contents (Elt F)) :
    (held (SparseCore.T d) (Pipeline.ucRefs τ sig \ S₀) (Function.update W b x) : sProp 𝕄) = held (SparseCore.T d) (Pipeline.ucRefs τ sig \ S₀) W :=
  held_congr (SparseCore.T d) fun b' hb' => Function.update_of_ne (fun e => (Finset.mem_sdiff.mp hb').2 (by rw [e]; exact hb)) _ _

/-! ## The launch element: the handshakes' rounds, the staging cells' rounds; nothing of the tiles' own -/

def u₀ : UU :=
  (initOf (K (F := F)).hsCells (K (F := F)).hsToks,
    (initOf (Pipeline.cells (pcsPin (F := F)) cellOf_inj') (Pipeline.launchToks (pcsPin (F := F)) cellOf_inj'), 1))

/-- What @main's proof starts from on device `d`: the ghost state of the TensorCore call's staging cells. -/
def Gd (d : Dev nD) : sProp 𝕄 := iprop(Pipeline.cellsGhost (pcsPin (F := F)) ER 0 d ∗ Pipeline.toksInit (pcsPin (F := F)) ER 0 d)

omit [FloatOps F] in
theorem bigSep_emp' {I : Type} (s : Finset I) : (bigSep s fun _ => iprop(emp)) = (iprop(emp) : sProp 𝕄) := bigSep_emp_const s

omit [FloatOps F] in
theorem own_ER (x : UR) : (BI.own (((Emb.inl : Emb UR (UR × Counters)).trans embR) x) : sProp 𝕄) = BI.own (ER x) := rfl

omit [FloatOps F] in
theorem Gd_all :
    iprop((bigSep Finset.univ fun d : Dev nD => bigSep Finset.univ fun p : Fin 1 => Pipeline.cellsGhost (pcsPin (F := F)) ER p d)
        ∗ (bigSep Finset.univ fun d : Dev nD => bigSep Finset.univ fun p : Fin 1 => (Pipeline.toksInit (pcsPin (F := F)) ER p d : sProp 𝕄)))
      ⊢ bigSep Finset.univ fun d : Dev nD => Gd (F := F) d := by
  unfold Gd
  rw [bigSep_sep', bigSep_congr fun d _ => bigSep_univ_of_subsingleton (Φ := fun p : Fin 1 => Pipeline.cellsGhost (pcsPin (F := F)) ER p d) (0 : Fin 1),
    bigSep_congr fun d _ => bigSep_univ_of_subsingleton (Φ := fun p : Fin 1 => (Pipeline.toksInit (pcsPin (F := F)) ER p d : sProp 𝕄)) (0 : Fin 1)]

theorem Px_all : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  rw [Px_all]
  unfold u₀ EH
  iintro Hu
  ihave H := (ownU_pair _ _) $$ Hu
  icases H with ⟨HH, HR⟩
  ihave H2 := (own_pair_emb embR _ _) $$ HR
  icases H2 with ⟨HR, -⟩
  ihave HR := (Entails.of_eq (own_ER (F := F) _)) $$ HR
  imod (Pipeline.fund_ghost (pcsPin (F := F)) ER cellOf_inj') $$ HR with Hg
  imodintro
  isplitl [HH]; · iexact HH
  isplitl [Hg]
  · iapply (Gd_all (F := F)); iexact Hg
  iempintro

/-! ## @main on the TensorCore, stretch by stretch from the end -/

/-- What @main leaves: the TensorCore's handshake state after the one SparseCore call, and its arrays at their last contents. -/
def POST (d : Dev nD) : PUnit → sProp 𝕄 :=
  fun _ => iprop((K (F := F)).tcSt EH d 1 ∗ held (SparseCore.T d) (Pipeline.ucRefs τ sig) (VE m d))

/-- The reshape of the gathered rows, and the return. -/
theorem step4 (d : Dev nD) :
    iprop((K (F := F)).tcSt EH d 1 ∗ boundary (SparseCore.T d) ∗ held (SparseCore.T d) (Pipeline.ucRefs τ sig) (VD m d))
      ⊢ wp frame (wpE ((K (F := F)).defs (D (F := F))) 𝒱 (SparseCore.T d) none) Set.univ
          (seq opsC >>= fun _ => (pure ⟨⟩ : Prog (TpuEff nD τ sig (Elt F) (SparseCore.Sig (ΛP (F := F)) 1) .tc) PUnit)) (POST m d) := by
  iintro ⟨Hst, Hb, Hheld⟩
  iapply (wp_seq 𝒱 none Set.univ d (Pipeline.ucRefs τ sig) _ opsC opsC_sub opsC_fresh (VD m d)) $$ [Hb Hheld]
  · isplitl [Hb] <;> iassumption
  iintro ⟨Hb, Hheld⟩
  rw [wp_pure]; imodintro
  unfold POST VE
  isplitl [Hst]; · iexact Hst
  iexact Hheld

/-! ### Reading the valuations -/

theorem VB_of_ne (d : Dev nD) (b : DevRef τ sig) (h : b ≠ dr main_v15) : VB m d b = VA m d b := Function.update_of_ne h _ _
theorem VB_v15 (d : Dev nD) : VB m d (dr main_v15) = tblOf m d := Function.update_self _ _ _
theorem VD_of_ne (d : Dev nD) (b : DevRef τ sig) (h : b ≠ dr main_v17) : VD m d b = VC m d b := Function.update_of_ne h _ _
theorem VD_v17 (d : Dev nD) : VD m d (dr main_v17) = outOf m d := Function.update_self _ _ _
theorem VC_v15 (d : Dev nD) : VC m d (dr main_v15) = tblOf m d := by
  unfold VC
  after_results_simp
  exact VB_v15 m d

/-! ### The TensorCore's handshake state, with what it owes taken out -/

omit [FloatOps F] in
theorem WBelow_none {thr : Thread nD τ} {W W' : Waits sig (HIx 1)} {b : ℕ} (hW : (K (F := F)).WBelow thr W b)
    (h : ∀ p ∈ W', p ∈ W ∨ p.2 = none) : (K (F := F)).WBelow thr W' b := by
  intro p hp
  rcases h p hp with h1 | h1
  · exact hW p h1
  · obtain ⟨p1, p2⟩ := p
    simp only at h1; subst h1
    exact Nat.zero_le _

omit [FloatOps F] in
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ (∀ W', iprop(⌜(K (F := F)).WBelow (SparseCore.T d) W' (8 * n)⌝ ∗ owes (SparseCore.T d) ((K (F := F)).Otc d n) W') -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' ⟨%hW', HO'⟩
  isplitl [HO']
  · iexists W'; isplitr; · ipureintro; exact hW'
    iexact HO'
  · iexact Hrest

/-! ### What the SparseCore call takes and returns, as whole arrays -/

theorem cores_iff (d : Dev nD) (f : Buf (Elt F) (outLoc d)) :
    (bigSep Finset.univ fun c : Fin 2 => iprop((bigSep Finset.univ fun i : Fin 16 => tileIO (idsOf m) d (2 * i.val + c.val) f) ∗ (tblLoc d ↦{qC c.val} tblOf m d)) : sProp 𝕄)
      ⊣⊢ iprop((idsLoc d ↦{fullShare} idsOf m d) ∗ (outLoc d ↦{fullShare} f) ∗ bigSep Finset.univ fun c : Fin 2 => (tblLoc d ↦{shareTok fullShare 2 c} tblOf m d)) := by
  unfold tileIO
  rw [ids_split, out_split]
  simp only [bigSep_sep']
  constructor
  · iintro ⟨⟨HI, HO⟩, HT⟩
    isplitl [HI]; · iexact HI
    isplitl [HO]; · iexact HO
    iexact HT
  · iintro ⟨HI, HO, HT⟩
    isplitl [HI HO]
    · isplitl [HI] <;> iassumption
    iexact HT

theorem st_iff (d : Dev nD) :
    (bigSep Finset.univ fun c : Fin ((K (F := F)).nCore 0) => (PP m).st 0 d c)
      ⊣⊢ iprop((idsLoc d ↦{fullShare} idsOf m d) ∗ (outLoc d ↦{fullShare} out0 m d) ∗ bigSep Finset.univ fun c : Fin 2 => (tblLoc d ↦{shareTok fullShare 2 c} tblOf m d)) :=
  cores_iff m d (out0 m d)
theorem dn_iff (d : Dev nD) :
    (bigSep Finset.univ fun c : Fin ((K (F := F)).nCore 0) => (PP m).dn 0 d c)
      ⊣⊢ iprop((idsLoc d ↦{fullShare} idsOf m d) ∗ (outLoc d ↦{fullShare} outOf m d) ∗ bigSep Finset.univ fun c : Fin 2 => (tblLoc d ↦{shareTok fullShare 2 c} tblOf m d)) :=
  cores_iff m d (outOf m d)

/-- The SparseCore call, then the rest. -/
theorem step3 (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VC m d))
      ⊢ wp frame (wpE ((K (F := F)).defs (D (F := F))) 𝒱 (SparseCore.T d) none) Set.univ
          ((sc (F := F)).run d 0 >>= fun _ => (seq opsC >>= fun _ => (pure ⟨⟩ : Prog (TpuEff nD τ sig (Elt F) (SparseCore.Sig (ΛP (F := F)) 1) .tc) PUnit))) (POST m d) := by
  rw [wp_bind]
  iintro ⟨#Hctx, Hst, Hb, Hheld⟩
  ihave Hh := (Entails.of_eq (held_sub_split (SparseCore.T d) T3_sub (VC m d))) $$ Hheld
  icases Hh with ⟨H3, Hrest⟩
  ihave H3 := (Entails.of_eq (held_T3 d (VC m d))) $$ H3
  icases H3 with ⟨Hi, Ht, Ho⟩
  ihave Ht := (Entails.of_eq (congrArg (fun f => (tblLoc d ↦{fullShare} f : sProp 𝕄)) (VC_v15 m d))) $$ Ht
  ihave Htk := (pointsTo_toks fullShare 2).1 $$ Ht
  icases Htk with ⟨Hrem, Htoks⟩
  iapply ((K (F := F)).wp_run (D (F := F)) 𝒱 (EH := EH) (P := PP m) κ d 0) $$ [Hst Hi Ho Htoks Hb Hrem Hrest]
  isplitr; · iexact Hctx
  isplitl [Hst]; · iexact Hst
  isplitl [Hi Ho Htoks]
  · iapply (st_iff m d).2
    isplitl [Hi]; · iexact Hi
    isplitl [Ho]; · iexact Ho
    iexact Htoks
  iintro ⟨Hst, Hdn⟩
  ihave Hdn := (dn_iff m d).1 $$ Hdn
  icases Hdn with ⟨Hi, Ho, Htoks⟩
  ihave Ht := (pointsTo_toks fullShare 2).2 $$ [Hrem Htoks]
  · isplitl [Hrem] <;> iassumption
  iapply (step4 m d)
  isplitl [Hst]; · iexact Hst
  isplitl [Hb]; · iexact Hb
  iapply (Entails.of_eq (held_sub_split (SparseCore.T d) T3_sub (VD m d)).symm)
  isplitl [Hi Ht Ho]
  · iapply (Entails.of_eq (held_T3 d (VD m d)).symm)
    isplitl [Hi]
    · iapply (Entails.of_eq (congrArg (fun f => (idsLoc d ↦{fullShare} f : sProp 𝕄)) (VD_of_ne m d (dr main_v16) (by decide)).symm)); iexact Hi
    isplitl [Ht]
    · iapply (Entails.of_eq (congrArg (fun f => (tblLoc d ↦{fullShare} f : sProp 𝕄)) ((VD_of_ne m d (dr main_v15) (by decide)).trans (VC_v15 m d)).symm)); iexact Ht
    · iapply (Entails.of_eq (congrArg (fun f => (outLoc d ↦{fullShare} f : sProp 𝕄)) (VD_v17 m d).symm)); iexact Ho
  · iapply (Entails.of_eq (held_update_out d T3 (VC m d) (dr main_v17) (show dr main_v17 ∈ (T3 : Finset (DevRef τ sig)) by decide) (outOf m d)).symm)
    iexact Hrest

/-- The reshape of the ids, then the SparseCore call and the rest. -/
theorem step2 (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VB m d))
      ⊢ wp frame (wpE ((K (F := F)).defs (D (F := F))) 𝒱 (SparseCore.T d) none) Set.univ
          (seq opsB >>= fun _ => ((sc (F := F)).run d 0 >>= fun _ => (seq opsC >>= fun _ => (pure ⟨⟩ : Prog (TpuEff nD τ sig (Elt F) (SparseCore.Sig (ΛP (F := F)) 1) .tc) PUnit)))) (POST m d) := by
  iintro ⟨#Hctx, Hst, Hb, Hheld⟩
  iapply (wp_seq 𝒱 none Set.univ d (Pipeline.ucRefs τ sig) _ opsB opsB_sub opsB_fresh (VB m d)) $$ [Hb Hheld]
  · isplitl [Hb] <;> iassumption
  iintro ⟨Hb, Hheld⟩
  iapply (step3 m κ d)
  isplitr; · iexact Hctx
  isplitl [Hst]; · iexact Hst
  isplitl [Hb]; · iexact Hb
  unfold VC
  iexact Hheld

/-- The TensorCore call that builds the table, then the rest. -/
theorem step1 (htr : TableRegionStmt (F := F)) (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VA m d) ∗ Gd (F := F) d)
      ⊢ wp frame (wpE ((K (F := F)).defs (D (F := F))) 𝒱 (SparseCore.T d) none) Set.univ
          (Prog.lift (.customCall (SparseCore.inner (Pipeline.entry 0)) ()) >>= fun _ =>
            (seq opsB >>= fun _ => ((sc (F := F)).run d 0 >>= fun _ => (seq opsC >>= fun _ => (pure ⟨⟩ : Prog (TpuEff nD τ sig (Elt F) (SparseCore.Sig (ΛP (F := F)) 1) .tc) PUnit))))) (POST m d) := by
  rw [wp_bind]
  unfold Gd
  iintro ⟨#Hctx, Hst, Hb, Hheld, Hcg, Hti⟩
  ihave Hlv := ((K (F := F)).ctx_levAts (EH := EH) (P := PP m) κ) $$ Hctx
  ihave Hh := (Entails.of_eq (held_sub_split (SparseCore.T d) T7_sub (VA m d))) $$ Hheld
  icases Hh with ⟨H7, Hrest⟩
  ihave H7 := (Entails.of_eq (held_T7 d (VA m d))) $$ H7
  icases H7 with ⟨h0, h1, h2, h6, h10, h14, h15⟩
  ihave Ho := (tcSt_owes d 0) $$ Hst
  icases Ho with ⟨%W, %hW, HO, Hback⟩
  iapply (htr d _ _ _ _ _ _ _ ((K (F := F)).Otc d 0) W (Otc_none d 0) _) $$ [Hlv Hb Hcg Hti h0 h1 h2 h6 h10 h14 h15 HO Hback Hrest]
  isplitl [Hlv]; · iexact Hlv
  isplitl [Hb]; · iexact Hb
  isplitl [Hcg]; · iexact Hcg
  isplitl [Hti]; · iexact Hti
  isplitl [h0 h1 h2 h6 h10 h14]
  · unfold tableOperands
    isplitl [h0]; · iexact h0
    isplitl [h1]; · iexact h1
    isplitl [h2]; · iexact h2
    isplitl [h6]; · iexact h6
    isplitl [h10]; · iexact h10
    iexact h14
  isplitl [h15]; · iexact h15
  isplitl [HO]; · iexact HO
  iintro ⟨Hb, Hops, h15, %W', %hW', HO⟩
  ihave Hst := Hback $$ %W' [HO]
  · isplitr
    · ipureintro; exact WBelow_none hW hW'
    · iexact HO
  iapply (step2 m κ d)
  isplitr; · iexact Hctx
  isplitl [Hst]; · iexact Hst
  isplitl [Hb]; · iexact Hb
  iapply (Entails.of_eq (held_sub_split (SparseCore.T d) T7_sub (VB m d)).symm)
  isplitl [Hops h15]
  · iapply (Entails.of_eq (held_T7 d (VB m d)).symm)
    unfold tableOperands
    icases Hops with ⟨h0, h1, h2, h6, h10, h14⟩
    isplitl [h0]
    · iapply (Entails.of_eq (congrArg (fun f => ((SparseCore.T d).loc main_v0 ↦{fullShare} f : sProp 𝕄)) (VB_of_ne m d (dr main_v0) (by decide)).symm)); iexact h0
    isplitl [h1]
    · iapply (Entails.of_eq (congrArg (fun f => ((SparseCore.T d).loc main_v1 ↦{fullShare} f : sProp 𝕄)) (VB_of_ne m d (dr main_v1) (by decide)).symm)); iexact h1
    isplitl [h2]
    · iapply (Entails.of_eq (congrArg (fun f => ((SparseCore.T d).loc main_v2 ↦{fullShare} f : sProp 𝕄)) (VB_of_ne m d (dr main_v2) (by decide)).symm)); iexact h2
    isplitl [h6]
    · iapply (Entails.of_eq (congrArg (fun f => ((SparseCore.T d).loc main_v6 ↦{fullShare} f : sProp 𝕄)) (VB_of_ne m d (dr main_v6) (by decide)).symm)); iexact h6
    isplitl [h10]
    · iapply (Entails.of_eq (congrArg (fun f => ((SparseCore.T d).loc main_v10 ↦{fullShare} f : sProp 𝕄)) (VB_of_ne m d (dr main_v10) (by decide)).symm)); iexact h10
    isplitl [h14]
    · iapply (Entails.of_eq (congrArg (fun f => ((SparseCore.T d).loc main_v14 ↦{fullShare} f : sProp 𝕄)) (VB_of_ne m d (dr main_v14) (by decide)).symm)); iexact h14
    · iapply (Entails.of_eq (congrArg (fun f => ((SparseCore.T d).loc main_v15 ↦{fullShare} f : sProp 𝕄)) (VB_v15 m d).symm)); unfold tblOf; iexact h15
  · iapply (Entails.of_eq (held_update_out d T7 (VA m d) (dr main_v15) (show dr main_v15 ∈ (T7 : Finset (DevRef τ sig)) by decide) (tblOf m d)).symm)
    iexact Hrest

/-- What @main leaves the claim: the TensorCore's arrays at their last contents. -/
def FIN (d : Dev nD) : sProp 𝕄 := held (SparseCore.T d) (Pipeline.ucRefs τ sig) (VE m d)

/-- @main on device `d`'s TensorCore. -/
theorem hmain (htr : TableRegionStmt (F := F)) (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, -, -⟩, HG⟩
  iapply (wp_seq 𝒱 none Set.univ d (Pipeline.ucRefs τ sig) _ opsA opsA_sub opsA_fresh (V0 m d)) $$ [Hb Hheld]
  · isplitl [Hb] <;> iassumption
  iintro ⟨Hb, Hheld⟩
  iapply (step1 m htr κ d)
  isplitr; · iexact Hctx
  isplitl [Hst]; · iexact Hst
  isplitl [Hb]; · iexact Hb
  isplitl [Hheld]; · unfold VA; iexact Hheld
  iexact HG

end Cert.Kernel.Hand

end
-- ==== Proof.KernelHand.Run.lean ====
/-
  The idealized kernel's run: from any launch memory whose ids name rows of the table, every weakly fair execution of
  the device's threads — the TensorCore's @main, the two sequencers, the thirty-two tiles — terminates, nothing
  faulting, with the result array at the reshaped gathered rows of the table the TensorCore call built from the launch
  memory's arguments, and the seven arguments unchanged. Proved from one tile's task and the TensorCore call as
  propositions.
-/
import proofs.«202745_g55851754717770_cont_9to1_m_910_12_alg».proof.Proof.KernelHand.Main

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arguments are never written -/

theorem VE_main_arg0 (d : Dev nD) : VE m d (dr main_arg0) = m ((SparseCore.T d).loc main_arg0) := by
  unfold VE; after_results_simp
  rw [VD_of_ne m d _ (by decide)]
  unfold VC; after_results_simp
  rw [VB_of_ne m d _ (by decide)]
  unfold VA; after_results_simp
  rfl
theorem VE_main_arg1 (d : Dev nD) : VE m d (dr main_arg1) = m ((SparseCore.T d).loc main_arg1) := by
  unfold VE; after_results_simp
  rw [VD_of_ne m d _ (by decide)]
  unfold VC; after_results_simp
  rw [VB_of_ne m d _ (by decide)]
  unfold VA; after_results_simp
  rfl
theorem VE_main_arg2 (d : Dev nD) : VE m d (dr main_arg2) = m ((SparseCore.T d).loc main_arg2) := by
  unfold VE; after_results_simp
  rw [VD_of_ne m d _ (by decide)]
  unfold VC; after_results_simp
  rw [VB_of_ne m d _ (by decide)]
  unfold VA; after_results_simp
  rfl
theorem VE_main_arg3 (d : Dev nD) : VE m d (dr main_arg3) = m ((SparseCore.T d).loc main_arg3) := by
  unfold VE; after_results_simp
  rw [VD_of_ne m d _ (by decide)]
  unfold VC; after_results_simp
  rw [VB_of_ne m d _ (by decide)]
  unfold VA; after_results_simp
  rfl
theorem VE_main_arg4 (d : Dev nD) : VE m d (dr main_arg4) = m ((SparseCore.T d).loc main_arg4) := by
  unfold VE; after_results_simp
  rw [VD_of_ne m d _ (by decide)]
  unfold VC; after_results_simp
  rw [VB_of_ne m d _ (by decide)]
  unfold VA; after_results_simp
  rfl
theorem VE_main_arg5 (d : Dev nD) : VE m d (dr main_arg5) = m ((SparseCore.T d).loc main_arg5) := by
  unfold VE; after_results_simp
  rw [VD_of_ne m d _ (by decide)]
  unfold VC; after_results_simp
  rw [VB_of_ne m d _ (by decide)]
  unfold VA; after_results_simp
  rfl
theorem VE_main_arg6 (d : Dev nD) : VE m d (dr main_arg6) = m ((SparseCore.T d).loc main_arg6) := by
  unfold VE; after_results_simp
  rw [VD_of_ne m d _ (by decide)]
  unfold VC; after_results_simp
  rw [VB_of_ne m d _ (by decide)]
  unfold VA; after_results_simp
  rfl

/-! ## Reading the final memory -/

theorem agree_ref (d : Dev nD) (s' : Phys nD τ sig (Elt F)) (b : DevRef τ sig) (hb : b ∈ Pipeline.ucRefs τ sig) :
    iprop(FIN m d ∗ SI s') ⊢ (⌜s'.mem.mem (d, b) = VE m d b⌝ : sProp 𝕄) := by
  have h1 : (FIN m d : sProp 𝕄) ⊢ (((SparseCore.T d).1, b) ↦{fullShare} VE m d b) :=
    bigSep_elim (Φ := fun b => (((SparseCore.T d).1, b) ↦{fullShare} VE m d b : sProp 𝕄)) hb
  iintro ⟨HF, HSI⟩
  ihave Hb := h1 $$ HF
  ihave H := (SI_pointsTo_agree (st := s') (ℓ := (d, b)) (I := Finset.univ) (q := fullShare) (f := VE m d b)) $$ [HSI Hb]
  · isplitl [HSI] <;> iassumption
  icases H with %h
  ipureintro; exact funext fun i => h i (Finset.mem_univ i)

def fq (d : Dev nD) (s' : Phys nD τ sig (Elt F)) : Prop :=
  s'.mem.mem ((SparseCore.T d).loc main_v18) = VE m d (dr main_v18)
  ∧ s'.mem.mem ((SparseCore.T d).loc main_arg0) = VE m d (dr main_arg0)
  ∧ s'.mem.mem ((SparseCore.T d).loc main_arg1) = VE m d (dr main_arg1)
  ∧ s'.mem.mem ((SparseCore.T d).loc main_arg2) = VE m d (dr main_arg2)
  ∧ s'.mem.mem ((SparseCore.T d).loc main_arg3) = VE m d (dr main_arg3)
  ∧ s'.mem.mem ((SparseCore.T d).loc main_arg4) = VE m d (dr main_arg4)
  ∧ s'.mem.mem ((SparseCore.T d).loc main_arg5) = VE m d (dr main_arg5)
  ∧ s'.mem.mem ((SparseCore.T d).loc main_arg6) = VE m d (dr main_arg6)

theorem hfin (d : Dev nD) (s' : Phys nD τ sig (Elt F)) : iprop(FIN m d ∗ SI s') ⊢ (⌜fq m d s'⌝ : sProp 𝕄) := by
  iintro H
  ihave H := (persistent_entails_right (agree_ref m d s' (dr main_v18) (by decide))) $$ H
  icases H with ⟨%h_main_v18, H⟩
  ihave H := (persistent_entails_right (agree_ref m d s' (dr main_arg0) (by decide))) $$ H
  icases H with ⟨%h_main_arg0, H⟩
  ihave H := (persistent_entails_right (agree_ref m d s' (dr main_arg1) (by decide))) $$ H
  icases H with ⟨%h_main_arg1, H⟩
  ihave H := (persistent_entails_right (agree_ref m d s' (dr main_arg2) (by decide))) $$ H
  icases H with ⟨%h_main_arg2, H⟩
  ihave H := (persistent_entails_right (agree_ref m d s' (dr main_arg3) (by decide))) $$ H
  icases H with ⟨%h_main_arg3, H⟩
  ihave H := (persistent_entails_right (agree_ref m d s' (dr main_arg4) (by decide))) $$ H
  icases H with ⟨%h_main_arg4, H⟩
  ihave H := (persistent_entails_right (agree_ref m d s' (dr main_arg5) (by decide))) $$ H
  icases H with ⟨%h_main_arg5, H⟩
  ihave H := (agree_ref m d s' (dr main_arg6) (by decide)) $$ H
  icases H with %h_main_arg6
  ipureintro; exact ⟨h_main_v18, h_main_arg0, h_main_arg1, h_main_arg2, h_main_arg3, h_main_arg4, h_main_arg5, h_main_arg6⟩

/-! ## The run -/

/-- The result array at the reshaped gathered rows, the arguments unchanged, on every device. -/
def QC : PUnit × MemSt nD τ sig (Elt F) → Prop := fun r => ∀ c : Dev nD,
  r.2.mem ((SparseCore.T c).loc main_v18) = VE m c (dr main_v18)
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

theorem run_main [∀ e, Nonempty (Elt F e)] (htb : TileBodyStmt (F := F)) (htr : TableRegionStmt (F := F))
    (hin : ∀ (d : Dev nD) (r : S819200.Idx), (idsOf m d r : BitVec 32).toNat < 1000000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (idsOf m) (tblOf m) (out0 m) htb hin)
    (fun q _ => match q with | 0 => SparseCore.Cfg.VecSplit.of_plain (vecSplit (idsOf m) (tblOf m) (out0 m)))
    m ρ main (fun d => Gd (F := F) d) (FIN m) (u₀ (F := F)) (sep_elim_left.trans (hu₀ m)) (hmain m ρ htr) (fq m) (hfin m) (QC m)
    (fun s' h c => by
      obtain ⟨h18, h_main_arg0, h_main_arg1, h_main_arg2, h_main_arg3, h_main_arg4, h_main_arg5, h_main_arg6⟩ := h c
      exact ⟨h18, h_main_arg0.trans (VE_main_arg0 m c), h_main_arg1.trans (VE_main_arg1 m c), h_main_arg2.trans (VE_main_arg2 m c), h_main_arg3.trans (VE_main_arg3 m c), h_main_arg4.trans (VE_main_arg4 m c), h_main_arg5.trans (VE_main_arg5 m c), h_main_arg6.trans (VE_main_arg6 m c)⟩)

end Cert.Kernel.Hand

end
-- ==== Proof.KernelHand.Reads.lean ====
/-
  Reading the run's arrays position by position: the flattened ids are the ids in row-major order; the result is the
  gathered rows in row-major order; a gathered row is the table's row its id names.
-/
import proofs.«202745_g55851754717770_cont_9to1_m_910_12_alg».proof.Proof.KernelHand.Run
import Idealize.ShloMosaic.Lib.Pipeline.Value

noncomputable section

namespace Cert.Kernel.Hand

open Cert.Kernel Cert.Kernel.Gen

open Idealize.ShloMosaic
open Idealize.ShloMosaic.SparseCore (S V T)
open Idealize.SL.Sem
open Idealize.ShloMosaic.StableHlo (after)

variable {F : FTy → Type}

variable (m : (ℓ : Loc nD τ sig) → Buf (Elt F) ℓ)

variable [FloatOps F]

/-- The flattened ids are the ids, reshaped. -/
theorem idsOf_eq (d : Dev nD) :
    idsOf m d = shapeCast S819200 (m ((SparseCore.T d).loc main_arg0)) shapeCasts_S4096x200_S819200 := by
  unfold idsOf VC
  after_results_simp
  rw [VB_of_ne m d _ (by decide)]
  unfold VA; after_results_simp
  rfl

/-- Every flattened id is one of the ids. -/
theorem idsOf_mem (d : Dev nD) (r : S819200.Idx) : ∃ i : S4096x200.Idx, idsOf m d r = m ((SparseCore.T d).loc main_arg0) i := by
  rw [idsOf_eq]; exact ⟨_, rfl⟩

/-- Flattened position 200·b + s holds id (b, s). -/
theorem idsOf_ix (d : Dev nD) (b : Fin 4096) (s : Fin 200) (h : 200 * b.val + s.val < 819200) :
    idsOf m d (ValueIdx.ix1 ⟨200 * b.val + s.val, h⟩) = m ((SparseCore.T d).loc main_arg0) (ValueIdx.ix2 b s) := by
  rw [idsOf_eq]
  refine shapeCast_apply _ _ _ _ ?_
  show ((⟨2, ![4096, 200]⟩ : Shape).rowMajor (ValueIdx.ix2 b s)).val = ((⟨1, ![819200]⟩ : Shape).rowMajor (ValueIdx.ix1 ⟨200 * b.val + s.val, h⟩)).val
  rw [Shape.rowMajor_val_two, Shape.rowMajor_val_one]
  show b.val * 200 + s.val = 200 * b.val + s.val
  omega

/-- The result is the gathered rows, reshaped. -/
theorem out_eq (d : Dev nD) :
    VE m d (dr main_v18) = shapeCast S4096x200x128 (outOf m d) shapeCasts_S819200x128_S4096x200x128 := by
  unfold VE
  after_results_simp
  rw [VD_v17 m d]
  rfl

/-- Entry (b, s, j) of the result is entry (200·b + s, j) of the gathered rows. -/
theorem out_ix (d : Dev nD) (b : Fin 4096) (s : Fin 200) (j : Fin 128) (h : 200 * b.val + s.val < 819200) :
    VE m d (dr main_v18) (ValueIdx.ix3 b s j) = outOf m d (ValueIdx.ix2 ⟨200 * b.val + s.val, h⟩ j) := by
  rw [out_eq]
  refine shapeCast_apply _ _ _ _ ?_
  show ((⟨2, ![819200, 128]⟩ : Shape).rowMajor (ValueIdx.ix2 ⟨200 * b.val + s.val, h⟩ j)).val = ((⟨3, ![4096, 200, 128]⟩ : Shape).rowMajor (ValueIdx.ix3 b s j)).val
  rw [Shape.rowMajor_val_two, Shape.rowMajor_val_three]
  show (200 * b.val + s.val) * 128 + j.val = (b.val * 200 + s.val) * 128 + j.val
  omega

/-- A gathered row is the table's row its id names. -/
theorem outOf_ix (d : Dev nD) (r : Fin 819200) (j : Fin 128) (h : (idsOf m d (ValueIdx.ix1 r) : BitVec 32).toNat < 1000000) :
    outOf m d (ValueIdx.ix2 r j) = tblOf m d (ValueIdx.ix2 ⟨(idsOf m d (ValueIdx.ix1 r) : BitVec 32).toNat, h⟩ j) := by
  unfold outOf gatherOf
  show tblOf m d (ValueIdx.ix2 (if h : (idsOf m d (ValueIdx.ix1 r) : BitVec 32).toNat < 1000000 then ⟨_, h⟩ else ⟨0, by decide⟩) j) = _
  rw [dif_pos h]

/-! ## The TensorCore call's operands, as the host operations leave them -/

theorem VA_v0 (d : Dev nD) : VA m d (dr main_v0) = truncf .bf16 (m ((SparseCore.T d).loc main_arg1)) bitsLt_bf16_f32 := by
  unfold VA; after_results_simp; rfl
theorem VA_v1 (d : Dev nD) : VA m d (dr main_v1) = truncf .bf16 (m ((SparseCore.T d).loc main_arg2)) bitsLt_bf16_f32 := by
  unfold VA; after_results_simp; rfl
theorem VA_v2 (d : Dev nD) : VA m d (dr main_v2) = truncf .bf16 (m ((SparseCore.T d).loc main_arg3)) bitsLt_bf16_f32 := by
  unfold VA; after_results_simp; rfl
theorem VA_v6 (d : Dev nD) : VA m d (dr main_v6)
    = truncf .bf16 (mulf (transpose S128x128 [1, 0] (m ((SparseCore.T d).loc main_arg4)) transposes_S128x128_S128x128_1_0)
        (broadcastInDim S128x128 ![] bcast_S_S128x128 (constant S_ .f32 0x413504F3#32))) bitsLt_bf16_f32 := by
  unfold VA; after_results_simp; rfl
theorem VA_v10 (d : Dev nD) : VA m d (dr main_v10)
    = truncf .bf16 (mulf (transpose S32x128 [1, 0] (m ((SparseCore.T d).loc main_arg5)) transposes_S128x32_S32x128_1_0)
        (broadcastInDim S32x128 ![] bcast_S_S32x128 (constant S_ .f32 0x413504F3#32))) bitsLt_bf16_f32 := by
  unfold VA; after_results_simp; rfl
theorem VA_v14 (d : Dev nD) : VA m d (dr main_v14)
    = truncf .bf16 (mulf (transpose S8x128 [1, 0] (m ((SparseCore.T d).loc main_arg6)) transposes_S128x8_S8x128_1_0)
        (broadcastInDim S8x128 ![] bcast_S_S8x128 (constant S_ .f32 0x413504F3#32))) bitsLt_bf16_f32 := by
  unfold VA; after_results_simp; rfl

end Cert.Kernel.Hand

end
-- ==== Proof.LibFiniteEntry.lean ====
/-
  One entry of a float array that passes the test |x| < +inf is a real number.

  On the extended reals |x| is max x (-x), the pattern of `+inf` denotes ⊤, and the comparison answers the one-bit
  word 1 exactly when max x (-x) < ⊤ holds; that excludes x = ⊤ and x = ⊥, so x is a real number.  This is what
  every entry of an array satisfies under a precondition of the form jnp.all(jnp.abs(x) < inf).
-/
import Idealize.ShloMosaic.PureOps.Ideal
import Idealize.ShloMosaic.PureOps.Ideal.Laws

noncomputable section

namespace Cert.Lib.FiniteEntry

open Idealize.ShloMosaic

/-- A one-bit word made from a Boolean is `1` exactly when the Boolean is true. -/
theorem ofBool_one {b : Bool} : BitVec.ofBool b = 1#1 ↔ b = true := by cases b <;> decide

/-- The pattern of `+inf` denotes `⊤`. -/
theorem pinf_word : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An entry whose absolute value compares below the pattern of `+inf` is a real number. -/
theorem real_of_cmp_abs_lt_pinf (x : EReal)
    (h : Ideal.cmp .olt (max x (-x)) (Ideal.ofBits .f32 0x7F800000#32) = 1#1) : ∃ r : ℝ, x = (r : EReal) := by
  rw [pinf_word] at h
  have h' : BitVec.ofBool (decide (max x (-x) < ⊤)) = 1#1 := h
  exact real_of_abs_lt_top x (of_decide_eq_true (ofBool_one.1 h'))

end Cert.Lib.FiniteEntry

end
-- ==== Proof.PreFacts.lean ====
/-
  What the precondition says of the seven argument arrays.

  The precondition is one bit: the conjunction, over the six float arrays, of "every entry's absolute value is below
  +inf" (an `and`-reduction of the comparison over the whole array) and, for the id array, of "every id lies in
  [0, 999999]" (signed). Read at its one index and taken apart: at the extended reals every entry of every float array
  is a real number; for any float values every id is a non-negative signed word at most 999999, so its unsigned reading
  is the same number.
-/
import proofs.«202745_g55851754717770_cont_9to1_m_910_12_alg».proof.Pre_input_domain
import proofs.«202745_g55851754717770_cont_9to1_m_910_12_alg».proof.Proof.LibFiniteEntry
import Idealize.ShloMosaic.Lib.ReduceAll
import Idealize.ShloMosaic.Lib.ValueIdx

noncomputable section

namespace Cert.PreFacts

open Idealize.ShloMosaic Idealize.ShloMosaic.ValueIdx Cert.Pre_input_domain Cert.Pre_input_domain.Facts

variable [Cert.Pre_input_domain.Facts]

/-- The scalar shape has one index. -/
local instance scalarIdx_subsingleton : Subsingleton S_.Idx := ⟨fun a b => funext fun d => d.elim0⟩

/-! ## The ids, for any float values -/

section Ids
variable {F : FTy → Type} [FloatOps F]

/-- Every id is between 0 and 999999 as a signed word. -/
theorem ids_range (a0 : IVec S4096x200 32) (a1 : FVec F S20000x128 .f32) (a2 : FVec F S80000x32 .f32)
    (a3 : FVec F S900000x8 .f32) (a4 : FVec F S128x128 .f32) (a5 : FVec F S128x32 .f32) (a6 : FVec F S128x8 .f32)
    (h : fn (F := F) a0 a1 a2 a3 a4 a5 a6 = fun _ => 1#1) (i : S4096x200.Idx) :
    0 ≤ (a0 i).toInt ∧ (a0 i).toInt ≤ 999999 := by
  have h0 := congrFun h ix0
  dsimp only [fn, fn_part1, fn_part2] at h0
  obtain ⟨_, h7⟩ := IntOp.andi_eq_one.1 h0
  have e := Host.reduce_andi_all _ _ _ _ _ h7 i
  obtain ⟨e1, e2⟩ := IntOp.andi_eq_one.1 e
  have e1' : (0#32 : BitVec 32).toInt ≤ (a0 i).toInt := IntOp.cmpi_sge.1 e1
  have e2' : (a0 i).toInt ≤ (999999#32 : BitVec 32).toInt := IntOp.cmpi_sle.1 e2
  have z0 : (0#32 : BitVec 32).toInt = 0 := by decide
  have z1 : (999999#32 : BitVec 32).toInt = 999999 := by decide
  rw [z0] at e1'
  rw [z1] at e2'
  exact ⟨e1', e2'⟩

/-- So its unsigned reading is at most 999999 … -/
theorem ids_toNat_le (a0 : IVec S4096x200 32) (a1 : FVec F S20000x128 .f32) (a2 : FVec F S80000x32 .f32)
    (a3 : FVec F S900000x8 .f32) (a4 : FVec F S128x128 .f32) (a5 : FVec F S128x32 .f32) (a6 : FVec F S128x8 .f32)
    (h : fn (F := F) a0 a1 a2 a3 a4 a5 a6 = fun _ => 1#1) (i : S4096x200.Idx) :
    (a0 i).toNat ≤ 999999 := by
  obtain ⟨h1, h2⟩ := ids_range a0 a1 a2 a3 a4 a5 a6 h i
  have hc := BitVec.toInt_eq_toNat_cond (a0 i)
  have hlt := (a0 i).isLt
  split at hc <;> omega

/-- … and is the signed reading. -/
theorem ids_toInt_eq (a0 : IVec S4096x200 32) (a1 : FVec F S20000x128 .f32) (a2 : FVec F S80000x32 .f32)
    (a3 : FVec F S900000x8 .f32) (a4 : FVec F S128x128 .f32) (a5 : FVec F S128x32 .f32) (a6 : FVec F S128x8 .f32)
    (h : fn (F := F) a0 a1 a2 a3 a4 a5 a6 = fun _ => 1#1) (i : S4096x200.Idx) :
    (a0 i).toInt = ((a0 i).toNat : Int) := by
  obtain ⟨h1, h2⟩ := ids_range a0 a1 a2 a3 a4 a5 a6 h i
  have hc := BitVec.toInt_eq_toNat_cond (a0 i)
  have hlt := (a0 i).isLt
  split at hc <;> omega

end Ids

/-! ## The float arrays, at the extended reals -/

/-- Every entry of every float argument is a real number. -/
theorem entries_real (a0 : IVec S4096x200 32) (a1 : FVec Ideal S20000x128 .f32) (a2 : FVec Ideal S80000x32 .f32)
    (a3 : FVec Ideal S900000x8 .f32) (a4 : FVec Ideal S128x128 .f32) (a5 : FVec Ideal S128x32 .f32)
    (a6 : FVec Ideal S128x8 .f32) (h : fn (F := Ideal) a0 a1 a2 a3 a4 a5 a6 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have h0 := congrFun h ix0
  dsimp only [fn, fn_part1, fn_part2] at h0
  obtain ⟨h0, _⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun i => Cert.Lib.FiniteEntry.real_of_cmp_abs_lt_pinf (a1 i) (Host.reduce_andi_all _ _ _ _ _ h1 i),
    fun i => Cert.Lib.FiniteEntry.real_of_cmp_abs_lt_pinf (a2 i) (Host.reduce_andi_all _ _ _ _ _ h2 i),
    fun i => Cert.Lib.FiniteEntry.real_of_cmp_abs_lt_pinf (a3 i) (Host.reduce_andi_all _ _ _ _ _ h3 i),
    fun i => Cert.Lib.FiniteEntry.real_of_cmp_abs_lt_pinf (a4 i) (Host.reduce_andi_all _ _ _ _ _ h4 i),
    fun i => Cert.Lib.FiniteEntry.real_of_cmp_abs_lt_pinf (a5 i) (Host.reduce_andi_all _ _ _ _ _ h5 i),
    fun i => Cert.Lib.FiniteEntry.real_of_cmp_abs_lt_pinf (a6 i) (Host.reduce_andi_all _ _ _ _ _ h6 i)⟩

end Cert.PreFacts

end
-- ==== Proof.KernelHand.Frame.lean ====
/-
  The kernel's frame from its run: under the precondition every id names a row of the table, so the run applies; its
  arguments end unchanged.
-/
import proofs.«202745_g55851754717770_cont_9to1_m_910_12_alg».proof.Proof.KernelHand.Reads
import proofs.«202745_g55851754717770_cont_9to1_m_910_12_alg».proof.Proof.PreFacts

noncomputable section

namespace Cert.Kernel.Hand

open Cert.Kernel Cert.Kernel.Gen

open Idealize.ShloMosaic
open Idealize.ShloMosaic.SparseCore (S V T)
open Idealize.SL.Sem

variable {F : FTy → Type}

variable (m : (ℓ : Loc nD τ sig) → Buf (Elt F) ℓ) (ρ : Dev nD → PrngReg)

variable [FloatOps F] [Cert.Pre_input_domain.Facts]

/-- The precondition, at the instance `F`, of the launch memory's arguments. -/
def PreAt : Prop :=
  ∀ c : Dev nD, (Cert.Pre_input_domain.fn (F := F) (m ((SparseCore.T c).loc main_arg0)) (m ((SparseCore.T c).loc main_arg1)) (m ((SparseCore.T c).loc main_arg2))
    (m ((SparseCore.T c).loc main_arg3)) (m ((SparseCore.T c).loc main_arg4)) (m ((SparseCore.T c).loc main_arg5)) (m ((SparseCore.T c).loc main_arg6))) = (fun _ => 1#1)

/-- Under the precondition every flattened id names a row of the table. -/
theorem hin_of_pre (hpre : PreAt m) : ∀ (d : Dev nD) (r : S819200.Idx), (idsOf m d r : BitVec 32).toNat < 1000000 := by
  intro d r
  obtain ⟨i, hi⟩ := idsOf_mem m d r
  rw [hi]
  exact Nat.lt_succ_of_le (Cert.PreFacts.ids_toNat_le _ _ _ _ _ _ _ (hpre d) i)

/-- The run, from the precondition. -/
theorem run_of_pre [∀ e, Nonempty (Elt F e)] (htb : TileBodyStmt (F := F)) (htr : TableRegionStmt (F := F)) (hpre : PreAt m) :
    θ_run (Cert.Kernel.defs (F := F)) (Cert.Kernel.threads (F := F)) ⟨m, fun _ => 0, ρ⟩ (QC m) :=
  run_main m ρ htb htr (hin_of_pre m hpre)

end Cert.Kernel.Hand

end
-- ==== Proof.KernelHand.TableBody.lean ====
/-
  The body of the TensorCore call at a symbolic grid point, in each of the three cases its conditions on the point
  distinguish: exactly one product is computed and stored over the whole result block.
-/
import proofs.«202745_g55851754717770_cont_9to1_m_910_12_alg».proof.Proof.KernelHand.Common
import Idealize.ShloMosaic.Lib.Pipeline.FrameBody
import Idealize.ShloMosaic.Lib.Pipeline.Value
import Idealize.ShloMosaic.Lib.Tactic

set_option maxRecDepth 16384

noncomputable section

namespace Cert.Kernel.Hand.Table

open Cert.Kernel.Hand

open Cert.Kernel Cert.Kernel.Gen
open Idealize.ShloMosaic Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The zero offsets of a whole-buffer load or store. -/
theorem zero2 : (![0, 0] : Fin 2 → ℕ) = fun _ => 0 := by
  funext a; match a with | ⟨0, _⟩ => rfl | ⟨1, _⟩ => rfl

/-- The body at a grid point in the first case: it loads the two operands' staging buffers whole, multiplies, and stores
    the product over the whole result buffer; the other buffers are not touched. -/
theorem run_case1 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : k0_cond1 i = 1#1) (h2 : ¬k0_cond2 i = 1#1) (h3 : ¬k0_cond3 i = 1#1)
    (x : Vec F S20000x128 .bf16) (y : Vec F S128x128 .bf16) (E : Set ℕ) (K : PUnit → sProp 𝕄) :
    iprop(owns (SparseCore.T d) arg1 fullShare x ∗ owns (SparseCore.T d) arg4 fullShare y ∗ (∃ e, owns (SparseCore.T d) arg7 fullShare e)
        ∗ (iprop(owns (SparseCore.T d) arg1 fullShare x ∗ owns (SparseCore.T d) arg4 fullShare y
            ∗ owns (SparseCore.T d) arg7 fullShare (k0_pay1 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg1.eq_unread hfx
  obtain rfl := harg4.eq_unread hfy
  sl_exec (disch := first | exact h1 | exact h2 | exact h3)
  sl_step
  iapply Hk
  isplitl [Hx]
  · iexists _; isplitr; · ipureintro; exact harg1.read_unread _
    iexact Hx
  isplitl [Hy]
  · iexists _; isplitr; · ipureintro; exact harg4.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg1.read_unread, harg4.read_unread]
  exact congrArg₂ k0_pay1 (View.ld_unit_zero (S := S20000x128) zero2 _ x) (View.ld_unit_zero (S := S128x128) zero2 _ y)

/-- The body at a grid point in the second case: it loads the two operands' staging buffers whole, multiplies, and stores
    the product over the whole result buffer; the other buffers are not touched. -/
theorem run_case2 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : ¬k0_cond1 i = 1#1) (h2 : k0_cond2 i = 1#1) (h3 : ¬k0_cond3 i = 1#1)
    (x : Vec F S20000x32 .bf16) (y : Vec F S32x128 .bf16) (E : Set ℕ) (K : PUnit → sProp 𝕄) :
    iprop(owns (SparseCore.T d) arg2 fullShare x ∗ owns (SparseCore.T d) arg5 fullShare y ∗ (∃ e, owns (SparseCore.T d) arg7 fullShare e)
        ∗ (iprop(owns (SparseCore.T d) arg2 fullShare x ∗ owns (SparseCore.T d) arg5 fullShare y
            ∗ owns (SparseCore.T d) arg7 fullShare (k0_pay2 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg2.eq_unread hfx
  obtain rfl := harg5.eq_unread hfy
  sl_exec (disch := first | exact h1 | exact h2 | exact h3)
  sl_step
  iapply Hk
  isplitl [Hx]
  · iexists _; isplitr; · ipureintro; exact harg2.read_unread _
    iexact Hx
  isplitl [Hy]
  · iexists _; isplitr; · ipureintro; exact harg5.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg2.read_unread, harg5.read_unread]
  exact congrArg₂ k0_pay2 (View.ld_unit_zero (S := S20000x32) zero2 _ x) (View.ld_unit_zero (S := S32x128) zero2 _ y)

/-- The body at a grid point in the third case: it loads the two operands' staging buffers whole, multiplies, and stores
    the product over the whole result buffer; the other buffers are not touched. -/
theorem run_case3 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : ¬k0_cond1 i = 1#1) (h2 : ¬k0_cond2 i = 1#1) (h3 : k0_cond3 i = 1#1)
    (x : Vec F S20000x8 .bf16) (y : Vec F S8x128 .bf16) (E : Set ℕ) (K : PUnit → sProp 𝕄) :
    iprop(owns (SparseCore.T d) arg3 fullShare x ∗ owns (SparseCore.T d) arg6 fullShare y ∗ (∃ e, owns (SparseCore.T d) arg7 fullShare e)
        ∗ (iprop(owns (SparseCore.T d) arg3 fullShare x ∗ owns (SparseCore.T d) arg6 fullShare y
            ∗ owns (SparseCore.T d) arg7 fullShare (k0_pay3 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg3.eq_unread hfx
  obtain rfl := harg6.eq_unread hfy
  sl_exec (disch := first | exact h1 | exact h2 | exact h3)
  sl_step
  iapply Hk
  isplitl [Hx]
  · iexists _; isplitr; · ipureintro; exact harg3.read_unread _
    iexact Hx
  isplitl [Hy]
  · iexists _; isplitr; · ipureintro; exact harg6.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg3.read_unread, harg6.read_unread]
  exact congrArg₂ k0_pay3 (View.ld_unit_zero (S := S20000x8) zero2 _ x) (View.ld_unit_zero (S := S8x128) zero2 _ y)

end Cert.Kernel.Hand.Table

end
-- ==== Proof.KernelHand.TableRegionData.lean ====
/-
  The TensorCore call as a whole: the pipeline's proof data (what each staging buffer holds after the body at each
  grid point: an operand's buffer its block, the result's buffer the product the point's condition selects), the body
  obligation at a symbolic point by the three cases, and the region entered from the thread state of the whole
  program's main proof.
-/
import proofs.«202745_g55851754717770_cont_9to1_m_910_12_alg».proof.Proof.KernelHand.TableStmt
import proofs.«202745_g55851754717770_cont_9to1_m_910_12_alg».proof.Proof.KernelHand.TableBody
import Idealize.ShloMosaic.Lib.Pipeline.Regions
import Idealize.ShloMosaic.Lib.Pipeline.FrameBody
import Idealize.ShloMosaic.Lib.Pipeline.Value

set_option maxRecDepth 16384

noncomputable section

namespace Cert.Kernel.Hand.Table

open Cert.Kernel.Hand

open Cert.Kernel Cert.Kernel.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The conditions over the grid -/

/-- At every grid point exactly one of the body's three conditions holds. -/
theorem cond_cases : ∀ t : Fin cfg0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) :=
  (by decide +kernel : ∀ t : Fin grid0.N, _)

/-- So the result's window is idle nowhere: every point stores into it. -/
theorem live6 : ∀ t : Fin cfg0.N, cfg0.idle 6 (grid0.coords t) = false :=
  (by decide +kernel : ∀ t : Fin grid0.N, idle0 6 (grid0.coords t) = false)

/-! ## The proof data -/

variable (a0 : S20000x128.Idx → Elt F .bf16) (a1 : S80000x32.Idx → Elt F .bf16) (a2 : S900000x8.Idx → Elt F .bf16)
  (a3 : S128x128.Idx → Elt F .bf16) (a4 : S32x128.Idx → Elt F .bf16) (a5 : S8x128.Idx → Elt F .bf16)
  (f15 : S1000000x128.Idx → Elt F .f32)
  (O : CellTallies nD τ sig (HIx 1)) (B : Set (SemLoc sig × HIx 1))

/-- The windows' arrays as the region finds them. -/
def arrs (c : Dev nD) : (w : Fin cfg0.W) → Buf (Elt F) ((cfg0.win w).arr.view.loc (SparseCore.T (τ := τ) c))
  | ⟨0, _⟩ => a0 | ⟨1, _⟩ => a1 | ⟨2, _⟩ => a2 | ⟨3, _⟩ => a3 | ⟨4, _⟩ => a4 | ⟨5, _⟩ => a5 | ⟨6, _⟩ => f15
  | ⟨_ + 7, h⟩ => absurd h (Nat.not_lt.2 (Nat.le_add_left _ _))

/-- The proof data of the pipeline on core `c`: after the body at point `t` each operand's buffer holds its block and
    the result's the product the point's condition selects; the invariant is the scoped buffers no window stages;
    the core owes `O` throughout, its recorded pairs within `B`. -/
def dat (c : Dev nD) : Dat τ (Elt F) (HIx 1) ℕ UU ℕ cfg0 c where
  A := arrs a0 a1 a2 a3 a4 a5 f15 c
  after w t := match w with
    | ⟨0, _⟩ => (win0_0.blk t).view.read (Elt F) a0
    | ⟨1, _⟩ => (win0_1.blk t).view.read (Elt F) a1
    | ⟨2, _⟩ => (win0_2.blk t).view.read (Elt F) a2
    | ⟨3, _⟩ => (win0_3.blk t).view.read (Elt F) a3
    | ⟨4, _⟩ => (win0_4.blk t).view.read (Elt F) a4
    | ⟨5, _⟩ => (win0_5.blk t).view.read (Elt F) a5
    | ⟨6, _⟩ => tblBlock t a0 a1 a2 a3 a4 a5
    | ⟨_ + 7, h⟩ => absurd h (Nat.not_lt.2 (Nat.le_add_left _ _))
  Φ _ := Pipeline.scopedRest spec0 c
  q _ := fullShare
  owed _ := O
  recorded _ := B

local notation "𝔡" => dat a0 a1 a2 a3 a4 a5 f15 O B

theorem after_0 (c : Dev nD) (t : Fin cfg0.N) : (𝔡 c).after 0 t = (win0_0.blk t).view.read (Elt F) a0 := by dsimp only [dat]
theorem after_1 (c : Dev nD) (t : Fin cfg0.N) : (𝔡 c).after 1 t = (win0_1.blk t).view.read (Elt F) a1 := by dsimp only [dat]
theorem after_2 (c : Dev nD) (t : Fin cfg0.N) : (𝔡 c).after 2 t = (win0_2.blk t).view.read (Elt F) a2 := by dsimp only [dat]
theorem after_3 (c : Dev nD) (t : Fin cfg0.N) : (𝔡 c).after 3 t = (win0_3.blk t).view.read (Elt F) a3 := by dsimp only [dat]
theorem after_4 (c : Dev nD) (t : Fin cfg0.N) : (𝔡 c).after 4 t = (win0_4.blk t).view.read (Elt F) a4 := by dsimp only [dat]
theorem after_5 (c : Dev nD) (t : Fin cfg0.N) : (𝔡 c).after 5 t = (win0_5.blk t).view.read (Elt F) a5 := by dsimp only [dat]
theorem after_6 (c : Dev nD) (t : Fin cfg0.N) : (𝔡 c).after 6 t = tblBlock t a0 a1 a2 a3 a4 a5 := by dsimp only [dat]

/-- Each operand's current staging buffer holds its block at every point, fetched there or not. -/
theorem before_0 (c : Dev nD) (t : Fin cfg0.N) (e) : (𝔡 c).before 0 t e = (win0_0.blk t).view.read (Elt F) a0 :=
  ((𝔡 c).before_in_eq_fetched 0 rfl (fun _ => rfl) (fun _ _ _ => rfl) (fun t => by rw [after_0]; rfl) t e).trans rfl
theorem before_1 (c : Dev nD) (t : Fin cfg0.N) (e) : (𝔡 c).before 1 t e = (win0_1.blk t).view.read (Elt F) a1 :=
  ((𝔡 c).before_in_eq_fetched 1 rfl (fun _ => rfl) (fun _ _ _ => rfl) (fun t => by rw [after_1]; rfl) t e).trans rfl
theorem before_2 (c : Dev nD) (t : Fin cfg0.N) (e) : (𝔡 c).before 2 t e = (win0_2.blk t).view.read (Elt F) a2 :=
  ((𝔡 c).before_in_eq_fetched 2 rfl (fun _ => rfl) (fun _ _ _ => rfl) (fun t => by rw [after_2]; rfl) t e).trans rfl
theorem before_3 (c : Dev nD) (t : Fin cfg0.N) (e) : (𝔡 c).before 3 t e = (win0_3.blk t).view.read (Elt F) a3 :=
  ((𝔡 c).before_in_eq_fetched 3 rfl (fun _ => rfl) (fun _ _ _ => rfl) (fun t => by rw [after_3]; rfl) t e).trans rfl
theorem before_4 (c : Dev nD) (t : Fin cfg0.N) (e) : (𝔡 c).before 4 t e = (win0_4.blk t).view.read (Elt F) a4 :=
  ((𝔡 c).before_in_eq_fetched 4 rfl (fun _ => rfl) (fun _ _ _ => rfl) (fun t => by rw [after_4]; rfl) t e).trans rfl
theorem before_5 (c : Dev nD) (t : Fin cfg0.N) (e) : (𝔡 c).before 5 t e = (win0_5.blk t).view.read (Elt F) a5 :=
  ((𝔡 c).before_in_eq_fetched 5 rfl (fun _ => rfl) (fun _ _ _ => rfl) (fun t => by rw [after_5]; rfl) t e).trans rfl

/-! ## The body obligation, at a symbolic point -/

/-- What the body is called with at point `t`, the windows one by one, -/
def bodyPre (c : Dev nD) (t : Fin cfg0.N) : sProp 𝕄 :=
  iprop((𝔡 c).Φ t.castSucc ∗ (𝔡 c).owesAt none t.castSucc
    ∗ (∃ e, owns (c : Thread nD τ) (st0_0 t) fullShare ((𝔡 c).before 0 t e))
    ∗ (∃ e, owns (c : Thread nD τ) (st0_1 t) fullShare ((𝔡 c).before 1 t e))
    ∗ (∃ e, owns (c : Thread nD τ) (st0_2 t) fullShare ((𝔡 c).before 2 t e))
    ∗ (∃ e, owns (c : Thread nD τ) (st0_3 t) fullShare ((𝔡 c).before 3 t e))
    ∗ (∃ e, owns (c : Thread nD τ) (st0_4 t) fullShare ((𝔡 c).before 4 t e))
    ∗ (∃ e, owns (c : Thread nD τ) (st0_5 t) fullShare ((𝔡 c).before 5 t e))
    ∗ (∃ e, owns (c : Thread nD τ) (st0_6 t) fullShare ((𝔡 c).before 6 t e)))

/-- and what it returns. -/
def bodyPost (c : Dev nD) (t : Fin cfg0.N) : sProp 𝕄 :=
  iprop((𝔡 c).Φ t.succ ∗ (𝔡 c).owesAt none t.succ
    ∗ (𝔡 c).leavesExact 0 t ∗ (𝔡 c).leavesExact 1 t ∗ (𝔡 c).leavesExact 2 t ∗ (𝔡 c).leavesExact 3 t
    ∗ (𝔡 c).leavesExact 4 t ∗ (𝔡 c).leavesExact 5 t ∗ (𝔡 c).leavesExact 6 t)

set_option maxHeartbeats 1600000 in
/-- The body at any point: the operands' buffers hold their blocks; exactly one condition holds, and in that case the
    body stores the selected product over the result's buffer and touches nothing else; the invariant and what the
    core owes pass through unread. -/
theorem sound_body (c : Dev nD) (t : Fin cfg0.N) :
    bodyPre a0 a1 a2 a3 a4 a5 f15 O B c t
      ⊢ wp frame (wpE (defs₀ (F := F)) Variants.none (c : Thread nD τ) none) Set.univ (bodyAt0 t)
          (fun _ => bodyPost a0 a1 a2 a3 a4 a5 f15 O B c t) := by
  unfold bodyPre bodyPost bodyAt0
  simp only [before_0, before_1, before_2, before_3, before_4, before_5]
  rw [show (𝔡 c).Φ t.succ = (𝔡 c).Φ t.castSucc from rfl,
    show (𝔡 c).owesAt none t.succ = (𝔡 c).owesAt none t.castSucc from rfl]
  rw [show (𝔡 c).leavesExact 0 t = owns (c : Thread nD τ) (st0_0 t) fullShare ((𝔡 c).after 0 t) from rfl, after_0,
    show (𝔡 c).leavesExact 1 t = owns (c : Thread nD τ) (st0_1 t) fullShare ((𝔡 c).after 1 t) from rfl, after_1,
    show (𝔡 c).leavesExact 2 t = owns (c : Thread nD τ) (st0_2 t) fullShare ((𝔡 c).after 2 t) from rfl, after_2,
    show (𝔡 c).leavesExact 3 t = owns (c : Thread nD τ) (st0_3 t) fullShare ((𝔡 c).after 3 t) from rfl, after_3,
    show (𝔡 c).leavesExact 4 t = owns (c : Thread nD τ) (st0_4 t) fullShare ((𝔡 c).after 4 t) from rfl, after_4,
    show (𝔡 c).leavesExact 5 t = owns (c : Thread nD τ) (st0_5 t) fullShare ((𝔡 c).after 5 t) from rfl, after_5]
  rw [show (𝔡 c).leavesExact 6 t = owns (c : Thread nD τ) (st0_6 t) fullShare ((𝔡 c).after 6 t) from by
    unfold Dat.leavesExact; rw [live6 t], after_6]
  rcases cond_cases t with ⟨h1, h2, h3⟩ | ⟨h1, h2, h3⟩ | ⟨h1, h2, h3⟩
  · have e : tblBlock t a0 a1 a2 a3 a4 a5 = k0_pay1 ((win0_0.blk t).view.read (Elt F) a0) ((win0_3.blk t).view.read (Elt F) a3) := by
      unfold tblBlock; rw [if_pos h1]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case1 c (grid0.coords t) _ _ _ _ _ _ _ _ _ _ _ _ _ _ h1 h2 h3 _ _ Set.univ _)
    isplitl [H0]; · iexact H0
    isplitl [H3]; · iexact H3
    isplitl [H6]; · iexists _; iexact H6
    iintro ⟨H0, H3, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e : tblBlock t a0 a1 a2 a3 a4 a5 = k0_pay2 ((win0_1.blk t).view.read (Elt F) a1) ((win0_4.blk t).view.read (Elt F) a4) := by
      unfold tblBlock; rw [if_neg h1, if_pos h2]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case2 c (grid0.coords t) _ _ _ _ _ _ _ _ _ _ _ _ _ _ h1 h2 h3 _ _ Set.univ _)
    isplitl [H1]; · iexact H1
    isplitl [H4]; · iexact H4
    isplitl [H6]; · iexists _; iexact H6
    iintro ⟨H1, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e : tblBlock t a0 a1 a2 a3 a4 a5 = k0_pay3 ((win0_2.blk t).view.read (Elt F) a2) ((win0_5.blk t).view.read (Elt F) a5) := by
      unfold tblBlock; rw [if_neg h1, if_neg h2]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case3 c (grid0.coords t) _ _ _ _ _ _ _ _ _ _ _ _ _ _ h1 h2 h3 _ _ Set.univ _)
    isplitl [H2]; · iexact H2
    isplitl [H5]; · iexact H5
    isplitl [H6]; · iexists _; iexact H6
    iintro ⟨H2, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (𝔡 c) (defs₀ (F := F)) Variants.none none Set.univ := fun t => by
  rw [bigSep_W0, bigSep_W0]
  exact sound_body a0 a1 a2 a3 a4 a5 f15 O B c t

/-! ## What the result's array ends holding -/

/-- The result's window at point `t` is block `t` of the rows, all the columns. -/
theorem idx6 : ∀ t : Fin cfg0.N, win0_6.index t (0 : Fin 2) = t.val ∧ win0_6.index t (1 : Fin 2) = 0 :=
  (by decide +kernel : ∀ t : Fin grid0.N, _)

/-- The table at an index of row block `t` is what point `t` writes there. -/
theorem tableOf_at (t : Fin grid0.N) (y : S20000x128.Idx) (i : S1000000x128.Idx)
    (h0 : (i 0).val = t.val * 20000 + (y 0).val) (h1 : (i 1).val = (y 1).val) :
    tableOf a0 a1 a2 a3 a4 a5 i = tblBlock t a0 a1 a2 a3 a4 a5 y := by
  have hy0 : (y 0).val < 20000 := (y 0).isLt
  unfold tableOf
  have ht : (⟨(i 0).val / 20000, by rw [N_0]; have := ValueIdx.idx2_lt0 i; omega⟩ : Fin grid0.N) = t :=
    Fin.ext (by show (i 0).val / 20000 = t.val; omega)
  have hy : ValueIdx.ix2 (⟨(i 0).val % 20000, Nat.mod_lt _ (by decide)⟩ : Fin 20000) (i 1) = y := by
    funext a
    match a with
    | ⟨0, _⟩ => exact Fin.ext (by show (i 0).val % 20000 = (y 0).val; omega)
    | ⟨1, _⟩ => exact Fin.ext h1
  exact congr (congrArg (fun s => tblBlock s a0 a1 a2 a3 a4 a5) ht) hy

/-- WHAT POINT `t` WRITES BACK is block `t` of the table. -/
theorem flushed6_eq (c : Dev nD) (t : Fin cfg0.N) :
    (𝔡 c).flushed 6 t = ((cfg0.win 6).blk t).view.read (Elt F) (tableOf a0 a1 a2 a3 a4 a5) := by
  show (cfg0.win 6).cut (grid0.coords t) ((𝔡 c).after 6 t) = _
  rw [after_6]
  obtain ⟨e0, e1⟩ := idx6 t
  funext y
  show tblBlock t a0 a1 a2 a3 a4 a5 y = tableOf a0 a1 a2 a3 a4 a5 (((cfg0.win 6).blk t).view.emb y)
  refine (tableOf_at a0 a1 a2 a3 a4 a5 t y _ ?_ ?_).symm
  · show win0_6.index t (0 : Fin 2) * 20000 + 1 * (y 0).val = _; rw [e0]; omega
  · show win0_6.index t (1 : Fin 2) * 128 + 1 * (y 1).val = _; rw [e1]; omega

/-- An index of the array is in point `t`'s block iff each coordinate is in the block's range on its axis. -/
theorem mem_blk6 (t : Fin cfg0.N) (i : S1000000x128.Idx) :
    i ∈ ((cfg0.win 6).blk t).view.set ↔ ∀ a : Fin 2, win0_6.index t a * S20000x128.size a ≤ (i a).val ∧ (i a).val < win0_6.index t a * S20000x128.size a + S20000x128.size a := by
  show i ∈ ((View.whole main_v15).slice (win0_6.rect t)).set ↔ _
  rw [View.set_slice_whole, Rect.mem_set_unit]
  exact Iff.rfl

/-- Every row of the table is in the block of the point its number divided by 20000 names. -/
theorem cover6 (i : S1000000x128.Idx) : ∃ t : Fin cfg0.N, (cfg0.win 6).flush t = true ∧ i ∈ ((cfg0.win 6).blk t).view.set := by
  have hi0 : (i 0).val < 1000000 := (i 0).isLt
  have hi1 : (i 1).val < 128 := (i 1).isLt
  have hN : (i 0).val / 20000 < grid0.N := by rw [N_0]; omega
  obtain ⟨e0, e1⟩ := idx6 ⟨(i 0).val / 20000, hN⟩
  refine ⟨⟨(i 0).val / 20000, hN⟩, flush0_6 _, ?_⟩
  rw [mem_blk6]
  intro a
  match a with
  | ⟨0, _⟩ =>
    show win0_6.index ⟨(i 0).val / 20000, hN⟩ (0 : Fin 2) * 20000 ≤ (i 0).val ∧ (i 0).val < win0_6.index ⟨(i 0).val / 20000, hN⟩ (0 : Fin 2) * 20000 + 20000
    rw [e0]; show (i 0).val / 20000 * 20000 ≤ (i 0).val ∧ (i 0).val < (i 0).val / 20000 * 20000 + 20000; omega
  | ⟨1, _⟩ =>
    show win0_6.index ⟨(i 0).val / 20000, hN⟩ (1 : Fin 2) * 128 ≤ (i 1).val ∧ (i 1).val < win0_6.index ⟨(i 0).val / 20000, hN⟩ (1 : Fin 2) * 128 + 128
    rw [e1]; omega

/-- THE ARRAY after the run: the table. -/
theorem final6 (c : Dev nD) : (𝔡 c).arrAt 6 cfg0.N = tableOf a0 a1 a2 a3 a4 a5 :=
  (𝔡 c).arrAt_eq_of_cover 6 (tableOf a0 a1 a2 a3 a4 a5) (fun t _ => flushed6_eq a0 a1 a2 a3 a4 a5 f15 O B c t) cover6

/-! ## The region, entered from the main proof's thread state -/

/-- The windows' arrays at contents `G w` are the seven points-to. -/
theorem arrays_entry (c : Dev nD) :
    ((𝔡 c).arrays ((𝔡 c).arrAt · 0) : sProp 𝕄)
      = iprop(((((c : Thread nD τ)).loc main_v0) ↦{fullShare} a0) ∗ ((((c : Thread nD τ)).loc main_v1) ↦{fullShare} a1)
          ∗ ((((c : Thread nD τ)).loc main_v2) ↦{fullShare} a2) ∗ ((((c : Thread nD τ)).loc main_v6) ↦{fullShare} a3)
          ∗ ((((c : Thread nD τ)).loc main_v10) ↦{fullShare} a4) ∗ ((((c : Thread nD τ)).loc main_v14) ↦{fullShare} a5)
          ∗ ((((c : Thread nD τ)).loc main_v15) ↦{fullShare} f15)) := by
  rw [Pipeline.arrays_eq (fun _ : Fin 1 => cfg0) (fun _ c => 𝔡 c) 0 c arr_whole0 ((𝔡 c).share_full fun _ => rfl), bigSep_W0]
  rfl

theorem arrays_exit (c : Dev nD) :
    ((𝔡 c).arrays ((𝔡 c).arrAt · cfg0.N) : sProp 𝕄)
      = iprop(((((c : Thread nD τ)).loc main_v0) ↦{fullShare} a0) ∗ ((((c : Thread nD τ)).loc main_v1) ↦{fullShare} a1)
          ∗ ((((c : Thread nD τ)).loc main_v2) ↦{fullShare} a2) ∗ ((((c : Thread nD τ)).loc main_v6) ↦{fullShare} a3)
          ∗ ((((c : Thread nD τ)).loc main_v10) ↦{fullShare} a4) ∗ ((((c : Thread nD τ)).loc main_v14) ↦{fullShare} a5)
          ∗ ((((c : Thread nD τ)).loc main_v15) ↦{fullShare} tableOf a0 a1 a2 a3 a4 a5)) := by
  rw [Pipeline.arrays_eq (fun _ : Fin 1 => cfg0) (fun _ c => 𝔡 c) 0 c arr_whole0 ((𝔡 c).share_full fun _ => rfl), bigSep_W0]
  dsimp only
  rw [(𝔡 c).arrAt_in 0 rfl, (𝔡 c).arrAt_in 1 rfl, (𝔡 c).arrAt_in 2 rfl, (𝔡 c).arrAt_in 3 rfl, (𝔡 c).arrAt_in 4 rfl,
    (𝔡 c).arrAt_in 5 rfl, final6]
  rfl

/-- The call prefetches no table. -/
theorem bigSep_fin0 {M : Type} [URA M] (Ψ : Fin 0 → sProp M) : bigSep Finset.univ Ψ = (BI.emp : sProp M) :=
  bigSep_univ_eq_bigSepL [] (by decide) (by decide) Ψ
theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

/-- The pipelines' proof data: the program has the one. -/
def pdats (p : Fin 1) (c : Dev nD) : Dat τ (Elt F) (HIx 1) ℕ UU ℕ (pcsPin (F := F) p) c := 𝔡 c

/-- The thread state the region is entered from: the operands and the result array whole, and what the core owes with
    its recorded pairs within `B`; -/
def regPre (c : Dev nD) : sProp 𝕄 :=
  iprop(tableOperands c a0 a1 a2 a3 a4 a5 ∗ ((((c : Thread nD τ)).loc main_v15) ↦{fullShare} f15) ∗ Pipeline.owesWithin c O B)
/-- and the one it leaves: the result array at the table, the pipeline's own waits recorded too. -/
def regPost (c : Dev nD) : sProp 𝕄 :=
  iprop(tableOperands c a0 a1 a2 a3 a4 a5 ∗ ((((c : Thread nD τ)).loc main_v15) ↦{fullShare} tableOf a0 a1 a2 a3 a4 a5)
    ∗ Pipeline.owesWithin c O (B ∪ cfg0.waitPairs none))

/-- The region's record: the layout the launch decides, no semaphore of the kernel's own, the body obligation, the
    wait evidence (the pipeline waits at index `none`, below everything the core owes), and the four entailments
    between the thread states and the pipeline's invariant. -/
def reg (hO : ∀ g, O g none = 0) :
    Pipeline.RegionSeg (pcfgs (F := F)) adm (pdats a0 a1 a2 a3 a4 a5 f15 O B) none defs₀ Variants.none
      (Hand.K (F := F)).L (Hand.K (F := F)).lev 0 where
  win := launch0.win.to₀
  block_pos := block_pos0
  stage_whole := stage_whole0
  K := PEmpty
  osem k := k.elim
  ho := Pipeline.OwnSemFacts.none _
  hbody c := (body_obligation a0 a1 a2 a3 a4 a5 f15 O B c).loose
  hwaits c := Pipeline.cellsWaits_intro _ _ _ _ _ fun w s t => (Hand.K (F := F)).mayWait_none _ hO
  pre := regPre a0 a1 a2 a3 a4 a5 f15 O B
  post := regPost a0 a1 a2 a3 a4 a5 O B
  X _ := BI.emp
  Y _ := BI.emp
  Z _ := BI.emp
  hentry c := by
    rw [Pipeline.ownSems0_none, prefHeld_none]
    show iprop(regPre a0 a1 a2 a3 a4 a5 f15 O B c ∗ BI.emp ∗ _) ⊢ iprop(|={Set.univ}=> ((𝔡 c).arrays ((𝔡 c).arrAt · 0) ∗ BI.emp ∗ (𝔡 c).owesAt none 0 ∗ BI.emp ∗ BI.emp))
    rw [arrays_entry]
    unfold regPre tableOperands
    iintro ⟨⟨⟨H0, H1, H2, H3, H4, H5⟩, H6, ⟨%W₀, %hW₀, HO⟩⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · iempintro
    isplitl [HO]
    · iexists W₀; isplitr; · ipureintro; exact fun p hp => Or.inl (hW₀ hp)
      iexact HO
    isplitr <;> iempintro
  hin c := by
    show iprop(BI.emp ∗ _ ∗ Pipeline.scopedRest spec0 c) ⊢ Pipeline.scopedRest spec0 c
    iintro ⟨-, -, H⟩; iexact H
  hout c := by
    rw [Pipeline.ownSems0_none]
    show Pipeline.scopedRest spec0 c ⊢ iprop(BI.emp ∗ BI.emp ∗ Pipeline.scopedRest spec0 c)
    iintro H
    isplitr; · iempintro
    isplitr; · iempintro
    iexact H
  hexit c := by
    show iprop((𝔡 c).arrays ((𝔡 c).arrAt · cfg0.N) ∗ (𝔡 c).owesAt none (Fin.last cfg0.N) ∗ BI.emp ∗ BI.emp) ⊢ iprop(|={Set.univ}=> regPost a0 a1 a2 a3 a4 a5 O B c)
    rw [arrays_exit]
    unfold regPost tableOperands
    iintro ⟨⟨H0, H1, H2, H3, H4, H5, H6⟩, HO, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iexact HO

end Cert.Kernel.Hand.Table

end
-- ==== Proof.KernelHand.TableRegion.lean ====
/-
  The TensorCore call from the main proof's thread state. In the whole program the call is the pipeline's entry lifted
  to the launch's extended body table, so a proof about the entry under the pipeline's own table is a proof about the
  call; the region rule runs the entry from the operands, the result array and what the core owes, and hands them back
  with the result array at the table. The waits the pipeline itself records are on its staging semaphores at index
  `none`, which is what the statement promises of the recorded pairs.
-/
import proofs.«202745_g55851754717770_cont_9to1_m_910_12_alg».proof.Proof.KernelHand.TableRegionData

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Hand.Table

variable {F : FTy → Type} [FloatOps F]

local notation "𝕄" => MT nD τ sig (HIx 1) (Elt F) ℕ UU ℕ

/-- The TensorCore call, from the main proof's thread state: the program's statement is the pipeline's entry lifted to
    the SparseCore launch's body table; the region rule runs it from the thread state; the waits the pipeline records
    are its staging semaphores' at index `none`. -/
theorem table_region : TableRegionStmt (F := F) := by
  unfold TableRegionStmt
  intro d a0 a1 a2 a3 a4 a5 f15 O W hO Φ
  have h := (K (F := F)).wp_liftProg (nD := nD) (Name := ℕ) (U := UU) (D (F := F)) 𝒱 (SparseCore.T d) Set.univ none
    (Prog.lift (.customCall (Pipeline.entry 0) ())) Φ
  refine BIBase.Entails.trans ?_ h
  have key := Pipeline.RegionSeg.wp (pcfgs (F := F)) adm
    (Table.pdats a0 a1 a2 a3 a4 a5 f15 O {p | p ∈ W ∨ p.2 = none}) none cellOf_inj' ER defs₀ Variants.none
    (K (F := F)).L (K (F := F)).lev (Table.reg a0 a1 a2 a3 a4 a5 f15 O {p | p ∈ W ∨ p.2 = none} hO) d none
    (fun _ h => by cases h) (fun _ => .ret ⟨⟩) Φ
  rw [show (Table.reg a0 a1 a2 a3 a4 a5 f15 O {p | p ∈ W ∨ p.2 = none} hO).post
        = Table.regPost a0 a1 a2 a3 a4 a5 O {p | p ∈ W ∨ p.2 = none} from rfl,
    show (Table.reg a0 a1 a2 a3 a4 a5 f15 O {p | p ∈ W ∨ p.2 = none} hO).pre
        = Table.regPre a0 a1 a2 a3 a4 a5 f15 O {p | p ∈ W ∨ p.2 = none} from rfl] at key
  refine BIBase.Entails.trans ?_ key
  unfold Table.regPost Table.regPre Pipeline.owesWithin
  iintro ⟨#Hlev, Hb, Hg, Ht, Hops, H15, HO, Hk⟩
  isplitl [Hk]
  · iintro ⟨Hb, Hops, H15, ⟨%W', %hW', HO⟩⟩
    sl_step
    iapply Hk
    isplitl [Hb]; · iexact Hb
    isplitl [Hops]; · iexact Hops
    isplitl [H15]; · iexact H15
    iexists W'; isplitr
    · ipureintro
      intro p hp
      rcases hW' hp with h | ⟨w, s, rfl⟩
      · exact h
      · exact Or.inr rfl
    iexact HO
  isplitl [Hb]; · iexact Hb
  isplitl [Hops H15 HO]
  · isplitl [Hops]; · iexact Hops
    isplitl [H15]; · iexact H15
    iexists W; isplitr; · ipureintro; exact fun p hp => Or.inl hp
    iexact HO
  isplitr; · iexact Hlev
  isplitl [Hg]; · iexact Hg
  iexact Ht

end Cert.Kernel.Hand

end
-- ==== Proof.KernelHand.TileDefs.lean ====
/-
  One tile's task of the gather: the vocabulary of its proof. The tile's thread and cells; its scoped buffers and
  semaphores taken out of what the launch deals it; the rows of the result as element sets (ranges of rows, the
  128-row slices the body copies to); read shares rotating over three tokens, so that three gathers may read the
  table and the id scratch at once; a gather and a copy-out in flight (the transfer's flight and, beside
  it, what of its source's and destination's buffers the transfer did not take); and the loop's invariant: at the
  head of trip k the gathers of
  chunks 4k, 4k+1, 4k+2 in flight into the first three buffers, the copy-out of chunk 4k-1 from the fourth in flight
  (none at trip 0), the rows of the chunks before it at the gathered rows, the rows from chunk 4k on untouched.
-/
import proofs.«202745_g55851754717770_cont_9to1_m_910_12_alg».proof.Proof.KernelHand.Stmts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- The tile's thread. -/
abbrev VT : Thread nD τ := V d (cV L) (jV L)

/-- One of the tile's DMA semaphores, as a cell. -/
abbrev cell (x : DmaSem sig) : GSem nD τ sig := (VT d L, SemLoc.dma x)

omit [FloatOps F] in
theorem cell_ne {thr : Thread nD τ} {a b : DmaSem sig} (h : a ≠ b) : ((thr, SemLoc.dma a) : GSem nD τ sig) ≠ (thr, SemLoc.dma b) :=
  fun e => h (SemLoc.dma.inj (Prod.mk.inj e).2)

omit [FloatOps F] in
theorem ownSems0_V :
    (ownSems0 (VT d L) : sProp 𝕄)
      = iprop(semVal (cell d L cc1_scratch5.sem) 0 ∗ semVal (cell d L cc1_scratch6.sem) 0 ∗ semVal (cell d L cc1_scratch7.sem) 0 ∗ semVal (cell d L cc1_scratch8.sem) 0 ∗ semVal (cell d L cc1_scratch9.sem) 0 ∗ semVal (cell d L cc1_scratch10.sem) 0 ∗ semVal (cell d L cc1_scratch11.sem) 0 ∗ semVal (cell d L cc1_scratch12.sem) 0 ∗ semVal (cell d L cc1_scoped0.sem) 0
          ∗ bigSep ((((((((((ownCells (VT d L)).erase (cell d L cc1_scratch5.sem)).erase (cell d L cc1_scratch6.sem)).erase (cell d L cc1_scratch7.sem)).erase (cell d L cc1_scratch8.sem)).erase (cell d L cc1_scratch9.sem)).erase (cell d L cc1_scratch10.sem)).erase (cell d L cc1_scratch11.sem)).erase (cell d L cc1_scratch12.sem)).erase (cell d L cc1_scoped0.sem)) fun g => semVal g 0) := by
  unfold SparseCore.Cfg.ownSems0
  rw [SparseCore.bigSep_erase' ((mem_ownCells (g := cell d L cc1_scratch5.sem)).mpr ⟨rfl, by show (SemLoc.dma cc1_scratch5.sem : SemLoc sig).isScoped .scVector = true; decide⟩),
    SparseCore.bigSep_erase' (Finset.mem_erase.mpr ⟨cell_ne (by decide), (mem_ownCells (g := cell d L cc1_scratch6.sem)).mpr ⟨rfl, by show (SemLoc.dma cc1_scratch6.sem : SemLoc sig).isScoped .scVector = true; decide⟩⟩),
    SparseCore.bigSep_erase' (Finset.mem_erase.mpr ⟨cell_ne (by decide), Finset.mem_erase.mpr ⟨cell_ne (by decide), (mem_ownCells (g := cell d L cc1_scratch7.sem)).mpr ⟨rfl, by show (SemLoc.dma cc1_scratch7.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell d L cc1_scratch8.sem)).mpr ⟨rfl, by show (SemLoc.dma cc1_scratch8.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch9.sem)).mpr ⟨rfl, by show (SemLoc.dma cc1_scratch9.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch10.sem)).mpr ⟨rfl, by show (SemLoc.dma cc1_scratch10.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch11.sem)).mpr ⟨rfl, by show (SemLoc.dma cc1_scratch11.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch12.sem)).mpr ⟨rfl, by show (SemLoc.dma cc1_scratch12.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scoped0.sem)).mpr ⟨rfl, by show (SemLoc.dma cc1_scoped0.sem : SemLoc sig).isScoped .scVector = true; decide⟩⟩⟩⟩⟩⟩⟩⟩⟩)]

omit [FloatOps F] in
theorem ownBufs_V :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f) ∗ (∃ f, (VT d L).loc cc1_scratch3 ↦{fullShare} f) ∗ (∃ f, (VT d L).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩)]

omit [FloatOps F] in
/-- A scratch buffer whole, as the body's memref addresses it. -/
theorem pts_s (b : Ref sig .scVector) (f : Buf (Elt F) ((VT d L).loc b)) :
    ((Memref.whole b).view.loc (VT d L) ↦{fullShare} f : sProp 𝕄) = (VT d L).loc b ↦{fullShare} f := rfl

omit [FloatOps F] in
/-- The table whole, as the body's memref addresses it. -/
theorem pts_tbl (q : PosShare TreeShare) (f : Buf (Elt F) (tblLoc d)) :
    ((tblV).view.loc (VT d L) ↦{q} f : sProp 𝕄) = tblLoc d ↦{q} f := by
  simp only [Memref.view_whole, View.set_whole]

/-- The tile's ids in the array of all ids, as the body slices them. -/
abbrev idsRow : Memref sig .scVector .hbm S25600 .i32 :=
  (idsV).slice (Rect.unit (s := S819200) (k1_off1 L) S25600.size (k1_off1_inb L)) (fun _ => rfl)

omit [FloatOps F] in
theorem set_idsRow : (idsRow L).view.set = idsSet (wid L) := by
  show ((View.whole main_v16_scv).slice _).set = _
  rw [View.set_slice_whole]
  ext i
  rw [Rect.mem_set_unit]
  simp only [idsSet, Finset.mem_filter, Finset.mem_univ, true_and]
  have e0 : k1_off1 L 0 = wid L * 25600 := by
    rw [k1_off1_eq]; show 51200 * (L 1).val + 25600 * (L 0).val = _; unfold wid; omega
  have e1 : (![25600] : Fin 1 → ℕ) 0 = 25600 := rfl
  constructor
  · intro h; have h0 := h 0; rw [e0, e1] at h0; omega
  · intro h a
    have ha : a = 0 := Fin.ext (by have := a.isLt; show a.val = 0; change a.val < 1 at this; omega)
    subst ha; rw [e0, e1]; omega

omit [FloatOps F] in
theorem pts_idsRow (f : Buf (Elt F) (idsLoc d)) :
    ((idsRow L).view.loc (VT d L) ↦[(idsRow L).view.set]{fullShare} f : sProp 𝕄) = idsLoc d ↦[idsSet (wid L)]{fullShare} f := by
  rw [set_idsRow]

/-- The table as the gathers slice it (whole). -/
abbrev tblW : Memref sig .scVector .hbm S1000000x128 .f32 :=
  (tblV).slice (Rect.unit (s := S1000000x128) ![0, 0] S1000000x128.size inb_S1000000x128_S1000000x128_0_0) (fun _ => rfl)

abbrev s0M : Memref sig .scVector .vmem S25600 .i32 := Memref.whole cc1_scratch0

/-- A chunk of the id scratch: 128 ids from `off`. -/
abbrev offsM (off : Fin 1 → Nat) (hk : ∀ a, off a + S128.size a ≤ S25600.size a) : Memref sig .scVector .vmem S128 .i32 :=
  (s0M).slice (Rect.unit (s := S25600) off S128.size hk) (fun _ => rfl)

/-- 128 rows of the result from `off`. -/
abbrev outP (off : Fin 2 → Nat) (hk : ∀ a, off a + S128x128.size a ≤ S819200x128.size a) : Memref sig .scVector .hbm S128x128 .f32 :=
  (outV).slice (Rect.unit (s := S819200x128) off S128x128.size hk) (fun _ => rfl)

/-- The cell of DMA semaphore number `n`. -/
abbrev cellN (n : ℕ) (h : n < 20) : GSem nD τ sig := (VT d L, SemLoc.dma (⟨n, h⟩ : DmaSem sig))

/-- Opaque on purpose: unfolded only by `hide_eq`. -/
def hide (P : sProp 𝕄) : sProp 𝕄 := P
omit [FloatOps F] in
theorem hide_eq (P : sProp 𝕄) : hide P = P := rfl

/-- Three read shares of a share, by chunk number: chunk `n` reads through the share chunk `n - 3` gave back. -/
def tok (q : PosShare TreeShare) (n : ℕ) : PosShare TreeShare := Transfers.shareTokN q (n % 3)
theorem tok_add3 (q : PosShare TreeShare) (n : ℕ) : tok q (n + 3) = tok q n := by unfold tok; rw [Nat.add_mod_right]

omit [FloatOps F] in
theorem toks3 (ℓ : Loc nD τ sig) (q : PosShare TreeShare) (f : Buf (Elt F) ℓ) :
    (ℓ ↦{q} f : sProp 𝕄) ⊣⊢ iprop((ℓ ↦{Transfers.shareDrop q 3} f) ∗ (ℓ ↦{tok q 0} f) ∗ (ℓ ↦{tok q 1} f) ∗ (ℓ ↦{tok q 2} f)) := by
  have h : (ℓ ↦{q} f : sProp 𝕄) ⊣⊢ iprop((ℓ ↦{Transfers.shareDrop q 3} f) ∗ bigSep (Finset.range 3) fun i => ℓ ↦{Transfers.shareTokN q i} f) :=
    Transfers.pointsTo_toks_range (ℓ := ℓ) (S := Finset.univ) (f := f) q 3
  rw [show Finset.range 3 = {0, 1, 2} by decide, SparseCore.bigSep_insert' (by decide), SparseCore.bigSep_insert' (by decide), bigSep_singleton] at h
  exact h

/-- A gather in flight into buffer `b` on cell `g`, reading ids chunk `off`, with the three rests the issue left. -/
def GFl (g : ℕ) (hg : g < 20) (b : Ref sig .scVector) (off : Fin 1 → Nat) (hk : ∀ a, off a + S128.size a ≤ S25600.size a)
    (qs qt : PosShare TreeShare) (X : Buf (Elt F) ((Memref.whole b).view.loc (VT d L))) (s0c : Buf (Elt F) ((s0M).view.loc (VT d L)))
    (tbl : Buf (Elt F) (tblLoc d)) : sProp 𝕄 :=
  iprop(Transfers.Flight (countersEmb (U := UU)) (VT d L) (SemLoc.dma (⟨g, hg⟩ : DmaSem sig)) (default : HIx 1) 524288
      iprop((((Memref.whole b).view.loc (VT d L) ↦[(Memref.whole b).view.set]{fullShare} X)
          ∗ ((s0M).view.loc (VT d L) ↦[(offsM off hk).view.set]{qs} s0c))
        ∗ ((tblV).view.loc (VT d L) ↦[(tblW).view.set]{qt} tbl))
    ∗ ((tblV).view.loc (VT d L) ↦[Finset.univ \ (tblW).view.set]{qt} tbl)
    ∗ ((Memref.whole b).view.loc (VT d L) ↦[Finset.univ \ (Memref.whole b).view.set]{fullShare} X)
    ∗ ((s0M).view.loc (VT d L) ↦[Finset.univ \ (offsM off hk).view.set]{qs} s0c))

/-- The tile's first row. -/
def base : ℕ := wid L * 25600

/-- Rows `a ≤ r < b` of the result. -/
def rowsSet (a b : ℕ) : Finset S819200x128.Idx := Finset.univ.filter fun i => a ≤ (i 0).val ∧ (i 0).val < b

/-- A copy of buffer `b` out to 128 rows of the result in flight on cell `g`, with the rest the issue left. -/
def CFl (g : ℕ) (hg : g < 20) (b : Ref sig .scVector) (off : Fin 2 → Nat) (hk : ∀ a, off a + S128x128.size a ≤ S819200x128.size a)
    (Y : Buf (Elt F) (outLoc d)) (X : Buf (Elt F) ((Memref.whole b).view.loc (VT d L))) : sProp 𝕄 :=
  iprop(Transfers.Flight (countersEmb (U := UU)) (VT d L) (SemLoc.dma (⟨g, hg⟩ : DmaSem sig)) (default : HIx 1) 524288
      iprop(((outP off hk).view.loc (VT d L) ↦[(outP off hk).view.set]{fullShare} Y)
        ∗ ((Memref.whole b).view.loc (VT d L) ↦[(Memref.whole b).view.set]{fullShare} X))
    ∗ ((Memref.whole b).view.loc (VT d L) ↦[Finset.univ \ (Memref.whole b).view.set]{fullShare} X))

/-- A buffer holds chunk `n` of the tile's gathered rows. -/
def IsRows (G : Buf (Elt F) (outLoc d)) (n : ℕ) (X : S128x128.Idx → Elt F .f32) : Prop :=
  ∀ (j : S128x128.Idx) (i : S819200x128.Idx), (i 0).val = base L + 128 * n + (j 0).val → (i 1).val = (j 1).val → X j = G i

/-- Buffer `b`'s gather of chunk `n` in flight on cell `g`. -/
def slotFly (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n : ℕ) : sProp 𝕄 :=
  iprop(∃ off hk X, ⌜Vl n X⌝ ∗ GFl d L g hg b off hk (tok qS n) (tok qT n) X s0c tbl)

/-- Buffer `b` and cell `g` idle, with the read shares chunk `n` would read through. -/
def slotIdle (g : ℕ) (hg : g < 20) (b : Ref sig .scVector)
    (qS qT : PosShare TreeShare) (s0c : Buf (Elt F) ((s0M).view.loc (VT d L))) (tbl : Buf (Elt F) (tblLoc d)) (n : ℕ) : sProp 𝕄 :=
  iprop((∃ X, (Memref.whole b).view.loc (VT d L) ↦{fullShare} X) ∗ semVal (cellN d L g hg) 0
    ∗ ((s0M).view.loc (VT d L) ↦{tok qS n} s0c) ∗ ((tblV).view.loc (VT d L) ↦{tok qT n} tbl))

/-- The last buffer's copy of chunk `n` out to the result in flight. -/
def coFly (G : Buf (Elt F) (outLoc d)) (n : ℕ) : sProp 𝕄 :=
  iprop(∃ off hk Y X, ⌜off = ![base L + 128 * n, 0] ∧ ∀ i ∈ (outP off hk).view.set, Y i = G i⌝
    ∗ CFl d L 18 (by decide) cc1_scratch4 off hk Y X)

/-- The last buffer and its write cell idle. -/
def coIdle : sProp 𝕄 :=
  iprop((∃ X, (Memref.whole cc1_scratch4).view.loc (VT d L) ↦{fullShare} X) ∗ semVal (cellN d L 18 (by decide)) 0)

/-- The loop's invariant, over the state of the three gather slots and of the last buffer's copy-out, the rows done
    (below `lo`) and the rows not yet written (from `hi`). -/
def invAt (G f0 : Buf (Elt F) (outLoc d)) (O : CellTallies nD τ sig (HIx 1)) (W : Waits sig (HIx 1))
    (s1 s2 s3 co : sProp 𝕄) (lo hi : ℕ) : sProp 𝕄 :=
  iprop(Transfers.MayWaits (VT d L) (none : HIx 1) O
    ∗ s1 ∗ s2 ∗ s3 ∗ co
    ∗ semVal (cellN d L 14 (by decide)) 0 ∗ semVal (cellN d L 15 (by decide)) 0
    ∗ semVal (cellN d L 16 (by decide)) 0 ∗ semVal (cellN d L 17 (by decide)) 0
    ∗ ((outV).view.loc (VT d L) ↦[rowsSet (base L) lo]{fullShare} G)
    ∗ ((outV).view.loc (VT d L) ↦[rowsSet hi (base L + 25600)]{fullShare} f0)
    ∗ ∃ W', ⌜∀ p ∈ W', p ∈ W ∨ p.2 = none⌝ ∗ owes (VT d L) O W')

/-- The loop's invariant at the head of trip `k`. -/
def inv (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (_ : PUnit) : sProp 𝕄 :=
  invAt d L G f0 O W
    (if k < 50 then slotFly d L 11 (by decide) cc1_scratch1 (fun n X => IsRows d L G n X) fullShare qT s0c tbl (4 * k)
      else slotIdle d L 11 (by decide) cc1_scratch1 fullShare qT s0c tbl (4 * k))
    (if k < 50 then slotFly d L 12 (by decide) cc1_scratch2 (fun n X => IsRows d L G n X) fullShare qT s0c tbl (4 * k + 1)
      else slotIdle d L 12 (by decide) cc1_scratch2 fullShare qT s0c tbl (4 * k + 1))
    (if k < 50 then slotFly d L 13 (by decide) cc1_scratch3 (fun n X => IsRows d L G n X) fullShare qT s0c tbl (4 * k + 2)
      else slotIdle d L 13 (by decide) cc1_scratch3 fullShare qT s0c tbl (4 * k + 2))
    (if 0 < k then coFly d L G (4 * k - 1) else coIdle d L)
    (base L + 128 * (4 * k - 1)) (base L + 512 * k)

theorem inv_fly (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (acc : PUnit) (h : k < 50) (co : sProp 𝕄)
    (hco : (if 0 < k then coFly d L G (4 * k - 1) else coIdle d L) = co) :
    inv d L G f0 qT s0c tbl O W k acc = invAt d L G f0 O W
      (slotFly d L 11 (by decide) cc1_scratch1 (fun n X => IsRows d L G n X) fullShare qT s0c tbl (4 * k))
      (slotFly d L 12 (by decide) cc1_scratch2 (fun n X => IsRows d L G n X) fullShare qT s0c tbl (4 * k + 1))
      (slotFly d L 13 (by decide) cc1_scratch3 (fun n X => IsRows d L G n X) fullShare qT s0c tbl (4 * k + 2))
      co (base L + 128 * (4 * k - 1)) (base L + 512 * k) := by
  unfold inv; rw [if_pos h, if_pos h, if_pos h, hco]

theorem inv_idle (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (acc : PUnit) (h : ¬ k < 50) (h0 : 0 < k) :
    inv d L G f0 qT s0c tbl O W k acc = invAt d L G f0 O W
      (slotIdle d L 11 (by decide) cc1_scratch1 fullShare qT s0c tbl (4 * k))
      (slotIdle d L 12 (by decide) cc1_scratch2 fullShare qT s0c tbl (4 * k + 1))
      (slotIdle d L 13 (by decide) cc1_scratch3 fullShare qT s0c tbl (4 * k + 2))
      (coFly d L G (4 * k - 1)) (base L + 128 * (4 * k - 1)) (base L + 512 * k) := by
  unfold inv; rw [if_neg h, if_neg h, if_neg h, if_pos h0]

/-- A gather in flight, its read shares named by a chunk number of the same residue, is the slot's state. -/
theorem slotFly_intro (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ)
    (hnm : ∀ q, tok q n = tok q m) (off : Fin 1 → Nat) (hk : ∀ a, off a + S128.size a ≤ S25600.size a)
    (X : Buf (Elt F) ((Memref.whole b).view.loc (VT d L))) (hV : Vl n X) :
    GFl d L g hg b off hk (tok qS m) (tok qT m) X s0c tbl ⊢ slotFly d L g hg b Vl qS qT s0c tbl n := by
  unfold slotFly
  rw [hnm qS, hnm qT]
  iintro H
  iexists off, hk, X
  isplitr
  · ipureintro; exact hV
  · iexact H

/-! ### Rows of the result as element sets -/

omit [FloatOps F] in
theorem rowsSet_union {a b c : ℕ} (h1 : a ≤ b) (h2 : b ≤ c) : rowsSet a c = rowsSet a b ∪ rowsSet b c := by
  ext i; simp only [rowsSet, Finset.mem_filter, Finset.mem_univ, true_and, Finset.mem_union]; omega
omit [FloatOps F] in
theorem rowsSet_disjoint {a b c : ℕ} : Disjoint (rowsSet a b) (rowsSet b c) := by
  rw [Finset.disjoint_left]; intro i; simp only [rowsSet, Finset.mem_filter, Finset.mem_univ, true_and]; omega
omit [FloatOps F] in
theorem rowsSet_empty (a : ℕ) : rowsSet a a = ∅ := by
  ext i; simp only [rowsSet, Finset.mem_filter, Finset.mem_univ, true_and, Finset.notMem_empty, iff_false]; omega

omit [FloatOps F] in
/-- Adjacent ranges of rows, held at one contents, are one range. -/
theorem rows_split {ℓq : PosShare TreeShare} {a b c : ℕ} (h1 : a ≤ b) (h2 : b ≤ c) (f : Buf (Elt F) (outLoc d)) :
    ((outV).view.loc (VT d L) ↦[rowsSet a c]{ℓq} f : sProp 𝕄)
      ⊣⊢ iprop(((outV).view.loc (VT d L) ↦[rowsSet a b]{ℓq} f) ∗ ((outV).view.loc (VT d L) ↦[rowsSet b c]{ℓq} f)) := by
  rw [rowsSet_union h1 h2]; exact pointsTo_union rowsSet_disjoint

omit [FloatOps F] in
/-- A 128-row slice of the result is a range of rows. -/
theorem set_outP (off : Fin 2 → Nat) (hk : ∀ a, off a + S128x128.size a ≤ S819200x128.size a) (h1 : off 1 = 0) :
    (outP off hk).view.set = rowsSet (off 0) (off 0 + 128) := by
  show ((View.whole main_v17_scv).slice _).set = _
  rw [View.set_slice_whole]
  ext i
  rw [Rect.mem_set_unit]
  simp only [rowsSet, Finset.mem_filter, Finset.mem_univ, true_and]
  constructor
  · intro h; have h0 := h 0; exact ⟨h0.1, h0.2⟩
  · intro h a
    match a with
    | 0 => exact ⟨h.1, h.2⟩
    | 1 =>
      rw [h1]
      have h128 : (i 1).val < 128 := (i 1).isLt
      exact ⟨Nat.zero_le _, by show (i 1).val < 0 + 128; omega⟩

omit [FloatOps F] in
theorem outSet_eq : outSet (wid L) = rowsSet (base L) (base L + 25600) := by
  unfold outSet rowsSet base
  refine Finset.filter_congr fun i _ => ?_
  constructor <;> (intro h; omega)

omit [FloatOps F] in
theorem pts_out (S : Finset S819200x128.Idx) (q : PosShare TreeShare) (f : Buf (Elt F) (outLoc d)) :
    ((outV).view.loc (VT d L) ↦[S]{q} f : sProp 𝕄) = outLoc d ↦[S]{q} f := by
  simp only [Memref.view_whole]

/-! ### The loop's conditions, by trip -/

theorem trips_eq : k1_t1_loop.trips = 50 := by decide +kernel
theorem cond1_iff : ∀ k : Fin k1_t1_loop.trips, (k1_cond1 k = 1#1 ↔ 0 < k.val) := by decide +kernel
theorem cond2_all : ∀ k : Fin k1_t1_loop.trips, k1_cond2 k = 1#1 := by decide +kernel
theorem cond3_iff : ∀ k : Fin k1_t1_loop.trips, (k1_cond3 k = 1#1 ↔ k.val < 49) := by decide +kernel
theorem cond4_iff : ∀ k : Fin k1_t1_loop.trips, (k1_cond4 k = 1#1 ↔ k.val < 49) := by decide +kernel
theorem cond5_iff : ∀ k : Fin k1_t1_loop.trips, (k1_cond5 k = 1#1 ↔ k.val < 49) := by decide +kernel

/-- Chunk `4k + r` of the tile's rows of the result, as trip `k` slices it. -/
abbrev outC (k : Fin k1_t1_loop.trips) (r : Fin 4) : Memref sig .scVector .hbm S128x128 .f32 :=
  outP (k1_off3 L k (BitVec.ofNat 32 r.val)) (k1_off3_inb L k r)

omit [FloatOps F] in
theorem set_outC (k : Fin k1_t1_loop.trips) (r : Fin 4) :
    (outC L k r).view.set = rowsSet (base L + 512 * k.val + 128 * r.val) (base L + 512 * k.val + 128 * r.val + 128) := by
  have e0 : k1_off3 L k (BitVec.ofNat 32 r.val) 0 = base L + 512 * k.val + 128 * r.val := by
    rw [k1_off3_eq]
    show 51200 * (L 1).val + 25600 * (L 0).val + 512 * k.val + 128 * r.val = _
    unfold base wid; omega
  have e1 : k1_off3 L k (BitVec.ofNat 32 r.val) 1 = 0 := by rw [k1_off3_eq]; rfl
  unfold outC
  rw [set_outP _ _ e1, e0]

omit [FloatOps F] in
/-- The rows not yet written: trip `k`'s four chunks and the rest. -/
theorem carve4 (k : Fin k1_t1_loop.trips) (f : Buf (Elt F) (outLoc d)) :
    ((outV).view.loc (VT d L) ↦[rowsSet (base L + 512 * k.val) (base L + 25600)]{fullShare} f : sProp 𝕄)
      ⊣⊢ iprop(((outC L k 0).view.loc (VT d L) ↦[(outC L k 0).view.set]{fullShare} f)
          ∗ ((outC L k 1).view.loc (VT d L) ↦[(outC L k 1).view.set]{fullShare} f)
          ∗ ((outC L k 2).view.loc (VT d L) ↦[(outC L k 2).view.set]{fullShare} f)
          ∗ ((outC L k 3).view.loc (VT d L) ↦[(outC L k 3).view.set]{fullShare} f)
          ∗ ((outV).view.loc (VT d L) ↦[rowsSet (base L + 512 * (k.val + 1)) (base L + 25600)]{fullShare} f)) := by
  have hk : k.val < 50 := trips_eq ▸ k.isLt
  rw [set_outC, set_outC, set_outC, set_outC]
  show ((outV).view.loc (VT d L) ↦[_]{fullShare} f : sProp 𝕄)
      ⊣⊢ iprop(((outV).view.loc (VT d L) ↦[_]{fullShare} f) ∗ ((outV).view.loc (VT d L) ↦[_]{fullShare} f)
          ∗ ((outV).view.loc (VT d L) ↦[_]{fullShare} f) ∗ ((outV).view.loc (VT d L) ↦[_]{fullShare} f) ∗ _)
  have s0 := rows_split (F := F) d L (ℓq := fullShare) (a := base L + 512 * k.val) (b := base L + 512 * k.val + 128) (c := base L + 25600) (by omega) (by omega) f
  have s1 := rows_split (F := F) d L (ℓq := fullShare) (a := base L + 512 * k.val + 128) (b := base L + 512 * k.val + 256) (c := base L + 25600) (by omega) (by omega) f
  have s2 := rows_split (F := F) d L (ℓq := fullShare) (a := base L + 512 * k.val + 256) (b := base L + 512 * k.val + 384) (c := base L + 25600) (by omega) (by omega) f
  have s3 := rows_split (F := F) d L (ℓq := fullShare) (a := base L + 512 * k.val + 384) (b := base L + 512 * (k.val + 1)) (c := base L + 25600) (by omega) (by omega) f
  simp only [Fin.val_zero, Fin.val_one, Fin.val_two, show ((3 : Fin 4) : ℕ) = 3 from rfl, Nat.mul_zero, Nat.add_zero, Nat.mul_one,
    show 128 * 2 = 256 from rfl, show 128 * 3 = 384 from rfl, Nat.add_assoc, show 128 + 128 = 256 from rfl, show 256 + 128 = 384 from rfl,
    show 384 + 128 = 512 from rfl] at s0 s1 s2 s3 ⊢
  constructor
  · iintro H
    ihave H0 := s0.1 $$ H; icases H0 with ⟨H0, H⟩
    ihave H1 := s1.1 $$ H; icases H1 with ⟨H1, H⟩
    ihave H2 := s2.1 $$ H; icases H2 with ⟨H2, H⟩
    ihave H3 := s3.1 $$ H; icases H3 with ⟨H3, H⟩
    isplitl [H0]; · iexact H0
    isplitl [H1]; · iexact H1
    isplitl [H2]; · iexact H2
    isplitl [H3]; · iexact H3
    iexact H
  · iintro ⟨H0, H1, H2, H3, H⟩
    ihave H := s3.2 $$ [H3 H]
    · isplitl [H3] <;> iassumption
    ihave H := s2.2 $$ [H2 H]
    · isplitl [H2] <;> iassumption
    ihave H := s1.2 $$ [H1 H]
    · isplitl [H1] <;> iassumption
    iapply s0.2
    isplitl [H0] <;> iassumption

theorem tok_s1 (q : PosShare TreeShare) (k : ℕ) : tok q (4 * (k + 1)) = tok q (4 * k + 1) := by
  rw [show 4 * (k + 1) = 4 * k + 1 + 3 by ring, tok_add3]
theorem tok_s2 (q : PosShare TreeShare) (k : ℕ) : tok q (4 * (k + 1) + 1) = tok q (4 * k + 2) := by
  rw [show 4 * (k + 1) + 1 = 4 * k + 2 + 3 by ring, tok_add3]
theorem tok_s3 (q : PosShare TreeShare) (k : ℕ) : tok q (4 * (k + 1) + 2) = tok q (4 * k) := by
  rw [show 4 * (k + 1) + 2 = 4 * k + 3 + 3 by ring, tok_add3, tok_add3]

omit [FloatOps F] in
/-- Two adjacent ranges of rows at one contents, their meeting point spelt two ways. -/
theorem rows_glue {a b b' c c' : ℕ} (hb : b' = b) (hc : c' = c) (h1 : a ≤ b) (h2 : b ≤ c) (f : Buf (Elt F) (outLoc d)) :
    iprop(((outV).view.loc (VT d L) ↦[rowsSet a b]{fullShare} f) ∗ ((outV).view.loc (VT d L) ↦[rowsSet b' c']{fullShare} f))
      ⊢ ((outV).view.loc (VT d L) ↦[rowsSet a c]{fullShare} f : sProp 𝕄) := by
  subst hb hc; exact (rows_split (F := F) d L h1 h2 f).2

omit [FloatOps F] in
/-- A 128-row slice at contents agreeing with `G` there is a range of rows at `G`. -/
theorem chunk_G (G : Buf (Elt F) (outLoc d)) (off : Fin 2 → Nat) (hk : ∀ a, off a + S128x128.size a ≤ S819200x128.size a) (a : ℕ)
    (h0 : off 0 = a) (h1 : off 1 = 0) (Y : Buf (Elt F) (outLoc d)) (hY : ∀ i ∈ (outP off hk).view.set, Y i = G i) :
    ((outP off hk).view.loc (VT d L) ↦[(outP off hk).view.set]{fullShare} Y : sProp 𝕄)
      ⊢ ((outV).view.loc (VT d L) ↦[rowsSet a (a + 128)]{fullShare} G : sProp 𝕄) := by
  subst h0
  rw [← set_outP off hk h1]
  exact Entails.of_eq (pointsTo_congr hY)

omit [FloatOps F] in
theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- The id scratch holds the tile's ids. -/
def S0ok (ids : Buf (Elt F) (idsLoc d)) (s0c : S25600.Idx → BitVec 32) : Prop :=
  ∀ (i : S25600.Idx) (r : S819200.Idx), (r 0).val = base L + (i 0).val → s0c i = ids r

end Tile

end Cert.Kernel.Hand

end
-- ==== Proof.KernelHand.TileDefs2.lean ====
/-
  More vocabulary for one tile's task: a gather slot's state with its read shares named by another chunk number of
  the same residue modulo three (the shares rotate over three tokens: chunk n reads through the pair chunk n - 3 gave
  back), and two adjacent ranges of rows joined with every bound explicit.
-/
import proofs.«202745_g55851754717770_cont_9to1_m_910_12_alg».proof.Proof.KernelHand.TileDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- `slotFly` with the read shares named by another chunk number. -/
def slotFly' (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ) : sProp 𝕄 :=
  iprop(∃ off hk X, ⌜Vl n X⌝ ∗ GFl d L g hg b off hk (tok qS m) (tok qT m) X s0c tbl)

theorem slotFly_retok (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ)
    (hnm : ∀ q, tok q n = tok q m) :
    slotFly' d L g hg b Vl qS qT s0c tbl n m ⊢ slotFly d L g hg b Vl qS qT s0c tbl n := by
  unfold slotFly slotFly'; rw [hnm qS, hnm qT]

theorem slotIdle_retok (g : ℕ) (hg : g < 20) (b : Ref sig .scVector)
    (qS qT : PosShare TreeShare) (s0c : Buf (Elt F) ((s0M).view.loc (VT d L))) (tbl : Buf (Elt F) (tblLoc d)) (n m : ℕ)
    (hnm : ∀ q, tok q n = tok q m) :
    slotIdle d L g hg b qS qT s0c tbl m ⊢ slotIdle d L g hg b qS qT s0c tbl n := by
  unfold slotIdle; rw [hnm qS, hnm qT]

omit [FloatOps F] in
theorem rows_glue' (a b b' c c' : ℕ) (hb : b' = b) (hc : c' = c) (h1 : a ≤ b) (h2 : b ≤ c) (f : Buf (Elt F) (outLoc d)) :
    iprop(((outV).view.loc (VT d L) ↦[rowsSet a b]{fullShare} f) ∗ ((outV).view.loc (VT d L) ↦[rowsSet b' c']{fullShare} f))
      ⊢ ((outV).view.loc (VT d L) ↦[rowsSet a c]{fullShare} f : sProp 𝕄) := rows_glue (F := F) d L hb hc h1 h2 f

end Tile

end Cert.Kernel.Hand

end
-- ==== Proof.KernelHand.TileVals.lean ====
/-
  Three facts about values, for one tile's task of the gather.

  A whole buffer written once through its whole rectangle holds exactly the payload. After the tile's first copy, its id
  scratch holds the tile's own 25600 ids: entry `i` is id number `base + i` of the flattened id array. Hence every id a
  gather reads out of a 128-entry chunk of the scratch is one of the tile's ids, and so below the table's height when
  all the tile's ids are.
-/
import proofs.«202745_g55851754717770_cont_9to1_m_910_12_alg».proof.Proof.KernelHand.TileDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- One write of a whole buffer through its whole rectangle leaves the payload. -/
theorem writes_whole_one (b : Ref sig .scVector) (f : Buf (Elt F) ((Memref.whole b).view.loc (VT d L)))
    (w : b.ty.shape.Idx → Elt F b.ty.elt) :
    (Memref.whole b).view.writes (Elt F) f [⟨Rect.whole b.ty.shape, w⟩] = w :=
  View.read_writes_whole (View.whole b) f w

/-- A tile's number is below 32. -/
theorem wid_lt : wid L < 32 := by
  have h0 : (L 0).val < 2 := (L 0).isLt
  have h1 : (L 1).val < 16 := (L 1).isLt
  unfold wid
  omega

/-- The first copy leaves the tile's ids in its id scratch. -/
theorem s0ok_of_copy (ids : Buf (Elt F) (idsLoc d)) (b0 : Buf (Elt F) ((s0M).view.loc (VT d L))) :
    S0ok d L ids (View.write (Elt F) (Memref.whole cc1_scratch0).view b0
      (ReadAs.same.apply (View.read (Elt F) (idsRow L).view ids)) Finset.univ) := by
  intro i r hr
  have hw : View.write (Elt F) (Memref.whole cc1_scratch0).view b0
      (ReadAs.same.apply (View.read (Elt F) (idsRow L).view ids)) Finset.univ
      = View.read (Elt F) (idsRow L).view ids := View.write_whole_univ cc1_scratch0 b0 _
  rw [hw]
  show ids ((idsRow L).view.emb i) = ids r
  refine congrArg ids (funext fun a => Fin.ext ?_)
  have ha : a = 0 := Fin.ext (by have := a.isLt; show a.val = 0; change a.val < 1 at this; omega)
  subst ha
  have e0 : k1_off1 L 0 = base L := by
    rw [k1_off1_eq]; show 51200 * (L 1).val + 25600 * (L 0).val = _; unfold base wid; omega
  show k1_off1 L 0 + 1 * (i 0).val = (r 0).val
  rw [e0, hr, Nat.one_mul]

/-- Every id a gather reads out of a chunk of the id scratch is below the table's height. -/
theorem hidx_of_s0ok (ids : Buf (Elt F) (idsLoc d)) (hin : ∀ r ∈ idsSet (wid L), (ids r : BitVec 32).toNat < 1000000)
    (s0c : Buf (Elt F) ((s0M).view.loc (VT d L))) (h0 : S0ok d L ids s0c) :
    ∀ (off : Fin 1 → Nat) (hk : ∀ a, off a + S128.size a ≤ S25600.size a)
      (hs : ∀ a, (Rect.unit (s := S25600) off S128.size hk).stride a = 1) (x : S128.Idx),
      (View.read (Elt F) ((Memref.whole cc1_scratch0).slice (Rect.unit (s := S25600) off S128.size hk) hs).view s0c x).toNat
        < 1000000 := by
  intro off hk hs x
  have hw := wid_lt L
  have hk0 : off 0 + 128 ≤ 25600 := hk 0
  have hx : (x 0).val < 128 := (x 0).isLt
  -- the scratch entry read sits at position `off 0 + x 0` of the scratch, so at `base + off 0 + x 0` of all the ids
  have hb : base L + (off 0 + (x 0).val) < 819200 := by unfold base; omega
  have hi : ((((Memref.whole cc1_scratch0).slice (Rect.unit (s := S25600) off S128.size hk) hs).view.emb x) 0).val
      = off 0 + (x 0).val := by
    show off 0 + 1 * (x 0).val = _
    rw [Nat.one_mul]
  have hr : ((ValueIdx.ix1 (⟨base L + (off 0 + (x 0).val), hb⟩ : Fin 819200) : S819200.Idx) 0).val
      = base L + ((((Memref.whole cc1_scratch0).slice (Rect.unit (s := S25600) off S128.size hk) hs).view.emb x) 0).val := by
    rw [hi]
  have hmem : (ValueIdx.ix1 (⟨base L + (off 0 + (x 0).val), hb⟩ : Fin 819200) : S819200.Idx) ∈ idsSet (wid L) := by
    unfold idsSet
    refine Finset.mem_filter.2 ⟨Finset.mem_univ _, ?_, ?_⟩
    · show wid L * 25600 ≤ base L + (off 0 + (x 0).val)
      unfold base; omega
    · show base L + (off 0 + (x 0).val) < (wid L + 1) * 25600
      unfold base; omega
  show (s0c (((Memref.whole cc1_scratch0).slice (Rect.unit (s := S25600) off S128.size hk) hs).view.emb x)).toNat < 1000000
  rw [h0 _ _ hr]
  exact hin _ hmem

end Tile

end Cert.Kernel.Hand

end
-- ==== Proof.KernelHand.TileVals2.lean ====
/-
  Two facts about one tile's rows, as pure statements about array contents. A chunk gathered through 128 of the tile's
  ids holds, row by row, the table's rows those ids name: the chunk's rows of the whole gathered result. And a chunk
  that holds those rows, written over 128 rows of the result, leaves the result agreeing with the gathered result there.
-/
import proofs.«202745_g55851754717770_cont_9to1_m_910_12_alg».proof.Proof.KernelHand.TileDefs
import Idealize.ShloMosaic.Lib.Pipeline.Value
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type} [FloatOps F]

section TileVals2

variable (d : Dev nD) (L : grid1.Coords)

/-- A chunk copied out agrees with the gathered result on its rows. -/
theorem copy_rows (G : Buf (Elt F) (outLoc d)) (n : ℕ) (off : Fin 2 → Nat) (hoff0 : off 0 = base L + 128 * n) (hoff1 : off 1 = 0)
    (hk : ∀ a, off a + S128x128.size a ≤ S819200x128.size a) (X : S128x128.Idx → Elt F .f32) (hX : IsRows d L G n X)
    (f0 : Buf (Elt F) (outLoc d)) :
    ∀ i ∈ (outP off hk).view.set, ((outP off hk).view.writes (Elt F) f0 [⟨Rect.whole S128x128, X⟩]) i = G i := by
  intro i hi
  obtain ⟨j, rfl⟩ := View.exists_emb_of_mem_set _ hi
  rw [View.writes_singleton]
  have e : (outP off hk).view.emb j = ((outP off hk).view.slice (Rect.whole S128x128)).emb j := by
    rw [View.emb_slice]
    show _ = (outP off hk).view.emb ((Rect.whole S128x128).emb j)
    rw [Rect.emb_whole_apply]
  rw [e, View.write_emb_of_mem _ _ (Finset.mem_univ _), ← e]
  refine hX j _ ?_ ?_
  · show off 0 + 1 * (j 0).val = base L + 128 * n + (j 0).val
    omega
  · show off 1 + 1 * (j 1).val = (j 1).val
    omega

/-- The tile's number is below 32. -/
private theorem wid_lt32 : wid L < 32 := by
  have h0 : (L 0).val < 2 := (L 0).isLt
  have h1 : (L 1).val < 16 := (L 1).isLt
  unfold wid; omega

/-- A gathered chunk is the chunk's rows of the gathered result: row `j` of chunk `n` was read through the id at
    position `128 n + j` of the tile's ids, which is the id of the tile's row `base + 128 n + j`. -/
theorem gather_rows (ids : Buf (Elt F) (idsLoc d)) (tbl : Buf (Elt F) (tblLoc d)) (hin : ∀ r ∈ idsSet (wid L), (ids r : BitVec 32).toNat < 1000000)
    (s0c : Buf (Elt F) ((s0M).view.loc (VT d L))) (h0 : S0ok d L ids s0c) (n : ℕ) (hn200 : n < 200)
    (off : Fin 1 → Nat) (hoff : off 0 = 128 * n) (hk : ∀ a, off a + S128.size a ≤ S25600.size a)
    (hs : ∀ a, (Rect.unit (s := S25600) off S128.size hk).stride a = 1)
    (hg : S1000000x128.Gathers 0 S128x128) (hnum : S128.numel = S128x128.size hg.axis')
    (hin' : ∀ x, (View.read (Elt F) ((Memref.whole cc1_scratch0).slice (Rect.unit (s := S25600) off S128.size hk) hs).view s0c x).toNat < S1000000x128.size hg.axis)
    (hsl : ∀ a, (Rect.unit (s := S1000000x128) ![0, 0] S1000000x128.size inb_S1000000x128_S1000000x128_0_0).stride a = 1) :
    IsRows d L (gatherOf tbl ids) n
      (SparseCore.gatherPayload hg
        (View.read (Elt F) ((tblV).slice (Rect.unit (s := S1000000x128) ![0, 0] S1000000x128.size inb_S1000000x128_S1000000x128_0_0) hsl).view tbl)
        (SparseCore.rows (View.read (Elt F) ((Memref.whole cc1_scratch0).slice (Rect.unit (s := S25600) off S128.size hk) hs).view s0c) hnum hin')) := by
  intro j i hi0 hi1
  have hj0 : (j 0).val < 128 := (j 0).isLt
  have hw := wid_lt32 L
  have hmem : ValueIdx.ix1 (i 0) ∈ idsSet (wid L) := by
    unfold idsSet
    refine Finset.mem_filter.mpr ⟨Finset.mem_univ _, ?_⟩
    show wid L * 25600 ≤ (i 0).val ∧ (i 0).val < (wid L + 1) * 25600
    unfold base at hi0; omega
  have hlt := hin _ hmem
  have e : (if h : (ids (ValueIdx.ix1 (i 0)) : BitVec 32).toNat < 1000000 then (⟨_, h⟩ : Fin 1000000) else ⟨0, by decide⟩)
      = ⟨(ids (ValueIdx.ix1 (i 0)) : BitVec 32).toNat, hlt⟩ := dif_pos hlt
  refine Eq.trans ?_ (congrArg (fun r => tbl (ValueIdx.ix2 r (i 1))) e.symm)
  unfold SparseCore.gatherPayload
  rw [View.read_apply]
  show tbl _ = tbl _
  have hrow : ((SparseCore.rows (View.read (Elt F) ((Memref.whole cc1_scratch0).slice (Rect.unit (s := S25600) off S128.size hk) hs).view s0c) hnum hin') (j hg.axis')).val = (ids (ValueIdx.ix1 (i 0)) : BitVec 32).toNat := by
    show (View.read (Elt F) ((Memref.whole cc1_scratch0).slice (Rect.unit (s := S25600) off S128.size hk) hs).view s0c
      (S128.rowMajor.symm ((j hg.axis').cast hnum.symm))).toNat = _
    rw [View.read_apply]
    show (s0c _ : BitVec 32).toNat = _
    refine congrArg BitVec.toNat (h0 _ (ValueIdx.ix1 (i 0)) ?_)
    show (i 0).val = base L + (off 0 + 1 * ((S128.rowMajor.symm ((j hg.axis').cast hnum.symm)) 0).val)
    have hx := Shape.rowMajor_val_one (S128.rowMajor.symm ((j hg.axis').cast hnum.symm))
    rw [Equiv.apply_symm_apply] at hx
    have hc : ((j hg.axis').cast hnum.symm).val = (j 0).val := rfl
    omega
  have A0 : (((tblV).slice (Rect.unit (s := S1000000x128) ![0, 0] S1000000x128.size inb_S1000000x128_S1000000x128_0_0) hsl).view.emb (hg.idx (SparseCore.rows (View.read (Elt F) ((Memref.whole cc1_scratch0).slice (Rect.unit (s := S25600) off S128.size hk) hs).view s0c) hnum hin') j) (0 : Fin 2)).val = (ids (ValueIdx.ix1 (i 0)) : BitVec 32).toNat := by
    show 0 + 1 * (hg.idx _ j (0 : Fin 2)).val = _
    have e0 : (hg.idx (SparseCore.rows (View.read (Elt F) ((Memref.whole cc1_scratch0).slice (Rect.unit (s := S25600) off S128.size hk) hs).view s0c) hnum hin') j (0 : Fin 2)).val = ((SparseCore.rows (View.read (Elt F) ((Memref.whole cc1_scratch0).slice (Rect.unit (s := S25600) off S128.size hk) hs).view s0c) hnum hin') (j hg.axis')).val :=
      congrArg Fin.val (Shape.Gathers.idx_axis hg _ j)
    rw [e0, hrow]; omega
  have A1 : (((tblV).slice (Rect.unit (s := S1000000x128) ![0, 0] S1000000x128.size inb_S1000000x128_S1000000x128_0_0) hsl).view.emb (hg.idx (SparseCore.rows (View.read (Elt F) ((Memref.whole cc1_scratch0).slice (Rect.unit (s := S25600) off S128.size hk) hs).view s0c) hnum hin') j) (1 : Fin 2)).val = (i 1).val := by
    show 0 + 1 * (hg.idx _ j (1 : Fin 2)).val = _
    have e1 := Shape.Gathers.idx_of_ne hg (SparseCore.rows (View.read (Elt F) ((Memref.whole cc1_scratch0).slice (Rect.unit (s := S25600) off S128.size hk) hs).view s0c) hnum hin') j (1 : Fin 2) (by decide)
    rw [e1, hi1]
    show 0 + 1 * (j 1).val = (j 1).val
    omega
  refine congrArg tbl ((ValueIdx.eq_ix2 _).trans ?_)
  exact congr (congrArg ValueIdx.ix2 (Fin.ext A0)) (Fin.ext A1)

end TileVals2

end Cert.Kernel.Hand

end
-- ==== Proof.KernelHand.TileTripFirst.lean ====
/-
  The first trip of the tile's loop (k = 0). At its head the gathers of chunks 0, 1, 2 are in flight into the first
  three buffers, the fourth buffer and its write semaphore are idle, and no row of the result is done. The trip waits
  for each gather in turn, starts the buffer's copy-out to its 128 rows of the result, starts the gather of chunk 3
  into the idle fourth buffer and, after each later copy-out has been waited for, the gather of the chunk three ahead
  into the freed buffer, with the read shares the awaited gather gave back. At its end the invariant holds at k = 1:
  the rows of chunks 0, 1, 2 have joined the (empty) rows done, each at the table's rows its ids name, and the copy-out
  of chunk 3 is in flight.
-/
import proofs.«202745_g55851754717770_cont_9to1_m_910_12_alg».proof.Proof.KernelHand.TileDefs2
import proofs.«202745_g55851754717770_cont_9to1_m_910_12_alg».proof.Proof.KernelHand.TileVals
import proofs.«202745_g55851754717770_cont_9to1_m_910_12_alg».proof.Proof.KernelHand.TileVals2

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_first (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hk0 : k.val = 0) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  -- the first trip
  have hc1 : ¬ k1_cond1 k = 1#1 := fun h => absurd ((cond1_iff k).mp h) (by omega)
  have hc3 : k1_cond3 k = 1#1 := (cond3_iff k).mpr (by omega)
  have hc4 : k1_cond4 k = 1#1 := (cond4_iff k).mpr (by omega)
  have hc5 : k1_cond5 k = 1#1 := (cond5_iff k).mpr (by omega)
  rw [inv_fly (F := F) d L _ f0 q s0c tbl O W k.val acc hk50 _ (if_neg (by omega))]
  unfold invAt slotFly coIdle
  iintro ⟨#Hmw, ⟨%oA, %hkA, %XA, %vA, HA⟩, ⟨%oB, %hkB, %XB, %vB, HB⟩, ⟨%oC, %hkC, %XC, %vC, HC⟩, ⟨⟨%X3, Hb3⟩, Hw3⟩,
    Hg3, Hw0, Hw1, Hw2, Hdone, Htodo, ⟨%W', %hW', HO⟩⟩
  unfold GFl
  icases HA with ⟨HFA, HtA, HbA, HsA⟩
  icases HB with ⟨HFB, HtB, HbB, HsB⟩
  icases HC with ⟨HFC, HtC, HbC, HsC⟩
  ihave Hc := (carve4 (F := F) d L k f0).1 $$ Htodo
  icases Hc with ⟨Ho0, Ho1, Ho2, Ho3, Htodo⟩
  sl_unfold [k1_t1_body]
  sl_exec
  sl_step
  iapply (Entails.of_eq (inv_fly (F := F) d L _ f0 q s0c tbl O W (k.val + 1) PUnit.unit (by omega) _ (if_pos (Nat.succ_pos _))).symm)
  unfold invAt
  isplitr; · iexact Hmw
  isplitl [HFA HtB HbA HsB]
  · iapply (slotFly_retok (F := F) d L 11 _ cc1_scratch1 _ fullShare q s0c tbl (4 * (k.val + 1)) (4 * k.val + 1) (fun q' => tok_s1 q' k.val))
    unfold slotFly'
    iexists (k1_off7 k), (k1_off7_inb k hc3), _
    isplitr
    rotate_left
    · unfold GFl
      isplitl [HFA]; · iexact HFA
      isplitl [HtB]; · iexact HtB
      isplitl [HbA]; · iexact HbA
      iexact HsB
    · ipureintro
      show IsRows d L (gatherOf tbl ids) (4 * (k.val + 1)) _
      rw [writes_whole_one]
      unfold trip_first.sl.gather3
      exact gather_rows (F := F) d L ids tbl hin s0c h0 (4 * (k.val + 1)) (by omega) (k1_off7 k) (by rw [k1_off7_eq]; show 512 * k.val + 512 = _; omega) _ _ _ _ _ _
  isplitl [HFB HtC HbB HsC]
  · iapply (slotFly_retok (F := F) d L 12 _ cc1_scratch2 _ fullShare q s0c tbl (4 * (k.val + 1) + 1) (4 * k.val + 2) (fun q' => tok_s2 q' k.val))
    unfold slotFly'
    iexists (k1_off8 k), (k1_off8_inb k hc4), _
    isplitr
    rotate_left
    · unfold GFl
      isplitl [HFB]; · iexact HFB
      isplitl [HtC]; · iexact HtC
      isplitl [HbB]; · iexact HbB
      iexact HsC
    · ipureintro
      show IsRows d L (gatherOf tbl ids) (4 * (k.val + 1) + 1) _
      rw [writes_whole_one]
      unfold trip_first.sl.gather5
      exact gather_rows (F := F) d L ids tbl hin s0c h0 (4 * (k.val + 1) + 1) (by omega) (k1_off8 k) (by rw [k1_off8_eq]; show 512 * k.val + 640 = _; omega) _ _ _ _ _ _
  isplitl [HFC HtA HbC HsA]
  · iapply (slotFly_retok (F := F) d L 13 _ cc1_scratch3 _ fullShare q s0c tbl (4 * (k.val + 1) + 2) (4 * k.val) (fun q' => tok_s3 q' k.val))
    unfold slotFly'
    iexists (k1_off9 k), (k1_off9_inb k hc5), _
    isplitr
    rotate_left
    · unfold GFl
      isplitl [HFC]; · iexact HFC
      isplitl [HtA]; · iexact HtA
      isplitl [HbC]; · iexact HbC
      iexact HsA
    · ipureintro
      show IsRows d L (gatherOf tbl ids) (4 * (k.val + 1) + 2) _
      rw [writes_whole_one]
      unfold trip_first.sl.gather7
      exact gather_rows (F := F) d L ids tbl hin s0c h0 (4 * (k.val + 1) + 2) (by omega) (k1_off9 k) (by rw [k1_off9_eq]; show 512 * k.val + 768 = _; omega) _ _ _ _ _ _
  isplitl [Hw3 Hb3]
  · unfold coFly
    iexists _, (k1_off3_inb L k 3), _, _
    isplitr
    rotate_left
    · unfold CFl
      isplitl [Hw3]; · iexact Hw3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_first.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_first.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone Ho0 Ho1 Ho2]
  · ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_first.sl.dma0 d L XA)
        (show IsRows d L (gatherOf tbl ids) (4 * k.val) (trip_first.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_first.sl.dma0_1 d L XB)
        (show IsRows d L (gatherOf tbl ids) (4 * k.val + 1) (trip_first.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_first.sl.dma0_2 d L XC)
        (show IsRows d L (gatherOf tbl ids) (4 * k.val + 2) (trip_first.sl.dma0_2 d L XC) from vC) f0)) $$ Ho2
    ihave Hdone := (rows_glue' (F := F) d L (base L) (base L + 128 * (4 * k.val - 1)) (base L + 512 * k.val) (base L + 512 * k.val + 128) (base L + 512 * k.val + 128) (by omega) (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (hW')))))))

end Tile

end Cert.Kernel.Hand

end
-- ==== Proof.KernelHand.TileTripMid.lean ====
/-
  A middle trip of the tile's loop (0 < k < 49). At its head the gathers of chunks 4k, 4k+1, 4k+2 are in flight into
  the first three buffers and the copy-out of chunk 4k-1 from the fourth; the trip waits for each gather in turn,
  starts the buffer's copy-out to its 128 rows of the result, waits for the previous buffer's copy-out and starts the
  gather of the chunk three ahead into that buffer, with the read shares the awaited gather gave back. At its end
  the invariant holds at k+1: the rows of chunks 4k-1 … 4k+2 have joined the rows done, each at the table's rows its
  ids name.
-/
import proofs.«202745_g55851754717770_cont_9to1_m_910_12_alg».proof.Proof.KernelHand.TileDefs2
import proofs.«202745_g55851754717770_cont_9to1_m_910_12_alg».proof.Proof.KernelHand.TileVals
import proofs.«202745_g55851754717770_cont_9to1_m_910_12_alg».proof.Proof.KernelHand.TileVals2

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_mid (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hkpos : 0 < k.val) (hk49 : k.val < 49) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  -- a middle trip
  have hc1 : k1_cond1 k = 1#1 := (cond1_iff k).mpr hkpos
  have hc3 : k1_cond3 k = 1#1 := (cond3_iff k).mpr hk49
  have hc4 : k1_cond4 k = 1#1 := (cond4_iff k).mpr hk49
  have hc5 : k1_cond5 k = 1#1 := (cond5_iff k).mpr hk49
  rw [inv_fly (F := F) d L _ f0 q s0c tbl O W k.val acc hk50 _ (if_pos hkpos)]
  unfold invAt slotFly coFly
  iintro ⟨#Hmw, ⟨%oA, %hkA, %XA, %vA, HA⟩, ⟨%oB, %hkB, %XB, %vB, HB⟩, ⟨%oC, %hkC, %XC, %vC, HC⟩, ⟨%o3, %hk3, %Y3, %X3, %h3, H3⟩,
    Hg3, Hw0, Hw1, Hw2, Hdone, Htodo, ⟨%W', %hW', HO⟩⟩
  unfold GFl CFl
  icases HA with ⟨HFA, HtA, HbA, HsA⟩
  icases HB with ⟨HFB, HtB, HbB, HsB⟩
  icases HC with ⟨HFC, HtC, HbC, HsC⟩
  icases H3 with ⟨HF3, Hb3⟩
  ihave Hc := (carve4 (F := F) d L k f0).1 $$ Htodo
  icases Hc with ⟨Ho0, Ho1, Ho2, Ho3, Htodo⟩
  sl_unfold [k1_t1_body]
  sl_exec
  sl_step
  obtain ⟨rfl, hY3⟩ := h3
  iapply (Entails.of_eq (inv_fly (F := F) d L _ f0 q s0c tbl O W (k.val + 1) PUnit.unit (by omega) _ (if_pos (Nat.succ_pos _))).symm)
  unfold invAt
  isplitr; · iexact Hmw
  isplitl [HFA HtB HbA HsB]
  · iapply (slotFly_retok (F := F) d L 11 _ cc1_scratch1 _ fullShare q s0c tbl (4 * (k.val + 1)) (4 * k.val + 1) (fun q' => tok_s1 q' k.val))
    unfold slotFly'
    iexists (k1_off7 k), (k1_off7_inb k hc3), _
    isplitr
    rotate_left
    · unfold GFl
      isplitl [HFA]; · iexact HFA
      isplitl [HtB]; · iexact HtB
      isplitl [HbA]; · iexact HbA
      iexact HsB
    · ipureintro
      show IsRows d L (gatherOf tbl ids) (4 * (k.val + 1)) _
      rw [writes_whole_one]
      unfold trip_mid.sl.gather3
      exact gather_rows (F := F) d L ids tbl hin s0c h0 (4 * (k.val + 1)) (by omega) (k1_off7 k) (by rw [k1_off7_eq]; show 512 * k.val + 512 = _; omega) _ _ _ _ _ _
  isplitl [HFB HtC HbB HsC]
  · iapply (slotFly_retok (F := F) d L 12 _ cc1_scratch2 _ fullShare q s0c tbl (4 * (k.val + 1) + 1) (4 * k.val + 2) (fun q' => tok_s2 q' k.val))
    unfold slotFly'
    iexists (k1_off8 k), (k1_off8_inb k hc4), _
    isplitr
    rotate_left
    · unfold GFl
      isplitl [HFB]; · iexact HFB
      isplitl [HtC]; · iexact HtC
      isplitl [HbB]; · iexact HbB
      iexact HsC
    · ipureintro
      show IsRows d L (gatherOf tbl ids) (4 * (k.val + 1) + 1) _
      rw [writes_whole_one]
      unfold trip_mid.sl.gather5
      exact gather_rows (F := F) d L ids tbl hin s0c h0 (4 * (k.val + 1) + 1) (by omega) (k1_off8 k) (by rw [k1_off8_eq]; show 512 * k.val + 640 = _; omega) _ _ _ _ _ _
  isplitl [HFC HtA HbC HsA]
  · iapply (slotFly_retok (F := F) d L 13 _ cc1_scratch3 _ fullShare q s0c tbl (4 * (k.val + 1) + 2) (4 * k.val) (fun q' => tok_s3 q' k.val))
    unfold slotFly'
    iexists (k1_off9 k), (k1_off9_inb k hc5), _
    isplitr
    rotate_left
    · unfold GFl
      isplitl [HFC]; · iexact HFC
      isplitl [HtA]; · iexact HtA
      isplitl [HbC]; · iexact HbC
      iexact HsA
    · ipureintro
      show IsRows d L (gatherOf tbl ids) (4 * (k.val + 1) + 2) _
      rw [writes_whole_one]
      unfold trip_mid.sl.gather7
      exact gather_rows (F := F) d L ids tbl hin s0c h0 (4 * (k.val + 1) + 2) (by omega) (k1_off9 k) (by rw [k1_off9_eq]; show 512 * k.val + 768 = _; omega) _ _ _ _ _ _
  isplitl [HF3 Hb3]
  · unfold coFly
    iexists _, (k1_off3_inb L k 3), _, _
    isplitr
    rotate_left
    · unfold CFl
      isplitl [HF3]; · iexact HF3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_mid.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_mid.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone HF3_dst Ho0 Ho1 Ho2]
  · ihave Hd1 := (chunk_G (F := F) d L (gatherOf tbl ids) _ hk3 (base L + 128 * (4 * k.val - 1)) rfl rfl Y3 hY3) $$ HF3_dst
    ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_mid.sl.dma0 d L XA)
        (show IsRows d L (gatherOf tbl ids) (4 * k.val) (trip_mid.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_mid.sl.dma0_1 d L XB)
        (show IsRows d L (gatherOf tbl ids) (4 * k.val + 1) (trip_mid.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_mid.sl.dma0_2 d L XC)
        (show IsRows d L (gatherOf tbl ids) (4 * k.val + 2) (trip_mid.sl.dma0_2 d L XC) from vC) f0)) $$ Ho2
    ihave Hdone := (rows_glue' (F := F) d L (base L) (base L + 128 * (4 * k.val - 1)) (base L + 128 * (4 * k.val - 1)) (base L + 512 * k.val) (base L + 128 * (4 * k.val - 1) + 128) rfl (by omega) (by omega) (by omega) (gatherOf tbl ids)) $$ [Hdone Hd1]
    · isplitl [Hdone] <;> iassumption
    ihave Hdone := (rows_glue' (F := F) d L (base L) (base L + 512 * k.val) (base L + 512 * k.val) (base L + 512 * k.val + 128) (base L + 512 * k.val + 128) rfl (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (ins_ok (hW'))))))))

end Tile

end Cert.Kernel.Hand

end
-- ==== Proof.KernelHand.TileTripLast.lean ====
/-
  The last trip of the tile's loop (k = 49). At its head the gathers of chunks 4k, 4k+1, 4k+2 are in flight into the
  first three buffers and the copy-out of chunk 4k-1 from the fourth, as at any later trip; the trip waits for each
  gather in turn and starts the buffer's copy-out to its 128 rows of the result, but starts no new gather: there is no
  chunk three ahead. At its end the invariant holds at k+1 = 50 with the three gather slots idle — each buffer whole,
  its cell at zero, and the two read shares the awaited gather gave back — the copy-out of chunk 4k+3 in flight, and the
  rows of chunks 4k-1 … 4k+2 joined to the rows done, each at the table's rows its ids name.
-/
import proofs.«202745_g55851754717770_cont_9to1_m_910_12_alg».proof.Proof.KernelHand.TileDefs2
import proofs.«202745_g55851754717770_cont_9to1_m_910_12_alg».proof.Proof.KernelHand.TileVals
import proofs.«202745_g55851754717770_cont_9to1_m_910_12_alg».proof.Proof.KernelHand.TileVals2

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_last (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hkpos : 0 < k.val) (hk49 : 49 ≤ k.val) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  have hc1 : k1_cond1 k = 1#1 := (cond1_iff k).mpr hkpos
  have hc3 : ¬ k1_cond3 k = 1#1 := fun h => by have := (cond3_iff k).mp h; omega
  have hc4 : ¬ k1_cond4 k = 1#1 := fun h => by have := (cond4_iff k).mp h; omega
  have hc5 : ¬ k1_cond5 k = 1#1 := fun h => by have := (cond5_iff k).mp h; omega
  rw [inv_fly (F := F) d L _ f0 q s0c tbl O W k.val acc hk50 _ (if_pos hkpos)]
  unfold invAt slotFly coFly
  iintro ⟨#Hmw, ⟨%oA, %hkA, %XA, %vA, HA⟩, ⟨%oB, %hkB, %XB, %vB, HB⟩, ⟨%oC, %hkC, %XC, %vC, HC⟩, ⟨%o3, %hk3, %Y3, %X3, %h3, H3⟩,
    Hg3, Hw0, Hw1, Hw2, Hdone, Htodo, ⟨%W', %hW', HO⟩⟩
  unfold GFl CFl
  icases HA with ⟨HFA, HtA, HbA, HsA⟩
  icases HB with ⟨HFB, HtB, HbB, HsB⟩
  icases HC with ⟨HFC, HtC, HbC, HsC⟩
  icases H3 with ⟨HF3, Hb3⟩
  ihave Hc := (carve4 (F := F) d L k f0).1 $$ Htodo
  icases Hc with ⟨Ho0, Ho1, Ho2, Ho3, Htodo⟩
  sl_unfold [k1_t1_body]
  sl_exec
  sl_step
  obtain ⟨rfl, hY3⟩ := h3
  iapply (Entails.of_eq (inv_idle (F := F) d L _ f0 q s0c tbl O W (k.val + 1) PUnit.unit (by omega) (Nat.succ_pos _)).symm)
  unfold invAt
  isplitr; · iexact Hmw
  isplitl [HFA HtB HbA HsB]
  · iapply (slotIdle_retok (F := F) d L 11 _ cc1_scratch1 fullShare q s0c tbl (4 * (k.val + 1)) (4 * k.val + 1) (fun q' => tok_s1 q' k.val))
    unfold slotIdle
    isplitl [HbA]; · iexists _; iexact HbA
    isplitl [HFA]; · iexact HFA
    isplitl [HsB]; · iexact HsB
    iexact HtB
  isplitl [HFB HtC HbB HsC]
  · iapply (slotIdle_retok (F := F) d L 12 _ cc1_scratch2 fullShare q s0c tbl (4 * (k.val + 1) + 1) (4 * k.val + 2) (fun q' => tok_s2 q' k.val))
    unfold slotIdle
    isplitl [HbB]; · iexists _; iexact HbB
    isplitl [HFB]; · iexact HFB
    isplitl [HsC]; · iexact HsC
    iexact HtC
  isplitl [HFC HtA HbC HsA]
  · iapply (slotIdle_retok (F := F) d L 13 _ cc1_scratch3 fullShare q s0c tbl (4 * (k.val + 1) + 2) (4 * k.val) (fun q' => tok_s3 q' k.val))
    unfold slotIdle
    isplitl [HbC]; · iexists _; iexact HbC
    isplitl [HFC]; · iexact HFC
    isplitl [HsA]; · iexact HsA
    iexact HtA
  isplitl [HF3 Hb3]
  · unfold coFly
    iexists _, (k1_off3_inb L k 3), _, _
    isplitr
    rotate_left
    · unfold CFl
      isplitl [HF3]; · iexact HF3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_last.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_last.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone HF3_dst Ho0 Ho1 Ho2]
  · ihave Hd1 := (chunk_G (F := F) d L (gatherOf tbl ids) _ hk3 (base L + 128 * (4 * k.val - 1)) rfl rfl Y3 hY3) $$ HF3_dst
    ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_last.sl.dma0 d L XA)
        (show IsRows d L (gatherOf tbl ids) (4 * k.val) (trip_last.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_last.sl.dma0_1 d L XB)
        (show IsRows d L (gatherOf tbl ids) (4 * k.val + 1) (trip_last.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_last.sl.dma0_2 d L XC)
        (show IsRows d L (gatherOf tbl ids) (4 * k.val + 2) (trip_last.sl.dma0_2 d L XC) from vC) f0)) $$ Ho2
    ihave Hdone := (rows_glue' (F := F) d L (base L) (base L + 128 * (4 * k.val - 1)) (base L + 128 * (4 * k.val - 1)) (base L + 512 * k.val) (base L + 128 * (4 * k.val - 1) + 128) rfl (by omega) (by omega) (by omega) (gatherOf tbl ids)) $$ [Hdone Hd1]
    · isplitl [Hdone] <;> iassumption
    ihave Hdone := (rows_glue' (F := F) d L (base L) (base L + 512 * k.val) (base L + 512 * k.val) (base L + 512 * k.val + 128) (base L + 512 * k.val + 128) rfl (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (ins_ok (hW'))))))))

end Tile

end Cert.Kernel.Hand

end
-- ==== Proof.KernelHand.TileBody.lean ====
/-
  One tile's task of the gather, whole. The tile copies its 25600 ids into its id scratch and waits; reads the
  table and the id scratch through three rotating pairs of read shares, so that three gathers of table rows are in
  flight at once; starts the gathers of chunks 0, 1, 2; runs the fifty trips of its loop at the invariant of
  TileDefs.lean (first, middle and last trip proved apart); waits for the last copy-out; and hands back its ids, its
  share of the table, its scoped buffers and semaphores, and its 25600 rows of the result at the table's rows its ids
  name — the rows of the chunks joined range by range, the read shares joined back.
-/
import proofs.«202745_g55851754717770_cont_9to1_m_910_12_alg».proof.Proof.KernelHand.TileTripFirst
import proofs.«202745_g55851754717770_cont_9to1_m_910_12_alg».proof.Proof.KernelHand.TileTripMid
import proofs.«202745_g55851754717770_cont_9to1_m_910_12_alg».proof.Proof.KernelHand.TileTripLast

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

theorem trip_region (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  rcases Nat.eq_zero_or_pos k.val with hk0 | hkpos
  · exact trip_first (F := F) d L ids hin f0 q s0c h0 tbl O W v3 k hk0 acc
  rcases Nat.lt_or_ge k.val 49 with hk49 | hk49
  · exact trip_mid (F := F) d L ids hin f0 q s0c h0 tbl O W v3 k hkpos hk49 acc
  · exact trip_last (F := F) d L ids hin f0 q s0c h0 tbl O W v3 k hkpos hk49 acc

theorem inv_at_trips (G f0 : Buf (Elt F) (outLoc d)) (q : PosShare TreeShare) (s0c : Buf (Elt F) ((s0M).view.loc (VT d L))) (tbl : Buf (Elt F) (tblLoc d))
    (O : CellTallies nD τ sig (HIx 1)) (W : Waits sig (HIx 1)) (acc : PUnit) :
    inv d L G f0 q s0c tbl O W (Scf.trips k1_t1_loop.lb k1_t1_loop.ub k1_t1_loop.st) acc
      ⊢ invAt d L G f0 O W
          (slotIdle d L 11 (by decide) cc1_scratch1 fullShare q s0c tbl (4 * 50))
          (slotIdle d L 12 (by decide) cc1_scratch2 fullShare q s0c tbl (4 * 50 + 1))
          (slotIdle d L 13 (by decide) cc1_scratch3 fullShare q s0c tbl (4 * 50 + 2))
          (coFly d L G (4 * 50 - 1)) (base L + 128 * (4 * 50 - 1)) (base L + 512 * 50) := by
  have htr : Scf.trips k1_t1_loop.lb k1_t1_loop.ub k1_t1_loop.st = 50 := trips_eq
  rw [htr, inv_idle (F := F) d L G f0 q s0c tbl O W 50 acc (by decide) (by decide)]

omit [FloatOps F] in
/-- The three read shares, as the last trip leaves them, and what was kept aside are the share again. -/
theorem toks_join_end (ℓ : Loc nD τ sig) (q : PosShare TreeShare) (f : Buf (Elt F) ℓ) :
    iprop((ℓ ↦{Transfers.shareDrop q 3} f) ∗ (ℓ ↦{tok q (4 * 50)} f) ∗ (ℓ ↦{tok q (4 * 50 + 1)} f) ∗ (ℓ ↦{tok q (4 * 50 + 2)} f))
      ⊢ (ℓ ↦{q} f : sProp 𝕄) := by
  have e0 : tok q (4 * 50) = tok q 2 := rfl
  have e1 : tok q (4 * 50 + 1) = tok q 0 := rfl
  have e2 : tok q (4 * 50 + 2) = tok q 1 := rfl
  rw [e0, e1, e2]
  iintro ⟨Hr, H2, H0, H1⟩
  iapply (toks3 (F := F) ℓ q f).2
  isplitl [Hr]; · iexact Hr
  isplitl [H0]; · iexact H0
  isplitl [H1]; · iexact H1
  iexact H2

omit [FloatOps F] in
theorem done_empty (G : Buf (Elt F) (outLoc d)) :
    (emp : sProp 𝕄) ⊢ ((outV).view.loc (VT d L) ↦[rowsSet (base L) (base L + 128 * (4 * 0 - 1))]{fullShare} G : sProp 𝕄) := by
  rw [show base L + 128 * (4 * 0 - 1) = base L from by omega, rowsSet_empty, pointsTo_empty]

set_option maxHeartbeats 2000000 in
theorem tile_task (hF : (K (F := F)).Facts)
    (ids : Buf (Elt F) (idsLoc d)) (tbl : Buf (Elt F) (tblLoc d)) (f0 : Buf (Elt F) (outLoc d)) (q : PosShare TreeShare)
    (hin : ∀ r ∈ idsSet (wid L), (ids r : BitVec 32).toNat < 1000000)
    (O : CellTallies nD τ sig (HIx 1)) (W : Waits sig (HIx 1)) (hO : ∀ g, O g none = 0) :
    iprop(levAts (K (F := F)).L (K (F := F)).lev ∗ tileRes d (wid L) q ids tbl f0
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0)
          (fun _ => iprop(tileRes d (wid L) q ids tbl (gatherOf tbl ids)
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄) := by
  unfold tileRes
  rw [(K (F := F)).scopedBufs_V hF d (cV L) (jV L), SparseCore.Cfg.scopedSems0_V (Val := Elt F) d (cV L) (jV L), ownSems0_V, ownBufs_V]
  iintro ⟨#Hlv, ⟨Hids, Htbl, Hout⟩, ⟨⟨%b0, Hb0⟩, ⟨%b1, Hb1⟩, ⟨%b2, Hb2⟩, ⟨%b3, Hb3⟩, ⟨%b4, Hb4⟩, Hbufs⟩,
    ⟨Hs5, Hs6, Hs7, Hs8, Hs9, Hs10, Hs11, Hs12, Hsc, Hsems⟩, HO⟩
  ihave Hmw := ((K (F := F)).mayWaits_none (thr := VT d L) hO) $$ Hlv
  ihave Hids' := (Entails.of_eq (pts_idsRow (F := F) d L _).symm) $$ Hids
  ihave Htbl' := (Entails.of_eq (pts_tbl (F := F) d L _ _).symm) $$ Htbl
  ihave Hb0' := (Entails.of_eq (pts_s (F := F) d L cc1_scratch0 _).symm) $$ Hb0
  ihave Hb1' := (Entails.of_eq (pts_s (F := F) d L cc1_scratch1 _).symm) $$ Hb1
  ihave Hb2' := (Entails.of_eq (pts_s (F := F) d L cc1_scratch2 _).symm) $$ Hb2
  ihave Hb3' := (Entails.of_eq (pts_s (F := F) d L cc1_scratch3 _).symm) $$ Hb3
  ihave Hb4' := (Entails.of_eq (pts_s (F := F) d L cc1_scratch4 _).symm) $$ Hb4
  ihave Hout' := (Entails.of_eq ((congrArg (fun S => (outLoc d ↦[S]{fullShare} f0 : sProp 𝕄)) (outSet_eq L)).trans (pts_out (F := F) d L _ _ _).symm)) $$ Hout
  sl_unfold [cc1__sc_gather]
  sl_exec
  have h0 : S0ok d L ids (View.write (Elt F) (Memref.whole cc1_scratch0).view b0 (tile_task.sl.dma0 d L ids) Finset.univ) :=
    s0ok_of_copy (F := F) d L ids b0
  have hidx := hidx_of_s0ok (F := F) d L ids hin _ h0
  ihave Ht3 := (toks3 (F := F) _ _ _).1 $$ Htbl'
  icases Ht3 with ⟨Htr, Ht0, Ht1, Ht2⟩
  ihave Hs3 := (toks3 (F := F) _ _ _).1 $$ Hb0'
  icases Hs3 with ⟨Hsr, Hs0, Hs1, Hs2⟩
  ihave Htr' := (Entails.of_eq (hide_eq (F := F) _).symm) $$ Htr
  ihave Hsr' := (Entails.of_eq (hide_eq (F := F) _).symm) $$ Hsr
  sl_exec
  sl_for (inv d L (gatherOf tbl ids) f0 q (View.write (Elt F) (Memref.whole cc1_scratch0).view b0 (tile_task.sl.dma0 d L ids) Finset.univ) tbl O
      (insert (SemLoc.dma cc1_scoped0.sem, (default : HIx 1)) W))
    $$ [Hmw Hs5 Ht0 Hb1' Hs0 Hs6 Ht1 Hb2' Hs1 Hs7 Ht2 Hb3' Hs2 Hb4' Hs8 Hs9 Hs10 Hs11 Hs12 Hout' HO]
  case region =>
    intro k acc
    exact trip_region (F := F) d L ids hin f0 q _ h0 tbl O _ (tile_task.sl.v2 L) k acc
  · -- the invariant at the first trip
    iapply (Entails.of_eq (inv_fly (F := F) d L _ f0 q _ tbl O _ 0 PUnit.unit (by decide) _ (if_neg (lt_irrefl 0))).symm)
    unfold invAt
    isplitr; · iexact Hmw
    isplitl [Hs5 Ht0 Hb1' Hs0]
    · unfold slotFly
      iexists ![0], inb_S25600_S128_0, _
      isplitr
      rotate_left
      · unfold GFl
        isplitl [Hs5]; · iexact Hs5
        isplitl [Ht0]; · iexact Ht0
        isplitl [Hb1']; · iexact Hb1'
        iexact Hs0
      · ipureintro
        show IsRows d L (gatherOf tbl ids) (4 * 0) _
        rw [writes_whole_one]
        unfold tile_task.sl.gather0
        exact gather_rows (F := F) d L ids tbl hin _ h0 (4 * 0) (by omega) ![0] rfl _ _ _ _ _ _
    isplitl [Hs6 Ht1 Hb2' Hs1]
    · unfold slotFly
      iexists ![128], inb_S25600_S128_128, _
      isplitr
      rotate_left
      · unfold GFl
        isplitl [Hs6]; · iexact Hs6
        isplitl [Ht1]; · iexact Ht1
        isplitl [Hb2']; · iexact Hb2'
        iexact Hs1
      · ipureintro
        show IsRows d L (gatherOf tbl ids) (4 * 0 + 1) _
        rw [writes_whole_one]
        unfold tile_task.sl.gather1
        exact gather_rows (F := F) d L ids tbl hin _ h0 (4 * 0 + 1) (by omega) ![128] rfl _ _ _ _ _ _
    isplitl [Hs7 Ht2 Hb3' Hs2]
    · unfold slotFly
      iexists ![256], inb_S25600_S128_256, _
      isplitr
      rotate_left
      · unfold GFl
        isplitl [Hs7]; · iexact Hs7
        isplitl [Ht2]; · iexact Ht2
        isplitl [Hb3']; · iexact Hb3'
        iexact Hs2
      · ipureintro
        show IsRows d L (gatherOf tbl ids) (4 * 0 + 2) _
        rw [writes_whole_one]
        unfold tile_task.sl.gather2
        exact gather_rows (F := F) d L ids tbl hin _ h0 (4 * 0 + 2) (by omega) ![256] rfl _ _ _ _ _ _
    isplitl [Hb4' Hs12]
    · unfold coIdle
      isplitl [Hb4']; · iexists _; iexact Hb4'
      iexact Hs12
    isplitl [Hs8]; · iexact Hs8
    isplitl [Hs9]; · iexact Hs9
    isplitl [Hs10]; · iexact Hs10
    isplitl [Hs11]; · iexact Hs11
    isplitr; · iapply (done_empty (F := F) d L _); iempintro
    isplitl [Hout']; · iexact Hout'
    iexists _; isplitr
    rotate_left
    · iexact HO
    · ipureintro; exact fun p hp => .inl hp
  -- after the loop
  iintro %_ HI
  ihave HI' := (inv_at_trips (F := F) d L _ f0 q _ tbl O _ _) $$ HI
  unfold invAt slotIdle coFly
  icases HI' with ⟨-, ⟨⟨%XA, HbA⟩, Hc11, HsA, HtA⟩, ⟨⟨%XB, HbB⟩, Hc12, HsB, HtB⟩, ⟨⟨%XC, HbC⟩, Hc13, HsC, HtC⟩,
    ⟨%o3, %hk3, %Y3, %X3, %h3, H3⟩, Hg3, Hw0, Hw1, Hw2, Hdone, Htodo, ⟨%W', %hW', HO⟩⟩
  unfold CFl
  icases H3 with ⟨HF3, Hb3⟩
  sl_exec
  sl_step
  obtain ⟨rfl, hY3⟩ := h3
  isplitl [Hids' Htr' HtA HtB HtC Hdone HF3_dst]
  · isplitl [Hids']; · iapply (Entails.of_eq (pts_idsRow (F := F) d L _)); iexact Hids'
    isplitl [Htr' HtA HtB HtC]
    · iapply (Entails.of_eq (pts_tbl (F := F) d L _ _))
      iapply (toks_join_end (F := F) _ q tbl)
      isplitl [Htr']; · iapply (Entails.of_eq (hide_eq (F := F) _)); iexact Htr'
      isplitl [HtA]; · iexact HtA
      isplitl [HtB]; · iexact HtB
      iexact HtC
    · ihave Hd1 := (chunk_G (F := F) d L (gatherOf tbl ids) _ hk3 (base L + 128 * (4 * 50 - 1)) rfl rfl Y3 hY3) $$ HF3_dst
      ihave Hdone := (rows_glue' (F := F) d L (base L) (base L + 128 * (4 * 50 - 1)) (base L + 128 * (4 * 50 - 1)) (base L + 25600)
        (base L + 128 * (4 * 50 - 1) + 128) rfl (by omega) (by omega) (by omega) (gatherOf tbl ids)) $$ [Hdone Hd1]
      · isplitl [Hdone] <;> iassumption
      iapply (Entails.of_eq ((pts_out (F := F) d L _ _ _).trans (congrArg (fun S => (outLoc d ↦[S]{fullShare} (gatherOf tbl ids) : sProp 𝕄)) (outSet_eq L).symm)))
      iexact Hdone
  isplitl [Hsr' HsA HsB HsC HbA HbB HbC Hb3 Hbufs]
  · isplitl [Hsr' HsA HsB HsC]
    · iexists _
      iapply (Entails.of_eq (pts_s (F := F) d L cc1_scratch0 _))
      iapply (toks_join_end (F := F) _ fullShare _)
      isplitl [Hsr']; · iapply (Entails.of_eq (hide_eq (F := F) _)); iexact Hsr'
      isplitl [HsA]; · iexact HsA
      isplitl [HsB]; · iexact HsB
      iexact HsC
    isplitl [HbA]; · iexists _; iapply (Entails.of_eq (pts_s (F := F) d L cc1_scratch1 _)); iexact HbA
    isplitl [HbB]; · iexists _; iapply (Entails.of_eq (pts_s (F := F) d L cc1_scratch2 _)); iexact HbB
    isplitl [HbC]; · iexists _; iapply (Entails.of_eq (pts_s (F := F) d L cc1_scratch3 _)); iexact HbC
    isplitl [Hb3]; · iexists _; iapply (Entails.of_eq (pts_s (F := F) d L cc1_scratch4 _)); iexact Hb3
    iexact Hbufs
  isplitl [Hc11 Hc12 Hc13 Hg3 Hw0 Hw1 Hw2 HF3 Hsc Hsems]
  · isplitl [Hc11]; · iexact Hc11
    isplitl [Hc12]; · iexact Hc12
    isplitl [Hc13]; · iexact Hc13
    isplitl [Hg3]; · iexact Hg3
    isplitl [Hw0]; · iexact Hw0
    isplitl [Hw1]; · iexact Hw1
    isplitl [Hw2]; · iexact Hw2
    isplitl [HF3]; · iexact HF3
    isplitl [Hsc]; · iexact Hsc
    iexact Hsems
  iexists _; isplitr
  rotate_left
  · iexact HO
  · ipureintro
    intro p hp
    rcases Finset.mem_insert.mp hp with rfl | hp
    · exact .inr rfl
    rcases hW' p hp with h | h
    · rcases Finset.mem_insert.mp h with rfl | h
      · exact .inr rfl
      · exact .inl h
    · exact .inr h

end Tile

/-- One tile's task, as the launch asks for it. -/
theorem tile_body : TileBodyStmt (F := F) :=
  fun hF d L ids tbl f0 q hin O W hO => tile_task (F := F) d L hF ids tbl f0 q hin O W hO

end Cert.Kernel.Hand

end
-- ==== Proof.KernelIdealHand.Common.lean ====
/-
  What every hand module about the idealized kernel shares: the program as the SparseCore launch theorem sees it
  (its configuration, body table and variants), the ghost algebra — the launch handshakes' rounds, the TensorCore
  pipeline's staging cells' rounds, and the counters of the tiles' own copies —, and the three arrays the
  SparseCore call works on: the flattened ids, the table the TensorCore call built, and the gathered rows.
-/
import proofs.«202745_g55851754717770_cont_9to1_m_910_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«202745_g55851754717770_cont_9to1_m_910_12_alg».proof.Proof.Gen.KernelIdeal
import proofs.«202745_g55851754717770_cont_9to1_m_910_12_alg».proof.Proof.Gen.KernelIdeal.Skeleton
import proofs.«202745_g55851754717770_cont_9to1_m_910_12_alg».proof.Proof.Gen.KernelIdeal.Launch
import proofs.«202745_g55851754717770_cont_9to1_m_910_12_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI Idealize.SL.Sem
open scoped Idealize.SL.BI
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The ghost algebra -/

/-- The launch handshakes' rounds. -/
abbrev UH : Type := URounds (GSem nD τ sig) ℕ
/-- The TensorCore pipeline's staging cells' rounds. -/
abbrev UR : Type := URounds (GSem nD τ sig) Unit
/-- Both, beside the counters of the tiles' own copies (found by instance). -/
abbrev UU : Type := UH × (UR × Counters)

/-- The handshakes' component. -/
def EH : Emb UH (MT nD τ sig (HIx 1) (Elt F) ℕ UU ℕ) := embL
/-- The staging cells' component. -/
def ER : Emb UR (MT nD τ sig (HIx 1) (Elt F) ℕ UU ℕ) := (Emb.inl : Emb UR (UR × Counters)).trans embR

instance EH_landsIn : (EH : Emb UH (MT nD τ sig (HIx 1) (Elt F) ℕ UU ℕ)).LandsIn (upEmb : UEmb _ (MT nD τ sig (HIx 1) (Elt F) ℕ UU ℕ)) := by
  unfold EH; infer_instance
instance ER_landsIn : (ER : Emb UR (MT nD τ sig (HIx 1) (Elt F) ℕ UU ℕ)).LandsIn (upEmb : UEmb _ (MT nD τ sig (HIx 1) (Elt F) ℕ UU ℕ)) := by
  unfold ER embR; infer_instance

example : CountersIn UU := inferInstance

/-! ## The arrays of the SparseCore call -/

/-- The flattened ids, the table and the gathered rows, as locations of device `d`. -/
abbrev idsLoc (d : Dev nD) : Loc nD τ sig := (SparseCore.T d).loc main_v16
abbrev tblLoc (d : Dev nD) : Loc nD τ sig := (SparseCore.T d).loc main_v15
abbrev outLoc (d : Dev nD) : Loc nD τ sig := (SparseCore.T d).loc main_v17

/-- The same arrays as a tile's memrefs name them. -/
abbrev idsV : Memref sig .scVector .hbm S819200 .i32 := Memref.whole main_v16_scv
abbrev tblV : Memref sig .scVector .hbm S1000000x128 .f32 := Memref.whole main_v15_scv
abbrev outV : Memref sig .scVector .hbm S819200x128 .f32 := Memref.whole main_v17_scv

/-- A tile's place in the grid, and its number: twice the subcore plus the core. -/
abbrev cV (L : grid1.Coords) : Fin τ.nSC := (L 0).castLE hcore1
abbrev jV (L : grid1.Coords) : Fin τ.nSub := (L 1).castLE hsub1
def wid (L : grid1.Coords) : ℕ := 2 * (L 1).val + (L 0).val

def coordsV (c : Fin (grid1.bound 0)) (s : Fin (grid1.bound 1)) : grid1.Coords :=
  fun | 0 => c | 1 => s | ⟨_ + 2, h⟩ => absurd h (Nat.not_lt.2 (Nat.le_add_left _ _))

/-- Tile number `w`'s 25600 ids, and its 25600 rows of the result. -/
def idsSet (w : ℕ) : Finset S819200.Idx := Finset.univ.filter fun r => w * 25600 ≤ (r 0).val ∧ (r 0).val < (w + 1) * 25600
def outSet (w : ℕ) : Finset S819200x128.Idx := Finset.univ.filter fun r => w * 25600 ≤ (r 0).val ∧ (r 0).val < (w + 1) * 25600

/-- What the SparseCore call leaves in the result: row `r` is row `ids r` of the table (a row the ids name; rows
    beyond the table are never asked for under the precondition, and read as row 0 here). -/
def gatherOf (tbl : S1000000x128.Idx → Elt F .f32) (ids : S819200.Idx → BitVec 32) : S819200x128.Idx → Elt F .f32 :=
  fun i => tbl (ValueIdx.ix2 (if h : (ids (ValueIdx.ix1 (i 0))).toNat < 1000000 then ⟨(ids (ValueIdx.ix1 (i 0))).toNat, h⟩ else ⟨0, by decide⟩) (i 1))

end Cert.KernelIdeal.Hand

end
-- ==== Proof.KernelIdealHand.Stmts.lean ====
/-
  The statement of one tile's task, as a proposition: a tile of the SparseCore call, at any place of the grid, from its
  own 25600 ids, a read share of the whole table and its own 25600 rows of the result, runs to the end and leaves in
  those rows, row by row, the table's rows its ids name. The launch is proved from this proposition; the tile's body
  proves it.
-/
import proofs.«202745_g55851754717770_cont_9to1_m_910_12_alg».proof.Proof.KernelIdealHand.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-- What a tile is handed, with the result's rows at `f`. -/
def tileRes (d : Dev nD) (w : ℕ) (q : PosShare TreeShare) (ids : Buf (Elt F) (idsLoc d)) (tbl : Buf (Elt F) (tblLoc d))
    (f : Buf (Elt F) (outLoc d)) : sProp 𝕄 :=
  iprop((idsLoc d ↦[idsSet w]{fullShare} ids) ∗ (tblLoc d ↦{q} tbl) ∗ (outLoc d ↦[outSet w]{fullShare} f))

/-- One tile's task. -/
def TileBodyStmt : Prop :=
  ∀ (hF : (K (F := F)).Facts) (d : Dev nD) (L : grid1.Coords)
    (ids : Buf (Elt F) (idsLoc d)) (tbl : Buf (Elt F) (tblLoc d)) (f0 : Buf (Elt F) (outLoc d)) (q : PosShare TreeShare)
    (hin : ∀ r ∈ idsSet (wid L), (ids r : BitVec 32).toNat < 1000000)
    (O : CellTallies nD τ sig (HIx 1)) (W : Waits sig (HIx 1)) (hO : ∀ g, O g none = 0),
    iprop(levAts (K (F := F)).L (K (F := F)).lev ∗ tileRes d (wid L) q ids tbl f0
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0)
          (fun _ => iprop(tileRes d (wid L) q ids tbl (gatherOf tbl ids)
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄)

end Cert.KernelIdeal.Hand

end
-- ==== Proof.KernelIdealHand.Launch.lean ====
/-
  The SparseCore call as the launch theorem wants it stated: what the call hands each SparseCore and each tile and what
  comes back. A SparseCore's share: the ids and the result rows of its sixteen tiles (tile number 2·i + c for subcore i
  of SparseCore c) and a read share of the whole table; a tile's: its own ids and rows and a read share split off its
  SparseCore's. The result rows come back at the gathered rows.
-/
import proofs.«202745_g55851754717770_cont_9to1_m_910_12_alg».proof.Proof.KernelIdealHand.Stmts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN shareTok pointsTo_toks)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

variable (ids : (d : Dev nD) → Buf (Elt F) (idsLoc d)) (tbl : (d : Dev nD) → Buf (Elt F) (tblLoc d)) (f0 : (d : Dev nD) → Buf (Elt F) (outLoc d))

/-- The read share of the table SparseCore `c` is handed, and tile `i`'s of it. -/
abbrev qC (c : ℕ) : PosShare TreeShare := shareTokN fullShare c
abbrev qT (c i : ℕ) : PosShare TreeShare := shareTokN (qC c) i

/-- Tile number `w`'s ids and its rows of the result at `f`. -/
def tileIO (d : Dev nD) (w : ℕ) (f : Buf (Elt F) (outLoc d)) : sProp 𝕄 :=
  iprop((idsLoc d ↦[idsSet w]{fullShare} ids d) ∗ (outLoc d ↦[outSet w]{fullShare} f))

omit [FloatOps F] in
theorem tileRes_iff (d : Dev nD) (w : ℕ) (q : PosShare TreeShare) (f : Buf (Elt F) (outLoc d)) :
    (tileRes d w q (ids d) (tbl d) f : sProp 𝕄) ⊣⊢ iprop(tileIO ids d w f ∗ (tblLoc d ↦{q} tbl d)) := by
  unfold tileRes tileIO
  constructor
  · iintro ⟨Hi, Ht, Ho⟩
    isplitl [Hi Ho]
    · isplitl [Hi] <;> iassumption
    · iexact Ht
  · iintro ⟨⟨Hi, Ho⟩, Ht⟩
    isplitl [Hi]; · iexact Hi
    isplitl [Ht] <;> iassumption

/-- The call's payloads. -/
def P : (K (F := F)).Pay (nD := nD) (Val := Elt F) (Name := ℕ) (U := UU) where
  st := fun _ d c => iprop((bigSep Finset.univ fun i : Fin 16 => tileIO ids d (2 * i.val + c.val) (f0 d)) ∗ (tblLoc d ↦{qC c.val} tbl d))
  dn := fun _ d c => iprop((bigSep Finset.univ fun i : Fin 16 => tileIO ids d (2 * i.val + c.val) (gatherOf (tbl d) (ids d))) ∗ (tblLoc d ↦{qC c.val} tbl d))
  go := fun _ d c i => tileRes d (2 * i.val + c.val) (qT c.val i.val) (ids d) (tbl d) (f0 d)
  td := fun _ d c i => tileRes d (2 * i.val + c.val) (qT c.val i.val) (ids d) (tbl d) (gatherOf (tbl d) (ids d))
  x := fun _ _ => iprop(emp)

instance P_storable : (P (F := F) ids tbl f0).IsStorable where
  st _ d c := by unfold P tileIO; infer_instance
  dn _ d c := by unfold P tileIO; infer_instance
  go _ _ _ _ := by unfold P tileRes; infer_instance
  td _ _ _ _ := by unfold P tileRes; infer_instance

/-! ## A SparseCore's operands split among its tiles -/

omit [FloatOps F] in
theorem bigSep_tiles (Φ : ℕ → sProp 𝕄) :
    (bigSep Finset.univ fun i : Fin ((K (F := F)).nSub 0) => Φ i.val) = bigSep Finset.univ fun i : Fin 16 => Φ i.val := rfl

theorem vecSplit : (K (F := F)).VecSplit' (P ids tbl f0) 0 := by
  intro d c
  show iprop((bigSep Finset.univ fun i : Fin 16 => tileIO ids d (2 * i.val + c.val) (f0 d)) ∗ (tblLoc d ↦{qC c.val} tbl d)) ⊢ |={Set.univ}=> iprop(
      (bigSep Finset.univ fun i : Fin ((K (F := F)).nSub 0) => tileRes d (2 * i.val + c.val) (qT c.val i.val) (ids d) (tbl d) (f0 d))
      ∗ ((bigSep Finset.univ fun i : Fin ((K (F := F)).nSub 0) => tileRes d (2 * i.val + c.val) (qT c.val i.val) (ids d) (tbl d) (gatherOf (tbl d) (ids d)))
          -∗ iprop((bigSep Finset.univ fun i : Fin 16 => tileIO ids d (2 * i.val + c.val) (gatherOf (tbl d) (ids d))) ∗ (tblLoc d ↦{qC c.val} tbl d))))
  rw [bigSep_tiles (F := F) (fun i => tileRes d (2 * i + c.val) (qT c.val i) (ids d) (tbl d) (f0 d)),
    bigSep_tiles (F := F) (fun i => tileRes d (2 * i + c.val) (qT c.val i) (ids d) (tbl d) (gatherOf (tbl d) (ids d)))]
  have e1 : ∀ f : Buf (Elt F) (outLoc d), (bigSep Finset.univ fun i : Fin 16 => (tileRes d (2 * i.val + c.val) (qT c.val i.val) (ids d) (tbl d) f : sProp 𝕄))
      ⊣⊢ iprop((bigSep Finset.univ fun i : Fin 16 => tileIO ids d (2 * i.val + c.val) f) ∗ bigSep Finset.univ fun i : Fin 16 => (tblLoc d ↦{shareTok (qC c.val) 16 i} tbl d)) := by
    intro f
    rw [← bigSep_sep']
    exact ⟨bigSep_mono fun i _ => (tileRes_iff ids tbl d _ _ f).1, bigSep_mono fun i _ => (tileRes_iff ids tbl d _ _ f).2⟩
  iintro ⟨Hio, Ht⟩
  ihave H := (pointsTo_toks (qC c.val) 16).1 $$ Ht
  icases H with ⟨Hrem, Htoks⟩
  imodintro
  isplitl [Hio Htoks]
  · iapply (e1 (f0 d)).2
    isplitl [Hio] <;> iassumption
  iintro Htd
  ihave H := (e1 (gatherOf (tbl d) (ids d))).1 $$ Htd
  icases H with ⟨Hio, Htoks⟩
  isplitl [Hio]; · iexact Hio
  iapply (pointsTo_toks (qC c.val) 16).2
  isplitl [Hrem] <;> iassumption

/-! ## The tile obligation, from one tile's task -/

theorem defs₀_vector (c : Fin τ.nSC) (s : Fin τ.nSub) :
    defs₀ (F := F) (.scVector c s) 1 ()
      = SparseCore.onTile hcore1 hsub1 (fun c s => cc1__sc_gather (coordsV c s)
          idsV (Memref.isWhole_whole _) tblV (Memref.isWhole_whole _) outV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _)
          cc1_scratch5 cc1_scratch6 cc1_scratch7 cc1_scratch8 cc1_scratch9 cc1_scratch10 cc1_scratch11 cc1_scratch12 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, for the launch theorem: the body table's row is the kernel function at the tile's place, and
    the tile's number there is twice its subcore plus its SparseCore. -/
theorem tileObl (htb : TileBodyStmt (F := F)) (hin : ∀ (d : Dev nD) (r : S819200.Idx), (ids d r : BitVec 32).toNat < 1000000) :
    (K (F := F)).TileObl (D (F := F)) 𝒱 (P ids tbl f0) v₀ 0 := by
  intro d c i O W hO _ _
  simp only [show (P ids tbl f0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hpre : ∀ (A X B C E : sProp 𝕄), iprop(A ∗ X ∗ B ∗ C ∗ E) ⊢ iprop(A ∗ B ∗ C ∗ E) := by
    intro A X B C E
    iintro ⟨HA, -, HB, HC⟩
    isplitl [HA]; · iexact HA
    isplitl [HB]; · iexact HB
    iexact HC
  exact (hpre _ _ _ _ _).trans ((htb facts d (coordsV ⟨_, hc.1⟩ ⟨_, hc.2⟩) (ids d) (tbl d) (f0 d) (qT c.val i.val) (fun r _ => hin d r) O W hO).trans
    (wp_mono frame _ _ fun _ => obl_post))

end Cert.KernelIdeal.Hand

end
-- ==== Proof.KernelIdealHand.Rows.lean ====
/-
  The 819200 ids, and the 819200 rows of the result, fall into the 32 tiles' stretches of 25600: tile number
  2·i + c (subcore i of SparseCore c) owns rows (2·i + c)·25600 … (2·i + c + 1)·25600 − 1. The stretches are pairwise
  disjoint and cover everything, so an array held whole is the 32 stretches held one by one, at the same contents.
-/
import proofs.«202745_g55851754717770_cont_9to1_m_910_12_alg».proof.Proof.KernelIdealHand.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A tile's number from its SparseCore and subcore. -/
abbrev widOf (a : Fin 2 × Fin 16) : ℕ := 2 * a.2.val + a.1.val

theorem widOf_inj {a b : Fin 2 × Fin 16} (h : widOf a = widOf b) : a = b := by
  obtain ⟨⟨c, hc⟩, ⟨i, hi⟩⟩ := a; obtain ⟨⟨c', hc'⟩, ⟨i', hi'⟩⟩ := b
  simp only [widOf] at h
  have h1 : c = c' := by omega
  have h2 : i = i' := by omega
  subst h1; subst h2; rfl

theorem idsSets_disjoint : ∀ a ∈ (Finset.univ : Finset (Fin 2 × Fin 16)), ∀ b ∈ (Finset.univ : Finset (Fin 2 × Fin 16)), a ≠ b →
    Disjoint (idsSet (widOf a)) (idsSet (widOf b)) := by
  intro a _ b _ hab
  have hne : widOf a ≠ widOf b := fun h => hab (widOf_inj h)
  refine Finset.disjoint_left.mpr fun r h1 h2 => ?_
  have h1' := (Finset.mem_filter.mp h1).2
  have h2' := (Finset.mem_filter.mp h2).2
  rcases Nat.lt_or_gt_of_ne hne with h | h
  · have : (widOf a + 1) * 25600 ≤ widOf b * 25600 := Nat.mul_le_mul_right _ h
    omega
  · have : (widOf b + 1) * 25600 ≤ widOf a * 25600 := Nat.mul_le_mul_right _ h
    omega

theorem outSets_disjoint : ∀ a ∈ (Finset.univ : Finset (Fin 2 × Fin 16)), ∀ b ∈ (Finset.univ : Finset (Fin 2 × Fin 16)), a ≠ b →
    Disjoint (outSet (widOf a)) (outSet (widOf b)) := by
  intro a _ b _ hab
  have hne : widOf a ≠ widOf b := fun h => hab (widOf_inj h)
  refine Finset.disjoint_left.mpr fun r h1 h2 => ?_
  have h1' := (Finset.mem_filter.mp h1).2
  have h2' := (Finset.mem_filter.mp h2).2
  rcases Nat.lt_or_gt_of_ne hne with h | h
  · have : (widOf a + 1) * 25600 ≤ widOf b * 25600 := Nat.mul_le_mul_right _ h
    omega
  · have : (widOf b + 1) * 25600 ≤ widOf a * 25600 := Nat.mul_le_mul_right _ h
    omega

/-- The tile that owns row `n`. -/
theorem owner_exists (n : ℕ) (hn : n < 819200) : ∃ a : Fin 2 × Fin 16, widOf a * 25600 ≤ n ∧ n < (widOf a + 1) * 25600 := by
  have hw : n / 25600 < 32 := by omega
  refine ⟨(⟨(n / 25600) % 2, Nat.mod_lt _ (by decide)⟩, ⟨(n / 25600) / 2, by omega⟩), ?_⟩
  have e : 2 * ((n / 25600) / 2) + (n / 25600) % 2 = n / 25600 := by omega
  show (2 * ((n / 25600) / 2) + (n / 25600) % 2) * 25600 ≤ n ∧ n < (2 * ((n / 25600) / 2) + (n / 25600) % 2 + 1) * 25600
  rw [e]
  constructor
  · exact Nat.div_mul_le_self n 25600
  · have := Nat.lt_div_mul_add (a := n) (b := 25600) (by decide)
    rw [Nat.add_mul, Nat.one_mul]; omega

theorem idsSets_cover : (Finset.univ : Finset (Fin 2 × Fin 16)).biUnion (fun a => idsSet (widOf a)) = Finset.univ := by
  refine Finset.eq_univ_iff_forall.mpr fun r => ?_
  obtain ⟨a, ha⟩ := owner_exists (r 0).val (r 0).isLt
  exact Finset.mem_biUnion.mpr ⟨a, Finset.mem_univ _, Finset.mem_filter.mpr ⟨Finset.mem_univ _, ha⟩⟩

theorem outSets_cover : (Finset.univ : Finset (Fin 2 × Fin 16)).biUnion (fun a => outSet (widOf a)) = Finset.univ := by
  refine Finset.eq_univ_iff_forall.mpr fun r => ?_
  obtain ⟨a, ha⟩ := owner_exists (r 0).val (r 0).isLt
  exact Finset.mem_biUnion.mpr ⟨a, Finset.mem_univ _, Finset.mem_filter.mpr ⟨Finset.mem_univ _, ha⟩⟩

/-- The ids held whole are the 32 stretches, SparseCore by SparseCore and tile by tile. -/
theorem ids_split (d : Dev nD) (f : Buf (Elt F) (idsLoc d)) :
    (idsLoc d ↦{fullShare} f : sProp 𝕄)
      = bigSep Finset.univ fun c : Fin 2 => bigSep Finset.univ fun i : Fin 16 => (idsLoc d ↦[idsSet (2 * i.val + c.val)]{fullShare} f : sProp 𝕄) := by
  rw [← bigSep_univ_prod (fun a : Fin 2 × Fin 16 => (idsLoc d ↦[idsSet (widOf a)]{fullShare} f : sProp 𝕄)),
    ← pointsTo_biUnion Finset.univ (ℓ := idsLoc d) (fun a => idsSet (widOf a)) idsSets_disjoint, idsSets_cover]

/-- The result's rows held whole are the 32 stretches. -/
theorem out_split (d : Dev nD) (f : Buf (Elt F) (outLoc d)) :
    (outLoc d ↦{fullShare} f : sProp 𝕄)
      = bigSep Finset.univ fun c : Fin 2 => bigSep Finset.univ fun i : Fin 16 => (outLoc d ↦[outSet (2 * i.val + c.val)]{fullShare} f : sProp 𝕄) := by
  rw [← bigSep_univ_prod (fun a : Fin 2 × Fin 16 => (outLoc d ↦[outSet (widOf a)]{fullShare} f : sProp 𝕄)),
    ← pointsTo_biUnion Finset.univ (ℓ := outLoc d) (fun a => outSet (widOf a)) outSets_disjoint, outSets_cover]

end Cert.KernelIdeal.Hand

end
-- ==== Proof.KernelIdealHand.Vals.lean ====
/-
  @main of the idealized kernel as its host operations around the two calls: the eighteen operations before the
  TensorCore call (the three tables cast, the three projections transposed, scaled and cast), the reshape of the ids
  before the SparseCore call, the reshape of the gathered rows after it; and the contents of the TensorCore's arrays
  after each stretch, as pure functions of the launch memory.
-/
import proofs.«202745_g55851754717770_cont_9to1_m_910_12_alg».proof.Proof.KernelIdealHand.Common
import Idealize.ShloMosaic.Lib.Pipeline.Frame

noncomputable section

namespace Cert.KernelIdeal.Hand

open Cert.KernelIdeal Cert.KernelIdeal.Gen

open Idealize.ShloMosaic Idealize.ShloMosaic.StableHlo
open Idealize.ShloMosaic.SparseCore (S V T)
open Idealize.SL.Sem

variable {F : FTy → Type} [FloatOps F]

/-- The operations before the TensorCore call. -/
abbrev opsA : List (HloOp τ sig (Elt F)) :=
  [ unary main_arg1 main_v0 ((truncf .bf16 · bitsLt_bf16_f32) : (⟨S20000x128, .f32⟩ : BufTy).Contents (Elt F) → (⟨S20000x128, .bf16⟩ : BufTy).Contents (Elt F)),
    unary main_arg2 main_v1 ((truncf .bf16 · bitsLt_bf16_f32) : (⟨S80000x32, .f32⟩ : BufTy).Contents (Elt F) → (⟨S80000x32, .bf16⟩ : BufTy).Contents (Elt F)),
    unary main_arg3 main_v2 ((truncf .bf16 · bitsLt_bf16_f32) : (⟨S900000x8, .f32⟩ : BufTy).Contents (Elt F) → (⟨S900000x8, .bf16⟩ : BufTy).Contents (Elt F)),
    unary main_arg4 main_v3 ((transpose S128x128 [1, 0] · transposes_S128x128_S128x128_1_0) : (⟨S128x128, .f32⟩ : BufTy).Contents (Elt F) → (⟨S128x128, .f32⟩ : BufTy).Contents (Elt F)),
    nullary main_cst (constant S_ .f32 0x413504F3#32),
    unary main_cst main_v4 (broadcastInDim S128x128 ![] bcast_S_S128x128 : (⟨S_, .f32⟩ : BufTy).Contents (Elt F) → (⟨S128x128, .f32⟩ : BufTy).Contents (Elt F)),
    binary main_v3 main_v4 main_v5 (mulf : (⟨S128x128, .f32⟩ : BufTy).Contents (Elt F) → (⟨S128x128, .f32⟩ : BufTy).Contents (Elt F) → (⟨S128x128, .f32⟩ : BufTy).Contents (Elt F)),
    unary main_v5 main_v6 ((truncf .bf16 · bitsLt_bf16_f32) : (⟨S128x128, .f32⟩ : BufTy).Contents (Elt F) → (⟨S128x128, .bf16⟩ : BufTy).Contents (Elt F)),
    unary main_arg5 main_v7 ((transpose S32x128 [1, 0] · transposes_S128x32_S32x128_1_0) : (⟨S128x32, .f32⟩ : BufTy).Contents (Elt F) → (⟨S32x128, .f32⟩ : BufTy).Contents (Elt F)),
    nullary main_cst_0 (constant S_ .f32 0x413504F3#32),
    unary main_cst_0 main_v8 (broadcastInDim S32x128 ![] bcast_S_S32x128 : (⟨S_, .f32⟩ : BufTy).Contents (Elt F) → (⟨S32x128, .f32⟩ : BufTy).Contents (Elt F)),
    binary main_v7 main_v8 main_v9 (mulf : (⟨S32x128, .f32⟩ : BufTy).Contents (Elt F) → (⟨S32x128, .f32⟩ : BufTy).Contents (Elt F) → (⟨S32x128, .f32⟩ : BufTy).Contents (Elt F)),
    unary main_v9 main_v10 ((truncf .bf16 · bitsLt_bf16_f32) : (⟨S32x128, .f32⟩ : BufTy).Contents (Elt F) → (⟨S32x128, .bf16⟩ : BufTy).Contents (Elt F)),
    unary main_arg6 main_v11 ((transpose S8x128 [1, 0] · transposes_S128x8_S8x128_1_0) : (⟨S128x8, .f32⟩ : BufTy).Contents (Elt F) → (⟨S8x128, .f32⟩ : BufTy).Contents (Elt F)),
    nullary main_cst_1 (constant S_ .f32 0x413504F3#32),
    unary main_cst_1 main_v12 (broadcastInDim S8x128 ![] bcast_S_S8x128 : (⟨S_, .f32⟩ : BufTy).Contents (Elt F) → (⟨S8x128, .f32⟩ : BufTy).Contents (Elt F)),
    binary main_v11 main_v12 main_v13 (mulf : (⟨S8x128, .f32⟩ : BufTy).Contents (Elt F) → (⟨S8x128, .f32⟩ : BufTy).Contents (Elt F) → (⟨S8x128, .f32⟩ : BufTy).Contents (Elt F)),
    unary main_v13 main_v14 ((truncf .bf16 · bitsLt_bf16_f32) : (⟨S8x128, .f32⟩ : BufTy).Contents (Elt F) → (⟨S8x128, .bf16⟩ : BufTy).Contents (Elt F)) ]

/-- The reshape of the ids, between the two calls. -/
abbrev opsB : List (HloOp τ sig (Elt F)) := [ StableHlo.reshape main_arg0 main_v16 rfl shapeCasts_S4096x200_S819200 ]

/-- The reshape of the gathered rows, after the SparseCore call. -/
abbrev opsC : List (HloOp τ sig (Elt F)) := [ StableHlo.reshape main_v17 main_v18 rfl shapeCasts_S819200x128_S4096x200x128 ]

theorem main_eq (d : Dev nD) :
    main (F := F) d = (seq opsA >>= fun _ => (Prog.lift (.customCall (SparseCore.inner (Pipeline.entry 0)) ()) >>= fun _ =>
      (seq opsB >>= fun _ => ((sc (F := F)).run d 0 >>= fun _ => (seq opsC >>= fun _ => pure ⟨⟩))))) := rfl

/-! ## The three stretches run within the TensorCore's unscoped arrays -/

theorem opsA_sub : ∀ op ∈ (opsA : List (HloOp τ sig (Elt F))), op.bufs ⊆ Pipeline.ucRefs τ sig :=
  List.forall_iff_forall_mem.mp (show (opsA : List (HloOp τ sig (Elt F))).Forall fun op => op.bufs ⊆ Pipeline.ucRefs τ sig from
    ⟨Pipeline.sub_ucRefs _ (unary_bufs_sub ..), Pipeline.sub_ucRefs _ (unary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..), Pipeline.sub_ucRefs _ (unary_bufs_sub ..), Pipeline.sub_ucRefs _ (nullary_bufs_sub ..), Pipeline.sub_ucRefs _ (unary_bufs_sub ..), Pipeline.sub_ucRefs _ (binary_bufs_sub ..), Pipeline.sub_ucRefs _ (unary_bufs_sub ..)⟩)
theorem opsB_sub : ∀ op ∈ (opsB : List (HloOp τ sig (Elt F))), op.bufs ⊆ Pipeline.ucRefs τ sig :=
  List.forall_iff_forall_mem.mp (show (opsB : List (HloOp τ sig (Elt F))).Forall fun op => op.bufs ⊆ Pipeline.ucRefs τ sig from
    Pipeline.sub_ucRefs _ (reshape_bufs_sub ..))
theorem opsC_sub : ∀ op ∈ (opsC : List (HloOp τ sig (Elt F))), op.bufs ⊆ Pipeline.ucRefs τ sig :=
  List.forall_iff_forall_mem.mp (show (opsC : List (HloOp τ sig (Elt F))).Forall fun op => op.bufs ⊆ Pipeline.ucRefs τ sig from
    Pipeline.sub_ucRefs _ (reshape_bufs_sub ..))

theorem opsA_fresh : ∀ op ∈ (opsA : List (HloOp τ sig (Elt F))), op.fresh = ∅ :=
  List.forall_iff_forall_mem.mp (show (opsA : List (HloOp τ sig (Elt F))).Forall fun op => op.fresh = ∅ from
    ⟨rfl, rfl, rfl, rfl, rfl, rfl, rfl, rfl, rfl, rfl, rfl, rfl, rfl, rfl, rfl, rfl, rfl, rfl⟩)
theorem opsB_fresh : ∀ op ∈ (opsB : List (HloOp τ sig (Elt F))), op.fresh = ∅ :=
  List.forall_iff_forall_mem.mp (show (opsB : List (HloOp τ sig (Elt F))).Forall fun op => op.fresh = ∅ from rfl)
theorem opsC_fresh : ∀ op ∈ (opsC : List (HloOp τ sig (Elt F))), op.fresh = ∅ :=
  List.forall_iff_forall_mem.mp (show (opsC : List (HloOp τ sig (Elt F))).Forall fun op => op.fresh = ∅ from rfl)

omit [FloatOps F] in
/-- Before the SparseCore call the TensorCore owes only start signals, none at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

end Cert.KernelIdeal.Hand

end
-- ==== Proof.KernelIdealHand.TableStmt.lean ====
/-
  The table the TensorCore call builds, as a pure function of its six operands, and the statement of that call as a
  proposition. The call runs a grid of fifty points; point `t` writes rows `20000 t … 20000 t + 19999` of the table.
  Those rows are one matrix product: for `t = 0` the first operand (all of it) times the fourth; for `1 ≤ t < 5` rows
  `20000 (t - 1) …` of the second times the fifth; for `5 ≤ t` rows `20000 (t - 5) …` of the third times the sixth —
  each product into a zero accumulator. The launch of the whole program is proved from this proposition; the region's
  proof proves it.
-/
import proofs.«202745_g55851754717770_cont_9to1_m_910_12_alg».proof.Proof.KernelIdealHand.Common
import Idealize.ShloMosaic.Lib.Pipeline.Regions

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

/-! ## The pipeline of the call, pinned -/

/-- The call prefetches no table: the one admissible contents. -/
abbrev adm : (p : Fin 1) → (pcfgs (F := F) p).Adm := fun p => (cfgs p).toPCfg_adm
/-- The program's pipelines at those contents. -/
abbrev pcsPin : Fin 1 → Pipeline.Cfg sig Λ₀ := Pipeline.pin (pcfgs (F := F)) adm
/-- Their staging cells are pairwise distinct. -/
theorem cellOf_inj' : Function.Injective (Pipeline.cellOf (nD := nD) (τ := τ) (pcsPin (F := F))) := Gen.cellOf_inj

/-! ## The table -/

/-- The rows grid point `t` writes: the product the point's condition selects, of the blocks of the operands the
    point's index maps name. -/
def tblBlock (t : Fin grid0.N) (a0 : S20000x128.Idx → Elt F .bf16) (a1 : S80000x32.Idx → Elt F .bf16)
    (a2 : S900000x8.Idx → Elt F .bf16) (a3 : S128x128.Idx → Elt F .bf16) (a4 : S32x128.Idx → Elt F .bf16)
    (a5 : S8x128.Idx → Elt F .bf16) : Vec F S20000x128 .f32 :=
  if k0_cond1 (grid0.coords t) = 1#1 then
    k0_pay1 ((win0_0.blk t).view.read (Elt F) a0) ((win0_3.blk t).view.read (Elt F) a3)
  else if k0_cond2 (grid0.coords t) = 1#1 then
    k0_pay2 ((win0_1.blk t).view.read (Elt F) a1) ((win0_4.blk t).view.read (Elt F) a4)
  else
    k0_pay3 ((win0_2.blk t).view.read (Elt F) a2) ((win0_5.blk t).view.read (Elt F) a5)

/-- The whole table: row `r` is row `r % 20000` of what point `r / 20000` writes. -/
def tableOf (a0 : S20000x128.Idx → Elt F .bf16) (a1 : S80000x32.Idx → Elt F .bf16)
    (a2 : S900000x8.Idx → Elt F .bf16) (a3 : S128x128.Idx → Elt F .bf16) (a4 : S32x128.Idx → Elt F .bf16)
    (a5 : S8x128.Idx → Elt F .bf16) : S1000000x128.Idx → Elt F .f32 :=
  fun i => tblBlock ⟨(i 0).val / 20000, by rw [N_0]; have := ValueIdx.idx2_lt0 i; omega⟩ a0 a1 a2 a3 a4 a5
    (ValueIdx.ix2 ⟨(i 0).val % 20000, Nat.mod_lt _ (by decide)⟩ (i 1))

/-! ## The call -/

/-- The six operands of the call on device `d`, whole. -/
def tableOperands (d : Dev nD) (a0 : Buf (Elt F) ((SparseCore.T (τ := τ) d).loc main_v0)) (a1 : Buf (Elt F) ((SparseCore.T (τ := τ) d).loc main_v1))
    (a2 : Buf (Elt F) ((SparseCore.T (τ := τ) d).loc main_v2)) (a3 : Buf (Elt F) ((SparseCore.T (τ := τ) d).loc main_v6)) (a4 : Buf (Elt F) ((SparseCore.T (τ := τ) d).loc main_v10))
    (a5 : Buf (Elt F) ((SparseCore.T (τ := τ) d).loc main_v14)) : sProp 𝕄 :=
  iprop((((SparseCore.T (τ := τ) d).loc main_v0) ↦{fullShare} a0) ∗ (((SparseCore.T (τ := τ) d).loc main_v1) ↦{fullShare} a1) ∗ (((SparseCore.T (τ := τ) d).loc main_v2) ↦{fullShare} a2)
    ∗ (((SparseCore.T (τ := τ) d).loc main_v6) ↦{fullShare} a3) ∗ (((SparseCore.T (τ := τ) d).loc main_v10) ↦{fullShare} a4) ∗ (((SparseCore.T (τ := τ) d).loc main_v14) ↦{fullShare} a5))

/-- The TensorCore call: from the region boundary, the ghost state of the pipeline's staging cells as the launch deals
    it, the six operands and the result array whole, and what the TensorCore owes (nothing at index `none`), the call
    runs to the end and leaves the operands as they were and the result array at the table; the waits it recorded
    are at index `none`. -/
def TableRegionStmt : Prop :=
  ∀ (d : Dev nD) (a0 : Buf (Elt F) ((SparseCore.T (τ := τ) d).loc main_v0)) (a1 : Buf (Elt F) ((SparseCore.T (τ := τ) d).loc main_v1))
    (a2 : Buf (Elt F) ((SparseCore.T (τ := τ) d).loc main_v2)) (a3 : Buf (Elt F) ((SparseCore.T (τ := τ) d).loc main_v6)) (a4 : Buf (Elt F) ((SparseCore.T (τ := τ) d).loc main_v10))
    (a5 : Buf (Elt F) ((SparseCore.T (τ := τ) d).loc main_v14)) (f15 : Buf (Elt F) ((SparseCore.T (τ := τ) d).loc main_v15))
    (O : CellTallies nD τ sig (HIx 1)) (W : Waits sig (HIx 1)) (hO : ∀ g, O g none = 0) (Φ : PUnit → sProp 𝕄),
    iprop(levAts (K (F := F)).L (K (F := F)).lev ∗ boundary (SparseCore.T (τ := τ) d)
        ∗ Pipeline.cellsGhost (pcsPin (F := F)) ER 0 d ∗ Pipeline.toksInit (pcsPin (F := F)) ER 0 d
        ∗ tableOperands d a0 a1 a2 a3 a4 a5 ∗ (((SparseCore.T (τ := τ) d).loc main_v15) ↦{fullShare} f15)
        ∗ owes (SparseCore.T (τ := τ) d) O W
        ∗ (iprop(boundary (SparseCore.T (τ := τ) d) ∗ tableOperands d a0 a1 a2 a3 a4 a5
            ∗ (((SparseCore.T (τ := τ) d).loc main_v15) ↦{fullShare} tableOf a0 a1 a2 a3 a4 a5)
            ∗ ∃ W', ⌜∀ p ∈ W', p ∈ W ∨ p.2 = none⌝ ∗ owes (SparseCore.T (τ := τ) d) O W') -∗ Φ ⟨⟩))
      ⊢ (wp frame (wpE ((K (F := F)).defs (D (F := F))) 𝒱 (SparseCore.T (τ := τ) d) none) Set.univ
          (Prog.lift (.customCall (SparseCore.inner (Pipeline.entry 0)) ())) Φ : sProp 𝕄)

end Cert.KernelIdeal.Hand

end
-- ==== Proof.KernelIdealHand.Main.lean ====
/-
  @main of the idealized kernel on a device's TensorCore, inside the SparseCore launch: the eighteen host operations,
  the TensorCore call that builds the table, the reshape of the ids, the SparseCore call that gathers the rows, and
  the reshape of the result; every array's contents after each stretch is a pure function of the launch memory, and
  the arrays come out at the last of them.
-/
import proofs.«202745_g55851754717770_cont_9to1_m_910_12_alg».proof.Proof.KernelIdealHand.Launch
import proofs.«202745_g55851754717770_cont_9to1_m_910_12_alg».proof.Proof.KernelIdealHand.Rows
import proofs.«202745_g55851754717770_cont_9to1_m_910_12_alg».proof.Proof.KernelIdealHand.Vals
import proofs.«202745_g55851754717770_cont_9to1_m_910_12_alg».proof.Proof.KernelIdealHand.TableStmt

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)
open Idealize.ShloMosaic.Transfers (shareDrop shareTokN shareTok pointsTo_toks)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arrays' contents after each stretch -/

abbrev dr (b : Ref sig .tc) : DevRef τ sig := Proc.devRef .tc b

/-- At launch; after the eighteen operations; with the table built; with the ids reshaped; with the rows gathered;
    with the result reshaped. -/
def V0 (d : Dev nD) : Valuation τ sig (Elt F) := fun b => m (d, b)
def VA (d : Dev nD) : Valuation τ sig (Elt F) := after opsA (V0 m d)
def tblOf (d : Dev nD) : Buf (Elt F) (tblLoc d) :=
  tableOf (VA m d (dr main_v0)) (VA m d (dr main_v1)) (VA m d (dr main_v2)) (VA m d (dr main_v6)) (VA m d (dr main_v10)) (VA m d (dr main_v14))
def VB (d : Dev nD) : Valuation τ sig (Elt F) := Function.update (VA m d) (dr main_v15) (tblOf m d)
def VC (d : Dev nD) : Valuation τ sig (Elt F) := after opsB (VB m d)
def idsOf (d : Dev nD) : Buf (Elt F) (idsLoc d) := VC m d (dr main_v16)
def out0 (d : Dev nD) : Buf (Elt F) (outLoc d) := VC m d (dr main_v17)
def outOf (d : Dev nD) : Buf (Elt F) (outLoc d) := gatherOf (tblOf m d) (idsOf m d)
def VD (d : Dev nD) : Valuation τ sig (Elt F) := Function.update (VC m d) (dr main_v17) (outOf m d)
def VE (d : Dev nD) : Valuation τ sig (Elt F) := after opsC (VD m d)

/-- The SparseCore call's payloads at those contents. -/
abbrev PP : (K (F := F)).Pay (nD := nD) (Val := Elt F) (Name := ℕ) (U := UU) := P (idsOf m) (tblOf m) (out0 m)

/-! ## The held arrays, around the two calls -/

/-- The TensorCore call's seven arrays. -/
abbrev T7 : Finset (DevRef τ sig) := {dr main_v0, dr main_v1, dr main_v2, dr main_v6, dr main_v10, dr main_v14, dr main_v15}
/-- The SparseCore call's three. -/
abbrev T3 : Finset (DevRef τ sig) := {dr main_v16, dr main_v15, dr main_v17}

omit [FloatOps F] in
theorem T7_sub : T7 ⊆ Pipeline.ucRefs τ sig := by decide
omit [FloatOps F] in
theorem T3_sub : T3 ⊆ Pipeline.ucRefs τ sig := by decide

omit [FloatOps F] in
theorem held_T7 (d : Dev nD) (W : Valuation τ sig (Elt F)) :
    (held (SparseCore.T d) T7 W : sProp 𝕄)
      = iprop(((SparseCore.T d).loc main_v0 ↦{fullShare} W (dr main_v0)) ∗ ((SparseCore.T d).loc main_v1 ↦{fullShare} W (dr main_v1)) ∗ ((SparseCore.T d).loc main_v2 ↦{fullShare} W (dr main_v2))
        ∗ ((SparseCore.T d).loc main_v6 ↦{fullShare} W (dr main_v6)) ∗ ((SparseCore.T d).loc main_v10 ↦{fullShare} W (dr main_v10)) ∗ ((SparseCore.T d).loc main_v14 ↦{fullShare} W (dr main_v14))
        ∗ ((SparseCore.T d).loc main_v15 ↦{fullShare} W (dr main_v15))) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄)
      = iprop((idsLoc d ↦{fullShare} W (dr main_v16)) ∗ (tblLoc d ↦{fullShare} W (dr main_v15)) ∗ (outLoc d ↦{fullShare} W (dr main_v17))) := by
  unfold held T3
  rw [SparseCore.bigSep_insert' (by decide), SparseCore.bigSep_insert' (by decide), bigSep_singleton]

omit [FloatOps F] in
/-- Outside a set, a valuation updated inside it is the valuation. -/
theorem held_update_out (d : Dev nD) (S₀ : Finset (DevRef τ sig)) (W : Valuation τ sig (Elt F)) (b : DevRef τ sig) (hb : b ∈ S₀) (x : b.ty.Contents (Elt F)) :
    (held (SparseCore.T d) (Pipeline.ucRefs τ sig \ S₀) (Function.update W b x) : sProp 𝕄) = held (SparseCore.T d) (Pipeline.ucRefs τ sig \ S₀) W :=
  held_congr (SparseCore.T d) fun b' hb' => Function.update_of_ne (fun e => (Finset.mem_sdiff.mp hb').2 (by rw [e]; exact hb)) _ _

/-! ## The launch element: the handshakes' rounds, the staging cells' rounds; nothing of the tiles' own -/

def u₀ : UU :=
  (initOf (K (F := F)).hsCells (K (F := F)).hsToks,
    (initOf (Pipeline.cells (pcsPin (F := F)) cellOf_inj') (Pipeline.launchToks (pcsPin (F := F)) cellOf_inj'), 1))

/-- What @main's proof starts from on device `d`: the ghost state of the TensorCore call's staging cells. -/
def Gd (d : Dev nD) : sProp 𝕄 := iprop(Pipeline.cellsGhost (pcsPin (F := F)) ER 0 d ∗ Pipeline.toksInit (pcsPin (F := F)) ER 0 d)

omit [FloatOps F] in
theorem bigSep_emp' {I : Type} (s : Finset I) : (bigSep s fun _ => iprop(emp)) = (iprop(emp) : sProp 𝕄) := bigSep_emp_const s

omit [FloatOps F] in
theorem own_ER (x : UR) : (BI.own (((Emb.inl : Emb UR (UR × Counters)).trans embR) x) : sProp 𝕄) = BI.own (ER x) := rfl

omit [FloatOps F] in
theorem Gd_all :
    iprop((bigSep Finset.univ fun d : Dev nD => bigSep Finset.univ fun p : Fin 1 => Pipeline.cellsGhost (pcsPin (F := F)) ER p d)
        ∗ (bigSep Finset.univ fun d : Dev nD => bigSep Finset.univ fun p : Fin 1 => (Pipeline.toksInit (pcsPin (F := F)) ER p d : sProp 𝕄)))
      ⊢ bigSep Finset.univ fun d : Dev nD => Gd (F := F) d := by
  unfold Gd
  rw [bigSep_sep', bigSep_congr fun d _ => bigSep_univ_of_subsingleton (Φ := fun p : Fin 1 => Pipeline.cellsGhost (pcsPin (F := F)) ER p d) (0 : Fin 1),
    bigSep_congr fun d _ => bigSep_univ_of_subsingleton (Φ := fun p : Fin 1 => (Pipeline.toksInit (pcsPin (F := F)) ER p d : sProp 𝕄)) (0 : Fin 1)]

theorem Px_all : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  rw [Px_all]
  unfold u₀ EH
  iintro Hu
  ihave H := (ownU_pair _ _) $$ Hu
  icases H with ⟨HH, HR⟩
  ihave H2 := (own_pair_emb embR _ _) $$ HR
  icases H2 with ⟨HR, -⟩
  ihave HR := (Entails.of_eq (own_ER (F := F) _)) $$ HR
  imod (Pipeline.fund_ghost (pcsPin (F := F)) ER cellOf_inj') $$ HR with Hg
  imodintro
  isplitl [HH]; · iexact HH
  isplitl [Hg]
  · iapply (Gd_all (F := F)); iexact Hg
  iempintro

/-! ## @main on the TensorCore, stretch by stretch from the end -/

/-- What @main leaves: the TensorCore's handshake state after the one SparseCore call, and its arrays at their last contents. -/
def POST (d : Dev nD) : PUnit → sProp 𝕄 :=
  fun _ => iprop((K (F := F)).tcSt EH d 1 ∗ held (SparseCore.T d) (Pipeline.ucRefs τ sig) (VE m d))

/-- The reshape of the gathered rows, and the return. -/
theorem step4 (d : Dev nD) :
    iprop((K (F := F)).tcSt EH d 1 ∗ boundary (SparseCore.T d) ∗ held (SparseCore.T d) (Pipeline.ucRefs τ sig) (VD m d))
      ⊢ wp frame (wpE ((K (F := F)).defs (D (F := F))) 𝒱 (SparseCore.T d) none) Set.univ
          (seq opsC >>= fun _ => (pure ⟨⟩ : Prog (TpuEff nD τ sig (Elt F) (SparseCore.Sig (ΛP (F := F)) 1) .tc) PUnit)) (POST m d) := by
  iintro ⟨Hst, Hb, Hheld⟩
  iapply (wp_seq 𝒱 none Set.univ d (Pipeline.ucRefs τ sig) _ opsC opsC_sub opsC_fresh (VD m d)) $$ [Hb Hheld]
  · isplitl [Hb] <;> iassumption
  iintro ⟨Hb, Hheld⟩
  rw [wp_pure]; imodintro
  unfold POST VE
  isplitl [Hst]; · iexact Hst
  iexact Hheld

/-! ### Reading the valuations -/

theorem VB_of_ne (d : Dev nD) (b : DevRef τ sig) (h : b ≠ dr main_v15) : VB m d b = VA m d b := Function.update_of_ne h _ _
theorem VB_v15 (d : Dev nD) : VB m d (dr main_v15) = tblOf m d := Function.update_self _ _ _
theorem VD_of_ne (d : Dev nD) (b : DevRef τ sig) (h : b ≠ dr main_v17) : VD m d b = VC m d b := Function.update_of_ne h _ _
theorem VD_v17 (d : Dev nD) : VD m d (dr main_v17) = outOf m d := Function.update_self _ _ _
theorem VC_v15 (d : Dev nD) : VC m d (dr main_v15) = tblOf m d := by
  unfold VC
  after_results_simp
  exact VB_v15 m d

/-! ### The TensorCore's handshake state, with what it owes taken out -/

omit [FloatOps F] in
theorem WBelow_none {thr : Thread nD τ} {W W' : Waits sig (HIx 1)} {b : ℕ} (hW : (K (F := F)).WBelow thr W b)
    (h : ∀ p ∈ W', p ∈ W ∨ p.2 = none) : (K (F := F)).WBelow thr W' b := by
  intro p hp
  rcases h p hp with h1 | h1
  · exact hW p h1
  · obtain ⟨p1, p2⟩ := p
    simp only at h1; subst h1
    exact Nat.zero_le _

omit [FloatOps F] in
theorem tcSt_owes (d : Dev nD) (n : ℕ) :
    ((K (F := F)).tcSt EH d n : sProp 𝕄) ⊢ iprop(∃ W, ⌜(K (F := F)).WBelow (SparseCore.T d) W (8 * n)⌝ ∗ owes (SparseCore.T d) ((K (F := F)).Otc d n) W
      ∗ (∀ W', iprop(⌜(K (F := F)).WBelow (SparseCore.T d) W' (8 * n)⌝ ∗ owes (SparseCore.T d) ((K (F := F)).Otc d n) W') -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' ⟨%hW', HO'⟩
  isplitl [HO']
  · iexists W'; isplitr; · ipureintro; exact hW'
    iexact HO'
  · iexact Hrest

/-! ### What the SparseCore call takes and returns, as whole arrays -/

theorem cores_iff (d : Dev nD) (f : Buf (Elt F) (outLoc d)) :
    (bigSep Finset.univ fun c : Fin 2 => iprop((bigSep Finset.univ fun i : Fin 16 => tileIO (idsOf m) d (2 * i.val + c.val) f) ∗ (tblLoc d ↦{qC c.val} tblOf m d)) : sProp 𝕄)
      ⊣⊢ iprop((idsLoc d ↦{fullShare} idsOf m d) ∗ (outLoc d ↦{fullShare} f) ∗ bigSep Finset.univ fun c : Fin 2 => (tblLoc d ↦{shareTok fullShare 2 c} tblOf m d)) := by
  unfold tileIO
  rw [ids_split, out_split]
  simp only [bigSep_sep']
  constructor
  · iintro ⟨⟨HI, HO⟩, HT⟩
    isplitl [HI]; · iexact HI
    isplitl [HO]; · iexact HO
    iexact HT
  · iintro ⟨HI, HO, HT⟩
    isplitl [HI HO]
    · isplitl [HI] <;> iassumption
    iexact HT

theorem st_iff (d : Dev nD) :
    (bigSep Finset.univ fun c : Fin ((K (F := F)).nCore 0) => (PP m).st 0 d c)
      ⊣⊢ iprop((idsLoc d ↦{fullShare} idsOf m d) ∗ (outLoc d ↦{fullShare} out0 m d) ∗ bigSep Finset.univ fun c : Fin 2 => (tblLoc d ↦{shareTok fullShare 2 c} tblOf m d)) :=
  cores_iff m d (out0 m d)
theorem dn_iff (d : Dev nD) :
    (bigSep Finset.univ fun c : Fin ((K (F := F)).nCore 0) => (PP m).dn 0 d c)
      ⊣⊢ iprop((idsLoc d ↦{fullShare} idsOf m d) ∗ (outLoc d ↦{fullShare} outOf m d) ∗ bigSep Finset.univ fun c : Fin 2 => (tblLoc d ↦{shareTok fullShare 2 c} tblOf m d)) :=
  cores_iff m d (outOf m d)

/-- The SparseCore call, then the rest. -/
theorem step3 (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VC m d))
      ⊢ wp frame (wpE ((K (F := F)).defs (D (F := F))) 𝒱 (SparseCore.T d) none) Set.univ
          ((sc (F := F)).run d 0 >>= fun _ => (seq opsC >>= fun _ => (pure ⟨⟩ : Prog (TpuEff nD τ sig (Elt F) (SparseCore.Sig (ΛP (F := F)) 1) .tc) PUnit))) (POST m d) := by
  rw [wp_bind]
  iintro ⟨#Hctx, Hst, Hb, Hheld⟩
  ihave Hh := (Entails.of_eq (held_sub_split (SparseCore.T d) T3_sub (VC m d))) $$ Hheld
  icases Hh with ⟨H3, Hrest⟩
  ihave H3 := (Entails.of_eq (held_T3 d (VC m d))) $$ H3
  icases H3 with ⟨Hi, Ht, Ho⟩
  ihave Ht := (Entails.of_eq (congrArg (fun f => (tblLoc d ↦{fullShare} f : sProp 𝕄)) (VC_v15 m d))) $$ Ht
  ihave Htk := (pointsTo_toks fullShare 2).1 $$ Ht
  icases Htk with ⟨Hrem, Htoks⟩
  iapply ((K (F := F)).wp_run (D (F := F)) 𝒱 (EH := EH) (P := PP m) κ d 0) $$ [Hst Hi Ho Htoks Hb Hrem Hrest]
  isplitr; · iexact Hctx
  isplitl [Hst]; · iexact Hst
  isplitl [Hi Ho Htoks]
  · iapply (st_iff m d).2
    isplitl [Hi]; · iexact Hi
    isplitl [Ho]; · iexact Ho
    iexact Htoks
  iintro ⟨Hst, Hdn⟩
  ihave Hdn := (dn_iff m d).1 $$ Hdn
  icases Hdn with ⟨Hi, Ho, Htoks⟩
  ihave Ht := (pointsTo_toks fullShare 2).2 $$ [Hrem Htoks]
  · isplitl [Hrem] <;> iassumption
  iapply (step4 m d)
  isplitl [Hst]; · iexact Hst
  isplitl [Hb]; · iexact Hb
  iapply (Entails.of_eq (held_sub_split (SparseCore.T d) T3_sub (VD m d)).symm)
  isplitl [Hi Ht Ho]
  · iapply (Entails.of_eq (held_T3 d (VD m d)).symm)
    isplitl [Hi]
    · iapply (Entails.of_eq (congrArg (fun f => (idsLoc d ↦{fullShare} f : sProp 𝕄)) (VD_of_ne m d (dr main_v16) (by decide)).symm)); iexact Hi
    isplitl [Ht]
    · iapply (Entails.of_eq (congrArg (fun f => (tblLoc d ↦{fullShare} f : sProp 𝕄)) ((VD_of_ne m d (dr main_v15) (by decide)).trans (VC_v15 m d)).symm)); iexact Ht
    · iapply (Entails.of_eq (congrArg (fun f => (outLoc d ↦{fullShare} f : sProp 𝕄)) (VD_v17 m d).symm)); iexact Ho
  · iapply (Entails.of_eq (held_update_out d T3 (VC m d) (dr main_v17) (show dr main_v17 ∈ (T3 : Finset (DevRef τ sig)) by decide) (outOf m d)).symm)
    iexact Hrest

/-- The reshape of the ids, then the SparseCore call and the rest. -/
theorem step2 (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VB m d))
      ⊢ wp frame (wpE ((K (F := F)).defs (D (F := F))) 𝒱 (SparseCore.T d) none) Set.univ
          (seq opsB >>= fun _ => ((sc (F := F)).run d 0 >>= fun _ => (seq opsC >>= fun _ => (pure ⟨⟩ : Prog (TpuEff nD τ sig (Elt F) (SparseCore.Sig (ΛP (F := F)) 1) .tc) PUnit)))) (POST m d) := by
  iintro ⟨#Hctx, Hst, Hb, Hheld⟩
  iapply (wp_seq 𝒱 none Set.univ d (Pipeline.ucRefs τ sig) _ opsB opsB_sub opsB_fresh (VB m d)) $$ [Hb Hheld]
  · isplitl [Hb] <;> iassumption
  iintro ⟨Hb, Hheld⟩
  iapply (step3 m κ d)
  isplitr; · iexact Hctx
  isplitl [Hst]; · iexact Hst
  isplitl [Hb]; · iexact Hb
  unfold VC
  iexact Hheld

/-- The TensorCore call that builds the table, then the rest. -/
theorem step1 (htr : TableRegionStmt (F := F)) (κ : GSem nD τ sig → ℕ) (d : Dev nD) :
    iprop((K (F := F)).ctx EH (PP m) κ ∗ (K (F := F)).tcSt EH d 0 ∗ boundary (SparseCore.T d) ∗ held (SparseCore.T d) (Pipeline.ucRefs τ sig) (VA m d) ∗ Gd (F := F) d)
      ⊢ wp frame (wpE ((K (F := F)).defs (D (F := F))) 𝒱 (SparseCore.T d) none) Set.univ
          (Prog.lift (.customCall (SparseCore.inner (Pipeline.entry 0)) ()) >>= fun _ =>
            (seq opsB >>= fun _ => ((sc (F := F)).run d 0 >>= fun _ => (seq opsC >>= fun _ => (pure ⟨⟩ : Prog (TpuEff nD τ sig (Elt F) (SparseCore.Sig (ΛP (F := F)) 1) .tc) PUnit))))) (POST m d) := by
  rw [wp_bind]
  unfold Gd
  iintro ⟨#Hctx, Hst, Hb, Hheld, Hcg, Hti⟩
  ihave Hlv := ((K (F := F)).ctx_levAts (EH := EH) (P := PP m) κ) $$ Hctx
  ihave Hh := (Entails.of_eq (held_sub_split (SparseCore.T d) T7_sub (VA m d))) $$ Hheld
  icases Hh with ⟨H7, Hrest⟩
  ihave H7 := (Entails.of_eq (held_T7 d (VA m d))) $$ H7
  icases H7 with ⟨h0, h1, h2, h6, h10, h14, h15⟩
  ihave Ho := (tcSt_owes d 0) $$ Hst
  icases Ho with ⟨%W, %hW, HO, Hback⟩
  iapply (htr d _ _ _ _ _ _ _ ((K (F := F)).Otc d 0) W (Otc_none d 0) _) $$ [Hlv Hb Hcg Hti h0 h1 h2 h6 h10 h14 h15 HO Hback Hrest]
  isplitl [Hlv]; · iexact Hlv
  isplitl [Hb]; · iexact Hb
  isplitl [Hcg]; · iexact Hcg
  isplitl [Hti]; · iexact Hti
  isplitl [h0 h1 h2 h6 h10 h14]
  · unfold tableOperands
    isplitl [h0]; · iexact h0
    isplitl [h1]; · iexact h1
    isplitl [h2]; · iexact h2
    isplitl [h6]; · iexact h6
    isplitl [h10]; · iexact h10
    iexact h14
  isplitl [h15]; · iexact h15
  isplitl [HO]; · iexact HO
  iintro ⟨Hb, Hops, h15, %W', %hW', HO⟩
  ihave Hst := Hback $$ %W' [HO]
  · isplitr
    · ipureintro; exact WBelow_none hW hW'
    · iexact HO
  iapply (step2 m κ d)
  isplitr; · iexact Hctx
  isplitl [Hst]; · iexact Hst
  isplitl [Hb]; · iexact Hb
  iapply (Entails.of_eq (held_sub_split (SparseCore.T d) T7_sub (VB m d)).symm)
  isplitl [Hops h15]
  · iapply (Entails.of_eq (held_T7 d (VB m d)).symm)
    unfold tableOperands
    icases Hops with ⟨h0, h1, h2, h6, h10, h14⟩
    isplitl [h0]
    · iapply (Entails.of_eq (congrArg (fun f => ((SparseCore.T d).loc main_v0 ↦{fullShare} f : sProp 𝕄)) (VB_of_ne m d (dr main_v0) (by decide)).symm)); iexact h0
    isplitl [h1]
    · iapply (Entails.of_eq (congrArg (fun f => ((SparseCore.T d).loc main_v1 ↦{fullShare} f : sProp 𝕄)) (VB_of_ne m d (dr main_v1) (by decide)).symm)); iexact h1
    isplitl [h2]
    · iapply (Entails.of_eq (congrArg (fun f => ((SparseCore.T d).loc main_v2 ↦{fullShare} f : sProp 𝕄)) (VB_of_ne m d (dr main_v2) (by decide)).symm)); iexact h2
    isplitl [h6]
    · iapply (Entails.of_eq (congrArg (fun f => ((SparseCore.T d).loc main_v6 ↦{fullShare} f : sProp 𝕄)) (VB_of_ne m d (dr main_v6) (by decide)).symm)); iexact h6
    isplitl [h10]
    · iapply (Entails.of_eq (congrArg (fun f => ((SparseCore.T d).loc main_v10 ↦{fullShare} f : sProp 𝕄)) (VB_of_ne m d (dr main_v10) (by decide)).symm)); iexact h10
    isplitl [h14]
    · iapply (Entails.of_eq (congrArg (fun f => ((SparseCore.T d).loc main_v14 ↦{fullShare} f : sProp 𝕄)) (VB_of_ne m d (dr main_v14) (by decide)).symm)); iexact h14
    · iapply (Entails.of_eq (congrArg (fun f => ((SparseCore.T d).loc main_v15 ↦{fullShare} f : sProp 𝕄)) (VB_v15 m d).symm)); unfold tblOf; iexact h15
  · iapply (Entails.of_eq (held_update_out d T7 (VA m d) (dr main_v15) (show dr main_v15 ∈ (T7 : Finset (DevRef τ sig)) by decide) (tblOf m d)).symm)
    iexact Hrest

/-- What @main leaves the claim: the TensorCore's arrays at their last contents. -/
def FIN (d : Dev nD) : sProp 𝕄 := held (SparseCore.T d) (Pipeline.ucRefs τ sig) (VE m d)

/-- @main on device `d`'s TensorCore. -/
theorem hmain (htr : TableRegionStmt (F := F)) (κ : GSem nD τ sig → ℕ) (d : Dev nD) :
    iprop((K (F := F)).ctx EH (PP m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, -, -⟩, HG⟩
  iapply (wp_seq 𝒱 none Set.univ d (Pipeline.ucRefs τ sig) _ opsA opsA_sub opsA_fresh (V0 m d)) $$ [Hb Hheld]
  · isplitl [Hb] <;> iassumption
  iintro ⟨Hb, Hheld⟩
  iapply (step1 m htr κ d)
  isplitr; · iexact Hctx
  isplitl [Hst]; · iexact Hst
  isplitl [Hb]; · iexact Hb
  isplitl [Hheld]; · unfold VA; iexact Hheld
  iexact HG

end Cert.KernelIdeal.Hand

end
-- ==== Proof.KernelIdealHand.Run.lean ====
/-
  The idealized kernel's run: from any launch memory whose ids name rows of the table, every weakly fair execution of
  the device's threads — the TensorCore's @main, the two sequencers, the thirty-two tiles — terminates, nothing
  faulting, with the result array at the reshaped gathered rows of the table the TensorCore call built from the launch
  memory's arguments, and the seven arguments unchanged. Proved from one tile's task and the TensorCore call as
  propositions.
-/
import proofs.«202745_g55851754717770_cont_9to1_m_910_12_alg».proof.Proof.KernelIdealHand.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The arguments are never written -/

theorem VE_main_arg0 (d : Dev nD) : VE m d (dr main_arg0) = m ((SparseCore.T d).loc main_arg0) := by
  unfold VE; after_results_simp
  rw [VD_of_ne m d _ (by decide)]
  unfold VC; after_results_simp
  rw [VB_of_ne m d _ (by decide)]
  unfold VA; after_results_simp
  rfl
theorem VE_main_arg1 (d : Dev nD) : VE m d (dr main_arg1) = m ((SparseCore.T d).loc main_arg1) := by
  unfold VE; after_results_simp
  rw [VD_of_ne m d _ (by decide)]
  unfold VC; after_results_simp
  rw [VB_of_ne m d _ (by decide)]
  unfold VA; after_results_simp
  rfl
theorem VE_main_arg2 (d : Dev nD) : VE m d (dr main_arg2) = m ((SparseCore.T d).loc main_arg2) := by
  unfold VE; after_results_simp
  rw [VD_of_ne m d _ (by decide)]
  unfold VC; after_results_simp
  rw [VB_of_ne m d _ (by decide)]
  unfold VA; after_results_simp
  rfl
theorem VE_main_arg3 (d : Dev nD) : VE m d (dr main_arg3) = m ((SparseCore.T d).loc main_arg3) := by
  unfold VE; after_results_simp
  rw [VD_of_ne m d _ (by decide)]
  unfold VC; after_results_simp
  rw [VB_of_ne m d _ (by decide)]
  unfold VA; after_results_simp
  rfl
theorem VE_main_arg4 (d : Dev nD) : VE m d (dr main_arg4) = m ((SparseCore.T d).loc main_arg4) := by
  unfold VE; after_results_simp
  rw [VD_of_ne m d _ (by decide)]
  unfold VC; after_results_simp
  rw [VB_of_ne m d _ (by decide)]
  unfold VA; after_results_simp
  rfl
theorem VE_main_arg5 (d : Dev nD) : VE m d (dr main_arg5) = m ((SparseCore.T d).loc main_arg5) := by
  unfold VE; after_results_simp
  rw [VD_of_ne m d _ (by decide)]
  unfold VC; after_results_simp
  rw [VB_of_ne m d _ (by decide)]
  unfold VA; after_results_simp
  rfl
theorem VE_main_arg6 (d : Dev nD) : VE m d (dr main_arg6) = m ((SparseCore.T d).loc main_arg6) := by
  unfold VE; after_results_simp
  rw [VD_of_ne m d _ (by decide)]
  unfold VC; after_results_simp
  rw [VB_of_ne m d _ (by decide)]
  unfold VA; after_results_simp
  rfl

/-! ## Reading the final memory -/

theorem agree_ref (d : Dev nD) (s' : Phys nD τ sig (Elt F)) (b : DevRef τ sig) (hb : b ∈ Pipeline.ucRefs τ sig) :
    iprop(FIN m d ∗ SI s') ⊢ (⌜s'.mem.mem (d, b) = VE m d b⌝ : sProp 𝕄) := by
  have h1 : (FIN m d : sProp 𝕄) ⊢ (((SparseCore.T d).1, b) ↦{fullShare} VE m d b) :=
    bigSep_elim (Φ := fun b => (((SparseCore.T d).1, b) ↦{fullShare} VE m d b : sProp 𝕄)) hb
  iintro ⟨HF, HSI⟩
  ihave Hb := h1 $$ HF
  ihave H := (SI_pointsTo_agree (st := s') (ℓ := (d, b)) (I := Finset.univ) (q := fullShare) (f := VE m d b)) $$ [HSI Hb]
  · isplitl [HSI] <;> iassumption
  icases H with %h
  ipureintro; exact funext fun i => h i (Finset.mem_univ i)

def fq (d : Dev nD) (s' : Phys nD τ sig (Elt F)) : Prop :=
  s'.mem.mem ((SparseCore.T d).loc main_v18) = VE m d (dr main_v18)
  ∧ s'.mem.mem ((SparseCore.T d).loc main_arg0) = VE m d (dr main_arg0)
  ∧ s'.mem.mem ((SparseCore.T d).loc main_arg1) = VE m d (dr main_arg1)
  ∧ s'.mem.mem ((SparseCore.T d).loc main_arg2) = VE m d (dr main_arg2)
  ∧ s'.mem.mem ((SparseCore.T d).loc main_arg3) = VE m d (dr main_arg3)
  ∧ s'.mem.mem ((SparseCore.T d).loc main_arg4) = VE m d (dr main_arg4)
  ∧ s'.mem.mem ((SparseCore.T d).loc main_arg5) = VE m d (dr main_arg5)
  ∧ s'.mem.mem ((SparseCore.T d).loc main_arg6) = VE m d (dr main_arg6)

theorem hfin (d : Dev nD) (s' : Phys nD τ sig (Elt F)) : iprop(FIN m d ∗ SI s') ⊢ (⌜fq m d s'⌝ : sProp 𝕄) := by
  iintro H
  ihave H := (persistent_entails_right (agree_ref m d s' (dr main_v18) (by decide))) $$ H
  icases H with ⟨%h_main_v18, H⟩
  ihave H := (persistent_entails_right (agree_ref m d s' (dr main_arg0) (by decide))) $$ H
  icases H with ⟨%h_main_arg0, H⟩
  ihave H := (persistent_entails_right (agree_ref m d s' (dr main_arg1) (by decide))) $$ H
  icases H with ⟨%h_main_arg1, H⟩
  ihave H := (persistent_entails_right (agree_ref m d s' (dr main_arg2) (by decide))) $$ H
  icases H with ⟨%h_main_arg2, H⟩
  ihave H := (persistent_entails_right (agree_ref m d s' (dr main_arg3) (by decide))) $$ H
  icases H with ⟨%h_main_arg3, H⟩
  ihave H := (persistent_entails_right (agree_ref m d s' (dr main_arg4) (by decide))) $$ H
  icases H with ⟨%h_main_arg4, H⟩
  ihave H := (persistent_entails_right (agree_ref m d s' (dr main_arg5) (by decide))) $$ H
  icases H with ⟨%h_main_arg5, H⟩
  ihave H := (agree_ref m d s' (dr main_arg6) (by decide)) $$ H
  icases H with %h_main_arg6
  ipureintro; exact ⟨h_main_v18, h_main_arg0, h_main_arg1, h_main_arg2, h_main_arg3, h_main_arg4, h_main_arg5, h_main_arg6⟩

/-! ## The run -/

/-- The result array at the reshaped gathered rows, the arguments unchanged, on every device. -/
def QC : PUnit × MemSt nD τ sig (Elt F) → Prop := fun r => ∀ c : Dev nD,
  r.2.mem ((SparseCore.T c).loc main_v18) = VE m c (dr main_v18)
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)
  ∧ r.2.mem ((SparseCore.T c).loc main_arg6) = m ((SparseCore.T c).loc main_arg6)

theorem run_main [∀ e, Nonempty (Elt F e)] (htb : TileBodyStmt (F := F)) (htr : TableRegionStmt (F := F))
    (hin : ∀ (d : Dev nD) (r : S819200.Idx), (idsOf m d r : BitVec 32).toNat < 1000000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (idsOf m) (tblOf m) (out0 m) htb hin)
    (fun q _ => match q with | 0 => SparseCore.Cfg.VecSplit.of_plain (vecSplit (idsOf m) (tblOf m) (out0 m)))
    m ρ main (fun d => Gd (F := F) d) (FIN m) (u₀ (F := F)) (sep_elim_left.trans (hu₀ m)) (hmain m ρ htr) (fq m) (hfin m) (QC m)
    (fun s' h c => by
      obtain ⟨h18, h_main_arg0, h_main_arg1, h_main_arg2, h_main_arg3, h_main_arg4, h_main_arg5, h_main_arg6⟩ := h c
      exact ⟨h18, h_main_arg0.trans (VE_main_arg0 m c), h_main_arg1.trans (VE_main_arg1 m c), h_main_arg2.trans (VE_main_arg2 m c), h_main_arg3.trans (VE_main_arg3 m c), h_main_arg4.trans (VE_main_arg4 m c), h_main_arg5.trans (VE_main_arg5 m c), h_main_arg6.trans (VE_main_arg6 m c)⟩)

end Cert.KernelIdeal.Hand

end
-- ==== Proof.KernelIdealHand.Reads.lean ====
/-
  Reading the run's arrays position by position: the flattened ids are the ids in row-major order; the result is the
  gathered rows in row-major order; a gathered row is the table's row its id names.
-/
import proofs.«202745_g55851754717770_cont_9to1_m_910_12_alg».proof.Proof.KernelIdealHand.Run
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.SL.Sem
open Idealize.ShloMosaic.StableHlo (after)

variable {F : FTy → Type}

variable (m : (ℓ : Loc nD τ sig) → Buf (Elt F) ℓ)

variable [FloatOps F]

/-- The flattened ids are the ids, reshaped. -/
theorem idsOf_eq (d : Dev nD) :
    idsOf m d = shapeCast S819200 (m ((SparseCore.T d).loc main_arg0)) shapeCasts_S4096x200_S819200 := by
  unfold idsOf VC
  after_results_simp
  rw [VB_of_ne m d _ (by decide)]
  unfold VA; after_results_simp
  rfl

/-- Every flattened id is one of the ids. -/
theorem idsOf_mem (d : Dev nD) (r : S819200.Idx) : ∃ i : S4096x200.Idx, idsOf m d r = m ((SparseCore.T d).loc main_arg0) i := by
  rw [idsOf_eq]; exact ⟨_, rfl⟩

/-- Flattened position 200·b + s holds id (b, s). -/
theorem idsOf_ix (d : Dev nD) (b : Fin 4096) (s : Fin 200) (h : 200 * b.val + s.val < 819200) :
    idsOf m d (ValueIdx.ix1 ⟨200 * b.val + s.val, h⟩) = m ((SparseCore.T d).loc main_arg0) (ValueIdx.ix2 b s) := by
  rw [idsOf_eq]
  refine shapeCast_apply _ _ _ _ ?_
  show ((⟨2, ![4096, 200]⟩ : Shape).rowMajor (ValueIdx.ix2 b s)).val = ((⟨1, ![819200]⟩ : Shape).rowMajor (ValueIdx.ix1 ⟨200 * b.val + s.val, h⟩)).val
  rw [Shape.rowMajor_val_two, Shape.rowMajor_val_one]
  show b.val * 200 + s.val = 200 * b.val + s.val
  omega

/-- The result is the gathered rows, reshaped. -/
theorem out_eq (d : Dev nD) :
    VE m d (dr main_v18) = shapeCast S4096x200x128 (outOf m d) shapeCasts_S819200x128_S4096x200x128 := by
  unfold VE
  after_results_simp
  rw [VD_v17 m d]
  rfl

/-- Entry (b, s, j) of the result is entry (200·b + s, j) of the gathered rows. -/
theorem out_ix (d : Dev nD) (b : Fin 4096) (s : Fin 200) (j : Fin 128) (h : 200 * b.val + s.val < 819200) :
    VE m d (dr main_v18) (ValueIdx.ix3 b s j) = outOf m d (ValueIdx.ix2 ⟨200 * b.val + s.val, h⟩ j) := by
  rw [out_eq]
  refine shapeCast_apply _ _ _ _ ?_
  show ((⟨2, ![819200, 128]⟩ : Shape).rowMajor (ValueIdx.ix2 ⟨200 * b.val + s.val, h⟩ j)).val = ((⟨3, ![4096, 200, 128]⟩ : Shape).rowMajor (ValueIdx.ix3 b s j)).val
  rw [Shape.rowMajor_val_two, Shape.rowMajor_val_three]
  show (200 * b.val + s.val) * 128 + j.val = (b.val * 200 + s.val) * 128 + j.val
  omega

/-- A gathered row is the table's row its id names. -/
theorem outOf_ix (d : Dev nD) (r : Fin 819200) (j : Fin 128) (h : (idsOf m d (ValueIdx.ix1 r) : BitVec 32).toNat < 1000000) :
    outOf m d (ValueIdx.ix2 r j) = tblOf m d (ValueIdx.ix2 ⟨(idsOf m d (ValueIdx.ix1 r) : BitVec 32).toNat, h⟩ j) := by
  unfold outOf gatherOf
  show tblOf m d (ValueIdx.ix2 (if h : (idsOf m d (ValueIdx.ix1 r) : BitVec 32).toNat < 1000000 then ⟨_, h⟩ else ⟨0, by decide⟩) j) = _
  rw [dif_pos h]

/-! ## The TensorCore call's operands, as the host operations leave them -/

theorem VA_v0 (d : Dev nD) : VA m d (dr main_v0) = truncf .bf16 (m ((SparseCore.T d).loc main_arg1)) bitsLt_bf16_f32 := by
  unfold VA; after_results_simp; rfl
theorem VA_v1 (d : Dev nD) : VA m d (dr main_v1) = truncf .bf16 (m ((SparseCore.T d).loc main_arg2)) bitsLt_bf16_f32 := by
  unfold VA; after_results_simp; rfl
theorem VA_v2 (d : Dev nD) : VA m d (dr main_v2) = truncf .bf16 (m ((SparseCore.T d).loc main_arg3)) bitsLt_bf16_f32 := by
  unfold VA; after_results_simp; rfl
theorem VA_v6 (d : Dev nD) : VA m d (dr main_v6)
    = truncf .bf16 (mulf (transpose S128x128 [1, 0] (m ((SparseCore.T d).loc main_arg4)) transposes_S128x128_S128x128_1_0)
        (broadcastInDim S128x128 ![] bcast_S_S128x128 (constant S_ .f32 0x413504F3#32))) bitsLt_bf16_f32 := by
  unfold VA; after_results_simp; rfl
theorem VA_v10 (d : Dev nD) : VA m d (dr main_v10)
    = truncf .bf16 (mulf (transpose S32x128 [1, 0] (m ((SparseCore.T d).loc main_arg5)) transposes_S128x32_S32x128_1_0)
        (broadcastInDim S32x128 ![] bcast_S_S32x128 (constant S_ .f32 0x413504F3#32))) bitsLt_bf16_f32 := by
  unfold VA; after_results_simp; rfl
theorem VA_v14 (d : Dev nD) : VA m d (dr main_v14)
    = truncf .bf16 (mulf (transpose S8x128 [1, 0] (m ((SparseCore.T d).loc main_arg6)) transposes_S128x8_S8x128_1_0)
        (broadcastInDim S8x128 ![] bcast_S_S8x128 (constant S_ .f32 0x413504F3#32))) bitsLt_bf16_f32 := by
  unfold VA; after_results_simp; rfl

end Cert.KernelIdeal.Hand

end
-- ==== Proof.KernelIdealHand.Frame.lean ====
/-
  The kernel's frame from its run: under the precondition every id names a row of the table, so the run applies; its
  arguments end unchanged.
-/
import proofs.«202745_g55851754717770_cont_9to1_m_910_12_alg».proof.Proof.KernelIdealHand.Reads
import proofs.«202745_g55851754717770_cont_9to1_m_910_12_alg».proof.Proof.PreFacts

noncomputable section

namespace Cert.KernelIdeal.Hand

open Cert.KernelIdeal Cert.KernelIdeal.Gen

open Idealize.ShloMosaic
open Idealize.ShloMosaic.SparseCore (S V T)
open Idealize.SL.Sem

variable {F : FTy → Type}

variable (m : (ℓ : Loc nD τ sig) → Buf (Elt F) ℓ) (ρ : Dev nD → PrngReg)

variable [FloatOps F] [Cert.Pre_input_domain.Facts]

/-- The precondition, at the instance `F`, of the launch memory's arguments. -/
def PreAt : Prop :=
  ∀ c : Dev nD, (Cert.Pre_input_domain.fn (F := F) (m ((SparseCore.T c).loc main_arg0)) (m ((SparseCore.T c).loc main_arg1)) (m ((SparseCore.T c).loc main_arg2))
    (m ((SparseCore.T c).loc main_arg3)) (m ((SparseCore.T c).loc main_arg4)) (m ((SparseCore.T c).loc main_arg5)) (m ((SparseCore.T c).loc main_arg6))) = (fun _ => 1#1)

/-- Under the precondition every flattened id names a row of the table. -/
theorem hin_of_pre (hpre : PreAt m) : ∀ (d : Dev nD) (r : S819200.Idx), (idsOf m d r : BitVec 32).toNat < 1000000 := by
  intro d r
  obtain ⟨i, hi⟩ := idsOf_mem m d r
  rw [hi]
  exact Nat.lt_succ_of_le (Cert.PreFacts.ids_toNat_le _ _ _ _ _ _ _ (hpre d) i)

/-- The run, from the precondition. -/
theorem run_of_pre [∀ e, Nonempty (Elt F e)] (htb : TileBodyStmt (F := F)) (htr : TableRegionStmt (F := F)) (hpre : PreAt m) :
    θ_run (Cert.KernelIdeal.defs (F := F)) (Cert.KernelIdeal.threads (F := F)) ⟨m, fun _ => 0, ρ⟩ (QC m) :=
  run_main m ρ htb htr (hin_of_pre m hpre)

end Cert.KernelIdeal.Hand

end
-- ==== Proof.KernelIdealHand.TableBody.lean ====
/-
  The body of the TensorCore call at a symbolic grid point, in each of the three cases its conditions on the point
  distinguish: exactly one product is computed and stored over the whole result block.
-/
import proofs.«202745_g55851754717770_cont_9to1_m_910_12_alg».proof.Proof.KernelIdealHand.Common
import Idealize.ShloMosaic.Lib.Pipeline.FrameBody
import Idealize.ShloMosaic.Lib.Pipeline.Value
import Idealize.ShloMosaic.Lib.Tactic

set_option maxRecDepth 16384

noncomputable section

namespace Cert.KernelIdeal.Hand.Table

open Cert.KernelIdeal.Hand

open Cert.KernelIdeal Cert.KernelIdeal.Gen
open Idealize.ShloMosaic Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The zero offsets of a whole-buffer load or store. -/
theorem zero2 : (![0, 0] : Fin 2 → ℕ) = fun _ => 0 := by
  funext a; match a with | ⟨0, _⟩ => rfl | ⟨1, _⟩ => rfl

/-- The body at a grid point in the first case: it loads the two operands' staging buffers whole, multiplies, and stores
    the product over the whole result buffer; the other buffers are not touched. -/
theorem run_case1 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : k0_cond1 i = 1#1) (h2 : ¬k0_cond2 i = 1#1) (h3 : ¬k0_cond3 i = 1#1)
    (x : Vec F S20000x128 .bf16) (y : Vec F S128x128 .bf16) (E : Set ℕ) (K : PUnit → sProp 𝕄) :
    iprop(owns (SparseCore.T d) arg1 fullShare x ∗ owns (SparseCore.T d) arg4 fullShare y ∗ (∃ e, owns (SparseCore.T d) arg7 fullShare e)
        ∗ (iprop(owns (SparseCore.T d) arg1 fullShare x ∗ owns (SparseCore.T d) arg4 fullShare y
            ∗ owns (SparseCore.T d) arg7 fullShare (k0_pay1 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg1.eq_unread hfx
  obtain rfl := harg4.eq_unread hfy
  sl_exec (disch := first | exact h1 | exact h2 | exact h3)
  sl_step
  iapply Hk
  isplitl [Hx]
  · iexists _; isplitr; · ipureintro; exact harg1.read_unread _
    iexact Hx
  isplitl [Hy]
  · iexists _; isplitr; · ipureintro; exact harg4.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg1.read_unread, harg4.read_unread]
  exact congrArg₂ k0_pay1 (View.ld_unit_zero (S := S20000x128) zero2 _ x) (View.ld_unit_zero (S := S128x128) zero2 _ y)

/-- The body at a grid point in the second case: it loads the two operands' staging buffers whole, multiplies, and stores
    the product over the whole result buffer; the other buffers are not touched. -/
theorem run_case2 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : ¬k0_cond1 i = 1#1) (h2 : k0_cond2 i = 1#1) (h3 : ¬k0_cond3 i = 1#1)
    (x : Vec F S20000x32 .bf16) (y : Vec F S32x128 .bf16) (E : Set ℕ) (K : PUnit → sProp 𝕄) :
    iprop(owns (SparseCore.T d) arg2 fullShare x ∗ owns (SparseCore.T d) arg5 fullShare y ∗ (∃ e, owns (SparseCore.T d) arg7 fullShare e)
        ∗ (iprop(owns (SparseCore.T d) arg2 fullShare x ∗ owns (SparseCore.T d) arg5 fullShare y
            ∗ owns (SparseCore.T d) arg7 fullShare (k0_pay2 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg2.eq_unread hfx
  obtain rfl := harg5.eq_unread hfy
  sl_exec (disch := first | exact h1 | exact h2 | exact h3)
  sl_step
  iapply Hk
  isplitl [Hx]
  · iexists _; isplitr; · ipureintro; exact harg2.read_unread _
    iexact Hx
  isplitl [Hy]
  · iexists _; isplitr; · ipureintro; exact harg5.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg2.read_unread, harg5.read_unread]
  exact congrArg₂ k0_pay2 (View.ld_unit_zero (S := S20000x32) zero2 _ x) (View.ld_unit_zero (S := S32x128) zero2 _ y)

/-- The body at a grid point in the third case: it loads the two operands' staging buffers whole, multiplies, and stores
    the product over the whole result buffer; the other buffers are not touched. -/
theorem run_case3 (d : Dev nD) (i : grid0.Coords) (arg1 : Memref sig .tc .vmem S20000x128 .bf16) (harg1 : arg1.IsWhole) (arg2 : Memref sig .tc .vmem S20000x32 .bf16) (harg2 : arg2.IsWhole) (arg3 : Memref sig .tc .vmem S20000x8 .bf16) (harg3 : arg3.IsWhole) (arg4 : Memref sig .tc .vmem S128x128 .bf16) (harg4 : arg4.IsWhole) (arg5 : Memref sig .tc .vmem S32x128 .bf16) (harg5 : arg5.IsWhole) (arg6 : Memref sig .tc .vmem S8x128 .bf16) (harg6 : arg6.IsWhole) (arg7 : Memref sig .tc .vmem S20000x128 .f32) (harg7 : arg7.IsWhole)
    (h1 : ¬k0_cond1 i = 1#1) (h2 : ¬k0_cond2 i = 1#1) (h3 : k0_cond3 i = 1#1)
    (x : Vec F S20000x8 .bf16) (y : Vec F S8x128 .bf16) (E : Set ℕ) (K : PUnit → sProp 𝕄) :
    iprop(owns (SparseCore.T d) arg3 fullShare x ∗ owns (SparseCore.T d) arg6 fullShare y ∗ (∃ e, owns (SparseCore.T d) arg7 fullShare e)
        ∗ (iprop(owns (SparseCore.T d) arg3 fullShare x ∗ owns (SparseCore.T d) arg6 fullShare y
            ∗ owns (SparseCore.T d) arg7 fullShare (k0_pay3 x y)) -∗ K ⟨⟩))
      ⊢ wp frame (wpE (defs₀ (F := F)) Variants.none (SparseCore.T d) none) E (cc0__table_body i arg1 harg1 arg2 harg2 arg3 harg3 arg4 harg4 arg5 harg5 arg6 harg6 arg7 harg7) K := by
  simp only [cc0__table_body_eq_skeleton]; unfold cc0__table_body_skel
  unfold owns
  iintro ⟨⟨%fx, %hfx, Hx⟩, ⟨%fy, %hfy, Hy⟩, ⟨%e, %fo, -, Ho⟩, Hk⟩
  obtain rfl := harg3.eq_unread hfx
  obtain rfl := harg6.eq_unread hfy
  sl_exec (disch := first | exact h1 | exact h2 | exact h3)
  sl_step
  iapply Hk
  isplitl [Hx]
  · iexists _; isplitr; · ipureintro; exact harg3.read_unread _
    iexact Hx
  isplitl [Hy]
  · iexists _; isplitr; · ipureintro; exact harg6.read_unread _
    iexact Hy
  iexists _; isplitr
  swap; · iexact Ho
  ipureintro
  rw [View.read_writes_eq_canon _ _ _ (fun z => ⟨_, List.mem_singleton_self _, View.mem_set_unit_zero zero2 inb_S20000x128_S20000x128_0_0 z⟩),
    View.canon_unit_zero zero2]
  simp only [View.readAt_eq_ld, harg3.read_unread, harg6.read_unread]
  exact congrArg₂ k0_pay3 (View.ld_unit_zero (S := S20000x8) zero2 _ x) (View.ld_unit_zero (S := S8x128) zero2 _ y)

end Cert.KernelIdeal.Hand.Table

end
-- ==== Proof.KernelIdealHand.TableRegionData.lean ====
/-
  The TensorCore call as a whole: the pipeline's proof data (what each staging buffer holds after the body at each
  grid point: an operand's buffer its block, the result's buffer the product the point's condition selects), the body
  obligation at a symbolic point by the three cases, and the region entered from the thread state of the whole
  program's main proof.
-/
import proofs.«202745_g55851754717770_cont_9to1_m_910_12_alg».proof.Proof.KernelIdealHand.TableStmt
import proofs.«202745_g55851754717770_cont_9to1_m_910_12_alg».proof.Proof.KernelIdealHand.TableBody
import Idealize.ShloMosaic.Lib.Pipeline.Regions
import Idealize.ShloMosaic.Lib.Pipeline.FrameBody
import Idealize.ShloMosaic.Lib.Pipeline.Value

set_option maxRecDepth 16384

noncomputable section

namespace Cert.KernelIdeal.Hand.Table

open Cert.KernelIdeal.Hand

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The conditions over the grid -/

/-- At every grid point exactly one of the body's three conditions holds. -/
theorem cond_cases : ∀ t : Fin cfg0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) :=
  (by decide +kernel : ∀ t : Fin grid0.N, _)

/-- So the result's window is idle nowhere: every point stores into it. -/
theorem live6 : ∀ t : Fin cfg0.N, cfg0.idle 6 (grid0.coords t) = false :=
  (by decide +kernel : ∀ t : Fin grid0.N, idle0 6 (grid0.coords t) = false)

/-! ## The proof data -/

variable (a0 : S20000x128.Idx → Elt F .bf16) (a1 : S80000x32.Idx → Elt F .bf16) (a2 : S900000x8.Idx → Elt F .bf16)
  (a3 : S128x128.Idx → Elt F .bf16) (a4 : S32x128.Idx → Elt F .bf16) (a5 : S8x128.Idx → Elt F .bf16)
  (f15 : S1000000x128.Idx → Elt F .f32)
  (O : CellTallies nD τ sig (HIx 1)) (B : Set (SemLoc sig × HIx 1))

/-- The windows' arrays as the region finds them. -/
def arrs (c : Dev nD) : (w : Fin cfg0.W) → Buf (Elt F) ((cfg0.win w).arr.view.loc (SparseCore.T (τ := τ) c))
  | ⟨0, _⟩ => a0 | ⟨1, _⟩ => a1 | ⟨2, _⟩ => a2 | ⟨3, _⟩ => a3 | ⟨4, _⟩ => a4 | ⟨5, _⟩ => a5 | ⟨6, _⟩ => f15
  | ⟨_ + 7, h⟩ => absurd h (Nat.not_lt.2 (Nat.le_add_left _ _))

/-- The proof data of the pipeline on core `c`: after the body at point `t` each operand's buffer holds its block and
    the result's the product the point's condition selects; the invariant is the scoped buffers no window stages;
    the core owes `O` throughout, its recorded pairs within `B`. -/
def dat (c : Dev nD) : Dat τ (Elt F) (HIx 1) ℕ UU ℕ cfg0 c where
  A := arrs a0 a1 a2 a3 a4 a5 f15 c
  after w t := match w with
    | ⟨0, _⟩ => (win0_0.blk t).view.read (Elt F) a0
    | ⟨1, _⟩ => (win0_1.blk t).view.read (Elt F) a1
    | ⟨2, _⟩ => (win0_2.blk t).view.read (Elt F) a2
    | ⟨3, _⟩ => (win0_3.blk t).view.read (Elt F) a3
    | ⟨4, _⟩ => (win0_4.blk t).view.read (Elt F) a4
    | ⟨5, _⟩ => (win0_5.blk t).view.read (Elt F) a5
    | ⟨6, _⟩ => tblBlock t a0 a1 a2 a3 a4 a5
    | ⟨_ + 7, h⟩ => absurd h (Nat.not_lt.2 (Nat.le_add_left _ _))
  Φ _ := Pipeline.scopedRest spec0 c
  q _ := fullShare
  owed _ := O
  recorded _ := B

local notation "𝔡" => dat a0 a1 a2 a3 a4 a5 f15 O B

theorem after_0 (c : Dev nD) (t : Fin cfg0.N) : (𝔡 c).after 0 t = (win0_0.blk t).view.read (Elt F) a0 := by dsimp only [dat]
theorem after_1 (c : Dev nD) (t : Fin cfg0.N) : (𝔡 c).after 1 t = (win0_1.blk t).view.read (Elt F) a1 := by dsimp only [dat]
theorem after_2 (c : Dev nD) (t : Fin cfg0.N) : (𝔡 c).after 2 t = (win0_2.blk t).view.read (Elt F) a2 := by dsimp only [dat]
theorem after_3 (c : Dev nD) (t : Fin cfg0.N) : (𝔡 c).after 3 t = (win0_3.blk t).view.read (Elt F) a3 := by dsimp only [dat]
theorem after_4 (c : Dev nD) (t : Fin cfg0.N) : (𝔡 c).after 4 t = (win0_4.blk t).view.read (Elt F) a4 := by dsimp only [dat]
theorem after_5 (c : Dev nD) (t : Fin cfg0.N) : (𝔡 c).after 5 t = (win0_5.blk t).view.read (Elt F) a5 := by dsimp only [dat]
theorem after_6 (c : Dev nD) (t : Fin cfg0.N) : (𝔡 c).after 6 t = tblBlock t a0 a1 a2 a3 a4 a5 := by dsimp only [dat]

/-- Each operand's current staging buffer holds its block at every point, fetched there or not. -/
theorem before_0 (c : Dev nD) (t : Fin cfg0.N) (e) : (𝔡 c).before 0 t e = (win0_0.blk t).view.read (Elt F) a0 :=
  ((𝔡 c).before_in_eq_fetched 0 rfl (fun _ => rfl) (fun _ _ _ => rfl) (fun t => by rw [after_0]; rfl) t e).trans rfl
theorem before_1 (c : Dev nD) (t : Fin cfg0.N) (e) : (𝔡 c).before 1 t e = (win0_1.blk t).view.read (Elt F) a1 :=
  ((𝔡 c).before_in_eq_fetched 1 rfl (fun _ => rfl) (fun _ _ _ => rfl) (fun t => by rw [after_1]; rfl) t e).trans rfl
theorem before_2 (c : Dev nD) (t : Fin cfg0.N) (e) : (𝔡 c).before 2 t e = (win0_2.blk t).view.read (Elt F) a2 :=
  ((𝔡 c).before_in_eq_fetched 2 rfl (fun _ => rfl) (fun _ _ _ => rfl) (fun t => by rw [after_2]; rfl) t e).trans rfl
theorem before_3 (c : Dev nD) (t : Fin cfg0.N) (e) : (𝔡 c).before 3 t e = (win0_3.blk t).view.read (Elt F) a3 :=
  ((𝔡 c).before_in_eq_fetched 3 rfl (fun _ => rfl) (fun _ _ _ => rfl) (fun t => by rw [after_3]; rfl) t e).trans rfl
theorem before_4 (c : Dev nD) (t : Fin cfg0.N) (e) : (𝔡 c).before 4 t e = (win0_4.blk t).view.read (Elt F) a4 :=
  ((𝔡 c).before_in_eq_fetched 4 rfl (fun _ => rfl) (fun _ _ _ => rfl) (fun t => by rw [after_4]; rfl) t e).trans rfl
theorem before_5 (c : Dev nD) (t : Fin cfg0.N) (e) : (𝔡 c).before 5 t e = (win0_5.blk t).view.read (Elt F) a5 :=
  ((𝔡 c).before_in_eq_fetched 5 rfl (fun _ => rfl) (fun _ _ _ => rfl) (fun t => by rw [after_5]; rfl) t e).trans rfl

/-! ## The body obligation, at a symbolic point -/

/-- What the body is called with at point `t`, the windows one by one, -/
def bodyPre (c : Dev nD) (t : Fin cfg0.N) : sProp 𝕄 :=
  iprop((𝔡 c).Φ t.castSucc ∗ (𝔡 c).owesAt none t.castSucc
    ∗ (∃ e, owns (c : Thread nD τ) (st0_0 t) fullShare ((𝔡 c).before 0 t e))
    ∗ (∃ e, owns (c : Thread nD τ) (st0_1 t) fullShare ((𝔡 c).before 1 t e))
    ∗ (∃ e, owns (c : Thread nD τ) (st0_2 t) fullShare ((𝔡 c).before 2 t e))
    ∗ (∃ e, owns (c : Thread nD τ) (st0_3 t) fullShare ((𝔡 c).before 3 t e))
    ∗ (∃ e, owns (c : Thread nD τ) (st0_4 t) fullShare ((𝔡 c).before 4 t e))
    ∗ (∃ e, owns (c : Thread nD τ) (st0_5 t) fullShare ((𝔡 c).before 5 t e))
    ∗ (∃ e, owns (c : Thread nD τ) (st0_6 t) fullShare ((𝔡 c).before 6 t e)))

/-- and what it returns. -/
def bodyPost (c : Dev nD) (t : Fin cfg0.N) : sProp 𝕄 :=
  iprop((𝔡 c).Φ t.succ ∗ (𝔡 c).owesAt none t.succ
    ∗ (𝔡 c).leavesExact 0 t ∗ (𝔡 c).leavesExact 1 t ∗ (𝔡 c).leavesExact 2 t ∗ (𝔡 c).leavesExact 3 t
    ∗ (𝔡 c).leavesExact 4 t ∗ (𝔡 c).leavesExact 5 t ∗ (𝔡 c).leavesExact 6 t)

set_option maxHeartbeats 1600000 in
/-- The body at any point: the operands' buffers hold their blocks; exactly one condition holds, and in that case the
    body stores the selected product over the result's buffer and touches nothing else; the invariant and what the
    core owes pass through unread. -/
theorem sound_body (c : Dev nD) (t : Fin cfg0.N) :
    bodyPre a0 a1 a2 a3 a4 a5 f15 O B c t
      ⊢ wp frame (wpE (defs₀ (F := F)) Variants.none (c : Thread nD τ) none) Set.univ (bodyAt0 t)
          (fun _ => bodyPost a0 a1 a2 a3 a4 a5 f15 O B c t) := by
  unfold bodyPre bodyPost bodyAt0
  simp only [before_0, before_1, before_2, before_3, before_4, before_5]
  rw [show (𝔡 c).Φ t.succ = (𝔡 c).Φ t.castSucc from rfl,
    show (𝔡 c).owesAt none t.succ = (𝔡 c).owesAt none t.castSucc from rfl]
  rw [show (𝔡 c).leavesExact 0 t = owns (c : Thread nD τ) (st0_0 t) fullShare ((𝔡 c).after 0 t) from rfl, after_0,
    show (𝔡 c).leavesExact 1 t = owns (c : Thread nD τ) (st0_1 t) fullShare ((𝔡 c).after 1 t) from rfl, after_1,
    show (𝔡 c).leavesExact 2 t = owns (c : Thread nD τ) (st0_2 t) fullShare ((𝔡 c).after 2 t) from rfl, after_2,
    show (𝔡 c).leavesExact 3 t = owns (c : Thread nD τ) (st0_3 t) fullShare ((𝔡 c).after 3 t) from rfl, after_3,
    show (𝔡 c).leavesExact 4 t = owns (c : Thread nD τ) (st0_4 t) fullShare ((𝔡 c).after 4 t) from rfl, after_4,
    show (𝔡 c).leavesExact 5 t = owns (c : Thread nD τ) (st0_5 t) fullShare ((𝔡 c).after 5 t) from rfl, after_5]
  rw [show (𝔡 c).leavesExact 6 t = owns (c : Thread nD τ) (st0_6 t) fullShare ((𝔡 c).after 6 t) from by
    unfold Dat.leavesExact; rw [live6 t], after_6]
  rcases cond_cases t with ⟨h1, h2, h3⟩ | ⟨h1, h2, h3⟩ | ⟨h1, h2, h3⟩
  · have e : tblBlock t a0 a1 a2 a3 a4 a5 = k0_pay1 ((win0_0.blk t).view.read (Elt F) a0) ((win0_3.blk t).view.read (Elt F) a3) := by
      unfold tblBlock; rw [if_pos h1]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case1 c (grid0.coords t) _ _ _ _ _ _ _ _ _ _ _ _ _ _ h1 h2 h3 _ _ Set.univ _)
    isplitl [H0]; · iexact H0
    isplitl [H3]; · iexact H3
    isplitl [H6]; · iexists _; iexact H6
    iintro ⟨H0, H3, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e : tblBlock t a0 a1 a2 a3 a4 a5 = k0_pay2 ((win0_1.blk t).view.read (Elt F) a1) ((win0_4.blk t).view.read (Elt F) a4) := by
      unfold tblBlock; rw [if_neg h1, if_pos h2]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case2 c (grid0.coords t) _ _ _ _ _ _ _ _ _ _ _ _ _ _ h1 h2 h3 _ _ Set.univ _)
    isplitl [H1]; · iexact H1
    isplitl [H4]; · iexact H4
    isplitl [H6]; · iexists _; iexact H6
    iintro ⟨H1, H4, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have e : tblBlock t a0 a1 a2 a3 a4 a5 = k0_pay3 ((win0_2.blk t).view.read (Elt F) a2) ((win0_5.blk t).view.read (Elt F) a5) := by
      unfold tblBlock; rw [if_neg h1, if_neg h2]
    rw [e]
    iintro ⟨HΦ, Ho, ⟨%e0, H0⟩, ⟨%e1, H1⟩, ⟨%e2, H2⟩, ⟨%e3, H3⟩, ⟨%e4, H4⟩, ⟨%e5, H5⟩, ⟨%e6, H6⟩⟩
    iapply (run_case3 c (grid0.coords t) _ _ _ _ _ _ _ _ _ _ _ _ _ _ h1 h2 h3 _ _ Set.univ _)
    isplitl [H2]; · iexact H2
    isplitl [H5]; · iexact H5
    isplitl [H6]; · iexists _; iexact H6
    iintro ⟨H2, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (𝔡 c) (defs₀ (F := F)) Variants.none none Set.univ := fun t => by
  rw [bigSep_W0, bigSep_W0]
  exact sound_body a0 a1 a2 a3 a4 a5 f15 O B c t

/-! ## What the result's array ends holding -/

/-- The result's window at point `t` is block `t` of the rows, all the columns. -/
theorem idx6 : ∀ t : Fin cfg0.N, win0_6.index t (0 : Fin 2) = t.val ∧ win0_6.index t (1 : Fin 2) = 0 :=
  (by decide +kernel : ∀ t : Fin grid0.N, _)

/-- The table at an index of row block `t` is what point `t` writes there. -/
theorem tableOf_at (t : Fin grid0.N) (y : S20000x128.Idx) (i : S1000000x128.Idx)
    (h0 : (i 0).val = t.val * 20000 + (y 0).val) (h1 : (i 1).val = (y 1).val) :
    tableOf a0 a1 a2 a3 a4 a5 i = tblBlock t a0 a1 a2 a3 a4 a5 y := by
  have hy0 : (y 0).val < 20000 := (y 0).isLt
  unfold tableOf
  have ht : (⟨(i 0).val / 20000, by rw [N_0]; have := ValueIdx.idx2_lt0 i; omega⟩ : Fin grid0.N) = t :=
    Fin.ext (by show (i 0).val / 20000 = t.val; omega)
  have hy : ValueIdx.ix2 (⟨(i 0).val % 20000, Nat.mod_lt _ (by decide)⟩ : Fin 20000) (i 1) = y := by
    funext a
    match a with
    | ⟨0, _⟩ => exact Fin.ext (by show (i 0).val % 20000 = (y 0).val; omega)
    | ⟨1, _⟩ => exact Fin.ext h1
  exact congr (congrArg (fun s => tblBlock s a0 a1 a2 a3 a4 a5) ht) hy

/-- WHAT POINT `t` WRITES BACK is block `t` of the table. -/
theorem flushed6_eq (c : Dev nD) (t : Fin cfg0.N) :
    (𝔡 c).flushed 6 t = ((cfg0.win 6).blk t).view.read (Elt F) (tableOf a0 a1 a2 a3 a4 a5) := by
  show (cfg0.win 6).cut (grid0.coords t) ((𝔡 c).after 6 t) = _
  rw [after_6]
  obtain ⟨e0, e1⟩ := idx6 t
  funext y
  show tblBlock t a0 a1 a2 a3 a4 a5 y = tableOf a0 a1 a2 a3 a4 a5 (((cfg0.win 6).blk t).view.emb y)
  refine (tableOf_at a0 a1 a2 a3 a4 a5 t y _ ?_ ?_).symm
  · show win0_6.index t (0 : Fin 2) * 20000 + 1 * (y 0).val = _; rw [e0]; omega
  · show win0_6.index t (1 : Fin 2) * 128 + 1 * (y 1).val = _; rw [e1]; omega

/-- An index of the array is in point `t`'s block iff each coordinate is in the block's range on its axis. -/
theorem mem_blk6 (t : Fin cfg0.N) (i : S1000000x128.Idx) :
    i ∈ ((cfg0.win 6).blk t).view.set ↔ ∀ a : Fin 2, win0_6.index t a * S20000x128.size a ≤ (i a).val ∧ (i a).val < win0_6.index t a * S20000x128.size a + S20000x128.size a := by
  show i ∈ ((View.whole main_v15).slice (win0_6.rect t)).set ↔ _
  rw [View.set_slice_whole, Rect.mem_set_unit]
  exact Iff.rfl

/-- Every row of the table is in the block of the point its number divided by 20000 names. -/
theorem cover6 (i : S1000000x128.Idx) : ∃ t : Fin cfg0.N, (cfg0.win 6).flush t = true ∧ i ∈ ((cfg0.win 6).blk t).view.set := by
  have hi0 : (i 0).val < 1000000 := (i 0).isLt
  have hi1 : (i 1).val < 128 := (i 1).isLt
  have hN : (i 0).val / 20000 < grid0.N := by rw [N_0]; omega
  obtain ⟨e0, e1⟩ := idx6 ⟨(i 0).val / 20000, hN⟩
  refine ⟨⟨(i 0).val / 20000, hN⟩, flush0_6 _, ?_⟩
  rw [mem_blk6]
  intro a
  match a with
  | ⟨0, _⟩ =>
    show win0_6.index ⟨(i 0).val / 20000, hN⟩ (0 : Fin 2) * 20000 ≤ (i 0).val ∧ (i 0).val < win0_6.index ⟨(i 0).val / 20000, hN⟩ (0 : Fin 2) * 20000 + 20000
    rw [e0]; show (i 0).val / 20000 * 20000 ≤ (i 0).val ∧ (i 0).val < (i 0).val / 20000 * 20000 + 20000; omega
  | ⟨1, _⟩ =>
    show win0_6.index ⟨(i 0).val / 20000, hN⟩ (1 : Fin 2) * 128 ≤ (i 1).val ∧ (i 1).val < win0_6.index ⟨(i 0).val / 20000, hN⟩ (1 : Fin 2) * 128 + 128
    rw [e1]; omega

/-- THE ARRAY after the run: the table. -/
theorem final6 (c : Dev nD) : (𝔡 c).arrAt 6 cfg0.N = tableOf a0 a1 a2 a3 a4 a5 :=
  (𝔡 c).arrAt_eq_of_cover 6 (tableOf a0 a1 a2 a3 a4 a5) (fun t _ => flushed6_eq a0 a1 a2 a3 a4 a5 f15 O B c t) cover6

/-! ## The region, entered from the main proof's thread state -/

/-- The windows' arrays at contents `G w` are the seven points-to. -/
theorem arrays_entry (c : Dev nD) :
    ((𝔡 c).arrays ((𝔡 c).arrAt · 0) : sProp 𝕄)
      = iprop(((((c : Thread nD τ)).loc main_v0) ↦{fullShare} a0) ∗ ((((c : Thread nD τ)).loc main_v1) ↦{fullShare} a1)
          ∗ ((((c : Thread nD τ)).loc main_v2) ↦{fullShare} a2) ∗ ((((c : Thread nD τ)).loc main_v6) ↦{fullShare} a3)
          ∗ ((((c : Thread nD τ)).loc main_v10) ↦{fullShare} a4) ∗ ((((c : Thread nD τ)).loc main_v14) ↦{fullShare} a5)
          ∗ ((((c : Thread nD τ)).loc main_v15) ↦{fullShare} f15)) := by
  rw [Pipeline.arrays_eq (fun _ : Fin 1 => cfg0) (fun _ c => 𝔡 c) 0 c arr_whole0 ((𝔡 c).share_full fun _ => rfl), bigSep_W0]
  rfl

theorem arrays_exit (c : Dev nD) :
    ((𝔡 c).arrays ((𝔡 c).arrAt · cfg0.N) : sProp 𝕄)
      = iprop(((((c : Thread nD τ)).loc main_v0) ↦{fullShare} a0) ∗ ((((c : Thread nD τ)).loc main_v1) ↦{fullShare} a1)
          ∗ ((((c : Thread nD τ)).loc main_v2) ↦{fullShare} a2) ∗ ((((c : Thread nD τ)).loc main_v6) ↦{fullShare} a3)
          ∗ ((((c : Thread nD τ)).loc main_v10) ↦{fullShare} a4) ∗ ((((c : Thread nD τ)).loc main_v14) ↦{fullShare} a5)
          ∗ ((((c : Thread nD τ)).loc main_v15) ↦{fullShare} tableOf a0 a1 a2 a3 a4 a5)) := by
  rw [Pipeline.arrays_eq (fun _ : Fin 1 => cfg0) (fun _ c => 𝔡 c) 0 c arr_whole0 ((𝔡 c).share_full fun _ => rfl), bigSep_W0]
  dsimp only
  rw [(𝔡 c).arrAt_in 0 rfl, (𝔡 c).arrAt_in 1 rfl, (𝔡 c).arrAt_in 2 rfl, (𝔡 c).arrAt_in 3 rfl, (𝔡 c).arrAt_in 4 rfl,
    (𝔡 c).arrAt_in 5 rfl, final6]
  rfl

/-- The call prefetches no table. -/
theorem bigSep_fin0 {M : Type} [URA M] (Ψ : Fin 0 → sProp M) : bigSep Finset.univ Ψ = (BI.emp : sProp M) :=
  bigSep_univ_eq_bigSepL [] (by decide) (by decide) Ψ
theorem prefHeld_none (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

/-- The pipelines' proof data: the program has the one. -/
def pdats (p : Fin 1) (c : Dev nD) : Dat τ (Elt F) (HIx 1) ℕ UU ℕ (pcsPin (F := F) p) c := 𝔡 c

/-- The thread state the region is entered from: the operands and the result array whole, and what the core owes with
    its recorded pairs within `B`; -/
def regPre (c : Dev nD) : sProp 𝕄 :=
  iprop(tableOperands c a0 a1 a2 a3 a4 a5 ∗ ((((c : Thread nD τ)).loc main_v15) ↦{fullShare} f15) ∗ Pipeline.owesWithin c O B)
/-- and the one it leaves: the result array at the table, the pipeline's own waits recorded too. -/
def regPost (c : Dev nD) : sProp 𝕄 :=
  iprop(tableOperands c a0 a1 a2 a3 a4 a5 ∗ ((((c : Thread nD τ)).loc main_v15) ↦{fullShare} tableOf a0 a1 a2 a3 a4 a5)
    ∗ Pipeline.owesWithin c O (B ∪ cfg0.waitPairs none))

/-- The region's record: the layout the launch decides, no semaphore of the kernel's own, the body obligation, the
    wait evidence (the pipeline waits at index `none`, below everything the core owes), and the four entailments
    between the thread states and the pipeline's invariant. -/
def reg (hO : ∀ g, O g none = 0) :
    Pipeline.RegionSeg (pcfgs (F := F)) adm (pdats a0 a1 a2 a3 a4 a5 f15 O B) none defs₀ Variants.none
      (Hand.K (F := F)).L (Hand.K (F := F)).lev 0 where
  win := launch0.win.to₀
  block_pos := block_pos0
  stage_whole := stage_whole0
  K := PEmpty
  osem k := k.elim
  ho := Pipeline.OwnSemFacts.none _
  hbody c := (body_obligation a0 a1 a2 a3 a4 a5 f15 O B c).loose
  hwaits c := Pipeline.cellsWaits_intro _ _ _ _ _ fun w s t => (Hand.K (F := F)).mayWait_none _ hO
  pre := regPre a0 a1 a2 a3 a4 a5 f15 O B
  post := regPost a0 a1 a2 a3 a4 a5 O B
  X _ := BI.emp
  Y _ := BI.emp
  Z _ := BI.emp
  hentry c := by
    rw [Pipeline.ownSems0_none, prefHeld_none]
    show iprop(regPre a0 a1 a2 a3 a4 a5 f15 O B c ∗ BI.emp ∗ _) ⊢ iprop(|={Set.univ}=> ((𝔡 c).arrays ((𝔡 c).arrAt · 0) ∗ BI.emp ∗ (𝔡 c).owesAt none 0 ∗ BI.emp ∗ BI.emp))
    rw [arrays_entry]
    unfold regPre tableOperands
    iintro ⟨⟨⟨H0, H1, H2, H3, H4, H5⟩, H6, ⟨%W₀, %hW₀, HO⟩⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr; · iempintro
    isplitl [HO]
    · iexists W₀; isplitr; · ipureintro; exact fun p hp => Or.inl (hW₀ hp)
      iexact HO
    isplitr <;> iempintro
  hin c := by
    show iprop(BI.emp ∗ _ ∗ Pipeline.scopedRest spec0 c) ⊢ Pipeline.scopedRest spec0 c
    iintro ⟨-, -, H⟩; iexact H
  hout c := by
    rw [Pipeline.ownSems0_none]
    show Pipeline.scopedRest spec0 c ⊢ iprop(BI.emp ∗ BI.emp ∗ Pipeline.scopedRest spec0 c)
    iintro H
    isplitr; · iempintro
    isplitr; · iempintro
    iexact H
  hexit c := by
    show iprop((𝔡 c).arrays ((𝔡 c).arrAt · cfg0.N) ∗ (𝔡 c).owesAt none (Fin.last cfg0.N) ∗ BI.emp ∗ BI.emp) ⊢ iprop(|={Set.univ}=> regPost a0 a1 a2 a3 a4 a5 O B c)
    rw [arrays_exit]
    unfold regPost tableOperands
    iintro ⟨⟨H0, H1, H2, H3, H4, H5, H6⟩, HO, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    iexact HO

end Cert.KernelIdeal.Hand.Table

end
-- ==== Proof.KernelIdealHand.TableRegion.lean ====
/-
  The TensorCore call from the main proof's thread state. In the whole program the call is the pipeline's entry lifted
  to the launch's extended body table, so a proof about the entry under the pipeline's own table is a proof about the
  call; the region rule runs the entry from the operands, the result array and what the core owes, and hands them back
  with the result array at the table. The waits the pipeline itself records are on its staging semaphores at index
  `none`, which is what the statement promises of the recorded pairs.
-/
import proofs.«202745_g55851754717770_cont_9to1_m_910_12_alg».proof.Proof.KernelIdealHand.TableRegionData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Hand.Table

variable {F : FTy → Type} [FloatOps F]

local notation "𝕄" => MT nD τ sig (HIx 1) (Elt F) ℕ UU ℕ

/-- The TensorCore call, from the main proof's thread state: the program's statement is the pipeline's entry lifted to
    the SparseCore launch's body table; the region rule runs it from the thread state; the waits the pipeline records
    are its staging semaphores' at index `none`. -/
theorem table_region : TableRegionStmt (F := F) := by
  unfold TableRegionStmt
  intro d a0 a1 a2 a3 a4 a5 f15 O W hO Φ
  have h := (K (F := F)).wp_liftProg (nD := nD) (Name := ℕ) (U := UU) (D (F := F)) 𝒱 (SparseCore.T d) Set.univ none
    (Prog.lift (.customCall (Pipeline.entry 0) ())) Φ
  refine BIBase.Entails.trans ?_ h
  have key := Pipeline.RegionSeg.wp (pcfgs (F := F)) adm
    (Table.pdats a0 a1 a2 a3 a4 a5 f15 O {p | p ∈ W ∨ p.2 = none}) none cellOf_inj' ER defs₀ Variants.none
    (K (F := F)).L (K (F := F)).lev (Table.reg a0 a1 a2 a3 a4 a5 f15 O {p | p ∈ W ∨ p.2 = none} hO) d none
    (fun _ h => by cases h) (fun _ => .ret ⟨⟩) Φ
  rw [show (Table.reg a0 a1 a2 a3 a4 a5 f15 O {p | p ∈ W ∨ p.2 = none} hO).post
        = Table.regPost a0 a1 a2 a3 a4 a5 O {p | p ∈ W ∨ p.2 = none} from rfl,
    show (Table.reg a0 a1 a2 a3 a4 a5 f15 O {p | p ∈ W ∨ p.2 = none} hO).pre
        = Table.regPre a0 a1 a2 a3 a4 a5 f15 O {p | p ∈ W ∨ p.2 = none} from rfl] at key
  refine BIBase.Entails.trans ?_ key
  unfold Table.regPost Table.regPre Pipeline.owesWithin
  iintro ⟨#Hlev, Hb, Hg, Ht, Hops, H15, HO, Hk⟩
  isplitl [Hk]
  · iintro ⟨Hb, Hops, H15, ⟨%W', %hW', HO⟩⟩
    sl_step
    iapply Hk
    isplitl [Hb]; · iexact Hb
    isplitl [Hops]; · iexact Hops
    isplitl [H15]; · iexact H15
    iexists W'; isplitr
    · ipureintro
      intro p hp
      rcases hW' hp with h | ⟨w, s, rfl⟩
      · exact h
      · exact Or.inr rfl
    iexact HO
  isplitl [Hb]; · iexact Hb
  isplitl [Hops H15 HO]
  · isplitl [Hops]; · iexact Hops
    isplitl [H15]; · iexact H15
    iexists W; isplitr; · ipureintro; exact fun p hp => Or.inl hp
    iexact HO
  isplitr; · iexact Hlev
  isplitl [Hg]; · iexact Hg
  iexact Ht

end Cert.KernelIdeal.Hand

end
-- ==== Proof.KernelIdealHand.TileDefs.lean ====
/-
  One tile's task of the gather: the vocabulary of its proof. The tile's thread and cells; its scoped buffers and
  semaphores taken out of what the launch deals it; the rows of the result as element sets (ranges of rows, the
  128-row slices the body copies to); read shares rotating over three tokens, so that three gathers may read the
  table and the id scratch at once; a gather and a copy-out in flight (the transfer's flight and, beside
  it, what of its source's and destination's buffers the transfer did not take); and the loop's invariant: at the
  head of trip k the gathers of
  chunks 4k, 4k+1, 4k+2 in flight into the first three buffers, the copy-out of chunk 4k-1 from the fourth in flight
  (none at trip 0), the rows of the chunks before it at the gathered rows, the rows from chunk 4k on untouched.
-/
import proofs.«202745_g55851754717770_cont_9to1_m_910_12_alg».proof.Proof.KernelIdealHand.Stmts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- The tile's thread. -/
abbrev VT : Thread nD τ := V d (cV L) (jV L)

/-- One of the tile's DMA semaphores, as a cell. -/
abbrev cell (x : DmaSem sig) : GSem nD τ sig := (VT d L, SemLoc.dma x)

omit [FloatOps F] in
theorem cell_ne {thr : Thread nD τ} {a b : DmaSem sig} (h : a ≠ b) : ((thr, SemLoc.dma a) : GSem nD τ sig) ≠ (thr, SemLoc.dma b) :=
  fun e => h (SemLoc.dma.inj (Prod.mk.inj e).2)

omit [FloatOps F] in
theorem ownSems0_V :
    (ownSems0 (VT d L) : sProp 𝕄)
      = iprop(semVal (cell d L cc1_scratch5.sem) 0 ∗ semVal (cell d L cc1_scratch6.sem) 0 ∗ semVal (cell d L cc1_scratch7.sem) 0 ∗ semVal (cell d L cc1_scratch8.sem) 0 ∗ semVal (cell d L cc1_scratch9.sem) 0 ∗ semVal (cell d L cc1_scratch10.sem) 0 ∗ semVal (cell d L cc1_scratch11.sem) 0 ∗ semVal (cell d L cc1_scratch12.sem) 0 ∗ semVal (cell d L cc1_scoped0.sem) 0
          ∗ bigSep ((((((((((ownCells (VT d L)).erase (cell d L cc1_scratch5.sem)).erase (cell d L cc1_scratch6.sem)).erase (cell d L cc1_scratch7.sem)).erase (cell d L cc1_scratch8.sem)).erase (cell d L cc1_scratch9.sem)).erase (cell d L cc1_scratch10.sem)).erase (cell d L cc1_scratch11.sem)).erase (cell d L cc1_scratch12.sem)).erase (cell d L cc1_scoped0.sem)) fun g => semVal g 0) := by
  unfold SparseCore.Cfg.ownSems0
  rw [SparseCore.bigSep_erase' ((mem_ownCells (g := cell d L cc1_scratch5.sem)).mpr ⟨rfl, by show (SemLoc.dma cc1_scratch5.sem : SemLoc sig).isScoped .scVector = true; decide⟩),
    SparseCore.bigSep_erase' (Finset.mem_erase.mpr ⟨cell_ne (by decide), (mem_ownCells (g := cell d L cc1_scratch6.sem)).mpr ⟨rfl, by show (SemLoc.dma cc1_scratch6.sem : SemLoc sig).isScoped .scVector = true; decide⟩⟩),
    SparseCore.bigSep_erase' (Finset.mem_erase.mpr ⟨cell_ne (by decide), Finset.mem_erase.mpr ⟨cell_ne (by decide), (mem_ownCells (g := cell d L cc1_scratch7.sem)).mpr ⟨rfl, by show (SemLoc.dma cc1_scratch7.sem : SemLoc sig).isScoped .scVector = true; decide⟩⟩⟩),
    SparseCore.bigSep_erase' (Finset.mem_erase.mpr ⟨cell_ne (by decide), Finset.mem_erase.mpr ⟨cell_ne (by decide), Finset.mem_erase.mpr ⟨cell_ne (by decide), (mem_ownCells (g := cell d L cc1_scratch8.sem)).mpr ⟨rfl, by show (SemLoc.dma cc1_scratch8.sem : SemLoc sig).isScoped .scVector = true; decide⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch9.sem)).mpr ⟨rfl, by show (SemLoc.dma cc1_scratch9.sem : SemLoc sig).isScoped .scVector = true; decide⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch10.sem)).mpr ⟨rfl, by show (SemLoc.dma cc1_scratch10.sem : SemLoc sig).isScoped .scVector = true; decide⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch11.sem)).mpr ⟨rfl, by show (SemLoc.dma cc1_scratch11.sem : SemLoc sig).isScoped .scVector = true; decide⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scratch12.sem)).mpr ⟨rfl, by show (SemLoc.dma cc1_scratch12.sem : SemLoc sig).isScoped .scVector = true; decide⟩⟩⟩⟩⟩⟩⟩⟩),
    SparseCore.bigSep_erase' (Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), Finset.mem_erase.mpr ⟨cell_ne (by decide), (mem_ownCells (g := cell d L cc1_scoped0.sem)).mpr ⟨rfl, by show (SemLoc.dma cc1_scoped0.sem : SemLoc sig).isScoped .scVector = true; decide⟩⟩⟩⟩⟩⟩⟩⟩⟩)]

omit [FloatOps F] in
theorem ownBufs_V :
    (ownBufs (VT d L) : sProp 𝕄)
      = iprop((∃ f, (VT d L).loc cc1_scratch0 ↦{fullShare} f) ∗ (∃ f, (VT d L).loc cc1_scratch1 ↦{fullShare} f) ∗ (∃ f, (VT d L).loc cc1_scratch2 ↦{fullShare} f) ∗ (∃ f, (VT d L).loc cc1_scratch3 ↦{fullShare} f) ∗ (∃ f, (VT d L).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩)]

omit [FloatOps F] in
/-- A scratch buffer whole, as the body's memref addresses it. -/
theorem pts_s (b : Ref sig .scVector) (f : Buf (Elt F) ((VT d L).loc b)) :
    ((Memref.whole b).view.loc (VT d L) ↦{fullShare} f : sProp 𝕄) = (VT d L).loc b ↦{fullShare} f := rfl

omit [FloatOps F] in
/-- The table whole, as the body's memref addresses it. -/
theorem pts_tbl (q : PosShare TreeShare) (f : Buf (Elt F) (tblLoc d)) :
    ((tblV).view.loc (VT d L) ↦{q} f : sProp 𝕄) = tblLoc d ↦{q} f := by
  simp only [Memref.view_whole, View.set_whole]

/-- The tile's ids in the array of all ids, as the body slices them. -/
abbrev idsRow : Memref sig .scVector .hbm S25600 .i32 :=
  (idsV).slice (Rect.unit (s := S819200) (k1_off1 L) S25600.size (k1_off1_inb L)) (fun _ => rfl)

omit [FloatOps F] in
theorem set_idsRow : (idsRow L).view.set = idsSet (wid L) := by
  show ((View.whole main_v16_scv).slice _).set = _
  rw [View.set_slice_whole]
  ext i
  rw [Rect.mem_set_unit]
  simp only [idsSet, Finset.mem_filter, Finset.mem_univ, true_and]
  have e0 : k1_off1 L 0 = wid L * 25600 := by
    rw [k1_off1_eq]; show 51200 * (L 1).val + 25600 * (L 0).val = _; unfold wid; omega
  have e1 : (![25600] : Fin 1 → ℕ) 0 = 25600 := rfl
  constructor
  · intro h; have h0 := h 0; rw [e0, e1] at h0; omega
  · intro h a
    have ha : a = 0 := Fin.ext (by have := a.isLt; show a.val = 0; change a.val < 1 at this; omega)
    subst ha; rw [e0, e1]; omega

omit [FloatOps F] in
theorem pts_idsRow (f : Buf (Elt F) (idsLoc d)) :
    ((idsRow L).view.loc (VT d L) ↦[(idsRow L).view.set]{fullShare} f : sProp 𝕄) = idsLoc d ↦[idsSet (wid L)]{fullShare} f := by
  rw [set_idsRow]

/-- The table as the gathers slice it (whole). -/
abbrev tblW : Memref sig .scVector .hbm S1000000x128 .f32 :=
  (tblV).slice (Rect.unit (s := S1000000x128) ![0, 0] S1000000x128.size inb_S1000000x128_S1000000x128_0_0) (fun _ => rfl)

abbrev s0M : Memref sig .scVector .vmem S25600 .i32 := Memref.whole cc1_scratch0

/-- A chunk of the id scratch: 128 ids from `off`. -/
abbrev offsM (off : Fin 1 → Nat) (hk : ∀ a, off a + S128.size a ≤ S25600.size a) : Memref sig .scVector .vmem S128 .i32 :=
  (s0M).slice (Rect.unit (s := S25600) off S128.size hk) (fun _ => rfl)

/-- 128 rows of the result from `off`. -/
abbrev outP (off : Fin 2 → Nat) (hk : ∀ a, off a + S128x128.size a ≤ S819200x128.size a) : Memref sig .scVector .hbm S128x128 .f32 :=
  (outV).slice (Rect.unit (s := S819200x128) off S128x128.size hk) (fun _ => rfl)

/-- The cell of DMA semaphore number `n`. -/
abbrev cellN (n : ℕ) (h : n < 20) : GSem nD τ sig := (VT d L, SemLoc.dma (⟨n, h⟩ : DmaSem sig))

/-- Opaque on purpose: unfolded only by `hide_eq`. -/
def hide (P : sProp 𝕄) : sProp 𝕄 := P
omit [FloatOps F] in
theorem hide_eq (P : sProp 𝕄) : hide P = P := rfl

/-- Three read shares of a share, by chunk number: chunk `n` reads through the share chunk `n - 3` gave back. -/
def tok (q : PosShare TreeShare) (n : ℕ) : PosShare TreeShare := Transfers.shareTokN q (n % 3)
theorem tok_add3 (q : PosShare TreeShare) (n : ℕ) : tok q (n + 3) = tok q n := by unfold tok; rw [Nat.add_mod_right]

omit [FloatOps F] in
theorem toks3 (ℓ : Loc nD τ sig) (q : PosShare TreeShare) (f : Buf (Elt F) ℓ) :
    (ℓ ↦{q} f : sProp 𝕄) ⊣⊢ iprop((ℓ ↦{Transfers.shareDrop q 3} f) ∗ (ℓ ↦{tok q 0} f) ∗ (ℓ ↦{tok q 1} f) ∗ (ℓ ↦{tok q 2} f)) := by
  have h : (ℓ ↦{q} f : sProp 𝕄) ⊣⊢ iprop((ℓ ↦{Transfers.shareDrop q 3} f) ∗ bigSep (Finset.range 3) fun i => ℓ ↦{Transfers.shareTokN q i} f) :=
    Transfers.pointsTo_toks_range (ℓ := ℓ) (S := Finset.univ) (f := f) q 3
  rw [show Finset.range 3 = {0, 1, 2} by decide, SparseCore.bigSep_insert' (by decide), SparseCore.bigSep_insert' (by decide), bigSep_singleton] at h
  exact h

/-- A gather in flight into buffer `b` on cell `g`, reading ids chunk `off`, with the three rests the issue left. -/
def GFl (g : ℕ) (hg : g < 20) (b : Ref sig .scVector) (off : Fin 1 → Nat) (hk : ∀ a, off a + S128.size a ≤ S25600.size a)
    (qs qt : PosShare TreeShare) (X : Buf (Elt F) ((Memref.whole b).view.loc (VT d L))) (s0c : Buf (Elt F) ((s0M).view.loc (VT d L)))
    (tbl : Buf (Elt F) (tblLoc d)) : sProp 𝕄 :=
  iprop(Transfers.Flight (countersEmb (U := UU)) (VT d L) (SemLoc.dma (⟨g, hg⟩ : DmaSem sig)) (default : HIx 1) 524288
      iprop((((Memref.whole b).view.loc (VT d L) ↦[(Memref.whole b).view.set]{fullShare} X)
          ∗ ((s0M).view.loc (VT d L) ↦[(offsM off hk).view.set]{qs} s0c))
        ∗ ((tblV).view.loc (VT d L) ↦[(tblW).view.set]{qt} tbl))
    ∗ ((tblV).view.loc (VT d L) ↦[Finset.univ \ (tblW).view.set]{qt} tbl)
    ∗ ((Memref.whole b).view.loc (VT d L) ↦[Finset.univ \ (Memref.whole b).view.set]{fullShare} X)
    ∗ ((s0M).view.loc (VT d L) ↦[Finset.univ \ (offsM off hk).view.set]{qs} s0c))

/-- The tile's first row. -/
def base : ℕ := wid L * 25600

/-- Rows `a ≤ r < b` of the result. -/
def rowsSet (a b : ℕ) : Finset S819200x128.Idx := Finset.univ.filter fun i => a ≤ (i 0).val ∧ (i 0).val < b

/-- A copy of buffer `b` out to 128 rows of the result in flight on cell `g`, with the rest the issue left. -/
def CFl (g : ℕ) (hg : g < 20) (b : Ref sig .scVector) (off : Fin 2 → Nat) (hk : ∀ a, off a + S128x128.size a ≤ S819200x128.size a)
    (Y : Buf (Elt F) (outLoc d)) (X : Buf (Elt F) ((Memref.whole b).view.loc (VT d L))) : sProp 𝕄 :=
  iprop(Transfers.Flight (countersEmb (U := UU)) (VT d L) (SemLoc.dma (⟨g, hg⟩ : DmaSem sig)) (default : HIx 1) 524288
      iprop(((outP off hk).view.loc (VT d L) ↦[(outP off hk).view.set]{fullShare} Y)
        ∗ ((Memref.whole b).view.loc (VT d L) ↦[(Memref.whole b).view.set]{fullShare} X))
    ∗ ((Memref.whole b).view.loc (VT d L) ↦[Finset.univ \ (Memref.whole b).view.set]{fullShare} X))

/-- A buffer holds chunk `n` of the tile's gathered rows. -/
def IsRows (G : Buf (Elt F) (outLoc d)) (n : ℕ) (X : S128x128.Idx → Elt F .f32) : Prop :=
  ∀ (j : S128x128.Idx) (i : S819200x128.Idx), (i 0).val = base L + 128 * n + (j 0).val → (i 1).val = (j 1).val → X j = G i

/-- Buffer `b`'s gather of chunk `n` in flight on cell `g`. -/
def slotFly (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n : ℕ) : sProp 𝕄 :=
  iprop(∃ off hk X, ⌜Vl n X⌝ ∗ GFl d L g hg b off hk (tok qS n) (tok qT n) X s0c tbl)

/-- Buffer `b` and cell `g` idle, with the read shares chunk `n` would read through. -/
def slotIdle (g : ℕ) (hg : g < 20) (b : Ref sig .scVector)
    (qS qT : PosShare TreeShare) (s0c : Buf (Elt F) ((s0M).view.loc (VT d L))) (tbl : Buf (Elt F) (tblLoc d)) (n : ℕ) : sProp 𝕄 :=
  iprop((∃ X, (Memref.whole b).view.loc (VT d L) ↦{fullShare} X) ∗ semVal (cellN d L g hg) 0
    ∗ ((s0M).view.loc (VT d L) ↦{tok qS n} s0c) ∗ ((tblV).view.loc (VT d L) ↦{tok qT n} tbl))

/-- The last buffer's copy of chunk `n` out to the result in flight. -/
def coFly (G : Buf (Elt F) (outLoc d)) (n : ℕ) : sProp 𝕄 :=
  iprop(∃ off hk Y X, ⌜off = ![base L + 128 * n, 0] ∧ ∀ i ∈ (outP off hk).view.set, Y i = G i⌝
    ∗ CFl d L 18 (by decide) cc1_scratch4 off hk Y X)

/-- The last buffer and its write cell idle. -/
def coIdle : sProp 𝕄 :=
  iprop((∃ X, (Memref.whole cc1_scratch4).view.loc (VT d L) ↦{fullShare} X) ∗ semVal (cellN d L 18 (by decide)) 0)

/-- The loop's invariant, over the state of the three gather slots and of the last buffer's copy-out, the rows done
    (below `lo`) and the rows not yet written (from `hi`). -/
def invAt (G f0 : Buf (Elt F) (outLoc d)) (O : CellTallies nD τ sig (HIx 1)) (W : Waits sig (HIx 1))
    (s1 s2 s3 co : sProp 𝕄) (lo hi : ℕ) : sProp 𝕄 :=
  iprop(Transfers.MayWaits (VT d L) (none : HIx 1) O
    ∗ s1 ∗ s2 ∗ s3 ∗ co
    ∗ semVal (cellN d L 14 (by decide)) 0 ∗ semVal (cellN d L 15 (by decide)) 0
    ∗ semVal (cellN d L 16 (by decide)) 0 ∗ semVal (cellN d L 17 (by decide)) 0
    ∗ ((outV).view.loc (VT d L) ↦[rowsSet (base L) lo]{fullShare} G)
    ∗ ((outV).view.loc (VT d L) ↦[rowsSet hi (base L + 25600)]{fullShare} f0)
    ∗ ∃ W', ⌜∀ p ∈ W', p ∈ W ∨ p.2 = none⌝ ∗ owes (VT d L) O W')

/-- The loop's invariant at the head of trip `k`. -/
def inv (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (_ : PUnit) : sProp 𝕄 :=
  invAt d L G f0 O W
    (if k < 50 then slotFly d L 11 (by decide) cc1_scratch1 (fun n X => IsRows d L G n X) fullShare qT s0c tbl (4 * k)
      else slotIdle d L 11 (by decide) cc1_scratch1 fullShare qT s0c tbl (4 * k))
    (if k < 50 then slotFly d L 12 (by decide) cc1_scratch2 (fun n X => IsRows d L G n X) fullShare qT s0c tbl (4 * k + 1)
      else slotIdle d L 12 (by decide) cc1_scratch2 fullShare qT s0c tbl (4 * k + 1))
    (if k < 50 then slotFly d L 13 (by decide) cc1_scratch3 (fun n X => IsRows d L G n X) fullShare qT s0c tbl (4 * k + 2)
      else slotIdle d L 13 (by decide) cc1_scratch3 fullShare qT s0c tbl (4 * k + 2))
    (if 0 < k then coFly d L G (4 * k - 1) else coIdle d L)
    (base L + 128 * (4 * k - 1)) (base L + 512 * k)

theorem inv_fly (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (acc : PUnit) (h : k < 50) (co : sProp 𝕄)
    (hco : (if 0 < k then coFly d L G (4 * k - 1) else coIdle d L) = co) :
    inv d L G f0 qT s0c tbl O W k acc = invAt d L G f0 O W
      (slotFly d L 11 (by decide) cc1_scratch1 (fun n X => IsRows d L G n X) fullShare qT s0c tbl (4 * k))
      (slotFly d L 12 (by decide) cc1_scratch2 (fun n X => IsRows d L G n X) fullShare qT s0c tbl (4 * k + 1))
      (slotFly d L 13 (by decide) cc1_scratch3 (fun n X => IsRows d L G n X) fullShare qT s0c tbl (4 * k + 2))
      co (base L + 128 * (4 * k - 1)) (base L + 512 * k) := by
  unfold inv; rw [if_pos h, if_pos h, if_pos h, hco]

theorem inv_idle (G f0 : Buf (Elt F) (outLoc d)) (qT : PosShare TreeShare) (s0c : Buf (Elt F) ((s0M).view.loc (VT d L))) (tbl : Buf (Elt F) (tblLoc d))
    (O : CellTallies nD τ sig (HIx 1)) (W : Waits sig (HIx 1)) (k : Nat) (acc : PUnit) (h : ¬ k < 50) (h0 : 0 < k) :
    inv d L G f0 qT s0c tbl O W k acc = invAt d L G f0 O W
      (slotIdle d L 11 (by decide) cc1_scratch1 fullShare qT s0c tbl (4 * k))
      (slotIdle d L 12 (by decide) cc1_scratch2 fullShare qT s0c tbl (4 * k + 1))
      (slotIdle d L 13 (by decide) cc1_scratch3 fullShare qT s0c tbl (4 * k + 2))
      (coFly d L G (4 * k - 1)) (base L + 128 * (4 * k - 1)) (base L + 512 * k) := by
  unfold inv; rw [if_neg h, if_neg h, if_neg h, if_pos h0]

/-- A gather in flight, its read shares named by a chunk number of the same residue, is the slot's state. -/
theorem slotFly_intro (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ)
    (hnm : ∀ q, tok q n = tok q m) (off : Fin 1 → Nat) (hk : ∀ a, off a + S128.size a ≤ S25600.size a)
    (X : Buf (Elt F) ((Memref.whole b).view.loc (VT d L))) (hV : Vl n X) :
    GFl d L g hg b off hk (tok qS m) (tok qT m) X s0c tbl ⊢ slotFly d L g hg b Vl qS qT s0c tbl n := by
  unfold slotFly
  rw [hnm qS, hnm qT]
  iintro H
  iexists off, hk, X
  isplitr
  · ipureintro; exact hV
  · iexact H

/-! ### Rows of the result as element sets -/

omit [FloatOps F] in
theorem rowsSet_union {a b c : ℕ} (h1 : a ≤ b) (h2 : b ≤ c) : rowsSet a c = rowsSet a b ∪ rowsSet b c := by
  ext i; simp only [rowsSet, Finset.mem_filter, Finset.mem_univ, true_and, Finset.mem_union]; omega
omit [FloatOps F] in
theorem rowsSet_disjoint {a b c : ℕ} : Disjoint (rowsSet a b) (rowsSet b c) := by
  rw [Finset.disjoint_left]; intro i; simp only [rowsSet, Finset.mem_filter, Finset.mem_univ, true_and]; omega
omit [FloatOps F] in
theorem rowsSet_empty (a : ℕ) : rowsSet a a = ∅ := by
  ext i; simp only [rowsSet, Finset.mem_filter, Finset.mem_univ, true_and, Finset.notMem_empty, iff_false]; omega

omit [FloatOps F] in
/-- Adjacent ranges of rows, held at one contents, are one range. -/
theorem rows_split {ℓq : PosShare TreeShare} {a b c : ℕ} (h1 : a ≤ b) (h2 : b ≤ c) (f : Buf (Elt F) (outLoc d)) :
    ((outV).view.loc (VT d L) ↦[rowsSet a c]{ℓq} f : sProp 𝕄)
      ⊣⊢ iprop(((outV).view.loc (VT d L) ↦[rowsSet a b]{ℓq} f) ∗ ((outV).view.loc (VT d L) ↦[rowsSet b c]{ℓq} f)) := by
  rw [rowsSet_union h1 h2]; exact pointsTo_union rowsSet_disjoint

omit [FloatOps F] in
/-- A 128-row slice of the result is a range of rows. -/
theorem set_outP (off : Fin 2 → Nat) (hk : ∀ a, off a + S128x128.size a ≤ S819200x128.size a) (h1 : off 1 = 0) :
    (outP off hk).view.set = rowsSet (off 0) (off 0 + 128) := by
  show ((View.whole main_v17_scv).slice _).set = _
  rw [View.set_slice_whole]
  ext i
  rw [Rect.mem_set_unit]
  simp only [rowsSet, Finset.mem_filter, Finset.mem_univ, true_and]
  constructor
  · intro h; have h0 := h 0; exact ⟨h0.1, h0.2⟩
  · intro h a
    match a with
    | 0 => exact ⟨h.1, h.2⟩
    | 1 =>
      rw [h1]
      have h128 : (i 1).val < 128 := (i 1).isLt
      exact ⟨Nat.zero_le _, by show (i 1).val < 0 + 128; omega⟩

omit [FloatOps F] in
theorem outSet_eq : outSet (wid L) = rowsSet (base L) (base L + 25600) := by
  unfold outSet rowsSet base
  refine Finset.filter_congr fun i _ => ?_
  constructor <;> (intro h; omega)

omit [FloatOps F] in
theorem pts_out (S : Finset S819200x128.Idx) (q : PosShare TreeShare) (f : Buf (Elt F) (outLoc d)) :
    ((outV).view.loc (VT d L) ↦[S]{q} f : sProp 𝕄) = outLoc d ↦[S]{q} f := by
  simp only [Memref.view_whole]

/-! ### The loop's conditions, by trip -/

theorem trips_eq : k1_t1_loop.trips = 50 := by decide +kernel
theorem cond1_iff : ∀ k : Fin k1_t1_loop.trips, (k1_cond1 k = 1#1 ↔ 0 < k.val) := by decide +kernel
theorem cond2_all : ∀ k : Fin k1_t1_loop.trips, k1_cond2 k = 1#1 := by decide +kernel
theorem cond3_iff : ∀ k : Fin k1_t1_loop.trips, (k1_cond3 k = 1#1 ↔ k.val < 49) := by decide +kernel
theorem cond4_iff : ∀ k : Fin k1_t1_loop.trips, (k1_cond4 k = 1#1 ↔ k.val < 49) := by decide +kernel
theorem cond5_iff : ∀ k : Fin k1_t1_loop.trips, (k1_cond5 k = 1#1 ↔ k.val < 49) := by decide +kernel

/-- Chunk `4k + r` of the tile's rows of the result, as trip `k` slices it. -/
abbrev outC (k : Fin k1_t1_loop.trips) (r : Fin 4) : Memref sig .scVector .hbm S128x128 .f32 :=
  outP (k1_off3 L k (BitVec.ofNat 32 r.val)) (k1_off3_inb L k r)

omit [FloatOps F] in
theorem set_outC (k : Fin k1_t1_loop.trips) (r : Fin 4) :
    (outC L k r).view.set = rowsSet (base L + 512 * k.val + 128 * r.val) (base L + 512 * k.val + 128 * r.val + 128) := by
  have e0 : k1_off3 L k (BitVec.ofNat 32 r.val) 0 = base L + 512 * k.val + 128 * r.val := by
    rw [k1_off3_eq]
    show 51200 * (L 1).val + 25600 * (L 0).val + 512 * k.val + 128 * r.val = _
    unfold base wid; omega
  have e1 : k1_off3 L k (BitVec.ofNat 32 r.val) 1 = 0 := by rw [k1_off3_eq]; rfl
  unfold outC
  rw [set_outP _ _ e1, e0]

omit [FloatOps F] in
/-- The rows not yet written: trip `k`'s four chunks and the rest. -/
theorem carve4 (k : Fin k1_t1_loop.trips) (f : Buf (Elt F) (outLoc d)) :
    ((outV).view.loc (VT d L) ↦[rowsSet (base L + 512 * k.val) (base L + 25600)]{fullShare} f : sProp 𝕄)
      ⊣⊢ iprop(((outC L k 0).view.loc (VT d L) ↦[(outC L k 0).view.set]{fullShare} f)
          ∗ ((outC L k 1).view.loc (VT d L) ↦[(outC L k 1).view.set]{fullShare} f)
          ∗ ((outC L k 2).view.loc (VT d L) ↦[(outC L k 2).view.set]{fullShare} f)
          ∗ ((outC L k 3).view.loc (VT d L) ↦[(outC L k 3).view.set]{fullShare} f)
          ∗ ((outV).view.loc (VT d L) ↦[rowsSet (base L + 512 * (k.val + 1)) (base L + 25600)]{fullShare} f)) := by
  have hk : k.val < 50 := trips_eq ▸ k.isLt
  rw [set_outC, set_outC, set_outC, set_outC]
  show ((outV).view.loc (VT d L) ↦[_]{fullShare} f : sProp 𝕄)
      ⊣⊢ iprop(((outV).view.loc (VT d L) ↦[_]{fullShare} f) ∗ ((outV).view.loc (VT d L) ↦[_]{fullShare} f)
          ∗ ((outV).view.loc (VT d L) ↦[_]{fullShare} f) ∗ ((outV).view.loc (VT d L) ↦[_]{fullShare} f) ∗ _)
  have s0 := rows_split (F := F) d L (ℓq := fullShare) (a := base L + 512 * k.val) (b := base L + 512 * k.val + 128) (c := base L + 25600) (by omega) (by omega) f
  have s1 := rows_split (F := F) d L (ℓq := fullShare) (a := base L + 512 * k.val + 128) (b := base L + 512 * k.val + 256) (c := base L + 25600) (by omega) (by omega) f
  have s2 := rows_split (F := F) d L (ℓq := fullShare) (a := base L + 512 * k.val + 256) (b := base L + 512 * k.val + 384) (c := base L + 25600) (by omega) (by omega) f
  have s3 := rows_split (F := F) d L (ℓq := fullShare) (a := base L + 512 * k.val + 384) (b := base L + 512 * (k.val + 1)) (c := base L + 25600) (by omega) (by omega) f
  simp only [Fin.val_zero, Fin.val_one, Fin.val_two, show ((3 : Fin 4) : ℕ) = 3 from rfl, Nat.mul_zero, Nat.add_zero, Nat.mul_one,
    show 128 * 2 = 256 from rfl, show 128 * 3 = 384 from rfl, Nat.add_assoc, show 128 + 128 = 256 from rfl, show 256 + 128 = 384 from rfl,
    show 384 + 128 = 512 from rfl] at s0 s1 s2 s3 ⊢
  constructor
  · iintro H
    ihave H0 := s0.1 $$ H; icases H0 with ⟨H0, H⟩
    ihave H1 := s1.1 $$ H; icases H1 with ⟨H1, H⟩
    ihave H2 := s2.1 $$ H; icases H2 with ⟨H2, H⟩
    ihave H3 := s3.1 $$ H; icases H3 with ⟨H3, H⟩
    isplitl [H0]; · iexact H0
    isplitl [H1]; · iexact H1
    isplitl [H2]; · iexact H2
    isplitl [H3]; · iexact H3
    iexact H
  · iintro ⟨H0, H1, H2, H3, H⟩
    ihave H := s3.2 $$ [H3 H]
    · isplitl [H3] <;> iassumption
    ihave H := s2.2 $$ [H2 H]
    · isplitl [H2] <;> iassumption
    ihave H := s1.2 $$ [H1 H]
    · isplitl [H1] <;> iassumption
    iapply s0.2
    isplitl [H0] <;> iassumption

theorem tok_s1 (q : PosShare TreeShare) (k : ℕ) : tok q (4 * (k + 1)) = tok q (4 * k + 1) := by
  rw [show 4 * (k + 1) = 4 * k + 1 + 3 by ring, tok_add3]
theorem tok_s2 (q : PosShare TreeShare) (k : ℕ) : tok q (4 * (k + 1) + 1) = tok q (4 * k + 2) := by
  rw [show 4 * (k + 1) + 1 = 4 * k + 2 + 3 by ring, tok_add3]
theorem tok_s3 (q : PosShare TreeShare) (k : ℕ) : tok q (4 * (k + 1) + 2) = tok q (4 * k) := by
  rw [show 4 * (k + 1) + 2 = 4 * k + 3 + 3 by ring, tok_add3, tok_add3]

omit [FloatOps F] in
/-- Two adjacent ranges of rows at one contents, their meeting point spelt two ways. -/
theorem rows_glue {a b b' c c' : ℕ} (hb : b' = b) (hc : c' = c) (h1 : a ≤ b) (h2 : b ≤ c) (f : Buf (Elt F) (outLoc d)) :
    iprop(((outV).view.loc (VT d L) ↦[rowsSet a b]{fullShare} f) ∗ ((outV).view.loc (VT d L) ↦[rowsSet b' c']{fullShare} f))
      ⊢ ((outV).view.loc (VT d L) ↦[rowsSet a c]{fullShare} f : sProp 𝕄) := by
  subst hb hc; exact (rows_split (F := F) d L h1 h2 f).2

omit [FloatOps F] in
/-- A 128-row slice at contents agreeing with `G` there is a range of rows at `G`. -/
theorem chunk_G (G : Buf (Elt F) (outLoc d)) (off : Fin 2 → Nat) (hk : ∀ a, off a + S128x128.size a ≤ S819200x128.size a) (a : ℕ)
    (h0 : off 0 = a) (h1 : off 1 = 0) (Y : Buf (Elt F) (outLoc d)) (hY : ∀ i ∈ (outP off hk).view.set, Y i = G i) :
    ((outP off hk).view.loc (VT d L) ↦[(outP off hk).view.set]{fullShare} Y : sProp 𝕄)
      ⊢ ((outV).view.loc (VT d L) ↦[rowsSet a (a + 128)]{fullShare} G : sProp 𝕄) := by
  subst h0
  rw [← set_outP off hk h1]
  exact Entails.of_eq (pointsTo_congr hY)

omit [FloatOps F] in
theorem ins_ok {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- The id scratch holds the tile's ids. -/
def S0ok (ids : Buf (Elt F) (idsLoc d)) (s0c : S25600.Idx → BitVec 32) : Prop :=
  ∀ (i : S25600.Idx) (r : S819200.Idx), (r 0).val = base L + (i 0).val → s0c i = ids r

end Tile

end Cert.KernelIdeal.Hand

end
-- ==== Proof.KernelIdealHand.TileDefs2.lean ====
/-
  More vocabulary for one tile's task: a gather slot's state with its read shares named by another chunk number of
  the same residue modulo three (the shares rotate over three tokens: chunk n reads through the pair chunk n - 3 gave
  back), and two adjacent ranges of rows joined with every bound explicit.
-/
import proofs.«202745_g55851754717770_cont_9to1_m_910_12_alg».proof.Proof.KernelIdealHand.TileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- `slotFly` with the read shares named by another chunk number. -/
def slotFly' (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ) : sProp 𝕄 :=
  iprop(∃ off hk X, ⌜Vl n X⌝ ∗ GFl d L g hg b off hk (tok qS m) (tok qT m) X s0c tbl)

theorem slotFly_retok (g : ℕ) (hg : g < 20) (b : Ref sig .scVector) (Vl : ℕ → Buf (Elt F) ((Memref.whole b).view.loc (VT d L)) → Prop)
    (qS qT : PosShare TreeShare) (s0c : Buf (Elt F) ((s0M).view.loc (VT d L))) (tbl : Buf (Elt F) (tblLoc d)) (n m : ℕ)
    (hnm : ∀ q, tok q n = tok q m) :
    slotFly' d L g hg b Vl qS qT s0c tbl n m ⊢ slotFly d L g hg b Vl qS qT s0c tbl n := by
  unfold slotFly slotFly'; rw [hnm qS, hnm qT]

theorem slotIdle_retok (g : ℕ) (hg : g < 20) (b : Ref sig .scVector)
    (qS qT : PosShare TreeShare) (s0c : Buf (Elt F) ((s0M).view.loc (VT d L))) (tbl : Buf (Elt F) (tblLoc d)) (n m : ℕ)
    (hnm : ∀ q, tok q n = tok q m) :
    slotIdle d L g hg b qS qT s0c tbl m ⊢ slotIdle d L g hg b qS qT s0c tbl n := by
  unfold slotIdle; rw [hnm qS, hnm qT]

omit [FloatOps F] in
theorem rows_glue' (a b b' c c' : ℕ) (hb : b' = b) (hc : c' = c) (h1 : a ≤ b) (h2 : b ≤ c) (f : Buf (Elt F) (outLoc d)) :
    iprop(((outV).view.loc (VT d L) ↦[rowsSet a b]{fullShare} f) ∗ ((outV).view.loc (VT d L) ↦[rowsSet b' c']{fullShare} f))
      ⊢ ((outV).view.loc (VT d L) ↦[rowsSet a c]{fullShare} f : sProp 𝕄) := rows_glue (F := F) d L hb hc h1 h2 f

end Tile

end Cert.KernelIdeal.Hand

end
-- ==== Proof.KernelIdealHand.TileVals.lean ====
/-
  Three facts about values, for one tile's task of the gather.

  A whole buffer written once through its whole rectangle holds exactly the payload. After the tile's first copy, its id
  scratch holds the tile's own 25600 ids: entry `i` is id number `base + i` of the flattened id array. Hence every id a
  gather reads out of a 128-entry chunk of the scratch is one of the tile's ids, and so below the table's height when
  all the tile's ids are.
-/
import proofs.«202745_g55851754717770_cont_9to1_m_910_12_alg».proof.Proof.KernelIdealHand.TileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

/-- One write of a whole buffer through its whole rectangle leaves the payload. -/
theorem writes_whole_one (b : Ref sig .scVector) (f : Buf (Elt F) ((Memref.whole b).view.loc (VT d L)))
    (w : b.ty.shape.Idx → Elt F b.ty.elt) :
    (Memref.whole b).view.writes (Elt F) f [⟨Rect.whole b.ty.shape, w⟩] = w :=
  View.read_writes_whole (View.whole b) f w

/-- A tile's number is below 32. -/
theorem wid_lt : wid L < 32 := by
  have h0 : (L 0).val < 2 := (L 0).isLt
  have h1 : (L 1).val < 16 := (L 1).isLt
  unfold wid
  omega

/-- The first copy leaves the tile's ids in its id scratch. -/
theorem s0ok_of_copy (ids : Buf (Elt F) (idsLoc d)) (b0 : Buf (Elt F) ((s0M).view.loc (VT d L))) :
    S0ok d L ids (View.write (Elt F) (Memref.whole cc1_scratch0).view b0
      (ReadAs.same.apply (View.read (Elt F) (idsRow L).view ids)) Finset.univ) := by
  intro i r hr
  have hw : View.write (Elt F) (Memref.whole cc1_scratch0).view b0
      (ReadAs.same.apply (View.read (Elt F) (idsRow L).view ids)) Finset.univ
      = View.read (Elt F) (idsRow L).view ids := View.write_whole_univ cc1_scratch0 b0 _
  rw [hw]
  show ids ((idsRow L).view.emb i) = ids r
  refine congrArg ids (funext fun a => Fin.ext ?_)
  have ha : a = 0 := Fin.ext (by have := a.isLt; show a.val = 0; change a.val < 1 at this; omega)
  subst ha
  have e0 : k1_off1 L 0 = base L := by
    rw [k1_off1_eq]; show 51200 * (L 1).val + 25600 * (L 0).val = _; unfold base wid; omega
  show k1_off1 L 0 + 1 * (i 0).val = (r 0).val
  rw [e0, hr, Nat.one_mul]

/-- Every id a gather reads out of a chunk of the id scratch is below the table's height. -/
theorem hidx_of_s0ok (ids : Buf (Elt F) (idsLoc d)) (hin : ∀ r ∈ idsSet (wid L), (ids r : BitVec 32).toNat < 1000000)
    (s0c : Buf (Elt F) ((s0M).view.loc (VT d L))) (h0 : S0ok d L ids s0c) :
    ∀ (off : Fin 1 → Nat) (hk : ∀ a, off a + S128.size a ≤ S25600.size a)
      (hs : ∀ a, (Rect.unit (s := S25600) off S128.size hk).stride a = 1) (x : S128.Idx),
      (View.read (Elt F) ((Memref.whole cc1_scratch0).slice (Rect.unit (s := S25600) off S128.size hk) hs).view s0c x).toNat
        < 1000000 := by
  intro off hk hs x
  have hw := wid_lt L
  have hk0 : off 0 + 128 ≤ 25600 := hk 0
  have hx : (x 0).val < 128 := (x 0).isLt
  -- the scratch entry read sits at position `off 0 + x 0` of the scratch, so at `base + off 0 + x 0` of all the ids
  have hb : base L + (off 0 + (x 0).val) < 819200 := by unfold base; omega
  have hi : ((((Memref.whole cc1_scratch0).slice (Rect.unit (s := S25600) off S128.size hk) hs).view.emb x) 0).val
      = off 0 + (x 0).val := by
    show off 0 + 1 * (x 0).val = _
    rw [Nat.one_mul]
  have hr : ((ValueIdx.ix1 (⟨base L + (off 0 + (x 0).val), hb⟩ : Fin 819200) : S819200.Idx) 0).val
      = base L + ((((Memref.whole cc1_scratch0).slice (Rect.unit (s := S25600) off S128.size hk) hs).view.emb x) 0).val := by
    rw [hi]
  have hmem : (ValueIdx.ix1 (⟨base L + (off 0 + (x 0).val), hb⟩ : Fin 819200) : S819200.Idx) ∈ idsSet (wid L) := by
    unfold idsSet
    refine Finset.mem_filter.2 ⟨Finset.mem_univ _, ?_, ?_⟩
    · show wid L * 25600 ≤ base L + (off 0 + (x 0).val)
      unfold base; omega
    · show base L + (off 0 + (x 0).val) < (wid L + 1) * 25600
      unfold base; omega
  show (s0c (((Memref.whole cc1_scratch0).slice (Rect.unit (s := S25600) off S128.size hk) hs).view.emb x)).toNat < 1000000
  rw [h0 _ _ hr]
  exact hin _ hmem

end Tile

end Cert.KernelIdeal.Hand

end
-- ==== Proof.KernelIdealHand.TileVals2.lean ====
/-
  Two facts about one tile's rows, as pure statements about array contents. A chunk gathered through 128 of the tile's
  ids holds, row by row, the table's rows those ids name: the chunk's rows of the whole gathered result. And a chunk
  that holds those rows, written over 128 rows of the result, leaves the result agreeing with the gathered result there.
-/
import proofs.«202745_g55851754717770_cont_9to1_m_910_12_alg».proof.Proof.KernelIdealHand.TileDefs
import Idealize.ShloMosaic.Lib.Pipeline.Value
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type} [FloatOps F]

section TileVals2

variable (d : Dev nD) (L : grid1.Coords)

/-- A chunk copied out agrees with the gathered result on its rows. -/
theorem copy_rows (G : Buf (Elt F) (outLoc d)) (n : ℕ) (off : Fin 2 → Nat) (hoff0 : off 0 = base L + 128 * n) (hoff1 : off 1 = 0)
    (hk : ∀ a, off a + S128x128.size a ≤ S819200x128.size a) (X : S128x128.Idx → Elt F .f32) (hX : IsRows d L G n X)
    (f0 : Buf (Elt F) (outLoc d)) :
    ∀ i ∈ (outP off hk).view.set, ((outP off hk).view.writes (Elt F) f0 [⟨Rect.whole S128x128, X⟩]) i = G i := by
  intro i hi
  obtain ⟨j, rfl⟩ := View.exists_emb_of_mem_set _ hi
  rw [View.writes_singleton]
  have e : (outP off hk).view.emb j = ((outP off hk).view.slice (Rect.whole S128x128)).emb j := by
    rw [View.emb_slice]
    show _ = (outP off hk).view.emb ((Rect.whole S128x128).emb j)
    rw [Rect.emb_whole_apply]
  rw [e, View.write_emb_of_mem _ _ (Finset.mem_univ _), ← e]
  refine hX j _ ?_ ?_
  · show off 0 + 1 * (j 0).val = base L + 128 * n + (j 0).val
    omega
  · show off 1 + 1 * (j 1).val = (j 1).val
    omega

/-- The tile's number is below 32. -/
private theorem wid_lt32 : wid L < 32 := by
  have h0 : (L 0).val < 2 := (L 0).isLt
  have h1 : (L 1).val < 16 := (L 1).isLt
  unfold wid; omega

/-- A gathered chunk is the chunk's rows of the gathered result: row `j` of chunk `n` was read through the id at
    position `128 n + j` of the tile's ids, which is the id of the tile's row `base + 128 n + j`. -/
theorem gather_rows (ids : Buf (Elt F) (idsLoc d)) (tbl : Buf (Elt F) (tblLoc d)) (hin : ∀ r ∈ idsSet (wid L), (ids r : BitVec 32).toNat < 1000000)
    (s0c : Buf (Elt F) ((s0M).view.loc (VT d L))) (h0 : S0ok d L ids s0c) (n : ℕ) (hn200 : n < 200)
    (off : Fin 1 → Nat) (hoff : off 0 = 128 * n) (hk : ∀ a, off a + S128.size a ≤ S25600.size a)
    (hs : ∀ a, (Rect.unit (s := S25600) off S128.size hk).stride a = 1)
    (hg : S1000000x128.Gathers 0 S128x128) (hnum : S128.numel = S128x128.size hg.axis')
    (hin' : ∀ x, (View.read (Elt F) ((Memref.whole cc1_scratch0).slice (Rect.unit (s := S25600) off S128.size hk) hs).view s0c x).toNat < S1000000x128.size hg.axis)
    (hsl : ∀ a, (Rect.unit (s := S1000000x128) ![0, 0] S1000000x128.size inb_S1000000x128_S1000000x128_0_0).stride a = 1) :
    IsRows d L (gatherOf tbl ids) n
      (SparseCore.gatherPayload hg
        (View.read (Elt F) ((tblV).slice (Rect.unit (s := S1000000x128) ![0, 0] S1000000x128.size inb_S1000000x128_S1000000x128_0_0) hsl).view tbl)
        (SparseCore.rows (View.read (Elt F) ((Memref.whole cc1_scratch0).slice (Rect.unit (s := S25600) off S128.size hk) hs).view s0c) hnum hin')) := by
  intro j i hi0 hi1
  have hj0 : (j 0).val < 128 := (j 0).isLt
  have hw := wid_lt32 L
  have hmem : ValueIdx.ix1 (i 0) ∈ idsSet (wid L) := by
    unfold idsSet
    refine Finset.mem_filter.mpr ⟨Finset.mem_univ _, ?_⟩
    show wid L * 25600 ≤ (i 0).val ∧ (i 0).val < (wid L + 1) * 25600
    unfold base at hi0; omega
  have hlt := hin _ hmem
  have e : (if h : (ids (ValueIdx.ix1 (i 0)) : BitVec 32).toNat < 1000000 then (⟨_, h⟩ : Fin 1000000) else ⟨0, by decide⟩)
      = ⟨(ids (ValueIdx.ix1 (i 0)) : BitVec 32).toNat, hlt⟩ := dif_pos hlt
  refine Eq.trans ?_ (congrArg (fun r => tbl (ValueIdx.ix2 r (i 1))) e.symm)
  unfold SparseCore.gatherPayload
  rw [View.read_apply]
  show tbl _ = tbl _
  have hrow : ((SparseCore.rows (View.read (Elt F) ((Memref.whole cc1_scratch0).slice (Rect.unit (s := S25600) off S128.size hk) hs).view s0c) hnum hin') (j hg.axis')).val = (ids (ValueIdx.ix1 (i 0)) : BitVec 32).toNat := by
    show (View.read (Elt F) ((Memref.whole cc1_scratch0).slice (Rect.unit (s := S25600) off S128.size hk) hs).view s0c
      (S128.rowMajor.symm ((j hg.axis').cast hnum.symm))).toNat = _
    rw [View.read_apply]
    show (s0c _ : BitVec 32).toNat = _
    refine congrArg BitVec.toNat (h0 _ (ValueIdx.ix1 (i 0)) ?_)
    show (i 0).val = base L + (off 0 + 1 * ((S128.rowMajor.symm ((j hg.axis').cast hnum.symm)) 0).val)
    have hx := Shape.rowMajor_val_one (S128.rowMajor.symm ((j hg.axis').cast hnum.symm))
    rw [Equiv.apply_symm_apply] at hx
    have hc : ((j hg.axis').cast hnum.symm).val = (j 0).val := rfl
    omega
  have A0 : (((tblV).slice (Rect.unit (s := S1000000x128) ![0, 0] S1000000x128.size inb_S1000000x128_S1000000x128_0_0) hsl).view.emb (hg.idx (SparseCore.rows (View.read (Elt F) ((Memref.whole cc1_scratch0).slice (Rect.unit (s := S25600) off S128.size hk) hs).view s0c) hnum hin') j) (0 : Fin 2)).val = (ids (ValueIdx.ix1 (i 0)) : BitVec 32).toNat := by
    show 0 + 1 * (hg.idx _ j (0 : Fin 2)).val = _
    have e0 : (hg.idx (SparseCore.rows (View.read (Elt F) ((Memref.whole cc1_scratch0).slice (Rect.unit (s := S25600) off S128.size hk) hs).view s0c) hnum hin') j (0 : Fin 2)).val = ((SparseCore.rows (View.read (Elt F) ((Memref.whole cc1_scratch0).slice (Rect.unit (s := S25600) off S128.size hk) hs).view s0c) hnum hin') (j hg.axis')).val :=
      congrArg Fin.val (Shape.Gathers.idx_axis hg _ j)
    rw [e0, hrow]; omega
  have A1 : (((tblV).slice (Rect.unit (s := S1000000x128) ![0, 0] S1000000x128.size inb_S1000000x128_S1000000x128_0_0) hsl).view.emb (hg.idx (SparseCore.rows (View.read (Elt F) ((Memref.whole cc1_scratch0).slice (Rect.unit (s := S25600) off S128.size hk) hs).view s0c) hnum hin') j) (1 : Fin 2)).val = (i 1).val := by
    show 0 + 1 * (hg.idx _ j (1 : Fin 2)).val = _
    have e1 := Shape.Gathers.idx_of_ne hg (SparseCore.rows (View.read (Elt F) ((Memref.whole cc1_scratch0).slice (Rect.unit (s := S25600) off S128.size hk) hs).view s0c) hnum hin') j (1 : Fin 2) (by decide)
    rw [e1, hi1]
    show 0 + 1 * (j 1).val = (j 1).val
    omega
  refine congrArg tbl ((ValueIdx.eq_ix2 _).trans ?_)
  exact congr (congrArg ValueIdx.ix2 (Fin.ext A0)) (Fin.ext A1)

end TileVals2

end Cert.KernelIdeal.Hand

end
-- ==== Proof.KernelIdealHand.TileTripFirst.lean ====
/-
  The first trip of the tile's loop (k = 0). At its head the gathers of chunks 0, 1, 2 are in flight into the first
  three buffers, the fourth buffer and its write semaphore are idle, and no row of the result is done. The trip waits
  for each gather in turn, starts the buffer's copy-out to its 128 rows of the result, starts the gather of chunk 3
  into the idle fourth buffer and, after each later copy-out has been waited for, the gather of the chunk three ahead
  into the freed buffer, with the read shares the awaited gather gave back. At its end the invariant holds at k = 1:
  the rows of chunks 0, 1, 2 have joined the (empty) rows done, each at the table's rows its ids name, and the copy-out
  of chunk 3 is in flight.
-/
import proofs.«202745_g55851754717770_cont_9to1_m_910_12_alg».proof.Proof.KernelIdealHand.TileDefs2
import proofs.«202745_g55851754717770_cont_9to1_m_910_12_alg».proof.Proof.KernelIdealHand.TileVals
import proofs.«202745_g55851754717770_cont_9to1_m_910_12_alg».proof.Proof.KernelIdealHand.TileVals2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_first (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hk0 : k.val = 0) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  -- the first trip
  have hc1 : ¬ k1_cond1 k = 1#1 := fun h => absurd ((cond1_iff k).mp h) (by omega)
  have hc3 : k1_cond3 k = 1#1 := (cond3_iff k).mpr (by omega)
  have hc4 : k1_cond4 k = 1#1 := (cond4_iff k).mpr (by omega)
  have hc5 : k1_cond5 k = 1#1 := (cond5_iff k).mpr (by omega)
  rw [inv_fly (F := F) d L _ f0 q s0c tbl O W k.val acc hk50 _ (if_neg (by omega))]
  unfold invAt slotFly coIdle
  iintro ⟨#Hmw, ⟨%oA, %hkA, %XA, %vA, HA⟩, ⟨%oB, %hkB, %XB, %vB, HB⟩, ⟨%oC, %hkC, %XC, %vC, HC⟩, ⟨⟨%X3, Hb3⟩, Hw3⟩,
    Hg3, Hw0, Hw1, Hw2, Hdone, Htodo, ⟨%W', %hW', HO⟩⟩
  unfold GFl
  icases HA with ⟨HFA, HtA, HbA, HsA⟩
  icases HB with ⟨HFB, HtB, HbB, HsB⟩
  icases HC with ⟨HFC, HtC, HbC, HsC⟩
  ihave Hc := (carve4 (F := F) d L k f0).1 $$ Htodo
  icases Hc with ⟨Ho0, Ho1, Ho2, Ho3, Htodo⟩
  sl_unfold [k1_t1_body]
  sl_exec
  sl_step
  iapply (Entails.of_eq (inv_fly (F := F) d L _ f0 q s0c tbl O W (k.val + 1) PUnit.unit (by omega) _ (if_pos (Nat.succ_pos _))).symm)
  unfold invAt
  isplitr; · iexact Hmw
  isplitl [HFA HtB HbA HsB]
  · iapply (slotFly_retok (F := F) d L 11 _ cc1_scratch1 _ fullShare q s0c tbl (4 * (k.val + 1)) (4 * k.val + 1) (fun q' => tok_s1 q' k.val))
    unfold slotFly'
    iexists (k1_off7 k), (k1_off7_inb k hc3), _
    isplitr
    rotate_left
    · unfold GFl
      isplitl [HFA]; · iexact HFA
      isplitl [HtB]; · iexact HtB
      isplitl [HbA]; · iexact HbA
      iexact HsB
    · ipureintro
      show IsRows d L (gatherOf tbl ids) (4 * (k.val + 1)) _
      rw [writes_whole_one]
      unfold trip_first.sl.gather3
      exact gather_rows (F := F) d L ids tbl hin s0c h0 (4 * (k.val + 1)) (by omega) (k1_off7 k) (by rw [k1_off7_eq]; show 512 * k.val + 512 = _; omega) _ _ _ _ _ _
  isplitl [HFB HtC HbB HsC]
  · iapply (slotFly_retok (F := F) d L 12 _ cc1_scratch2 _ fullShare q s0c tbl (4 * (k.val + 1) + 1) (4 * k.val + 2) (fun q' => tok_s2 q' k.val))
    unfold slotFly'
    iexists (k1_off8 k), (k1_off8_inb k hc4), _
    isplitr
    rotate_left
    · unfold GFl
      isplitl [HFB]; · iexact HFB
      isplitl [HtC]; · iexact HtC
      isplitl [HbB]; · iexact HbB
      iexact HsC
    · ipureintro
      show IsRows d L (gatherOf tbl ids) (4 * (k.val + 1) + 1) _
      rw [writes_whole_one]
      unfold trip_first.sl.gather5
      exact gather_rows (F := F) d L ids tbl hin s0c h0 (4 * (k.val + 1) + 1) (by omega) (k1_off8 k) (by rw [k1_off8_eq]; show 512 * k.val + 640 = _; omega) _ _ _ _ _ _
  isplitl [HFC HtA HbC HsA]
  · iapply (slotFly_retok (F := F) d L 13 _ cc1_scratch3 _ fullShare q s0c tbl (4 * (k.val + 1) + 2) (4 * k.val) (fun q' => tok_s3 q' k.val))
    unfold slotFly'
    iexists (k1_off9 k), (k1_off9_inb k hc5), _
    isplitr
    rotate_left
    · unfold GFl
      isplitl [HFC]; · iexact HFC
      isplitl [HtA]; · iexact HtA
      isplitl [HbC]; · iexact HbC
      iexact HsA
    · ipureintro
      show IsRows d L (gatherOf tbl ids) (4 * (k.val + 1) + 2) _
      rw [writes_whole_one]
      unfold trip_first.sl.gather7
      exact gather_rows (F := F) d L ids tbl hin s0c h0 (4 * (k.val + 1) + 2) (by omega) (k1_off9 k) (by rw [k1_off9_eq]; show 512 * k.val + 768 = _; omega) _ _ _ _ _ _
  isplitl [Hw3 Hb3]
  · unfold coFly
    iexists _, (k1_off3_inb L k 3), _, _
    isplitr
    rotate_left
    · unfold CFl
      isplitl [Hw3]; · iexact Hw3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_first.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_first.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone Ho0 Ho1 Ho2]
  · ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_first.sl.dma0 d L XA)
        (show IsRows d L (gatherOf tbl ids) (4 * k.val) (trip_first.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_first.sl.dma0_1 d L XB)
        (show IsRows d L (gatherOf tbl ids) (4 * k.val + 1) (trip_first.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_first.sl.dma0_2 d L XC)
        (show IsRows d L (gatherOf tbl ids) (4 * k.val + 2) (trip_first.sl.dma0_2 d L XC) from vC) f0)) $$ Ho2
    ihave Hdone := (rows_glue' (F := F) d L (base L) (base L + 128 * (4 * k.val - 1)) (base L + 512 * k.val) (base L + 512 * k.val + 128) (base L + 512 * k.val + 128) (by omega) (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (hW')))))))

end Tile

end Cert.KernelIdeal.Hand

end
-- ==== Proof.KernelIdealHand.TileTripMid.lean ====
/-
  A middle trip of the tile's loop (0 < k < 49). At its head the gathers of chunks 4k, 4k+1, 4k+2 are in flight into
  the first three buffers and the copy-out of chunk 4k-1 from the fourth; the trip waits for each gather in turn,
  starts the buffer's copy-out to its 128 rows of the result, waits for the previous buffer's copy-out and starts the
  gather of the chunk three ahead into that buffer, with the read shares the awaited gather gave back. At its end
  the invariant holds at k+1: the rows of chunks 4k-1 … 4k+2 have joined the rows done, each at the table's rows its
  ids name.
-/
import proofs.«202745_g55851754717770_cont_9to1_m_910_12_alg».proof.Proof.KernelIdealHand.TileDefs2
import proofs.«202745_g55851754717770_cont_9to1_m_910_12_alg».proof.Proof.KernelIdealHand.TileVals
import proofs.«202745_g55851754717770_cont_9to1_m_910_12_alg».proof.Proof.KernelIdealHand.TileVals2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_mid (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hkpos : 0 < k.val) (hk49 : k.val < 49) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  -- a middle trip
  have hc1 : k1_cond1 k = 1#1 := (cond1_iff k).mpr hkpos
  have hc3 : k1_cond3 k = 1#1 := (cond3_iff k).mpr hk49
  have hc4 : k1_cond4 k = 1#1 := (cond4_iff k).mpr hk49
  have hc5 : k1_cond5 k = 1#1 := (cond5_iff k).mpr hk49
  rw [inv_fly (F := F) d L _ f0 q s0c tbl O W k.val acc hk50 _ (if_pos hkpos)]
  unfold invAt slotFly coFly
  iintro ⟨#Hmw, ⟨%oA, %hkA, %XA, %vA, HA⟩, ⟨%oB, %hkB, %XB, %vB, HB⟩, ⟨%oC, %hkC, %XC, %vC, HC⟩, ⟨%o3, %hk3, %Y3, %X3, %h3, H3⟩,
    Hg3, Hw0, Hw1, Hw2, Hdone, Htodo, ⟨%W', %hW', HO⟩⟩
  unfold GFl CFl
  icases HA with ⟨HFA, HtA, HbA, HsA⟩
  icases HB with ⟨HFB, HtB, HbB, HsB⟩
  icases HC with ⟨HFC, HtC, HbC, HsC⟩
  icases H3 with ⟨HF3, Hb3⟩
  ihave Hc := (carve4 (F := F) d L k f0).1 $$ Htodo
  icases Hc with ⟨Ho0, Ho1, Ho2, Ho3, Htodo⟩
  sl_unfold [k1_t1_body]
  sl_exec
  sl_step
  obtain ⟨rfl, hY3⟩ := h3
  iapply (Entails.of_eq (inv_fly (F := F) d L _ f0 q s0c tbl O W (k.val + 1) PUnit.unit (by omega) _ (if_pos (Nat.succ_pos _))).symm)
  unfold invAt
  isplitr; · iexact Hmw
  isplitl [HFA HtB HbA HsB]
  · iapply (slotFly_retok (F := F) d L 11 _ cc1_scratch1 _ fullShare q s0c tbl (4 * (k.val + 1)) (4 * k.val + 1) (fun q' => tok_s1 q' k.val))
    unfold slotFly'
    iexists (k1_off7 k), (k1_off7_inb k hc3), _
    isplitr
    rotate_left
    · unfold GFl
      isplitl [HFA]; · iexact HFA
      isplitl [HtB]; · iexact HtB
      isplitl [HbA]; · iexact HbA
      iexact HsB
    · ipureintro
      show IsRows d L (gatherOf tbl ids) (4 * (k.val + 1)) _
      rw [writes_whole_one]
      unfold trip_mid.sl.gather3
      exact gather_rows (F := F) d L ids tbl hin s0c h0 (4 * (k.val + 1)) (by omega) (k1_off7 k) (by rw [k1_off7_eq]; show 512 * k.val + 512 = _; omega) _ _ _ _ _ _
  isplitl [HFB HtC HbB HsC]
  · iapply (slotFly_retok (F := F) d L 12 _ cc1_scratch2 _ fullShare q s0c tbl (4 * (k.val + 1) + 1) (4 * k.val + 2) (fun q' => tok_s2 q' k.val))
    unfold slotFly'
    iexists (k1_off8 k), (k1_off8_inb k hc4), _
    isplitr
    rotate_left
    · unfold GFl
      isplitl [HFB]; · iexact HFB
      isplitl [HtC]; · iexact HtC
      isplitl [HbB]; · iexact HbB
      iexact HsC
    · ipureintro
      show IsRows d L (gatherOf tbl ids) (4 * (k.val + 1) + 1) _
      rw [writes_whole_one]
      unfold trip_mid.sl.gather5
      exact gather_rows (F := F) d L ids tbl hin s0c h0 (4 * (k.val + 1) + 1) (by omega) (k1_off8 k) (by rw [k1_off8_eq]; show 512 * k.val + 640 = _; omega) _ _ _ _ _ _
  isplitl [HFC HtA HbC HsA]
  · iapply (slotFly_retok (F := F) d L 13 _ cc1_scratch3 _ fullShare q s0c tbl (4 * (k.val + 1) + 2) (4 * k.val) (fun q' => tok_s3 q' k.val))
    unfold slotFly'
    iexists (k1_off9 k), (k1_off9_inb k hc5), _
    isplitr
    rotate_left
    · unfold GFl
      isplitl [HFC]; · iexact HFC
      isplitl [HtA]; · iexact HtA
      isplitl [HbC]; · iexact HbC
      iexact HsA
    · ipureintro
      show IsRows d L (gatherOf tbl ids) (4 * (k.val + 1) + 2) _
      rw [writes_whole_one]
      unfold trip_mid.sl.gather7
      exact gather_rows (F := F) d L ids tbl hin s0c h0 (4 * (k.val + 1) + 2) (by omega) (k1_off9 k) (by rw [k1_off9_eq]; show 512 * k.val + 768 = _; omega) _ _ _ _ _ _
  isplitl [HF3 Hb3]
  · unfold coFly
    iexists _, (k1_off3_inb L k 3), _, _
    isplitr
    rotate_left
    · unfold CFl
      isplitl [HF3]; · iexact HF3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_mid.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_mid.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone HF3_dst Ho0 Ho1 Ho2]
  · ihave Hd1 := (chunk_G (F := F) d L (gatherOf tbl ids) _ hk3 (base L + 128 * (4 * k.val - 1)) rfl rfl Y3 hY3) $$ HF3_dst
    ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_mid.sl.dma0 d L XA)
        (show IsRows d L (gatherOf tbl ids) (4 * k.val) (trip_mid.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_mid.sl.dma0_1 d L XB)
        (show IsRows d L (gatherOf tbl ids) (4 * k.val + 1) (trip_mid.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_mid.sl.dma0_2 d L XC)
        (show IsRows d L (gatherOf tbl ids) (4 * k.val + 2) (trip_mid.sl.dma0_2 d L XC) from vC) f0)) $$ Ho2
    ihave Hdone := (rows_glue' (F := F) d L (base L) (base L + 128 * (4 * k.val - 1)) (base L + 128 * (4 * k.val - 1)) (base L + 512 * k.val) (base L + 128 * (4 * k.val - 1) + 128) rfl (by omega) (by omega) (by omega) (gatherOf tbl ids)) $$ [Hdone Hd1]
    · isplitl [Hdone] <;> iassumption
    ihave Hdone := (rows_glue' (F := F) d L (base L) (base L + 512 * k.val) (base L + 512 * k.val) (base L + 512 * k.val + 128) (base L + 512 * k.val + 128) rfl (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (ins_ok (hW'))))))))

end Tile

end Cert.KernelIdeal.Hand

end
-- ==== Proof.KernelIdealHand.TileTripLast.lean ====
/-
  The last trip of the tile's loop (k = 49). At its head the gathers of chunks 4k, 4k+1, 4k+2 are in flight into the
  first three buffers and the copy-out of chunk 4k-1 from the fourth, as at any later trip; the trip waits for each
  gather in turn and starts the buffer's copy-out to its 128 rows of the result, but starts no new gather: there is no
  chunk three ahead. At its end the invariant holds at k+1 = 50 with the three gather slots idle — each buffer whole,
  its cell at zero, and the two read shares the awaited gather gave back — the copy-out of chunk 4k+3 in flight, and the
  rows of chunks 4k-1 … 4k+2 joined to the rows done, each at the table's rows its ids name.
-/
import proofs.«202745_g55851754717770_cont_9to1_m_910_12_alg».proof.Proof.KernelIdealHand.TileDefs2
import proofs.«202745_g55851754717770_cont_9to1_m_910_12_alg».proof.Proof.KernelIdealHand.TileVals
import proofs.«202745_g55851754717770_cont_9to1_m_910_12_alg».proof.Proof.KernelIdealHand.TileVals2

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

set_option maxHeartbeats 1600000 in
theorem trip_last (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (hkpos : 0 < k.val) (hk49 : 49 ≤ k.val) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  have hidx := hidx_of_s0ok (F := F) d L ids hin s0c h0
  have hk50 : k.val < 50 := trips_eq ▸ k.isLt
  have hc2 : k1_cond2 k = 1#1 := cond2_all k
  have hc1 : k1_cond1 k = 1#1 := (cond1_iff k).mpr hkpos
  have hc3 : ¬ k1_cond3 k = 1#1 := fun h => by have := (cond3_iff k).mp h; omega
  have hc4 : ¬ k1_cond4 k = 1#1 := fun h => by have := (cond4_iff k).mp h; omega
  have hc5 : ¬ k1_cond5 k = 1#1 := fun h => by have := (cond5_iff k).mp h; omega
  rw [inv_fly (F := F) d L _ f0 q s0c tbl O W k.val acc hk50 _ (if_pos hkpos)]
  unfold invAt slotFly coFly
  iintro ⟨#Hmw, ⟨%oA, %hkA, %XA, %vA, HA⟩, ⟨%oB, %hkB, %XB, %vB, HB⟩, ⟨%oC, %hkC, %XC, %vC, HC⟩, ⟨%o3, %hk3, %Y3, %X3, %h3, H3⟩,
    Hg3, Hw0, Hw1, Hw2, Hdone, Htodo, ⟨%W', %hW', HO⟩⟩
  unfold GFl CFl
  icases HA with ⟨HFA, HtA, HbA, HsA⟩
  icases HB with ⟨HFB, HtB, HbB, HsB⟩
  icases HC with ⟨HFC, HtC, HbC, HsC⟩
  icases H3 with ⟨HF3, Hb3⟩
  ihave Hc := (carve4 (F := F) d L k f0).1 $$ Htodo
  icases Hc with ⟨Ho0, Ho1, Ho2, Ho3, Htodo⟩
  sl_unfold [k1_t1_body]
  sl_exec
  sl_step
  obtain ⟨rfl, hY3⟩ := h3
  iapply (Entails.of_eq (inv_idle (F := F) d L _ f0 q s0c tbl O W (k.val + 1) PUnit.unit (by omega) (Nat.succ_pos _)).symm)
  unfold invAt
  isplitr; · iexact Hmw
  isplitl [HFA HtB HbA HsB]
  · iapply (slotIdle_retok (F := F) d L 11 _ cc1_scratch1 fullShare q s0c tbl (4 * (k.val + 1)) (4 * k.val + 1) (fun q' => tok_s1 q' k.val))
    unfold slotIdle
    isplitl [HbA]; · iexists _; iexact HbA
    isplitl [HFA]; · iexact HFA
    isplitl [HsB]; · iexact HsB
    iexact HtB
  isplitl [HFB HtC HbB HsC]
  · iapply (slotIdle_retok (F := F) d L 12 _ cc1_scratch2 fullShare q s0c tbl (4 * (k.val + 1) + 1) (4 * k.val + 2) (fun q' => tok_s2 q' k.val))
    unfold slotIdle
    isplitl [HbB]; · iexists _; iexact HbB
    isplitl [HFB]; · iexact HFB
    isplitl [HsC]; · iexact HsC
    iexact HtC
  isplitl [HFC HtA HbC HsA]
  · iapply (slotIdle_retok (F := F) d L 13 _ cc1_scratch3 fullShare q s0c tbl (4 * (k.val + 1) + 2) (4 * k.val) (fun q' => tok_s3 q' k.val))
    unfold slotIdle
    isplitl [HbC]; · iexists _; iexact HbC
    isplitl [HFC]; · iexact HFC
    isplitl [HsA]; · iexact HsA
    iexact HtA
  isplitl [HF3 Hb3]
  · unfold coFly
    iexists _, (k1_off3_inb L k 3), _, _
    isplitr
    rotate_left
    · unfold CFl
      isplitl [HF3]; · iexact HF3
      iexact Hb3
    · ipureintro
      have e3 : 51200 * (L 1).val + 25600 * (L 0).val + 512 * k.val + 128 * ((3 : Fin 4) : ℕ) = base L + 128 * (4 * (k.val + 1) - 1) := by
        show 51200 * (L 1).val + 25600 * (L 0).val + 512 * k.val + 128 * 3 = _
        unfold base wid; omega
      refine ⟨by rw [k1_off3_eq, e3], ?_⟩
      refine copy_rows (F := F) d L (gatherOf tbl ids) (4 * (k.val + 1) - 1) _ (by rw [k1_off3_eq]; exact e3) (by rw [k1_off3_eq]; rfl) _ _ ?_ f0
      unfold trip_last.sl.dma0_3
      show IsRows d L (gatherOf tbl ids) (4 * (k.val + 1) - 1) ((Memref.whole cc1_scratch4).view.writes (Elt F) X3 [⟨Rect.whole cc1_scratch4.ty.shape, _⟩])
      rw [writes_whole_one]
      unfold trip_last.sl.gather1
      exact gather_rows (F := F) d L ids tbl hin s0c h0 (4 * (k.val + 1) - 1) (by omega) (k1_off5 k) (by rw [k1_off5_eq]; show 512 * k.val + 384 = _; omega) _ _ _ _ _ _
  isplitl [Hg3]; · iexact Hg3
  isplitl [Hw0]; · iexact Hw0
  isplitl [Hw1]; · iexact Hw1
  isplitl [Hw2]; · iexact Hw2
  isplitl [Hdone HF3_dst Ho0 Ho1 Ho2]
  · ihave Hd1 := (chunk_G (F := F) d L (gatherOf tbl ids) _ hk3 (base L + 128 * (4 * k.val - 1)) rfl rfl Y3 hY3) $$ HF3_dst
    ihave Hd2 := (chunk_G (F := F) d L (gatherOf tbl ids) _ (k1_off3_inb L k 0) (base L + 512 * k.val) (by rw [k1_off3_eq]; show 51200 * (L 1).val + 25600 * (L 0).val + 512 * k.val + 128 * 0 = _; unfold base wid; omega) (by rw [k1_off3_eq]; rfl) _
      (copy_rows (F := F) d L (gatherOf tbl ids) (4 * k.val) _ (by rw [k1_off3_eq]; show 51200 * (L 1).val + 25600 * (L 0).val + 512 * k.val + 128 * 0 = _; unfold base wid; omega) (by rw [k1_off3_eq]; rfl) _ (trip_last.sl.dma0 d L XA)
        (show IsRows d L (gatherOf tbl ids) (4 * k.val) (trip_last.sl.dma0 d L XA) from vA) f0)) $$ Ho0
    ihave Hd3 := (chunk_G (F := F) d L (gatherOf tbl ids) _ (k1_off3_inb L k 1) (base L + 512 * k.val + 128) (by rw [k1_off3_eq]; show 51200 * (L 1).val + 25600 * (L 0).val + 512 * k.val + 128 * 1 = _; unfold base wid; omega) (by rw [k1_off3_eq]; rfl) _
      (copy_rows (F := F) d L (gatherOf tbl ids) (4 * k.val + 1) _ (by rw [k1_off3_eq]; show 51200 * (L 1).val + 25600 * (L 0).val + 512 * k.val + 128 * 1 = _; unfold base wid; omega) (by rw [k1_off3_eq]; rfl) _ (trip_last.sl.dma0_1 d L XB)
        (show IsRows d L (gatherOf tbl ids) (4 * k.val + 1) (trip_last.sl.dma0_1 d L XB) from vB) f0)) $$ Ho1
    ihave Hd4 := (chunk_G (F := F) d L (gatherOf tbl ids) _ (k1_off3_inb L k 2) (base L + 512 * k.val + 256) (by rw [k1_off3_eq]; show 51200 * (L 1).val + 25600 * (L 0).val + 512 * k.val + 128 * 2 = _; unfold base wid; omega) (by rw [k1_off3_eq]; rfl) _
      (copy_rows (F := F) d L (gatherOf tbl ids) (4 * k.val + 2) _ (by rw [k1_off3_eq]; show 51200 * (L 1).val + 25600 * (L 0).val + 512 * k.val + 128 * 2 = _; unfold base wid; omega) (by rw [k1_off3_eq]; rfl) _ (trip_last.sl.dma0_2 d L XC)
        (show IsRows d L (gatherOf tbl ids) (4 * k.val + 2) (trip_last.sl.dma0_2 d L XC) from vC) f0)) $$ Ho2
    ihave Hdone := (rows_glue' (F := F) d L (base L) (base L + 128 * (4 * k.val - 1)) (base L + 128 * (4 * k.val - 1)) (base L + 512 * k.val) (base L + 128 * (4 * k.val - 1) + 128) rfl (by omega) (by omega) (by omega) (gatherOf tbl ids)) $$ [Hdone Hd1]
    · isplitl [Hdone] <;> iassumption
    ihave Hdone := (rows_glue' (F := F) d L (base L) (base L + 512 * k.val) (base L + 512 * k.val) (base L + 512 * k.val + 128) (base L + 512 * k.val + 128) rfl (by omega) (by omega) (by omega) (gatherOf tbl ids)) $$ [Hdone Hd2]
    · isplitl [Hdone] <;> iassumption
    ihave Hdone := (rows_glue' (F := F) d L (base L) (base L + 512 * k.val + 128) (base L + 512 * k.val + 128) (base L + 512 * k.val + 256) (base L + 512 * k.val + 128 + 128) rfl (by omega) (by omega) (by omega) (gatherOf tbl ids)) $$ [Hdone Hd3]
    · isplitl [Hdone] <;> iassumption
    ihave Hdone := (rows_glue' (F := F) d L (base L) (base L + 512 * k.val + 256) (base L + 512 * k.val + 256) (base L + 128 * (4 * (k.val + 1) - 1)) (base L + 512 * k.val + 256 + 128) rfl (by omega) (by omega) (by omega) (gatherOf tbl ids)) $$ [Hdone Hd4]
    · isplitl [Hdone] <;> iassumption
    iexact Hdone
  isplitl [Htodo]; · iexact Htodo
  iexists _; isplitr
  rotate_left
  · iexact HO
  · ipureintro; exact ins_ok (ins_ok (ins_ok (ins_ok (ins_ok (ins_ok (ins_ok (ins_ok (hW'))))))))

end Tile

end Cert.KernelIdeal.Hand

end
-- ==== Proof.KernelIdealHand.TileBody.lean ====
/-
  One tile's task of the gather, whole. The tile copies its 25600 ids into its id scratch and waits; reads the
  table and the id scratch through three rotating pairs of read shares, so that three gathers of table rows are in
  flight at once; starts the gathers of chunks 0, 1, 2; runs the fifty trips of its loop at the invariant of
  TileDefs.lean (first, middle and last trip proved apart); waits for the last copy-out; and hands back its ids, its
  share of the table, its scoped buffers and semaphores, and its 25600 rows of the result at the table's rows its ids
  name — the rows of the chunks joined range by range, the read shares joined back.
-/
import proofs.«202745_g55851754717770_cont_9to1_m_910_12_alg».proof.Proof.KernelIdealHand.TileTripFirst
import proofs.«202745_g55851754717770_cont_9to1_m_910_12_alg».proof.Proof.KernelIdealHand.TileTripMid
import proofs.«202745_g55851754717770_cont_9to1_m_910_12_alg».proof.Proof.KernelIdealHand.TileTripLast

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid1.Coords)

theorem trip_region (ids : Buf (Elt F) (idsLoc d)) (hin : ∀ r ∈ idsSet (wid L), (ids r : BitVec 32).toNat < 1000000)
    (f0 : Buf (Elt F) (outLoc d)) (q : PosShare TreeShare) (s0c : Buf (Elt F) ((s0M).view.loc (VT d L))) (h0 : S0ok d L ids s0c)
    (tbl : Buf (Elt F) (tblLoc d))
    (O : CellTallies nD τ sig (HIx 1)) (W : Waits sig (HIx 1)) (v3 : BitVec 32)
    (k : Fin k1_t1_loop.trips) (acc : PUnit) :
    inv d L (gatherOf tbl ids) f0 q s0c tbl O W k.val acc
      ⊢ wp frame (wpE (defs₀ (F := F)) 𝒱₀ (V d (cV L) (jV L)) none) Set.univ
          (k1_t1_body L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0 v3 k acc)
          (inv d L (gatherOf tbl ids) f0 q s0c tbl O W (k.val + 1)) := by
  rcases Nat.eq_zero_or_pos k.val with hk0 | hkpos
  · exact trip_first (F := F) d L ids hin f0 q s0c h0 tbl O W v3 k hk0 acc
  rcases Nat.lt_or_ge k.val 49 with hk49 | hk49
  · exact trip_mid (F := F) d L ids hin f0 q s0c h0 tbl O W v3 k hkpos hk49 acc
  · exact trip_last (F := F) d L ids hin f0 q s0c h0 tbl O W v3 k hkpos hk49 acc

theorem inv_at_trips (G f0 : Buf (Elt F) (outLoc d)) (q : PosShare TreeShare) (s0c : Buf (Elt F) ((s0M).view.loc (VT d L))) (tbl : Buf (Elt F) (tblLoc d))
    (O : CellTallies nD τ sig (HIx 1)) (W : Waits sig (HIx 1)) (acc : PUnit) :
    inv d L G f0 q s0c tbl O W (Scf.trips k1_t1_loop.lb k1_t1_loop.ub k1_t1_loop.st) acc
      ⊢ invAt d L G f0 O W
          (slotIdle d L 11 (by decide) cc1_scratch1 fullShare q s0c tbl (4 * 50))
          (slotIdle d L 12 (by decide) cc1_scratch2 fullShare q s0c tbl (4 * 50 + 1))
          (slotIdle d L 13 (by decide) cc1_scratch3 fullShare q s0c tbl (4 * 50 + 2))
          (coFly d L G (4 * 50 - 1)) (base L + 128 * (4 * 50 - 1)) (base L + 512 * 50) := by
  have htr : Scf.trips k1_t1_loop.lb k1_t1_loop.ub k1_t1_loop.st = 50 := trips_eq
  rw [htr, inv_idle (F := F) d L G f0 q s0c tbl O W 50 acc (by decide) (by decide)]

omit [FloatOps F] in
/-- The three read shares, as the last trip leaves them, and what was kept aside are the share again. -/
theorem toks_join_end (ℓ : Loc nD τ sig) (q : PosShare TreeShare) (f : Buf (Elt F) ℓ) :
    iprop((ℓ ↦{Transfers.shareDrop q 3} f) ∗ (ℓ ↦{tok q (4 * 50)} f) ∗ (ℓ ↦{tok q (4 * 50 + 1)} f) ∗ (ℓ ↦{tok q (4 * 50 + 2)} f))
      ⊢ (ℓ ↦{q} f : sProp 𝕄) := by
  have e0 : tok q (4 * 50) = tok q 2 := rfl
  have e1 : tok q (4 * 50 + 1) = tok q 0 := rfl
  have e2 : tok q (4 * 50 + 2) = tok q 1 := rfl
  rw [e0, e1, e2]
  iintro ⟨Hr, H2, H0, H1⟩
  iapply (toks3 (F := F) ℓ q f).2
  isplitl [Hr]; · iexact Hr
  isplitl [H0]; · iexact H0
  isplitl [H1]; · iexact H1
  iexact H2

omit [FloatOps F] in
theorem done_empty (G : Buf (Elt F) (outLoc d)) :
    (emp : sProp 𝕄) ⊢ ((outV).view.loc (VT d L) ↦[rowsSet (base L) (base L + 128 * (4 * 0 - 1))]{fullShare} G : sProp 𝕄) := by
  rw [show base L + 128 * (4 * 0 - 1) = base L from by omega, rowsSet_empty, pointsTo_empty]

set_option maxHeartbeats 2000000 in
theorem tile_task (hF : (K (F := F)).Facts)
    (ids : Buf (Elt F) (idsLoc d)) (tbl : Buf (Elt F) (tblLoc d)) (f0 : Buf (Elt F) (outLoc d)) (q : PosShare TreeShare)
    (hin : ∀ r ∈ idsSet (wid L), (ids r : BitVec 32).toNat < 1000000)
    (O : CellTallies nD τ sig (HIx 1)) (W : Waits sig (HIx 1)) (hO : ∀ g, O g none = 0) :
    iprop(levAts (K (F := F)).L (K (F := F)).lev ∗ tileRes d (wid L) q ids tbl f0
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc1__sc_gather L idsV (Memref.isWhole_whole _) tblV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _)
            cc1_scratch5 cc1_scratch6 cc1_scratch7 cc1_scratch8 cc1_scratch9 cc1_scratch10 cc1_scratch11 cc1_scratch12 cc1_scoped0)
          (fun _ => iprop(tileRes d (wid L) q ids tbl (gatherOf tbl ids)
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄) := by
  unfold tileRes
  rw [(K (F := F)).scopedBufs_V hF d (cV L) (jV L), SparseCore.Cfg.scopedSems0_V (Val := Elt F) d (cV L) (jV L), ownSems0_V, ownBufs_V]
  iintro ⟨#Hlv, ⟨Hids, Htbl, Hout⟩, ⟨⟨%b0, Hb0⟩, ⟨%b1, Hb1⟩, ⟨%b2, Hb2⟩, ⟨%b3, Hb3⟩, ⟨%b4, Hb4⟩, Hbufs⟩,
    ⟨Hs5, Hs6, Hs7, Hs8, Hs9, Hs10, Hs11, Hs12, Hsc, Hsems⟩, HO⟩
  ihave Hmw := ((K (F := F)).mayWaits_none (thr := VT d L) hO) $$ Hlv
  ihave Hids' := (Entails.of_eq (pts_idsRow (F := F) d L _).symm) $$ Hids
  ihave Htbl' := (Entails.of_eq (pts_tbl (F := F) d L _ _).symm) $$ Htbl
  ihave Hb0' := (Entails.of_eq (pts_s (F := F) d L cc1_scratch0 _).symm) $$ Hb0
  ihave Hb1' := (Entails.of_eq (pts_s (F := F) d L cc1_scratch1 _).symm) $$ Hb1
  ihave Hb2' := (Entails.of_eq (pts_s (F := F) d L cc1_scratch2 _).symm) $$ Hb2
  ihave Hb3' := (Entails.of_eq (pts_s (F := F) d L cc1_scratch3 _).symm) $$ Hb3
  ihave Hb4' := (Entails.of_eq (pts_s (F := F) d L cc1_scratch4 _).symm) $$ Hb4
  ihave Hout' := (Entails.of_eq ((congrArg (fun S => (outLoc d ↦[S]{fullShare} f0 : sProp 𝕄)) (outSet_eq L)).trans (pts_out (F := F) d L _ _ _).symm)) $$ Hout
  sl_unfold [cc1__sc_gather]
  sl_exec
  have h0 : S0ok d L ids (View.write (Elt F) (Memref.whole cc1_scratch0).view b0 (tile_task.sl.dma0 d L ids) Finset.univ) :=
    s0ok_of_copy (F := F) d L ids b0
  have hidx := hidx_of_s0ok (F := F) d L ids hin _ h0
  ihave Ht3 := (toks3 (F := F) _ _ _).1 $$ Htbl'
  icases Ht3 with ⟨Htr, Ht0, Ht1, Ht2⟩
  ihave Hs3 := (toks3 (F := F) _ _ _).1 $$ Hb0'
  icases Hs3 with ⟨Hsr, Hs0, Hs1, Hs2⟩
  ihave Htr' := (Entails.of_eq (hide_eq (F := F) _).symm) $$ Htr
  ihave Hsr' := (Entails.of_eq (hide_eq (F := F) _).symm) $$ Hsr
  sl_exec
  sl_for (inv d L (gatherOf tbl ids) f0 q (View.write (Elt F) (Memref.whole cc1_scratch0).view b0 (tile_task.sl.dma0 d L ids) Finset.univ) tbl O
      (insert (SemLoc.dma cc1_scoped0.sem, (default : HIx 1)) W))
    $$ [Hmw Hs5 Ht0 Hb1' Hs0 Hs6 Ht1 Hb2' Hs1 Hs7 Ht2 Hb3' Hs2 Hb4' Hs8 Hs9 Hs10 Hs11 Hs12 Hout' HO]
  case region =>
    intro k acc
    exact trip_region (F := F) d L ids hin f0 q _ h0 tbl O _ (tile_task.sl.v2 L) k acc
  · -- the invariant at the first trip
    iapply (Entails.of_eq (inv_fly (F := F) d L _ f0 q _ tbl O _ 0 PUnit.unit (by decide) _ (if_neg (lt_irrefl 0))).symm)
    unfold invAt
    isplitr; · iexact Hmw
    isplitl [Hs5 Ht0 Hb1' Hs0]
    · unfold slotFly
      iexists ![0], inb_S25600_S128_0, _
      isplitr
      rotate_left
      · unfold GFl
        isplitl [Hs5]; · iexact Hs5
        isplitl [Ht0]; · iexact Ht0
        isplitl [Hb1']; · iexact Hb1'
        iexact Hs0
      · ipureintro
        show IsRows d L (gatherOf tbl ids) (4 * 0) _
        rw [writes_whole_one]
        unfold tile_task.sl.gather0
        exact gather_rows (F := F) d L ids tbl hin _ h0 (4 * 0) (by omega) ![0] rfl _ _ _ _ _ _
    isplitl [Hs6 Ht1 Hb2' Hs1]
    · unfold slotFly
      iexists ![128], inb_S25600_S128_128, _
      isplitr
      rotate_left
      · unfold GFl
        isplitl [Hs6]; · iexact Hs6
        isplitl [Ht1]; · iexact Ht1
        isplitl [Hb2']; · iexact Hb2'
        iexact Hs1
      · ipureintro
        show IsRows d L (gatherOf tbl ids) (4 * 0 + 1) _
        rw [writes_whole_one]
        unfold tile_task.sl.gather1
        exact gather_rows (F := F) d L ids tbl hin _ h0 (4 * 0 + 1) (by omega) ![128] rfl _ _ _ _ _ _
    isplitl [Hs7 Ht2 Hb3' Hs2]
    · unfold slotFly
      iexists ![256], inb_S25600_S128_256, _
      isplitr
      rotate_left
      · unfold GFl
        isplitl [Hs7]; · iexact Hs7
        isplitl [Ht2]; · iexact Ht2
        isplitl [Hb3']; · iexact Hb3'
        iexact Hs2
      · ipureintro
        show IsRows d L (gatherOf tbl ids) (4 * 0 + 2) _
        rw [writes_whole_one]
        unfold tile_task.sl.gather2
        exact gather_rows (F := F) d L ids tbl hin _ h0 (4 * 0 + 2) (by omega) ![256] rfl _ _ _ _ _ _
    isplitl [Hb4' Hs12]
    · unfold coIdle
      isplitl [Hb4']; · iexists _; iexact Hb4'
      iexact Hs12
    isplitl [Hs8]; · iexact Hs8
    isplitl [Hs9]; · iexact Hs9
    isplitl [Hs10]; · iexact Hs10
    isplitl [Hs11]; · iexact Hs11
    isplitr; · iapply (done_empty (F := F) d L _); iempintro
    isplitl [Hout']; · iexact Hout'
    iexists _; isplitr
    rotate_left
    · iexact HO
    · ipureintro; exact fun p hp => .inl hp
  -- after the loop
  iintro %_ HI
  ihave HI' := (inv_at_trips (F := F) d L _ f0 q _ tbl O _ _) $$ HI
  unfold invAt slotIdle coFly
  icases HI' with ⟨-, ⟨⟨%XA, HbA⟩, Hc11, HsA, HtA⟩, ⟨⟨%XB, HbB⟩, Hc12, HsB, HtB⟩, ⟨⟨%XC, HbC⟩, Hc13, HsC, HtC⟩,
    ⟨%o3, %hk3, %Y3, %X3, %h3, H3⟩, Hg3, Hw0, Hw1, Hw2, Hdone, Htodo, ⟨%W', %hW', HO⟩⟩
  unfold CFl
  icases H3 with ⟨HF3, Hb3⟩
  sl_exec
  sl_step
  obtain ⟨rfl, hY3⟩ := h3
  isplitl [Hids' Htr' HtA HtB HtC Hdone HF3_dst]
  · isplitl [Hids']; · iapply (Entails.of_eq (pts_idsRow (F := F) d L _)); iexact Hids'
    isplitl [Htr' HtA HtB HtC]
    · iapply (Entails.of_eq (pts_tbl (F := F) d L _ _))
      iapply (toks_join_end (F := F) _ q tbl)
      isplitl [Htr']; · iapply (Entails.of_eq (hide_eq (F := F) _)); iexact Htr'
      isplitl [HtA]; · iexact HtA
      isplitl [HtB]; · iexact HtB
      iexact HtC
    · ihave Hd1 := (chunk_G (F := F) d L (gatherOf tbl ids) _ hk3 (base L + 128 * (4 * 50 - 1)) rfl rfl Y3 hY3) $$ HF3_dst
      ihave Hdone := (rows_glue' (F := F) d L (base L) (base L + 128 * (4 * 50 - 1)) (base L + 128 * (4 * 50 - 1)) (base L + 25600)
        (base L + 128 * (4 * 50 - 1) + 128) rfl (by omega) (by omega) (by omega) (gatherOf tbl ids)) $$ [Hdone Hd1]
      · isplitl [Hdone] <;> iassumption
      iapply (Entails.of_eq ((pts_out (F := F) d L _ _ _).trans (congrArg (fun S => (outLoc d ↦[S]{fullShare} (gatherOf tbl ids) : sProp 𝕄)) (outSet_eq L).symm)))
      iexact Hdone
  isplitl [Hsr' HsA HsB HsC HbA HbB HbC Hb3 Hbufs]
  · isplitl [Hsr' HsA HsB HsC]
    · iexists _
      iapply (Entails.of_eq (pts_s (F := F) d L cc1_scratch0 _))
      iapply (toks_join_end (F := F) _ fullShare _)
      isplitl [Hsr']; · iapply (Entails.of_eq (hide_eq (F := F) _)); iexact Hsr'
      isplitl [HsA]; · iexact HsA
      isplitl [HsB]; · iexact HsB
      iexact HsC
    isplitl [HbA]; · iexists _; iapply (Entails.of_eq (pts_s (F := F) d L cc1_scratch1 _)); iexact HbA
    isplitl [HbB]; · iexists _; iapply (Entails.of_eq (pts_s (F := F) d L cc1_scratch2 _)); iexact HbB
    isplitl [HbC]; · iexists _; iapply (Entails.of_eq (pts_s (F := F) d L cc1_scratch3 _)); iexact HbC
    isplitl [Hb3]; · iexists _; iapply (Entails.of_eq (pts_s (F := F) d L cc1_scratch4 _)); iexact Hb3
    iexact Hbufs
  isplitl [Hc11 Hc12 Hc13 Hg3 Hw0 Hw1 Hw2 HF3 Hsc Hsems]
  · isplitl [Hc11]; · iexact Hc11
    isplitl [Hc12]; · iexact Hc12
    isplitl [Hc13]; · iexact Hc13
    isplitl [Hg3]; · iexact Hg3
    isplitl [Hw0]; · iexact Hw0
    isplitl [Hw1]; · iexact Hw1
    isplitl [Hw2]; · iexact Hw2
    isplitl [HF3]; · iexact HF3
    isplitl [Hsc]; · iexact Hsc
    iexact Hsems
  iexists _; isplitr
  rotate_left
  · iexact HO
  · ipureintro
    intro p hp
    rcases Finset.mem_insert.mp hp with rfl | hp
    · exact .inr rfl
    rcases hW' p hp with h | h
    · rcases Finset.mem_insert.mp h with rfl | h
      · exact .inr rfl
      · exact .inl h
    · exact .inr h

end Tile

/-- One tile's task, as the launch asks for it. -/
theorem tile_body : TileBodyStmt (F := F) :=
  fun hF d L ids tbl f0 q hin O W hO => tile_task (F := F) d L hF ids tbl f0 q hin O W hO

end Cert.KernelIdeal.Hand

end
-- ==== Proof.TableValue.lean ====
/-
  The table at the exact extended reals, entry by entry: the entry in row `r`, column `j` is the sum over `k` of the
  products of row `r` of the first operand with column `j` of the fourth when `r < 20000`; of row `r - 20000` of the
  second with column `j` of the fifth when `20000 ≤ r < 100000`; and of row `r - 100000` of the third with column `j`
  of the sixth otherwise. A matrix product into a zero accumulator is that sum, and a block of rows read at a row is
  the array read at the block's first row plus that row.
-/
import proofs.«202745_g55851754717770_cont_9to1_m_910_12_alg».proof.Proof.KernelIdealHand.TableStmt
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.TableValue

open Cert.KernelIdeal Cert.KernelIdeal.Gen Cert.KernelIdeal.Hand
open Idealize.ShloMosaic Idealize.ShloMosaic.ValueIdx

/-! ## The conditions and the index maps, over the grid -/

/-- The first condition holds at point 0 only, the second at points 1 to 4. -/
theorem cond_closed : ∀ t : Fin grid0.N, (k0_cond1 (grid0.coords t) = 1#1 ↔ t.val < 1)
    ∧ (k0_cond2 (grid0.coords t) = 1#1 ↔ 1 ≤ t.val ∧ t.val < 5) := by decide +kernel

/-- Where each operand's window stands at a point of each case. -/
theorem idx_case1 : ∀ t : Fin grid0.N, t.val < 1 → win0_0.index t (0 : Fin 2) = 0 ∧ win0_0.index t (1 : Fin 2) = 0
    ∧ win0_3.index t (0 : Fin 2) = 0 ∧ win0_3.index t (1 : Fin 2) = 0 := by decide +kernel
theorem idx_case2 : ∀ t : Fin grid0.N, 1 ≤ t.val → t.val < 5 → win0_1.index t (0 : Fin 2) = t.val - 1 ∧ win0_1.index t (1 : Fin 2) = 0
    ∧ win0_4.index t (0 : Fin 2) = 0 ∧ win0_4.index t (1 : Fin 2) = 0 := by decide +kernel
theorem idx_case3 : ∀ t : Fin grid0.N, 5 ≤ t.val → win0_2.index t (0 : Fin 2) = t.val - 5 ∧ win0_2.index t (1 : Fin 2) = 0
    ∧ win0_5.index t (0 : Fin 2) = 0 ∧ win0_5.index t (1 : Fin 2) = 0 := by decide +kernel

/-! ## A product into a zero accumulator, at an entry -/

theorem pay1_apply (x : Vec Ideal S20000x128 .bf16) (y : Vec Ideal S128x128 .bf16) (p : Fin 20000) (q : Fin 128) :
    k0_pay1 (F := Ideal) x y (ix2 p q) = ∑ k : Fin 128, x (ix2 p k) * y (ix2 k q) := by
  unfold k0_pay1
  simp only [matmul]
  rw [Ideal.matmul_constant_zero_apply, ← Equiv.sum_comp (contrEquiv1 dot_S20000x128_S128x128_S20000x128_1_0_0_1_n_n 128 rfl rfl).symm]
  refine Finset.sum_congr rfl fun c _ => ?_
  have c2 := contrEquiv1_symm_val dot_S20000x128_S128x128_S20000x128_1_0_0_1_n_n 128 rfl rfl c
  have l2 : dot_S20000x128_S128x128_S20000x128_1_0_0_1_n_n.lhsIdx (ix2 p q) ((contrEquiv1 _ 128 rfl rfl).symm c) = ix2 p c := by
    funext ax; apply Fin.ext
    match ax with
    | ⟨0, _⟩ => simp [DotDims.lhsIdx, dot_S20000x128_S128x128_S20000x128_1_0_0_1_n_n]; rfl
    | ⟨1, _⟩ => simp [DotDims.lhsIdx, dot_S20000x128_S128x128_S20000x128_1_0_0_1_n_n]; exact c2
  have r2 : dot_S20000x128_S128x128_S20000x128_1_0_0_1_n_n.rhsIdx (ix2 p q) ((contrEquiv1 _ 128 rfl rfl).symm c) = ix2 c q := by
    funext ax; apply Fin.ext
    match ax with
    | ⟨0, _⟩ => simp [DotDims.rhsIdx, dot_S20000x128_S128x128_S20000x128_1_0_0_1_n_n]; exact c2
    | ⟨1, _⟩ => simp [DotDims.rhsIdx, dot_S20000x128_S128x128_S20000x128_1_0_0_1_n_n]; rfl
  rw [l2, r2, shapeCast_self, shapeCast_self]

theorem pay2_apply (x : Vec Ideal S20000x32 .bf16) (y : Vec Ideal S32x128 .bf16) (p : Fin 20000) (q : Fin 128) :
    k0_pay2 (F := Ideal) x y (ix2 p q) = ∑ k : Fin 32, x (ix2 p k) * y (ix2 k q) := by
  unfold k0_pay2
  simp only [matmul]
  rw [Ideal.matmul_constant_zero_apply, ← Equiv.sum_comp (contrEquiv1 dot_S20000x32_S32x128_S20000x128_1_0_0_1_n_n 32 rfl rfl).symm]
  refine Finset.sum_congr rfl fun c _ => ?_
  have c2 := contrEquiv1_symm_val dot_S20000x32_S32x128_S20000x128_1_0_0_1_n_n 32 rfl rfl c
  have l2 : dot_S20000x32_S32x128_S20000x128_1_0_0_1_n_n.lhsIdx (ix2 p q) ((contrEquiv1 _ 32 rfl rfl).symm c) = ix2 p c := by
    funext ax; apply Fin.ext
    match ax with
    | ⟨0, _⟩ => simp [DotDims.lhsIdx, dot_S20000x32_S32x128_S20000x128_1_0_0_1_n_n]; rfl
    | ⟨1, _⟩ => simp [DotDims.lhsIdx, dot_S20000x32_S32x128_S20000x128_1_0_0_1_n_n]; exact c2
  have r2 : dot_S20000x32_S32x128_S20000x128_1_0_0_1_n_n.rhsIdx (ix2 p q) ((contrEquiv1 _ 32 rfl rfl).symm c) = ix2 c q := by
    funext ax; apply Fin.ext
    match ax with
    | ⟨0, _⟩ => simp [DotDims.rhsIdx, dot_S20000x32_S32x128_S20000x128_1_0_0_1_n_n]; exact c2
    | ⟨1, _⟩ => simp [DotDims.rhsIdx, dot_S20000x32_S32x128_S20000x128_1_0_0_1_n_n]; rfl
  rw [l2, r2, shapeCast_self, shapeCast_self]

theorem pay3_apply (x : Vec Ideal S20000x8 .bf16) (y : Vec Ideal S8x128 .bf16) (p : Fin 20000) (q : Fin 128) :
    k0_pay3 (F := Ideal) x y (ix2 p q) = ∑ k : Fin 8, x (ix2 p k) * y (ix2 k q) := by
  unfold k0_pay3
  simp only [matmul]
  rw [Ideal.matmul_constant_zero_apply, ← Equiv.sum_comp (contrEquiv1 dot_S20000x8_S8x128_S20000x128_1_0_0_1_n_n 8 rfl rfl).symm]
  refine Finset.sum_congr rfl fun c _ => ?_
  have c2 := contrEquiv1_symm_val dot_S20000x8_S8x128_S20000x128_1_0_0_1_n_n 8 rfl rfl c
  have l2 : dot_S20000x8_S8x128_S20000x128_1_0_0_1_n_n.lhsIdx (ix2 p q) ((contrEquiv1 _ 8 rfl rfl).symm c) = ix2 p c := by
    funext ax; apply Fin.ext
    match ax with
    | ⟨0, _⟩ => simp [DotDims.lhsIdx, dot_S20000x8_S8x128_S20000x128_1_0_0_1_n_n]; rfl
    | ⟨1, _⟩ => simp [DotDims.lhsIdx, dot_S20000x8_S8x128_S20000x128_1_0_0_1_n_n]; exact c2
  have r2 : dot_S20000x8_S8x128_S20000x128_1_0_0_1_n_n.rhsIdx (ix2 p q) ((contrEquiv1 _ 8 rfl rfl).symm c) = ix2 c q := by
    funext ax; apply Fin.ext
    match ax with
    | ⟨0, _⟩ => simp [DotDims.rhsIdx, dot_S20000x8_S8x128_S20000x128_1_0_0_1_n_n]; exact c2
    | ⟨1, _⟩ => simp [DotDims.rhsIdx, dot_S20000x8_S8x128_S20000x128_1_0_0_1_n_n]; rfl
  rw [l2, r2, shapeCast_self, shapeCast_self]

/-! ## A block of rows, at an entry -/

/-- Window 0's block at point `t`, read at an entry, is the array at the block's corner plus the entry. -/
theorem read_blk0 {F : FTy → Type} (t : Fin grid0.N) (a : S20000x128.Idx → Elt F .bf16) (y0 : Fin 20000) (y1 : Fin 128) (i0 i1 : ℕ)
    (h0 : win0_0.index t (0 : Fin 2) = i0) (h1 : win0_0.index t (1 : Fin 2) = i1) (R : Fin 20000) (C : Fin 128)
    (hR : R.val = i0 * 20000 + y0.val) (hC : C.val = i1 * 128 + y1.val) :
    (win0_0.blk t).view.read (Elt F) a (ix2 y0 y1) = a (ix2 R C) := by
  show a ((win0_0.blk t).view.emb (ix2 y0 y1)) = a (ix2 R C)
  refine congrArg a (funext fun ax => Fin.ext ?_)
  match ax with
  | ⟨0, _⟩ => show win0_0.index t (0 : Fin 2) * 20000 + 1 * y0.val = R.val; rw [h0, hR]; omega
  | ⟨1, _⟩ => show win0_0.index t (1 : Fin 2) * 128 + 1 * y1.val = C.val; rw [h1, hC]; omega

/-- Window 1's block at point `t`, read at an entry, is the array at the block's corner plus the entry. -/
theorem read_blk1 {F : FTy → Type} (t : Fin grid0.N) (a : S80000x32.Idx → Elt F .bf16) (y0 : Fin 20000) (y1 : Fin 32) (i0 i1 : ℕ)
    (h0 : win0_1.index t (0 : Fin 2) = i0) (h1 : win0_1.index t (1 : Fin 2) = i1) (R : Fin 80000) (C : Fin 32)
    (hR : R.val = i0 * 20000 + y0.val) (hC : C.val = i1 * 32 + y1.val) :
    (win0_1.blk t).view.read (Elt F) a (ix2 y0 y1) = a (ix2 R C) := by
  show a ((win0_1.blk t).view.emb (ix2 y0 y1)) = a (ix2 R C)
  refine congrArg a (funext fun ax => Fin.ext ?_)
  match ax with
  | ⟨0, _⟩ => show win0_1.index t (0 : Fin 2) * 20000 + 1 * y0.val = R.val; rw [h0, hR]; omega
  | ⟨1, _⟩ => show win0_1.index t (1 : Fin 2) * 32 + 1 * y1.val = C.val; rw [h1, hC]; omega

/-- Window 2's block at point `t`, read at an entry, is the array at the block's corner plus the entry. -/
theorem read_blk2 {F : FTy → Type} (t : Fin grid0.N) (a : S900000x8.Idx → Elt F .bf16) (y0 : Fin 20000) (y1 : Fin 8) (i0 i1 : ℕ)
    (h0 : win0_2.index t (0 : Fin 2) = i0) (h1 : win0_2.index t (1 : Fin 2) = i1) (R : Fin 900000) (C : Fin 8)
    (hR : R.val = i0 * 20000 + y0.val) (hC : C.val = i1 * 8 + y1.val) :
    (win0_2.blk t).view.read (Elt F) a (ix2 y0 y1) = a (ix2 R C) := by
  show a ((win0_2.blk t).view.emb (ix2 y0 y1)) = a (ix2 R C)
  refine congrArg a (funext fun ax => Fin.ext ?_)
  match ax with
  | ⟨0, _⟩ => show win0_2.index t (0 : Fin 2) * 20000 + 1 * y0.val = R.val; rw [h0, hR]; omega
  | ⟨1, _⟩ => show win0_2.index t (1 : Fin 2) * 8 + 1 * y1.val = C.val; rw [h1, hC]; omega

/-- Window 3's block at point `t`, read at an entry, is the array at the block's corner plus the entry. -/
theorem read_blk3 {F : FTy → Type} (t : Fin grid0.N) (a : S128x128.Idx → Elt F .bf16) (y0 : Fin 128) (y1 : Fin 128) (i0 i1 : ℕ)
    (h0 : win0_3.index t (0 : Fin 2) = i0) (h1 : win0_3.index t (1 : Fin 2) = i1) (R : Fin 128) (C : Fin 128)
    (hR : R.val = i0 * 128 + y0.val) (hC : C.val = i1 * 128 + y1.val) :
    (win0_3.blk t).view.read (Elt F) a (ix2 y0 y1) = a (ix2 R C) := by
  show a ((win0_3.blk t).view.emb (ix2 y0 y1)) = a (ix2 R C)
  refine congrArg a (funext fun ax => Fin.ext ?_)
  match ax with
  | ⟨0, _⟩ => show win0_3.index t (0 : Fin 2) * 128 + 1 * y0.val = R.val; rw [h0, hR]; omega
  | ⟨1, _⟩ => show win0_3.index t (1 : Fin 2) * 128 + 1 * y1.val = C.val; rw [h1, hC]; omega

/-- Window 4's block at point `t`, read at an entry, is the array at the block's corner plus the entry. -/
theorem read_blk4 {F : FTy → Type} (t : Fin grid0.N) (a : S32x128.Idx → Elt F .bf16) (y0 : Fin 32) (y1 : Fin 128) (i0 i1 : ℕ)
    (h0 : win0_4.index t (0 : Fin 2) = i0) (h1 : win0_4.index t (1 : Fin 2) = i1) (R : Fin 32) (C : Fin 128)
    (hR : R.val = i0 * 32 + y0.val) (hC : C.val = i1 * 128 + y1.val) :
    (win0_4.blk t).view.read (Elt F) a (ix2 y0 y1) = a (ix2 R C) := by
  show a ((win0_4.blk t).view.emb (ix2 y0 y1)) = a (ix2 R C)
  refine congrArg a (funext fun ax => Fin.ext ?_)
  match ax with
  | ⟨0, _⟩ => show win0_4.index t (0 : Fin 2) * 32 + 1 * y0.val = R.val; rw [h0, hR]; omega
  | ⟨1, _⟩ => show win0_4.index t (1 : Fin 2) * 128 + 1 * y1.val = C.val; rw [h1, hC]; omega

/-- Window 5's block at point `t`, read at an entry, is the array at the block's corner plus the entry. -/
theorem read_blk5 {F : FTy → Type} (t : Fin grid0.N) (a : S8x128.Idx → Elt F .bf16) (y0 : Fin 8) (y1 : Fin 128) (i0 i1 : ℕ)
    (h0 : win0_5.index t (0 : Fin 2) = i0) (h1 : win0_5.index t (1 : Fin 2) = i1) (R : Fin 8) (C : Fin 128)
    (hR : R.val = i0 * 8 + y0.val) (hC : C.val = i1 * 128 + y1.val) :
    (win0_5.blk t).view.read (Elt F) a (ix2 y0 y1) = a (ix2 R C) := by
  show a ((win0_5.blk t).view.emb (ix2 y0 y1)) = a (ix2 R C)
  refine congrArg a (funext fun ax => Fin.ext ?_)
  match ax with
  | ⟨0, _⟩ => show win0_5.index t (0 : Fin 2) * 8 + 1 * y0.val = R.val; rw [h0, hR]; omega
  | ⟨1, _⟩ => show win0_5.index t (1 : Fin 2) * 128 + 1 * y1.val = C.val; rw [h1, hC]; omega

/-! ## The table, entry by entry -/

variable (a0 : S20000x128.Idx → Elt Ideal .bf16) (a1 : S80000x32.Idx → Elt Ideal .bf16) (a2 : S900000x8.Idx → Elt Ideal .bf16)
  (a3 : S128x128.Idx → Elt Ideal .bf16) (a4 : S32x128.Idx → Elt Ideal .bf16) (a5 : S8x128.Idx → Elt Ideal .bf16)

/-- A row below 20000: the first operand's row times the fourth operand. -/
theorem tableOf_lo (r : Fin 1000000) (j : Fin 128) (h : r.val < 20000) :
    tableOf (F := Ideal) a0 a1 a2 a3 a4 a5 (ix2 r j) = ∑ k : Fin 128, a0 (ix2 ⟨r.val, h⟩ k) * a3 (ix2 k j) := by
  unfold tableOf
  have hN : r.val / 20000 < grid0.N := by rw [N_0]; omega
  have ht : (⟨r.val / 20000, hN⟩ : Fin grid0.N).val < 1 := by show r.val / 20000 < 1; omega
  obtain ⟨i0, i1, i2, i3⟩ := idx_case1 ⟨r.val / 20000, hN⟩ ht
  show tblBlock (F := Ideal) ⟨r.val / 20000, hN⟩ a0 a1 a2 a3 a4 a5 (ix2 ⟨r.val % 20000, Nat.mod_lt _ (by decide)⟩ j) = _
  unfold tblBlock
  rw [if_pos ((cond_closed ⟨r.val / 20000, hN⟩).1.mpr ht), pay1_apply]
  refine Finset.sum_congr rfl fun k _ => ?_
  rw [read_blk0 ⟨r.val / 20000, hN⟩ a0 _ k 0 0 i0 i1 ⟨r.val, h⟩ k (by show r.val = 0 * 20000 + r.val % 20000; omega) (by omega),
    read_blk3 ⟨r.val / 20000, hN⟩ a3 k j 0 0 i2 i3 k j (by omega) (by omega)]

/-- A row from 20000 below 100000: the second operand's row `r - 20000` times the fifth operand. -/
theorem tableOf_mid (r : Fin 1000000) (j : Fin 128) (h1 : 20000 ≤ r.val) (h2 : r.val < 100000) :
    tableOf (F := Ideal) a0 a1 a2 a3 a4 a5 (ix2 r j)
      = ∑ k : Fin 32, a1 (ix2 ⟨r.val - 20000, by omega⟩ k) * a4 (ix2 k j) := by
  unfold tableOf
  have hN : r.val / 20000 < grid0.N := by rw [N_0]; omega
  have ht1 : 1 ≤ (⟨r.val / 20000, hN⟩ : Fin grid0.N).val := by show 1 ≤ r.val / 20000; omega
  have ht2 : (⟨r.val / 20000, hN⟩ : Fin grid0.N).val < 5 := by show r.val / 20000 < 5; omega
  obtain ⟨i0, i1, i2, i3⟩ := idx_case2 ⟨r.val / 20000, hN⟩ ht1 ht2
  show tblBlock (F := Ideal) ⟨r.val / 20000, hN⟩ a0 a1 a2 a3 a4 a5 (ix2 ⟨r.val % 20000, Nat.mod_lt _ (by decide)⟩ j) = _
  unfold tblBlock
  rw [if_neg (fun hc => absurd ((cond_closed ⟨r.val / 20000, hN⟩).1.mp hc) (by omega)),
    if_pos ((cond_closed ⟨r.val / 20000, hN⟩).2.mpr ⟨ht1, ht2⟩), pay2_apply]
  refine Finset.sum_congr rfl fun k _ => ?_
  rw [read_blk1 ⟨r.val / 20000, hN⟩ a1 _ k (r.val / 20000 - 1) 0 i0 i1 ⟨r.val - 20000, by omega⟩ k
      (by show r.val - 20000 = (r.val / 20000 - 1) * 20000 + r.val % 20000; omega) (by omega),
    read_blk4 ⟨r.val / 20000, hN⟩ a4 k j 0 0 i2 i3 k j (by omega) (by omega)]

/-- A row from 100000 on: the third operand's row `r - 100000` times the sixth operand. -/
theorem tableOf_hi (r : Fin 1000000) (j : Fin 128) (h : 100000 ≤ r.val) :
    tableOf (F := Ideal) a0 a1 a2 a3 a4 a5 (ix2 r j)
      = ∑ k : Fin 8, a2 (ix2 ⟨r.val - 100000, by have := r.isLt; omega⟩ k) * a5 (ix2 k j) := by
  unfold tableOf
  have hr : r.val < 1000000 := r.isLt
  have hN : r.val / 20000 < grid0.N := by rw [N_0]; omega
  have ht : 5 ≤ (⟨r.val / 20000, hN⟩ : Fin grid0.N).val := by show 5 ≤ r.val / 20000; omega
  obtain ⟨i0, i1, i2, i3⟩ := idx_case3 ⟨r.val / 20000, hN⟩ ht
  show tblBlock (F := Ideal) ⟨r.val / 20000, hN⟩ a0 a1 a2 a3 a4 a5 (ix2 ⟨r.val % 20000, Nat.mod_lt _ (by decide)⟩ j) = _
  unfold tblBlock
  rw [if_neg (fun hc => absurd ((cond_closed ⟨r.val / 20000, hN⟩).1.mp hc) (by omega)),
    if_neg (fun hc => absurd ((cond_closed ⟨r.val / 20000, hN⟩).2.mp hc).2 (by omega)), pay3_apply]
  refine Finset.sum_congr rfl fun k _ => ?_
  rw [read_blk2 ⟨r.val / 20000, hN⟩ a2 _ k (r.val / 20000 - 5) 0 i0 i1 ⟨r.val - 100000, by omega⟩ k
      (by show r.val - 100000 = (r.val / 20000 - 5) * 20000 + r.val % 20000; omega) (by omega),
    read_blk5 ⟨r.val / 20000, hN⟩ a5 k j 0 0 i2 i3 k j (by omega) (by omega)]

end Cert.KernelIdeal.TableValue

end
-- ==== Proof.Spec.lean ====
/-
  The specification of this certificate's result, as one function of the seven argument arrays, index by index.

  The arrays: a table of token ids `ids : [4096, 200]` (32-bit words, read unsigned), three embedding tables
  `W0 : [20000, 128]`, `W1 : [80000, 32]`, `W2 : [900000, 8]` for the three clusters of the vocabulary
  `[0, 20000)`, `[20000, 100000)`, `[100000, 1000000)`, and three projections `P0 : [128, 128]`, `P1 : [128, 32]`,
  `P2 : [128, 8]`. For the token `t = ids (b, s)`, with `i` the one cluster that holds `t` and `l_i` its lower end, the
  result at `(b, s, j)` is

      Σ_k  W_i[t - l_i, k] * (P_i[j, k] * c),        c = the f32 word 0x413504F3 (√128 rounded to f32),

  the arrangement in which the scale is folded into the projection before the contraction. A token outside
  `[0, 1000000)` (excluded by the precondition) reads `0`.

  Also here, because both programs' value proofs use it: the scale is a real number, and the one law that needs real
  entries — a finite sum of products of reals, scaled, is the sum with the scale moved onto the second factor.
-/
import Idealize.ShloMosaic.PureOps.Ideal
import Idealize.ShloMosaic.Lib.ValueIdx

noncomputable section

open scoped BigOperators

namespace Cert.Spec

open Idealize.ShloMosaic Idealize.ShloMosaic.ValueIdx

/-! ## The shapes, as literals -/

abbrev SIds : Shape := ⟨2, ![4096, 200]⟩
abbrev SW0 : Shape := ⟨2, ![20000, 128]⟩
abbrev SW1 : Shape := ⟨2, ![80000, 32]⟩
abbrev SW2 : Shape := ⟨2, ![900000, 8]⟩
abbrev SP0 : Shape := ⟨2, ![128, 128]⟩
abbrev SP1 : Shape := ⟨2, ![128, 32]⟩
abbrev SP2 : Shape := ⟨2, ![128, 8]⟩
abbrev SOut : Shape := ⟨3, ![4096, 200, 128]⟩

/-! ## The function -/

/-- The scale: the extended real the f32 word `0x413504F3` denotes. -/
def scale : EReal := Ideal.ofBits .f32 0x413504F3#32

/-- The token at batch row `b`, position `s`: the id word read as a natural number. -/
def tok (ids : SIds.Idx → BitVec 32) (b : Fin 4096) (s : Fin 200) : Nat := (ids (ix2 b s)).toNat

/-- One entry of the result in coordinates: the token's row of its cluster's table against row `j` of that cluster's
    projection, the projection scaled first. The three `if`s choose the cluster and supply the row's bound; a token
    at or above `1000000` reads `0`. -/
def entry (ids : SIds.Idx → BitVec 32) (W0 : SW0.Idx → EReal) (W1 : SW1.Idx → EReal) (W2 : SW2.Idx → EReal)
    (P0 : SP0.Idx → EReal) (P1 : SP1.Idx → EReal) (P2 : SP2.Idx → EReal)
    (b : Fin 4096) (s : Fin 200) (j : Fin 128) : EReal :=
  if h0 : tok ids b s < 20000 then
    ∑ k : Fin 128, W0 (ix2 (⟨tok ids b s, h0⟩ : Fin 20000) k) * (P0 (ix2 j k) * scale)
  else if h1 : tok ids b s < 100000 then
    ∑ k : Fin 32, W1 (ix2 (⟨tok ids b s - 20000, by omega⟩ : Fin 80000) k) * (P1 (ix2 j k) * scale)
  else if h2 : tok ids b s < 1000000 then
    ∑ k : Fin 8, W2 (ix2 (⟨tok ids b s - 100000, by omega⟩ : Fin 900000) k) * (P2 (ix2 j k) * scale)
  else 0

/-- The result array: `entry` at the index's three coordinates. -/
def G (ids : SIds.Idx → BitVec 32) (W0 : SW0.Idx → EReal) (W1 : SW1.Idx → EReal) (W2 : SW2.Idx → EReal)
    (P0 : SP0.Idx → EReal) (P1 : SP1.Idx → EReal) (P2 : SP2.Idx → EReal) : SOut.Idx → EReal :=
  fun i => entry ids W0 W1 W2 P0 P1 P2 (i 0) (i 1) (i 2)

/-- `G` at an index given by coordinates. -/
theorem G_ix3 (ids : SIds.Idx → BitVec 32) (W0 : SW0.Idx → EReal) (W1 : SW1.Idx → EReal) (W2 : SW2.Idx → EReal)
    (P0 : SP0.Idx → EReal) (P1 : SP1.Idx → EReal) (P2 : SP2.Idx → EReal) (b : Fin 4096) (s : Fin 200) (j : Fin 128) :
    G ids W0 W1 W2 P0 P1 P2 (ix3 b s j) = entry ids W0 W1 W2 P0 P1 P2 b s j := rfl

/-- The first cluster's branch. -/
theorem entry_lo (ids : SIds.Idx → BitVec 32) (W0 : SW0.Idx → EReal) (W1 : SW1.Idx → EReal) (W2 : SW2.Idx → EReal)
    (P0 : SP0.Idx → EReal) (P1 : SP1.Idx → EReal) (P2 : SP2.Idx → EReal) (b : Fin 4096) (s : Fin 200) (j : Fin 128)
    (h0 : tok ids b s < 20000) :
    entry ids W0 W1 W2 P0 P1 P2 b s j
      = ∑ k : Fin 128, W0 (ix2 (⟨tok ids b s, h0⟩ : Fin 20000) k) * (P0 (ix2 j k) * scale) := by
  unfold entry; rw [dif_pos h0]

/-- The second cluster's branch. -/
theorem entry_mid (ids : SIds.Idx → BitVec 32) (W0 : SW0.Idx → EReal) (W1 : SW1.Idx → EReal) (W2 : SW2.Idx → EReal)
    (P0 : SP0.Idx → EReal) (P1 : SP1.Idx → EReal) (P2 : SP2.Idx → EReal) (b : Fin 4096) (s : Fin 200) (j : Fin 128)
    (h0 : ¬ tok ids b s < 20000) (h1 : tok ids b s < 100000) :
    entry ids W0 W1 W2 P0 P1 P2 b s j
      = ∑ k : Fin 32, W1 (ix2 (⟨tok ids b s - 20000, by omega⟩ : Fin 80000) k) * (P1 (ix2 j k) * scale) := by
  unfold entry; rw [dif_neg h0, dif_pos h1]

/-- The third cluster's branch. -/
theorem entry_hi (ids : SIds.Idx → BitVec 32) (W0 : SW0.Idx → EReal) (W1 : SW1.Idx → EReal) (W2 : SW2.Idx → EReal)
    (P0 : SP0.Idx → EReal) (P1 : SP1.Idx → EReal) (P2 : SP2.Idx → EReal) (b : Fin 4096) (s : Fin 200) (j : Fin 128)
    (h0 : ¬ tok ids b s < 20000) (h1 : ¬ tok ids b s < 100000) (h2 : tok ids b s < 1000000) :
    entry ids W0 W1 W2 P0 P1 P2 b s j
      = ∑ k : Fin 8, W2 (ix2 (⟨tok ids b s - 100000, by omega⟩ : Fin 900000) k) * (P2 (ix2 j k) * scale) := by
  unfold entry; rw [dif_neg h0, dif_neg h1, dif_pos h2]

/-! ## The scale is a real number -/

theorem scale_ne_top : scale ≠ ⊤ := by
  simp [scale, Ideal.ofBits, Ideal.ieee, -EReal.coe_mul]

theorem scale_ne_bot : scale ≠ ⊥ := by
  simp [scale, Ideal.ofBits, Ideal.ieee, -EReal.coe_mul]

theorem scale_real : ∃ r : ℝ, scale = (r : EReal) :=
  ⟨scale.toReal, (EReal.coe_toReal scale_ne_top scale_ne_bot).symm⟩

/-! ## The law, over an abstract finite index type -/

/-- The coercion of the reals into the extended reals commutes with a finite sum. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A finite sum of products of real numbers, scaled by a real number, is the sum of the products with the scale
    moved onto the second factor. (Over the extended reals this needs the entries real: multiplication does not
    distribute over a sum that mixes the two infinities.) -/
theorem sum_mul_scale {ι : Type*} [Fintype ι] (w p : ι → EReal) (c : EReal)
    (hw : ∀ k, ∃ r : ℝ, w k = (r : EReal)) (hp : ∀ k, ∃ r : ℝ, p k = (r : EReal)) (hc : ∃ r : ℝ, c = (r : EReal)) :
    (∑ k, w k * p k) * c = ∑ k, w k * (p k * c) := by
  choose wr hwr using hw
  choose pr hpr using hp
  obtain ⟨cr, rfl⟩ := hc
  have e1 : (∑ k, w k * p k) = ((∑ k, wr k * pr k : ℝ) : EReal) := by
    rw [coe_sum]; exact Finset.sum_congr rfl fun k _ => by rw [hwr k, hpr k, EReal.coe_mul]
  have e2 : (∑ k, w k * (p k * (cr : EReal))) = ((∑ k, wr k * (pr k * cr) : ℝ) : EReal) := by
    rw [coe_sum]; exact Finset.sum_congr rfl fun k _ => by rw [hwr k, hpr k, EReal.coe_mul, EReal.coe_mul]
  rw [e1, e2, ← EReal.coe_mul, Finset.sum_mul]
  congr 1
  exact Finset.sum_congr rfl fun k _ => by ring

end Cert.Spec

end
-- ==== Proof.KernelValue.lean ====
/-
  The kernel's result at the exact extended reals is the specification's function of the arguments, entry by entry.
  Entry `(b, s, j)` of the result is entry `(200 b + s, j)` of the gathered rows, which is row `t` of the table for
  `t` the id at `(b, s)`; the table's row `t` is, in the cluster that holds `t`, the sum over `k` of the cluster's table
  at `(t - l, k)` times the cluster's scaled, transposed projection at `(k, j)`, that is the projection at `(j, k)`
  times the scale: the specification's arrangement, term by term. A change of float format is the identity here.
-/
import proofs.«202745_g55851754717770_cont_9to1_m_910_12_alg».proof.Proof.KernelIdealHand.Frame
import proofs.«202745_g55851754717770_cont_9to1_m_910_12_alg».proof.Proof.TableValue
import proofs.«202745_g55851754717770_cont_9to1_m_910_12_alg».proof.Proof.Spec
import Idealize.ShloMosaic.Lib.ValueLayout
import Idealize.ShloMosaic.Lib.IdealHost

set_option maxRecDepth 16384

noncomputable section

open scoped BigOperators

namespace Cert.KernelIdeal.KernelValue

open Cert.KernelIdeal Cert.KernelIdeal.Gen Cert.KernelIdeal.Hand Cert.KernelIdeal.TableValue
open Idealize.ShloMosaic Idealize.ShloMosaic.ValueIdx

variable (m : (ℓ : Loc nD τ sig) → Buf (Elt Ideal) ℓ) (d : Dev nD)

/-- The three projections among the arguments, as arrays of extended reals. -/
abbrev argP0 : Cert.Spec.SP0.Idx → EReal := m ((SparseCore.T d).loc main_arg4)
abbrev argP1 : Cert.Spec.SP1.Idx → EReal := m ((SparseCore.T d).loc main_arg5)
abbrev argP2 : Cert.Spec.SP2.Idx → EReal := m ((SparseCore.T d).loc main_arg6)

/-! ## The call's operands at an entry -/

theorem w0_at (t : Fin 20000) (k : Fin 128) :
    VA (F := Ideal) m d (dr main_v0) (ix2 t k) = m ((SparseCore.T d).loc main_arg1) (ix2 t k) := by
  rw [VA_v0]; rfl
theorem w1_at (t : Fin 80000) (k : Fin 32) :
    VA (F := Ideal) m d (dr main_v1) (ix2 t k) = m ((SparseCore.T d).loc main_arg2) (ix2 t k) := by
  rw [VA_v1]; rfl
theorem w2_at (t : Fin 900000) (k : Fin 8) :
    VA (F := Ideal) m d (dr main_v2) (ix2 t k) = m ((SparseCore.T d).loc main_arg3) (ix2 t k) := by
  rw [VA_v2]; rfl

theorem p0_at (k : Fin 128) (j : Fin 128) :
    VA (F := Ideal) m d (dr main_v6) (ix2 k j) = argP0 m d (ix2 j k) * Cert.Spec.scale := by
  rw [VA_v6, truncf_apply, mulf_apply, transpose_ix2_apply, broadcastInDim_scalar_apply, constant_apply]; rfl
theorem p1_at (k : Fin 32) (j : Fin 128) :
    VA (F := Ideal) m d (dr main_v10) (ix2 k j) = argP1 m d (ix2 j k) * Cert.Spec.scale := by
  rw [VA_v10, truncf_apply, mulf_apply, transpose_ix2_apply, broadcastInDim_scalar_apply, constant_apply]; rfl
theorem p2_at (k : Fin 8) (j : Fin 128) :
    VA (F := Ideal) m d (dr main_v14) (ix2 k j) = argP2 m d (ix2 j k) * Cert.Spec.scale := by
  rw [VA_v14, truncf_apply, mulf_apply, transpose_ix2_apply, broadcastInDim_scalar_apply, constant_apply]; rfl

/-! ## The table's row of a token -/

/-- Row `t` of the table, for a token `t` below 1000000, is the specification's entry for that token. -/
theorem tblOf_row (b : Fin 4096) (s : Fin 200) (j : Fin 128)
    (ht : Cert.Spec.tok (m ((SparseCore.T d).loc main_arg0)) b s < 1000000) :
    (tblOf (F := Ideal) m d (ix2 ⟨Cert.Spec.tok (m ((SparseCore.T d).loc main_arg0)) b s, ht⟩ j) : EReal)
      = Cert.Spec.entry (m ((SparseCore.T d).loc main_arg0)) (m ((SparseCore.T d).loc main_arg1))
          (m ((SparseCore.T d).loc main_arg2)) (m ((SparseCore.T d).loc main_arg3)) (m ((SparseCore.T d).loc main_arg4))
          (m ((SparseCore.T d).loc main_arg5)) (m ((SparseCore.T d).loc main_arg6)) b s j := by
  unfold tblOf
  by_cases h0 : Cert.Spec.tok (m ((SparseCore.T d).loc main_arg0)) b s < 20000
  · rw [Cert.Spec.entry_lo _ _ _ _ _ _ _ b s j h0, tableOf_lo _ _ _ _ _ _ _ j h0]
    exact @Finset.sum_congr (Fin 128) EReal Finset.univ Finset.univ _ _ _ rfl fun k _ => by rw [w0_at, p0_at]
  · by_cases h1 : Cert.Spec.tok (m ((SparseCore.T d).loc main_arg0)) b s < 100000
    · rw [Cert.Spec.entry_mid _ _ _ _ _ _ _ b s j h0 h1, tableOf_mid _ _ _ _ _ _ _ j (Nat.le_of_not_lt h0) h1]
      exact @Finset.sum_congr (Fin 32) EReal Finset.univ Finset.univ _ _ _ rfl fun k _ => by rw [w1_at, p1_at]
    · rw [Cert.Spec.entry_hi _ _ _ _ _ _ _ b s j h0 h1 ht, tableOf_hi _ _ _ _ _ _ _ j (Nat.le_of_not_lt h1)]
      exact @Finset.sum_congr (Fin 8) EReal Finset.univ Finset.univ _ _ _ rfl fun k _ => by rw [w2_at, p2_at]

/-! ## The result -/

/-- The kernel's result is the specification's function of the arguments. -/
theorem kernel_eq_G [Cert.Pre_input_domain.Facts] (hpre : Cert.KernelIdeal.Hand.PreAt (F := Ideal) m) :
    VE (F := Ideal) m d (dr main_v18)
      = Cert.Spec.G (m ((SparseCore.T d).loc main_arg0)) (m ((SparseCore.T d).loc main_arg1))
          (m ((SparseCore.T d).loc main_arg2)) (m ((SparseCore.T d).loc main_arg3)) (m ((SparseCore.T d).loc main_arg4))
          (m ((SparseCore.T d).loc main_arg5)) (m ((SparseCore.T d).loc main_arg6)) := by
  funext i
  obtain ⟨b, s, j, rfl⟩ : ∃ (b : Fin 4096) (s : Fin 200) (j : Fin 128), i = ix3 b s j := ⟨i 0, i 1, i 2, eq_ix3 i⟩
  have hb : b.val < 4096 := b.isLt
  have hs : s.val < 200 := s.isLt
  have h : 200 * b.val + s.val < 819200 := by omega
  have hlt := hin_of_pre m hpre d (ix1 ⟨200 * b.val + s.val, h⟩)
  have hid : (idsOf m d (ix1 ⟨200 * b.val + s.val, h⟩) : BitVec 32).toNat = Cert.Spec.tok (m ((SparseCore.T d).loc main_arg0)) b s := by
    rw [idsOf_ix m d b s h]; rfl
  have ht : Cert.Spec.tok (m ((SparseCore.T d).loc main_arg0)) b s < 1000000 := hid ▸ hlt
  rw [out_ix m d b s j h, Cert.Spec.G_ix3, outOf_ix m d ⟨_, h⟩ j hlt]
  refine Eq.trans ?_ (tblOf_row m d b s j ht)
  exact congrArg (fun r => tblOf (F := Ideal) m d (ix2 r j)) (Fin.ext hid)

end Cert.KernelIdeal.KernelValue

end
-- ==== Proof.RefOps.lean ====
/- A table, no proof: the reference's host operations in program order, 147 in @main's first printed part and 10 in its
   second; a call's operations stand where the call stands, over the call's own buffers. -/
import proofs.«202745_g55851754717770_cont_9to1_m_910_12_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The operations of @main's first printed part, in order. -/
abbrev ops0 : List (HloOp τ sig (Elt F)) :=
  [ StableHlo.reshape main_arg0 main_v0 rfl shapeCasts_S4096x200_S819200,
    StableHlo.nullary main_cst (constant S_ .f32 0x00000000#32),
    StableHlo.unary main_cst main_v1 (broadcastInDim S819200x128 ![] bcast_S_S819200x128 : (⟨S_, .f32⟩ : BufTy).Contents (Elt F) → (⟨S819200x128, .f32⟩ : BufTy).Contents (Elt F)),
    StableHlo.nullary main_c (constantI S_ 32 0#32),
    StableHlo.unary main_c main_v2 (broadcastInDim S819200 ![] bcast_S_S819200 : (⟨S_, .i32⟩ : BufTy).Contents (Elt F) → (⟨S819200, .i32⟩ : BufTy).Contents (Elt F)),
    StableHlo.binary main_v0 main_v2 main_v3 (cmpi .sge : (⟨S819200, .i32⟩ : BufTy).Contents (Elt F) → (⟨S819200, .i32⟩ : BufTy).Contents (Elt F) → (⟨S819200, .i1⟩ : BufTy).Contents (Elt F)),
    StableHlo.nullary main_c_0 (constantI S_ 32 20000#32),
    StableHlo.unary main_c_0 main_v4 (broadcastInDim S819200 ![] bcast_S_S819200 : (⟨S_, .i32⟩ : BufTy).Contents (Elt F) → (⟨S819200, .i32⟩ : BufTy).Contents (Elt F)),
    StableHlo.binary main_v0 main_v4 main_v5 (cmpi .slt : (⟨S819200, .i32⟩ : BufTy).Contents (Elt F) → (⟨S819200, .i32⟩ : BufTy).Contents (Elt F) → (⟨S819200, .i1⟩ : BufTy).Contents (Elt F)),
    StableHlo.binary main_v3 main_v5 main_v6 (andi : (⟨S819200, .i1⟩ : BufTy).Contents (Elt F) → (⟨S819200, .i1⟩ : BufTy).Contents (Elt F) → (⟨S819200, .i1⟩ : BufTy).Contents (Elt F)),
    StableHlo.nullary main_c_1 (constantI S_ 32 0#32),
    StableHlo.unary main_c_1 main_v7 (broadcastInDim S819200 ![] bcast_S_S819200 : (⟨S_, .i32⟩ : BufTy).Contents (Elt F) → (⟨S819200, .i32⟩ : BufTy).Contents (Elt F)),
    StableHlo.binary main_v0 main_v7 main_v8 (subi : (⟨S819200, .i32⟩ : BufTy).Contents (Elt F) → (⟨S819200, .i32⟩ : BufTy).Contents (Elt F) → (⟨S819200, .i32⟩ : BufTy).Contents (Elt F)),
    StableHlo.nullary main_c_2 (constantI S_ 32 0#32),
    StableHlo.nullary main_c_3 (constantI S_ 32 19999#32),
    StableHlo.TRef.unary (StableHlo.TRef.of main_c_2 : StableHlo.TRef sig ⟨S_, .i32⟩) main_call0.v0 id,
    StableHlo.TRef.unary main_call0.v0 main_call0.v1 (broadcastInDim S819200 ![] bcast_S_S819200),
    StableHlo.TRef.binary main_call0.v1 (StableHlo.TRef.of main_v8 : StableHlo.TRef sig ⟨S819200, .i32⟩) main_call0.v2 maxsi,
    StableHlo.TRef.unary (StableHlo.TRef.of main_c_3 : StableHlo.TRef sig ⟨S_, .i32⟩) main_call0.v3 id,
    StableHlo.TRef.unary main_call0.v3 main_call0.v4 (broadcastInDim S819200 ![] bcast_S_S819200),
    StableHlo.TRef.binary main_call0.v4 main_call0.v2 main_call0.v5 minsi,
    StableHlo.TRef.nullary main_call1.c (constantI S_ 32 0#32),
    StableHlo.TRef.unary main_call1.c main_call1.v0 (broadcastInDim S819200 ![] bcast_S_S819200),
    StableHlo.TRef.binary (StableHlo.TRef.of main_v9 : StableHlo.TRef sig ⟨S819200, .i32⟩) main_call1.v0 main_call1.v1 (cmpi .slt),
    StableHlo.TRef.nullary main_call1.c_0 (constantI S_ 32 20000#32),
    StableHlo.TRef.unary main_call1.c_0 main_call1.v2 (broadcastInDim S819200 ![] bcast_S_S819200),
    StableHlo.TRef.binary (StableHlo.TRef.of main_v9 : StableHlo.TRef sig ⟨S819200, .i32⟩) main_call1.v2 main_call1.v3 addi,
    StableHlo.TRef.ternary main_call1.v1 main_call1.v3 (StableHlo.TRef.of main_v9 : StableHlo.TRef sig ⟨S819200, .i32⟩) main_call1.call0.v0 select,
    StableHlo.TRef.unary main_call1.call0.v0 main_call1.v5 (broadcastInDim S819200x1 ![0] bcast_S819200_S819200x1_0),
    StableHlo.TRef.nullary main_call1.c_1 (constantI S1 32 19999#32),
    StableHlo.TRef.nullary main_call1.c_2 (constantI S_ 32 0#32),
    StableHlo.TRef.unary main_call1.c_2 main_call1.v6 (broadcastInDim S819200x1 ![] bcast_S_S819200x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S819200x1 ![0, 1] bcast_S1x1_S819200x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S819200x1_S819200_d1 h_S_),
    StableHlo.TRef.binary (StableHlo.TRef.of main_arg1 : StableHlo.TRef sig ⟨S20000x128, .f32⟩) main_call1.v5 main_call1.v13 (fun x i => Host.gather gather_S20000x128_S819200x1_S819200x128_1_0_n_n_0_1_1128 x i),
    StableHlo.TRef.unary main_call1.v12 main_call1.v14 (broadcastInDim S819200x128 ![0] bcast_S819200_S819200x128_0),
    StableHlo.TRef.nullary main_call1.cst (constant S_ .f32 0x7FC00000#32),
    StableHlo.TRef.unary main_call1.cst main_call1.v15 (broadcastInDim S819200x128 ![] bcast_S_S819200x128),
    StableHlo.TRef.ternary main_call1.v14 main_call1.v13 main_call1.v15 main_call1.v16 select,
    StableHlo.unary main_arg4 main_v11 ((transpose S128x128 [1, 0] · transposes_S128x128_S128x128_1_0) : (⟨S128x128, .f32⟩ : BufTy).Contents (Elt F) → (⟨S128x128, .f32⟩ : BufTy).Contents (Elt F)),
    StableHlo.binary main_v10 main_v11 main_v12 ((fun l r => Host.dotGeneral dot_S819200x128_S128x128_S819200x128_1_0_0_1_n_n none l r) : (⟨S819200x128, .f32⟩ : BufTy).Contents (Elt F) → (⟨S128x128, .f32⟩ : BufTy).Contents (Elt F) → (⟨S819200x128, .f32⟩ : BufTy).Contents (Elt F)),
    StableHlo.unary main_v6 main_v13 (broadcastInDim S819200x1 ![0] bcast_S819200_S819200x1_0 : (⟨S819200, .i1⟩ : BufTy).Contents (Elt F) → (⟨S819200x1, .i1⟩ : BufTy).Contents (Elt F)),
    StableHlo.nullary main_cst_4 (constant S_ .f32 0x00000000#32),
    StableHlo.TRef.unary (StableHlo.TRef.of main_cst_4 : StableHlo.TRef sig ⟨S_, .f32⟩) main_call2.v0 id,
    StableHlo.TRef.unary (StableHlo.TRef.of main_v13 : StableHlo.TRef sig ⟨S819200x1, .i1⟩) main_call2.v1 (broadcastInDim S819200x128 ![0, 1] bcast_S819200x1_S819200x128_0_1),
    StableHlo.TRef.unary main_call2.v0 main_call2.v2 (broadcastInDim S819200x128 ![] bcast_S_S819200x128),
    StableHlo.TRef.ternary main_call2.v1 (StableHlo.TRef.of main_v12 : StableHlo.TRef sig ⟨S819200x128, .f32⟩) main_call2.v2 main_call2.v3 select,
    StableHlo.binary main_v1 main_v14 main_v15 (addf : (⟨S819200x128, .f32⟩ : BufTy).Contents (Elt F) → (⟨S819200x128, .f32⟩ : BufTy).Contents (Elt F) → (⟨S819200x128, .f32⟩ : BufTy).Contents (Elt F)),
    StableHlo.nullary main_c_5 (constantI S_ 32 20000#32),
    StableHlo.unary main_c_5 main_v16 (broadcastInDim S819200 ![] bcast_S_S819200 : (⟨S_, .i32⟩ : BufTy).Contents (Elt F) → (⟨S819200, .i32⟩ : BufTy).Contents (Elt F)),
    StableHlo.binary main_v0 main_v16 main_v17 (cmpi .sge : (⟨S819200, .i32⟩ : BufTy).Contents (Elt F) → (⟨S819200, .i32⟩ : BufTy).Contents (Elt F) → (⟨S819200, .i1⟩ : BufTy).Contents (Elt F)),
    StableHlo.nullary main_c_6 (constantI S_ 32 100000#32),
    StableHlo.unary main_c_6 main_v18 (broadcastInDim S819200 ![] bcast_S_S819200 : (⟨S_, .i32⟩ : BufTy).Contents (Elt F) → (⟨S819200, .i32⟩ : BufTy).Contents (Elt F)),
    StableHlo.binary main_v0 main_v18 main_v19 (cmpi .slt : (⟨S819200, .i32⟩ : BufTy).Contents (Elt F) → (⟨S819200, .i32⟩ : BufTy).Contents (Elt F) → (⟨S819200, .i1⟩ : BufTy).Contents (Elt F)),
    StableHlo.binary main_v17 main_v19 main_v20 (andi : (⟨S819200, .i1⟩ : BufTy).Contents (Elt F) → (⟨S819200, .i1⟩ : BufTy).Contents (Elt F) → (⟨S819200, .i1⟩ : BufTy).Contents (Elt F)),
    StableHlo.nullary main_c_7 (constantI S_ 32 20000#32),
    StableHlo.unary main_c_7 main_v21 (broadcastInDim S819200 ![] bcast_S_S819200 : (⟨S_, .i32⟩ : BufTy).Contents (Elt F) → (⟨S819200, .i32⟩ : BufTy).Contents (Elt F)),
    StableHlo.binary main_v0 main_v21 main_v22 (subi : (⟨S819200, .i32⟩ : BufTy).Contents (Elt F) → (⟨S819200, .i32⟩ : BufTy).Contents (Elt F) → (⟨S819200, .i32⟩ : BufTy).Contents (Elt F)),
    StableHlo.nullary main_c_8 (constantI S_ 32 0#32),
    StableHlo.nullary main_c_9 (constantI S_ 32 79999#32),
    StableHlo.TRef.unary (StableHlo.TRef.of main_c_8 : StableHlo.TRef sig ⟨S_, .i32⟩) main_call3.v0 id,
    StableHlo.TRef.unary main_call3.v0 main_call3.v1 (broadcastInDim S819200 ![] bcast_S_S819200),
    StableHlo.TRef.binary main_call3.v1 (StableHlo.TRef.of main_v22 : StableHlo.TRef sig ⟨S819200, .i32⟩) main_call3.v2 maxsi,
    StableHlo.TRef.unary (StableHlo.TRef.of main_c_9 : StableHlo.TRef sig ⟨S_, .i32⟩) main_call3.v3 id,
    StableHlo.TRef.unary main_call3.v3 main_call3.v4 (broadcastInDim S819200 ![] bcast_S_S819200),
    StableHlo.TRef.binary main_call3.v4 main_call3.v2 main_call3.v5 minsi,
    StableHlo.TRef.nullary main_call4.c (constantI S_ 32 0#32),
    StableHlo.TRef.unary main_call4.c main_call4.v0 (broadcastInDim S819200 ![] bcast_S_S819200),
    StableHlo.TRef.binary (StableHlo.TRef.of main_v23 : StableHlo.TRef sig ⟨S819200, .i32⟩) main_call4.v0 main_call4.v1 (cmpi .slt),
    StableHlo.TRef.nullary main_call4.c_0 (constantI S_ 32 80000#32),
    StableHlo.TRef.unary main_call4.c_0 main_call4.v2 (broadcastInDim S819200 ![] bcast_S_S819200),
    StableHlo.TRef.binary (StableHlo.TRef.of main_v23 : StableHlo.TRef sig ⟨S819200, .i32⟩) main_call4.v2 main_call4.v3 addi,
    StableHlo.TRef.ternary main_call4.v1 main_call4.v3 (StableHlo.TRef.of main_v23 : StableHlo.TRef sig ⟨S819200, .i32⟩) main_call4.call0.v0 select,
    StableHlo.TRef.unary main_call4.call0.v0 main_call4.v5 (broadcastInDim S819200x1 ![0] bcast_S819200_S819200x1_0),
    StableHlo.TRef.nullary main_call4.c_1 (constantI S1 32 79999#32),
    StableHlo.TRef.nullary main_call4.c_2 (constantI S_ 32 0#32),
    StableHlo.TRef.unary main_call4.c_2 main_call4.v6 (broadcastInDim S819200x1 ![] bcast_S_S819200x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S819200x1 ![0, 1] bcast_S1x1_S819200x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S819200x1_S819200_d1 h_S_),
    StableHlo.TRef.binary (StableHlo.TRef.of main_arg2 : StableHlo.TRef sig ⟨S80000x32, .f32⟩) main_call4.v5 main_call4.v13 (fun x i => Host.gather gather_S80000x32_S819200x1_S819200x32_1_0_n_n_0_1_132 x i),
    StableHlo.TRef.unary main_call4.v12 main_call4.v14 (broadcastInDim S819200x32 ![0] bcast_S819200_S819200x32_0),
    StableHlo.TRef.nullary main_call4.cst (constant S_ .f32 0x7FC00000#32),
    StableHlo.TRef.unary main_call4.cst main_call4.v15 (broadcastInDim S819200x32 ![] bcast_S_S819200x32),
    StableHlo.TRef.ternary main_call4.v14 main_call4.v13 main_call4.v15 main_call4.v16 select,
    StableHlo.unary main_arg5 main_v25 ((transpose S32x128 [1, 0] · transposes_S128x32_S32x128_1_0) : (⟨S128x32, .f32⟩ : BufTy).Contents (Elt F) → (⟨S32x128, .f32⟩ : BufTy).Contents (Elt F)),
    StableHlo.binary main_v24 main_v25 main_v26 ((fun l r => Host.dotGeneral dot_S819200x32_S32x128_S819200x128_1_0_0_1_n_n none l r) : (⟨S819200x32, .f32⟩ : BufTy).Contents (Elt F) → (⟨S32x128, .f32⟩ : BufTy).Contents (Elt F) → (⟨S819200x128, .f32⟩ : BufTy).Contents (Elt F)),
    StableHlo.unary main_v20 main_v27 (broadcastInDim S819200x1 ![0] bcast_S819200_S819200x1_0 : (⟨S819200, .i1⟩ : BufTy).Contents (Elt F) → (⟨S819200x1, .i1⟩ : BufTy).Contents (Elt F)),
    StableHlo.nullary main_cst_10 (constant S_ .f32 0x00000000#32),
    StableHlo.TRef.unary (StableHlo.TRef.of main_cst_10 : StableHlo.TRef sig ⟨S_, .f32⟩) main_call5.v0 id,
    StableHlo.TRef.unary (StableHlo.TRef.of main_v27 : StableHlo.TRef sig ⟨S819200x1, .i1⟩) main_call5.v1 (broadcastInDim S819200x128 ![0, 1] bcast_S819200x1_S819200x128_0_1),
    StableHlo.TRef.unary main_call5.v0 main_call5.v2 (broadcastInDim S819200x128 ![] bcast_S_S819200x128),
    StableHlo.TRef.ternary main_call5.v1 (StableHlo.TRef.of main_v26 : StableHlo.TRef sig ⟨S819200x128, .f32⟩) main_call5.v2 main_call5.v3 select,
    StableHlo.binary main_v15 main_v28 main_v29 (addf : (⟨S819200x128, .f32⟩ : BufTy).Contents (Elt F) → (⟨S819200x128, .f32⟩ : BufTy).Contents (Elt F) → (⟨S819200x128, .f32⟩ : BufTy).Contents (Elt F)),
    StableHlo.nullary main_c_11 (constantI S_ 32 100000#32),
    StableHlo.unary main_c_11 main_v30 (broadcastInDim S819200 ![] bcast_S_S819200 : (⟨S_, .i32⟩ : BufTy).Contents (Elt F) → (⟨S819200, .i32⟩ : BufTy).Contents (Elt F)),
    StableHlo.binary main_v0 main_v30 main_v31 (cmpi .sge : (⟨S819200, .i32⟩ : BufTy).Contents (Elt F) → (⟨S819200, .i32⟩ : BufTy).Contents (Elt F) → (⟨S819200, .i1⟩ : BufTy).Contents (Elt F)),
    StableHlo.nullary main_c_12 (constantI S_ 32 1000000#32),
    StableHlo.unary main_c_12 main_v32 (broadcastInDim S819200 ![] bcast_S_S819200 : (⟨S_, .i32⟩ : BufTy).Contents (Elt F) → (⟨S819200, .i32⟩ : BufTy).Contents (Elt F)),
    StableHlo.binary main_v0 main_v32 main_v33 (cmpi .slt : (⟨S819200, .i32⟩ : BufTy).Contents (Elt F) → (⟨S819200, .i32⟩ : BufTy).Contents (Elt F) → (⟨S819200, .i1⟩ : BufTy).Contents (Elt F)),
    StableHlo.binary main_v31 main_v33 main_v34 (andi : (⟨S819200, .i1⟩ : BufTy).Contents (Elt F) → (⟨S819200, .i1⟩ : BufTy).Contents (Elt F) → (⟨S819200, .i1⟩ : BufTy).Contents (Elt F)),
    StableHlo.nullary main_c_13 (constantI S_ 32 100000#32),
    StableHlo.unary main_c_13 main_v35 (broadcastInDim S819200 ![] bcast_S_S819200 : (⟨S_, .i32⟩ : BufTy).Contents (Elt F) → (⟨S819200, .i32⟩ : BufTy).Contents (Elt F)),
    StableHlo.binary main_v0 main_v35 main_v36 (subi : (⟨S819200, .i32⟩ : BufTy).Contents (Elt F) → (⟨S819200, .i32⟩ : BufTy).Contents (Elt F) → (⟨S819200, .i32⟩ : BufTy).Contents (Elt F)),
    StableHlo.nullary main_c_14 (constantI S_ 32 0#32),
    StableHlo.nullary main_c_15 (constantI S_ 32 899999#32),
    StableHlo.TRef.unary (StableHlo.TRef.of main_c_14 : StableHlo.TRef sig ⟨S_, .i32⟩) main_call6.v0 id,
    StableHlo.TRef.unary main_call6.v0 main_call6.v1 (broadcastInDim S819200 ![] bcast_S_S819200),
    StableHlo.TRef.binary main_call6.v1 (StableHlo.TRef.of main_v36 : StableHlo.TRef sig ⟨S819200, .i32⟩) main_call6.v2 maxsi,
    StableHlo.TRef.unary (StableHlo.TRef.of main_c_15 : StableHlo.TRef sig ⟨S_, .i32⟩) main_call6.v3 id,
    StableHlo.TRef.unary main_call6.v3 main_call6.v4 (broadcastInDim S819200 ![] bcast_S_S819200),
    StableHlo.TRef.binary main_call6.v4 main_call6.v2 main_call6.v5 minsi,
    StableHlo.TRef.nullary main_call7.c (constantI S_ 32 0#32),
    StableHlo.TRef.unary main_call7.c main_call7.v0 (broadcastInDim S819200 ![] bcast_S_S819200),
    StableHlo.TRef.binary (StableHlo.TRef.of main_v37 : StableHlo.TRef sig ⟨S819200, .i32⟩) main_call7.v0 main_call7.v1 (cmpi .slt),
    StableHlo.TRef.nullary main_call7.c_0 (constantI S_ 32 900000#32),
    StableHlo.TRef.unary main_call7.c_0 main_call7.v2 (broadcastInDim S819200 ![] bcast_S_S819200),
    StableHlo.TRef.binary (StableHlo.TRef.of main_v37 : StableHlo.TRef sig ⟨S819200, .i32⟩) main_call7.v2 main_call7.v3 addi,
    StableHlo.TRef.ternary main_call7.v1 main_call7.v3 (StableHlo.TRef.of main_v37 : StableHlo.TRef sig ⟨S819200, .i32⟩) main_call7.call0.v0 select,
    StableHlo.TRef.unary main_call7.call0.v0 main_call7.v5 (broadcastInDim S819200x1 ![0] bcast_S819200_S819200x1_0),
    StableHlo.TRef.nullary main_call7.c_1 (constantI S1 32 899999#32),
    StableHlo.TRef.nullary main_call7.c_2 (constantI S_ 32 0#32),
    StableHlo.TRef.unary main_call7.c_2 main_call7.v6 (broadcastInDim S819200x1 ![] bcast_S_S819200x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S819200x1 ![0, 1] bcast_S1x1_S819200x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S819200x1_S819200_d1 h_S_),
    StableHlo.TRef.binary (StableHlo.TRef.of main_arg3 : StableHlo.TRef sig ⟨S900000x8, .f32⟩) main_call7.v5 main_call7.v13 (fun x i => Host.gather gather_S900000x8_S819200x1_S819200x8_1_0_n_n_0_1_18 x i),
    StableHlo.TRef.unary main_call7.v12 main_call7.v14 (broadcastInDim S819200x8 ![0] bcast_S819200_S819200x8_0),
    StableHlo.TRef.nullary main_call7.cst (constant S_ .f32 0x7FC00000#32),
    StableHlo.TRef.unary main_call7.cst main_call7.v15 (broadcastInDim S819200x8 ![] bcast_S_S819200x8),
    StableHlo.TRef.ternary main_call7.v14 main_call7.v13 main_call7.v15 main_call7.v16 select,
    StableHlo.unary main_arg6 main_v39 ((transpose S8x128 [1, 0] · transposes_S128x8_S8x128_1_0) : (⟨S128x8, .f32⟩ : BufTy).Contents (Elt F) → (⟨S8x128, .f32⟩ : BufTy).Contents (Elt F)),
    StableHlo.binary main_v38 main_v39 main_v40 ((fun l r => Host.dotGeneral dot_S819200x8_S8x128_S819200x128_1_0_0_1_n_n none l r) : (⟨S819200x8, .f32⟩ : BufTy).Contents (Elt F) → (⟨S8x128, .f32⟩ : BufTy).Contents (Elt F) → (⟨S819200x128, .f32⟩ : BufTy).Contents (Elt F)),
    StableHlo.unary main_v34 main_v41 (broadcastInDim S819200x1 ![0] bcast_S819200_S819200x1_0 : (⟨S819200, .i1⟩ : BufTy).Contents (Elt F) → (⟨S819200x1, .i1⟩ : BufTy).Contents (Elt F)) ]

/-- The operations of @main's second printed part, in order. -/
abbrev ops1 : List (HloOp τ sig (Elt F)) :=
  [ StableHlo.nullary main_cst_16 (constant S_ .f32 0x00000000#32),
    StableHlo.TRef.unary (StableHlo.TRef.of main_cst_16 : StableHlo.TRef sig ⟨S_, .f32⟩) main_call8.v0 id,
    StableHlo.TRef.unary (StableHlo.TRef.of main_v41 : StableHlo.TRef sig ⟨S819200x1, .i1⟩) main_call8.v1 (broadcastInDim S819200x128 ![0, 1] bcast_S819200x1_S819200x128_0_1),
    StableHlo.TRef.unary main_call8.v0 main_call8.v2 (broadcastInDim S819200x128 ![] bcast_S_S819200x128),
    StableHlo.TRef.ternary main_call8.v1 (StableHlo.TRef.of main_v40 : StableHlo.TRef sig ⟨S819200x128, .f32⟩) main_call8.v2 main_call8.v3 select,
    StableHlo.binary main_v29 main_v42 main_v43 (addf : (⟨S819200x128, .f32⟩ : BufTy).Contents (Elt F) → (⟨S819200x128, .f32⟩ : BufTy).Contents (Elt F) → (⟨S819200x128, .f32⟩ : BufTy).Contents (Elt F)),
    StableHlo.reshape main_v43 main_v44 rfl shapeCasts_S819200x128_S4096x200x128,
    StableHlo.nullary main_cst_17 (constant S_ .f32 0x413504F3#32),
    StableHlo.unary main_cst_17 main_v45 (broadcastInDim S4096x200x128 ![] bcast_S_S4096x200x128 : (⟨S_, .f32⟩ : BufTy).Contents (Elt F) → (⟨S4096x200x128, .f32⟩ : BufTy).Contents (Elt F)),
    StableHlo.binary main_v44 main_v45 main_v46 (mulf : (⟨S4096x200x128, .f32⟩ : BufTy).Contents (Elt F) → (⟨S4096x200x128, .f32⟩ : BufTy).Contents (Elt F) → (⟨S4096x200x128, .f32⟩ : BufTy).Contents (Elt F)) ]

end Cert.ReferenceIdeal.RefRun

end
-- ==== Proof.RefRun.lean ====
/-
  The reference program's run, read back.

  @main of the reference is a straight line of 157 host operations (its calls of `clip`, `_take`, `_where` and
  `_where_0` stand for their bodies' operations over each call's own buffers), so its run is the fold of those
  operations over the launch contents: every weakly fair execution terminates, each argument array is left as it was,
  and the result array holds the operations' composed pure term `out` of the seven argument arrays.

  The term, for the flattened ids `t` (819200 of them): per cluster `i` with bounds `[l_i, r_i)` and table `W_i` of
  `n_i = r_i - l_i` rows, the mask `l_i ≤ t < r_i`; the local index `t - l_i` clipped into `[0, n_i - 1]`; the rows of
  `W_i` at those indices (`_take`: a negative index is first moved up by `n_i`, an index still out of range reads a
  NaN pattern instead of the row); their contraction with the transposed projection `P_i`; the result kept where the
  mask holds and `0` elsewhere. The three are added onto zeros, reshaped to `[4096, 200, 128]` and multiplied by the
  scale word.
-/
import proofs.«202745_g55851754717770_cont_9to1_m_910_12_alg».proof.Proof.RefOps
import proofs.«202745_g55851754717770_cont_9to1_m_910_12_alg».proof.Defs

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-! ## The result as a pure term of the arguments -/

/-- The ids as one row of 819200. -/
def flat (a0 : IVec S4096x200 32) : IVec S819200 32 := shapeCast S819200 a0 shapeCasts_S4096x200_S819200

/-- A word at every one of the 819200 positions. -/
def splatI (n : BitVec 32) : IVec S819200 32 := broadcastInDim S819200 ![] bcast_S_S819200 (constantI S_ 32 n)

/-- The mask of a cluster: `lo ≤ t < hi`, signed. -/
def mask (lo hi : BitVec 32) (t : IVec S819200 32) : IVec S819200 1 :=
  andi (cmpi .sge t (splatI lo)) (cmpi .slt t (splatI hi))

/-- `clip x 0 last`: the maximum with `0`, then the minimum with `last`, signed. -/
def clipTo (last : BitVec 32) (x : IVec S819200 32) : IVec S819200 32 :=
  minsi (broadcastInDim S819200 ![] bcast_S_S819200 (constantI S_ 32 last))
    (maxsi (broadcastInDim S819200 ![] bcast_S_S819200 (constantI S_ 32 0#32)) x)

/-- A cluster's local index: `t - lo`, clipped into `[0, last]`. -/
def localIdx (lo last : BitVec 32) (t : IVec S819200 32) : IVec S819200 32 := clipTo last (subi t (splatI lo))

/-- `_take`'s first step: a negative index is moved up by the number of rows. -/
def wrap (n : BitVec 32) (x : IVec S819200 32) : IVec S819200 32 :=
  select (cmpi .slt x (splatI 0#32)) (addi x (splatI n)) x

/-- The indices as a column `[819200, 1]`. -/
def col (x : IVec S819200 32) : IVec S819200x1 32 := broadcastInDim S819200x1 ![0] bcast_S819200_S819200x1_0 x

/-- `_take`'s test that an index column lies in `[0, last]`, reduced over the unit axis. -/
def inRange (last : BitVec 32) (c : IVec S819200x1 32) : IVec S819200 1 :=
  Host.reduce IntOp.andi
    (andi (cmpi .sge c (broadcastInDim S819200x1 ![] bcast_S_S819200x1 (constantI S_ 32 0#32)))
      (cmpi .sle c (broadcastInDim S819200x1 ![0, 1] bcast_S1x1_S819200x1_0_1
        (broadcastInDim S1x1 ![1] bcast_S1_S1x1_1 (constantI S1 32 last)))))
    (constantI S_ 1 1#1) reducesTo_S819200x1_S819200_d1 h_S_

/-- `_take` on the first table. -/
def take0 (W : FVec F S20000x128 .f32) (x : IVec S819200 32) : FVec F S819200x128 .f32 :=
  select (broadcastInDim S819200x128 ![0] bcast_S819200_S819200x128_0 (inRange 19999#32 (col (wrap 20000#32 x))))
    (Host.gather gather_S20000x128_S819200x1_S819200x128_1_0_n_n_0_1_1128 W (col (wrap 20000#32 x)))
    (broadcastInDim S819200x128 ![] bcast_S_S819200x128 (constant (F := F) S_ .f32 0x7FC00000#32))

/-- `_take` on the second table. -/
def take1 (W : FVec F S80000x32 .f32) (x : IVec S819200 32) : FVec F S819200x32 .f32 :=
  select (broadcastInDim S819200x32 ![0] bcast_S819200_S819200x32_0 (inRange 79999#32 (col (wrap 80000#32 x))))
    (Host.gather gather_S80000x32_S819200x1_S819200x32_1_0_n_n_0_1_132 W (col (wrap 80000#32 x)))
    (broadcastInDim S819200x32 ![] bcast_S_S819200x32 (constant (F := F) S_ .f32 0x7FC00000#32))

/-- `_take` on the third table. -/
def take2 (W : FVec F S900000x8 .f32) (x : IVec S819200 32) : FVec F S819200x8 .f32 :=
  select (broadcastInDim S819200x8 ![0] bcast_S819200_S819200x8_0 (inRange 899999#32 (col (wrap 900000#32 x))))
    (Host.gather gather_S900000x8_S819200x1_S819200x8_1_0_n_n_0_1_18 W (col (wrap 900000#32 x)))
    (broadcastInDim S819200x8 ![] bcast_S_S819200x8 (constant (F := F) S_ .f32 0x7FC00000#32))

/-- `where(mask[:, None], x, 0.0)`. -/
def where0 (m : IVec S819200 1) (x : FVec F S819200x128 .f32) : FVec F S819200x128 .f32 :=
  select (broadcastInDim S819200x128 ![0, 1] bcast_S819200x1_S819200x128_0_1
      (broadcastInDim S819200x1 ![0] bcast_S819200_S819200x1_0 m)) x
    (broadcastInDim S819200x128 ![] bcast_S_S819200x128 (constant (F := F) S_ .f32 0x00000000#32))

/-- The first cluster's rows against its transposed projection. -/
def emb0 (W : FVec F S20000x128 .f32) (P : FVec F S128x128 .f32) (t : IVec S819200 32) : FVec F S819200x128 .f32 :=
  Host.dotGeneral dot_S819200x128_S128x128_S819200x128_1_0_0_1_n_n none (take0 W (localIdx 0#32 19999#32 t))
    (transpose S128x128 [1, 0] P transposes_S128x128_S128x128_1_0)

/-- The second cluster's. -/
def emb1 (W : FVec F S80000x32 .f32) (P : FVec F S128x32 .f32) (t : IVec S819200 32) : FVec F S819200x128 .f32 :=
  Host.dotGeneral dot_S819200x32_S32x128_S819200x128_1_0_0_1_n_n none (take1 W (localIdx 20000#32 79999#32 t))
    (transpose S32x128 [1, 0] P transposes_S128x32_S32x128_1_0)

/-- The third cluster's. -/
def emb2 (W : FVec F S900000x8 .f32) (P : FVec F S128x8 .f32) (t : IVec S819200 32) : FVec F S819200x128 .f32 :=
  Host.dotGeneral dot_S819200x8_S8x128_S819200x128_1_0_0_1_n_n none (take2 W (localIdx 100000#32 899999#32 t))
    (transpose S8x128 [1, 0] P transposes_S128x8_S8x128_1_0)

/-- The three masked clusters added onto zeros, over the flattened ids `t`. -/
def acc (t : IVec S819200 32) (a1 : FVec F S20000x128 .f32) (a2 : FVec F S80000x32 .f32) (a3 : FVec F S900000x8 .f32)
    (a4 : FVec F S128x128 .f32) (a5 : FVec F S128x32 .f32) (a6 : FVec F S128x8 .f32) : FVec F S819200x128 .f32 :=
  addf (addf (addf (broadcastInDim S819200x128 ![] bcast_S_S819200x128 (constant (F := F) S_ .f32 0x00000000#32))
        (where0 (mask 0#32 20000#32 t) (emb0 a1 a4 t)))
      (where0 (mask 20000#32 100000#32 t) (emb1 a2 a5 t)))
    (where0 (mask 100000#32 1000000#32 t) (emb2 a3 a6 t))

/-- The reference's result as a pure term of its seven argument arrays. -/
def out (a0 : IVec S4096x200 32) (a1 : FVec F S20000x128 .f32) (a2 : FVec F S80000x32 .f32) (a3 : FVec F S900000x8 .f32)
    (a4 : FVec F S128x128 .f32) (a5 : FVec F S128x32 .f32) (a6 : FVec F S128x8 .f32) : FVec F S4096x200x128 .f32 :=
  mulf (shapeCast S4096x200x128 (acc (flat a0) a1 a2 a3 a4 a5 a6) shapeCasts_S819200x128_S4096x200x128)
    (broadcastInDim S4096x200x128 ![] bcast_S_S4096x200x128 (constant (F := F) S_ .f32 0x413504F3#32))

/-! ## @main is the straight line of its operations -/

set_option maxRecDepth 8192 in
/-- The first printed part: the callees' bodies unfolded at their calls, the sequencing reassociated. -/
theorem part0_eq (c : Dev nD) : main_part0 (F := F) c = seq ops0 := by
  simp only [main_part0, fn_clip.body, fn_where.body, fn_take.body, fn_where_0.body, fn_take_1.body, fn_take_2.body,
    seq, bind_assoc, pure_bind]
  rfl

set_option maxRecDepth 8192 in
/-- The second printed part. -/
theorem part1_eq (c : Dev nD) : main_part1 (F := F) c = seq ops1 := by
  simp only [main_part1, fn_where_0.body, seq, bind_assoc, pure_bind]

/-- @main runs its two parts in order: the two lists, concatenated. -/
theorem main_eq (c : Dev nD) : main (F := F) c = seq (ops0 ++ ops1) := by
  rw [seq_append, ← part0_eq c, ← part1_eq c]
  rfl

/-! ## The run -/

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches TensorCore buffers only. -/
theorem ops_sub : ((ops0 ++ ops1 : List (HloOp τ sig (Elt F)))).Forall fun op => op.bufs ⊆ tcRefs τ sig := by
  simp only [ops0, ops1, List.cons_append, List.nil_append, List.forall_cons, List.Forall, nullary_bufs_sub, unary_bufs_sub,
    binary_bufs_sub, ternary_bufs_sub, reshape_bufs_sub, and_self]

/-- Contents moved to a typed reference's own buffer type and back are the contents. -/
theorem ofBuf_toBuf {T : BufTy} {Val : EltTy → Type} (x : TRef sig T) (v : T.Contents Val) : x.ofBuf (x.toBuf v) = v := by
  obtain ⟨r, h, _, _⟩ := x
  subst h
  rfl

/-- The same the other way round. -/
theorem toBuf_ofBuf {T : BufTy} {Val : EltTy → Type} (x : TRef sig T) (v : x.ref.ty.Contents Val) : x.toBuf (x.ofBuf v) = v := by
  obtain ⟨r, h, _, _⟩ := x
  subst h
  rfl

attribute [local irreducible] Host.reduce Host.gather in
set_option maxRecDepth 16384 in
set_option maxHeartbeats 4000000 in
/-- The fold at the result buffer is `out` of the arguments' contents: each operation's result at its own buffer is
    its function of its operands' contents, and at any other buffer what was there. -/
theorem out_eq (V : Valuation τ sig (Elt F)) :
    after (ops0 ++ ops1) V (main_v46 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [ops0, ops1, List.cons_append, List.nil_append]
  after_results_simp
  simp only [ofBuf_toBuf, toBuf_ofBuf]
  rfl

/-- No operation writes argument 0. -/
theorem arg0_eq (V : Valuation τ sig (Elt F)) :
    after (ops0 ++ ops1) V (main_arg0 : DevRef τ sig) = V (main_arg0 : DevRef τ sig) := by
  simp only [ops0, ops1, List.cons_append, List.nil_append]
  after_results_simp

/-- No operation writes argument 1. -/
theorem arg1_eq (V : Valuation τ sig (Elt F)) :
    after (ops0 ++ ops1) V (main_arg1 : DevRef τ sig) = V (main_arg1 : DevRef τ sig) := by
  simp only [ops0, ops1, List.cons_append, List.nil_append]
  after_results_simp

/-- No operation writes argument 2. -/
theorem arg2_eq (V : Valuation τ sig (Elt F)) :
    after (ops0 ++ ops1) V (main_arg2 : DevRef τ sig) = V (main_arg2 : DevRef τ sig) := by
  simp only [ops0, ops1, List.cons_append, List.nil_append]
  after_results_simp

/-- No operation writes argument 3. -/
theorem arg3_eq (V : Valuation τ sig (Elt F)) :
    after (ops0 ++ ops1) V (main_arg3 : DevRef τ sig) = V (main_arg3 : DevRef τ sig) := by
  simp only [ops0, ops1, List.cons_append, List.nil_append]
  after_results_simp

/-- No operation writes argument 4. -/
theorem arg4_eq (V : Valuation τ sig (Elt F)) :
    after (ops0 ++ ops1) V (main_arg4 : DevRef τ sig) = V (main_arg4 : DevRef τ sig) := by
  simp only [ops0, ops1, List.cons_append, List.nil_append]
  after_results_simp

/-- No operation writes argument 5. -/
theorem arg5_eq (V : Valuation τ sig (Elt F)) :
    after (ops0 ++ ops1) V (main_arg5 : DevRef τ sig) = V (main_arg5 : DevRef τ sig) := by
  simp only [ops0, ops1, List.cons_append, List.nil_append]
  after_results_simp

/-- No operation writes argument 6. -/
theorem arg6_eq (V : Valuation τ sig (Elt F)) :
    after (ops0 ++ ops1) V (main_arg6 : DevRef τ sig) = V (main_arg6 : DevRef τ sig) := by
  simp only [ops0, ops1, List.cons_append, List.nil_append]
  after_results_simp

/-- On every device, for any float values, from any memory with zero counters: every weakly fair execution of @main
    terminates with the result array at `out` of the argument arrays and each argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops0 ++ ops1) main_eq (fun _ => ops_sub) m ρ)

/-- The reference's frame: its run with the result dropped. -/
theorem frame [Cert.Pre_input_domain.Facts] : Cert.frame_ReferenceIdeal :=
  fun m ρ _ => (θ_run (defs (F := Ideal)) _ _).mono (fun _ h c => (h c).2) (run (F := Ideal) m ρ)

end Cert.ReferenceIdeal.RefRun

end
-- ==== Proof.LibGatherRows.lean ====
/-
  Rows of a table picked by a column of integers: what `table[idx]` lowers to for a table `[N, C]` and start indices
  `[E, 1]` — a gather whose one collapsed axis is the row axis, whose one offset axis is the column axis, and whose slice
  is one whole row.  Result entry `(e, j)` is the table's entry `(r, j)`, where `r` is the start index `idx[e, 0]` read as
  a signed integer and clamped into `[0, N − 1]`: the row depends on `e` alone, the column is kept.
-/
import Idealize.ShloMosaic.Lib.ValueIdx

noncomputable section

namespace LibGatherRows

open Idealize.ShloMosaic Idealize.ShloMosaic.ValueIdx

variable {α : Type}

/-- The dimension numbers of a row gather from `[N, C]` by start indices `[E, 1]` into `[E, C]`; their conditions are
    decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of an `N`-row table that start index `idx[e, 0]` names: read signed, clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, j)`: the table at row `rowOf … e`, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowOf N hN idx e) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    have hs : (rowDims N E C wf).start (ix2 e j) idx 1 = 0 := by
      unfold GatherDims.start
      rw [dif_neg (show ¬ (1 : Fin 2) ∈ ([0] : List (Fin 2)) by decide)]
    rw [hs]
    have hk : (1 : Fin 2) ∈ (rowDims N E C wf).sKept :=
      ((rowDims N E C wf).mem_sKept 1).mpr ⟨(show ¬ (1 : Fin 2) ∈ ([0] : List (Fin 2)) by decide), List.not_mem_nil⟩
    unfold GatherDims.offCoord
    rw [dif_pos hk]
    simp only [Nat.add_zero, Nat.zero_add]
    rfl

end LibGatherRows

end
-- ==== Proof.RefValue.lean ====
/-
  The reference's value, index by index, at the extended reals.

  The reference's result term `out` is read at an index `(b, s, j)` stage by stage. With `t` the id at `(b, s)`:
  the reshape puts `(b, s)` at position `200 b + s` of the flattened row; a cluster's mask is `1` exactly when
  `l ≤ t < r`, signed; `clip` lands in `[0, n - 1]` whatever it is given, so `_take`'s wrap of negative indices is the
  identity, its range test passes at every position, and its result is the table's row at the clipped index, which
  inside the cluster is `t - l`; the contraction with the transposed projection is `Σ_k W[t - l, k] * P[j, k]`;
  `where` keeps that for the one cluster whose mask holds and puts `0` for the other two. So the entry is
  `(Σ_k W[t - l, k] * P[j, k]) * c`, and for real entries that is `Σ_k W[t - l, k] * (P[j, k] * c)`, the specification.
-/
import proofs.«202745_g55851754717770_cont_9to1_m_910_12_alg».proof.Proof.RefRun
import proofs.«202745_g55851754717770_cont_9to1_m_910_12_alg».proof.Proof.Spec
import proofs.«202745_g55851754717770_cont_9to1_m_910_12_alg».proof.Proof.LibGatherRows
import Idealize.ShloMosaic.Lib.Pipeline.Value
import Idealize.ShloMosaic.Lib.ValueLayout
import Idealize.ShloMosaic.Lib.Affine
import Idealize.ShloMosaic.Lib.StackMember
import Idealize.ShloMosaic.PureOps.Ideal.Laws

noncomputable section

open scoped BigOperators

namespace Cert.ReferenceIdeal.RefValue

open Cert.ReferenceIdeal Cert.ReferenceIdeal.Facts₀ Cert.ReferenceIdeal.RefRun Idealize.ShloMosaic Idealize.ShloMosaic.ValueIdx

variable [Cert.ReferenceIdeal.Facts]

/-! ## Signed 32-bit words -/

/-- A word below 2^31 reads the same signed and unsigned. -/
theorem toInt_of_small (x : BitVec 32) (h : x.toNat < 2147483648) : x.toInt = (x.toNat : Int) := by
  have hc := BitVec.toInt_eq_toNat_cond x
  split at hc <;> omega

/-- `clip x 0 last` lies in `[0, last]`, whatever `x`. -/
theorem clip_bounds (last x : BitVec 32) (hl : 0 ≤ last.toInt) :
    0 ≤ (IntOp.minsi last (IntOp.maxsi 0#32 x)).toInt ∧ (IntOp.minsi last (IntOp.maxsi 0#32 x)).toInt ≤ last.toInt := by
  have z : (0#32 : BitVec 32).toInt = 0 := by decide
  unfold IntOp.minsi IntOp.maxsi
  by_cases h1 : x.slt 0#32 = true
  · rw [if_pos h1]
    by_cases h2 : last.slt 0#32 = true
    · rw [if_pos h2]; exact ⟨hl, le_refl _⟩
    · rw [if_neg h2]; exact ⟨by rw [z], by rw [z]; exact hl⟩
  · rw [if_neg h1]
    have h1' : ¬ x.toInt < (0#32 : BitVec 32).toInt := fun h => h1 (BitVec.slt_iff_toInt_lt.2 h)
    rw [z] at h1'
    by_cases h2 : last.slt x = true
    · rw [if_pos h2]; exact ⟨hl, le_refl _⟩
    · rw [if_neg h2]
      have h2' : ¬ last.toInt < x.toInt := fun h => h2 (BitVec.slt_iff_toInt_lt.2 h)
      omega

/-- In range, `clip` is the identity. -/
theorem clip_val (last x : BitVec 32) (h0 : 0 ≤ x.toInt) (h1 : x.toInt ≤ last.toInt) :
    IntOp.minsi last (IntOp.maxsi 0#32 x) = x := by
  have z : (0#32 : BitVec 32).toInt = 0 := by decide
  unfold IntOp.minsi IntOp.maxsi
  have e1 : ¬ (x.slt 0#32 = true) := fun h => by
    have := BitVec.slt_iff_toInt_lt.1 h; rw [z] at this; omega
  rw [if_neg e1]
  have e2 : ¬ (last.slt x = true) := fun h => by
    have := BitVec.slt_iff_toInt_lt.1 h; omega
  rw [if_neg e2]

/-- A difference of small words that does not go below zero is the difference of the numbers. -/
theorem sub_toNat (t lo : BitVec 32) (h : lo.toNat ≤ t.toNat) : (IntOp.subi t lo).toNat = t.toNat - lo.toNat := by
  unfold IntOp.subi
  rw [BitVec.toNat_sub]
  have h1 := t.isLt
  have h2 := lo.isLt
  omega

/-! ## An `and`-reduction of ones -/

/-- A left fold by `and` from 1 over 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => by
    rw [List.foldl_cons]
    exact foldl_andi_ones f l _ (IntOp.andi_eq_one.2 ⟨hi, hf a List.mem_cons_self⟩)
      (fun n hn => hf n (List.mem_cons_of_mem _ hn))

/-- An `and`-reduction, from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  exact foldl_andi_ones (fun n => x (s.rowMajor.symm n)) _ _ (hi _) (fun n _ => hx _)

/-! ## The integer stages at a position -/

/-- Position `(b, s)` of the id table in the flattened row. -/
abbrev row (b : Fin 4096) (s : Fin 200) : Fin 819200 := ⟨b.val * 200 + s.val, by omega⟩

/-- The flattened ids at `row b s` are the ids at `(b, s)`. -/
theorem flat_apply (a0 : IVec S4096x200 32) (b : Fin 4096) (s : Fin 200) : flat a0 (ix1 (row b s)) = a0 (ix2 b s) := by
  unfold flat
  refine shapeCast_apply a0 _ _ _ ?_
  rw [Shape.rowMajor_val_two, Shape.rowMajor_val_one]
  rfl

theorem mask_apply (lo hi : BitVec 32) (t : IVec S819200 32) (i : S819200.Idx) :
    mask lo hi t i = IntOp.andi (IntOp.cmpi .sge (t i) lo) (IntOp.cmpi .slt (t i) hi) := rfl

theorem localIdx_apply (lo last : BitVec 32) (t : IVec S819200 32) (i : S819200.Idx) :
    localIdx lo last t i = IntOp.minsi last (IntOp.maxsi 0#32 (IntOp.subi (t i) lo)) := rfl

/-- A local index lies in `[0, last]` at every position. -/
theorem localIdx_bounds (lo last : BitVec 32) (hl : 0 ≤ last.toInt) (t : IVec S819200 32) (i : S819200.Idx) :
    0 ≤ (localIdx lo last t i).toInt ∧ (localIdx lo last t i).toInt ≤ last.toInt :=
  clip_bounds last _ hl

/-- `_take`'s first step does nothing to non-negative indices. -/
theorem wrap_of_nonneg (n : BitVec 32) (x : IVec S819200 32) (h : ∀ i, 0 ≤ (x i).toInt) : wrap n x = x := by
  funext i
  show Scalar.select (IntOp.cmpi .slt (x i) 0#32) (IntOp.addi (x i) n) (x i) = x i
  have e : IntOp.cmpi .slt (x i) 0#32 = 0#1 := eq_zero_of_ne_one fun h1 => by
    have h2 := IntOp.cmpi_slt.1 h1
    have z : (0#32 : BitVec 32).toInt = 0 := by decide
    rw [z] at h2
    have := h i
    omega
  rw [e, select_zero]

/-- The index column at `(e, 0)` is the index at `e`. -/
theorem col_apply (x : IVec S819200 32) (e : Fin 819200) (u : Fin 1) : col x (ix2 e u) = x (ix1 e) :=
  broadcastInDim_apply _ _ x _ _ (fun a => match a with | ⟨0, _⟩ => rfl)

/-- `_take`'s range test passes at every position when every index lies in `[0, last]`. -/
theorem inRange_one (last : BitVec 32) (x : IVec S819200 32)
    (hb : ∀ i, 0 ≤ (x i).toInt ∧ (x i).toInt ≤ last.toInt) (j : S819200.Idx) : inRange last (col x) j = 1#1 := by
  unfold inRange
  refine reduce_andi_ones _ _ _ _ (fun i => ?_) (fun _ => rfl) j
  obtain ⟨e, u, rfl⟩ : ∃ (e : Fin 819200) (u : Fin 1), i = ix2 e u := ⟨i 0, i 1, eq_ix2 i⟩
  show IntOp.andi (IntOp.cmpi .sge (col x (ix2 e u)) 0#32) (IntOp.cmpi .sle (col x (ix2 e u)) last) = 1#1
  rw [col_apply]
  have z : (0#32 : BitVec 32).toInt = 0 := by decide
  exact IntOp.andi_eq_one.2 ⟨IntOp.cmpi_sge.2 (by rw [z]; exact (hb _).1), IntOp.cmpi_sle.2 (hb _).2⟩

/-- The row a gather reads at position `e`, when the index there is the number `r` below the table's height. -/
theorem rowOf_val (N : Nat) (hN : 0 < N) (x : IVec S819200 32) (e : Fin 819200) (r : Nat)
    (hx : (x (ix1 e)).toInt = (r : Int)) (hr : r ≤ N - 1) : (LibGatherRows.rowOf N hN (col x) e).val = r := by
  unfold LibGatherRows.rowOf
  show min (col x (ix2 e (0 : Fin 1))).toInt.toNat (N - 1) = r
  rw [col_apply, hx]
  omega

/-! ## `_take` at a position: the table's row -/

section Take
variable {F : FTy → Type} [FloatOps F]

theorem take0_apply (W : FVec F S20000x128 .f32) (x : IVec S819200 32)
    (hb : ∀ i, 0 ≤ (x i).toInt ∧ (x i).toInt ≤ (19999#32 : BitVec 32).toInt) (e : Fin 819200) (k : Fin 128) :
    take0 W x (ix2 e k) = W (ix2 (LibGatherRows.rowOf 20000 (by decide) (col x) e) k) := by
  unfold take0
  rw [wrap_of_nonneg _ x (fun i => (hb i).1)]
  show Scalar.select (inRange 19999#32 (col x) _)
    (Host.gather (LibGatherRows.rowDims 20000 819200 128 gather_S20000x128_S819200x1_S819200x128_1_0_n_n_0_1_1128_wf) W (col x) (ix2 e k)) _ = _
  rw [inRange_one _ x hb, select_one, LibGatherRows.gather_rows_apply]

theorem take1_apply (W : FVec F S80000x32 .f32) (x : IVec S819200 32)
    (hb : ∀ i, 0 ≤ (x i).toInt ∧ (x i).toInt ≤ (79999#32 : BitVec 32).toInt) (e : Fin 819200) (k : Fin 32) :
    take1 W x (ix2 e k) = W (ix2 (LibGatherRows.rowOf 80000 (by decide) (col x) e) k) := by
  unfold take1
  rw [wrap_of_nonneg _ x (fun i => (hb i).1)]
  show Scalar.select (inRange 79999#32 (col x) _)
    (Host.gather (LibGatherRows.rowDims 80000 819200 32 gather_S80000x32_S819200x1_S819200x32_1_0_n_n_0_1_132_wf) W (col x) (ix2 e k)) _ = _
  rw [inRange_one _ x hb, select_one, LibGatherRows.gather_rows_apply]

theorem take2_apply (W : FVec F S900000x8 .f32) (x : IVec S819200 32)
    (hb : ∀ i, 0 ≤ (x i).toInt ∧ (x i).toInt ≤ (899999#32 : BitVec 32).toInt) (e : Fin 819200) (k : Fin 8) :
    take2 W x (ix2 e k) = W (ix2 (LibGatherRows.rowOf 900000 (by decide) (col x) e) k) := by
  unfold take2
  rw [wrap_of_nonneg _ x (fun i => (hb i).1)]
  show Scalar.select (inRange 899999#32 (col x) _)
    (Host.gather (LibGatherRows.rowDims 900000 819200 8 gather_S900000x8_S819200x1_S819200x8_1_0_n_n_0_1_18_wf) W (col x) (ix2 e k)) _ = _
  rw [inRange_one _ x hb, select_one, LibGatherRows.gather_rows_apply]

end Take

/-! ## The float stages at a position, at the extended reals -/

/-- A cluster's mask, broadcast along the columns, read at `(e, j)`. -/
theorem maskCols_apply (m : IVec S819200 1) (e : Fin 819200) (j : Fin 128) :
    broadcastInDim S819200x128 ![0, 1] bcast_S819200x1_S819200x128_0_1
        (broadcastInDim S819200x1 ![0] bcast_S819200_S819200x1_0 m) (ix2 e j) = m (ix1 e) :=
  (broadcastInDim_apply _ _ _ _ (ix2 e (0 : Fin 1)) (fun a => match a with | ⟨0, _⟩ => rfl | ⟨1, _⟩ => rfl)).trans
    (broadcastInDim_apply _ _ m _ (ix1 e) (fun a => match a with | ⟨0, _⟩ => rfl))

/-- `where(mask, x, 0)` at `(e, j)`. -/
theorem where0_apply (m : IVec S819200 1) (x : FVec Ideal S819200x128 .f32) (e : Fin 819200) (j : Fin 128) :
    where0 m x (ix2 e j) = Scalar.select (m (ix1 e)) (x (ix2 e j)) (0 : EReal) := by
  unfold where0
  show Scalar.select (broadcastInDim S819200x128 ![0, 1] bcast_S819200x1_S819200x128_0_1
      (broadcastInDim S819200x1 ![0] bcast_S819200_S819200x1_0 m) (ix2 e j)) (x (ix2 e j)) (Ideal.ofBits .f32 0x00000000#32) = _
  rw [maskCols_apply, Ideal.ofBits_zero_f32]

theorem emb0_apply (W : FVec Ideal S20000x128 .f32) (P : FVec Ideal S128x128 .f32) (t : IVec S819200 32)
    (e : Fin 819200) (j : Fin 128) :
    emb0 W P t (ix2 e j) = ∑ k : Fin 128, take0 W (localIdx 0#32 19999#32 t) (ix2 e k) * P (ix2 j k) := by
  unfold emb0
  show Host.dotGeneral (DotDims.plain 819200 128 128) none _ _ (ix2 e j) = _
  rw [StackMember.dotGeneral_plain_apply]
  exact Finset.sum_congr rfl fun k _ => by rw [transpose_ix2_apply]

theorem emb1_apply (W : FVec Ideal S80000x32 .f32) (P : FVec Ideal S128x32 .f32) (t : IVec S819200 32)
    (e : Fin 819200) (j : Fin 128) :
    emb1 W P t (ix2 e j) = ∑ k : Fin 32, take1 W (localIdx 20000#32 79999#32 t) (ix2 e k) * P (ix2 j k) := by
  unfold emb1
  show Host.dotGeneral (DotDims.plain 819200 32 128) none _ _ (ix2 e j) = _
  rw [StackMember.dotGeneral_plain_apply]
  exact Finset.sum_congr rfl fun k _ => by rw [transpose_ix2_apply]

theorem emb2_apply (W : FVec Ideal S900000x8 .f32) (P : FVec Ideal S128x8 .f32) (t : IVec S819200 32)
    (e : Fin 819200) (j : Fin 128) :
    emb2 W P t (ix2 e j) = ∑ k : Fin 8, take2 W (localIdx 100000#32 899999#32 t) (ix2 e k) * P (ix2 j k) := by
  unfold emb2
  show Host.dotGeneral (DotDims.plain 819200 8 128) none _ _ (ix2 e j) = _
  rw [StackMember.dotGeneral_plain_apply]
  exact Finset.sum_congr rfl fun k _ => by rw [transpose_ix2_apply]

/-- The sum of the three masked clusters at `(e, j)`. -/
theorem acc_apply (t : IVec S819200 32) (a1 : FVec Ideal S20000x128 .f32) (a2 : FVec Ideal S80000x32 .f32)
    (a3 : FVec Ideal S900000x8 .f32) (a4 : FVec Ideal S128x128 .f32) (a5 : FVec Ideal S128x32 .f32)
    (a6 : FVec Ideal S128x8 .f32) (e : Fin 819200) (j : Fin 128) :
    acc t a1 a2 a3 a4 a5 a6 (ix2 e j)
      = 0 + Scalar.select (mask 0#32 20000#32 t (ix1 e)) (emb0 a1 a4 t (ix2 e j)) (0 : EReal)
          + Scalar.select (mask 20000#32 100000#32 t (ix1 e)) (emb1 a2 a5 t (ix2 e j)) (0 : EReal)
          + Scalar.select (mask 100000#32 1000000#32 t (ix1 e)) (emb2 a3 a6 t (ix2 e j)) (0 : EReal) := by
  unfold acc
  show Ideal.ofBits .f32 0x00000000#32 + where0 _ _ (ix2 e j) + where0 _ _ (ix2 e j) + where0 _ _ (ix2 e j) = _
  rw [where0_apply, where0_apply, where0_apply, Ideal.ofBits_zero_f32]

/-- The result at `(b, s, j)`: the sum at `(row b s, j)`, scaled. -/
theorem out_apply (a0 : IVec S4096x200 32) (a1 : FVec Ideal S20000x128 .f32) (a2 : FVec Ideal S80000x32 .f32)
    (a3 : FVec Ideal S900000x8 .f32) (a4 : FVec Ideal S128x128 .f32) (a5 : FVec Ideal S128x32 .f32)
    (a6 : FVec Ideal S128x8 .f32) (b : Fin 4096) (s : Fin 200) (j : Fin 128) :
    out a0 a1 a2 a3 a4 a5 a6 (ix3 b s j) = acc (flat a0) a1 a2 a3 a4 a5 a6 (ix2 (row b s) j) * Cert.Spec.scale := by
  unfold out
  show shapeCast S4096x200x128 (acc (flat a0) a1 a2 a3 a4 a5 a6) shapeCasts_S819200x128_S4096x200x128 (ix3 b s j)
    * Ideal.ofBits .f32 0x413504F3#32 = _
  rw [shapeCast_apply _ _ (ix3 b s j) (ix2 (row b s) j)
    (by rw [Shape.rowMajor_val_two, Shape.rowMajor_val_three]; rfl)]
  rfl

/-! ## A cluster's rows in the specification's form -/

/-- In its cluster a local index is `t - lo`. -/
theorem localIdx_val (lo last : BitVec 32) (t : IVec S819200 32) (i : S819200.Idx)
    (hlo : lo.toNat ≤ (t i).toNat) (hlast : (t i).toNat - lo.toNat ≤ last.toNat) (hs : last.toNat < 2147483648)
    (ht : (t i).toNat < 2147483648) :
    (localIdx lo last t i).toInt = (((t i).toNat - lo.toNat : ℕ) : Int) := by
  rw [localIdx_apply]
  have hd := sub_toNat (t i) lo hlo
  have hdi := toInt_of_small (IntOp.subi (t i) lo) (by omega)
  have hli := toInt_of_small last hs
  rw [clip_val last _ (by omega) (by omega), hdi, hd]

theorem emb0_val (a1 : FVec Ideal S20000x128 .f32) (a4 : FVec Ideal S128x128 .f32) (t : IVec S819200 32)
    (e : Fin 819200) (j : Fin 128) (n : Nat) (hn : n < 20000) (ht : (t (ix1 e)).toNat = n) :
    emb0 a1 a4 t (ix2 e j) = ∑ k : Fin 128, a1 (ix2 (⟨n, hn⟩ : Fin 20000) k) * a4 (ix2 j k) := by
  have l0 : (0#32 : BitVec 32).toNat = 0 := by decide
  have l1 : (19999#32 : BitVec 32).toNat = 19999 := by decide
  have hrow : LibGatherRows.rowOf 20000 (by decide) (col (localIdx 0#32 19999#32 t)) e = ⟨n, hn⟩ :=
    Fin.ext (rowOf_val 20000 _ _ e n
      (by rw [localIdx_val 0#32 19999#32 t (ix1 e) (by omega) (by omega) (by omega) (by omega), ht, l0]; rfl) (by omega))
  rw [emb0_apply]
  refine Finset.sum_congr rfl fun k _ => ?_
  rw [take0_apply a1 _ (fun i => localIdx_bounds _ _ (by decide) t i) e k, hrow]

theorem emb1_val (a2 : FVec Ideal S80000x32 .f32) (a5 : FVec Ideal S128x32 .f32) (t : IVec S819200 32)
    (e : Fin 819200) (j : Fin 128) (n : Nat) (h1 : 20000 ≤ n) (h2 : n < 100000) (ht : (t (ix1 e)).toNat = n) :
    emb1 a2 a5 t (ix2 e j) = ∑ k : Fin 32, a2 (ix2 (⟨n - 20000, by omega⟩ : Fin 80000) k) * a5 (ix2 j k) := by
  have l0 : (20000#32 : BitVec 32).toNat = 20000 := by decide
  have l1 : (79999#32 : BitVec 32).toNat = 79999 := by decide
  have hrow : LibGatherRows.rowOf 80000 (by decide) (col (localIdx 20000#32 79999#32 t)) e = ⟨n - 20000, by omega⟩ :=
    Fin.ext (rowOf_val 80000 _ _ e (n - 20000)
      (by rw [localIdx_val 20000#32 79999#32 t (ix1 e) (by omega) (by omega) (by omega) (by omega), ht, l0]) (by omega))
  rw [emb1_apply]
  refine Finset.sum_congr rfl fun k _ => ?_
  rw [take1_apply a2 _ (fun i => localIdx_bounds _ _ (by decide) t i) e k, hrow]

theorem emb2_val (a3 : FVec Ideal S900000x8 .f32) (a6 : FVec Ideal S128x8 .f32) (t : IVec S819200 32)
    (e : Fin 819200) (j : Fin 128) (n : Nat) (h1 : 100000 ≤ n) (h2 : n < 1000000) (ht : (t (ix1 e)).toNat = n) :
    emb2 a3 a6 t (ix2 e j) = ∑ k : Fin 8, a3 (ix2 (⟨n - 100000, by omega⟩ : Fin 900000) k) * a6 (ix2 j k) := by
  have l0 : (100000#32 : BitVec 32).toNat = 100000 := by decide
  have l1 : (899999#32 : BitVec 32).toNat = 899999 := by decide
  have hrow : LibGatherRows.rowOf 900000 (by decide) (col (localIdx 100000#32 899999#32 t)) e = ⟨n - 100000, by omega⟩ :=
    Fin.ext (rowOf_val 900000 _ _ e (n - 100000)
      (by rw [localIdx_val 100000#32 899999#32 t (ix1 e) (by omega) (by omega) (by omega) (by omega), ht, l0]) (by omega))
  rw [emb2_apply]
  refine Finset.sum_congr rfl fun k _ => ?_
  rw [take2_apply a3 _ (fun i => localIdx_bounds _ _ (by decide) t i) e k, hrow]

/-! ## The masks -/

theorem mask_eq_one (lo hi : BitVec 32) (t : IVec S819200 32) (i : S819200.Idx)
    (h1 : lo.toInt ≤ (t i).toInt) (h2 : (t i).toInt < hi.toInt) : mask lo hi t i = 1#1 :=
  IntOp.andi_eq_one.2 ⟨IntOp.cmpi_sge.2 h1, IntOp.cmpi_slt.2 h2⟩

theorem mask_eq_zero (lo hi : BitVec 32) (t : IVec S819200 32) (i : S819200.Idx)
    (h : ¬ (lo.toInt ≤ (t i).toInt ∧ (t i).toInt < hi.toInt)) : mask lo hi t i = 0#1 :=
  eq_zero_of_ne_one fun h1 =>
    h ⟨IntOp.cmpi_sge.1 (IntOp.andi_eq_one.1 h1).1, IntOp.cmpi_slt.1 (IntOp.andi_eq_one.1 h1).2⟩

/-! ## The reference is the specification -/

/-- With every id in `[0, 999999]` and every float entry a real number, the reference's result is the specification:
    exactly one mask holds at each position, the other two clusters contribute `0`, and the scale moves from the sum
    onto the projection's entries. -/
theorem ref_eq_G (a0 : IVec S4096x200 32) (a1 : FVec Ideal S20000x128 .f32) (a2 : FVec Ideal S80000x32 .f32)
    (a3 : FVec Ideal S900000x8 .f32) (a4 : FVec Ideal S128x128 .f32) (a5 : FVec Ideal S128x32 .f32)
    (a6 : FVec Ideal S128x8 .f32) (hid : ∀ i, (a0 i).toNat ≤ 999999)
    (hr1 : ∀ i, ∃ r : ℝ, a1 i = (r : EReal)) (hr2 : ∀ i, ∃ r : ℝ, a2 i = (r : EReal))
    (hr3 : ∀ i, ∃ r : ℝ, a3 i = (r : EReal)) (hr4 : ∀ i, ∃ r : ℝ, a4 i = (r : EReal))
    (hr5 : ∀ i, ∃ r : ℝ, a5 i = (r : EReal)) (hr6 : ∀ i, ∃ r : ℝ, a6 i = (r : EReal)) :
    out a0 a1 a2 a3 a4 a5 a6 = Cert.Spec.G a0 a1 a2 a3 a4 a5 a6 := by
  funext i
  obtain ⟨b, s, j, rfl⟩ : ∃ (b : Fin 4096) (s : Fin 200) (j : Fin 128), i = ix3 b s j := ⟨i 0, i 1, i 2, eq_ix3 i⟩
  rw [out_apply, acc_apply, Cert.Spec.G_ix3]
  have hflat := flat_apply a0 b s
  have htn : (flat a0 (ix1 (row b s))).toNat = Cert.Spec.tok a0 b s := by rw [hflat]; rfl
  have hle : Cert.Spec.tok a0 b s ≤ 999999 := hid _
  have hti : (flat a0 (ix1 (row b s))).toInt = (Cert.Spec.tok a0 b s : Int) := by
    rw [toInt_of_small _ (by omega), htn]
  have c0 : (0#32 : BitVec 32).toInt = 0 := by decide
  have c1 : (20000#32 : BitVec 32).toInt = 20000 := by decide
  have c2 : (100000#32 : BitVec 32).toInt = 100000 := by decide
  have c3 : (1000000#32 : BitVec 32).toInt = 1000000 := by decide
  by_cases h0 : Cert.Spec.tok a0 b s < 20000
  · rw [mask_eq_one _ _ _ _ (by rw [c0, hti]; omega) (by rw [c1, hti]; omega),
      mask_eq_zero 20000#32 100000#32 _ _ (by rw [c1, c2, hti]; omega),
      mask_eq_zero 100000#32 1000000#32 _ _ (by rw [c2, c3, hti]; omega),
      select_one, select_zero, select_zero, zero_add, add_zero, add_zero,
      emb0_val a1 a4 _ _ j _ h0 htn, Cert.Spec.entry_lo _ _ _ _ _ _ _ b s j h0]
    exact Cert.Spec.sum_mul_scale _ _ _ (fun k => hr1 _) (fun k => hr4 _) Cert.Spec.scale_real
  · by_cases h1 : Cert.Spec.tok a0 b s < 100000
    · rw [mask_eq_zero 0#32 20000#32 _ _ (by rw [c0, c1, hti]; omega),
        mask_eq_one 20000#32 100000#32 _ _ (by rw [c1, hti]; omega) (by rw [c2, hti]; omega),
        mask_eq_zero 100000#32 1000000#32 _ _ (by rw [c2, c3, hti]; omega),
        select_zero, select_one, select_zero, zero_add, zero_add, add_zero,
        emb1_val a2 a5 _ _ j _ (by omega) h1 htn, Cert.Spec.entry_mid _ _ _ _ _ _ _ b s j h0 h1]
      exact Cert.Spec.sum_mul_scale _ _ _ (fun k => hr2 _) (fun k => hr5 _) Cert.Spec.scale_real
    · have h2 : Cert.Spec.tok a0 b s < 1000000 := by omega
      rw [mask_eq_zero 0#32 20000#32 _ _ (by rw [c0, c1, hti]; omega),
        mask_eq_zero 20000#32 100000#32 _ _ (by rw [c1, c2, hti]; omega),
        mask_eq_one 100000#32 1000000#32 _ _ (by rw [c2, hti]; omega) (by rw [c3, hti]; omega),
        select_zero, select_zero, select_one, zero_add, zero_add, zero_add,
        emb2_val a3 a6 _ _ j _ (by omega) h2 htn, Cert.Spec.entry_hi _ _ _ _ _ _ _ b s j h0 h1 h2]
      exact Cert.Spec.sum_mul_scale _ _ _ (fun k => hr3 _) (fun k => hr6 _) Cert.Spec.scale_real

end Cert.ReferenceIdeal.RefValue

end
-- ==== Proof.RefSpecRun.lean ====
/-
  The reference's run against the specification.

  Under the precondition every id lies in [0, 999999] and every float entry is a real number, so the pure term the
  reference's run leaves in its result array is the specification's function of the argument arrays: every weakly fair
  execution of the reference terminates with the result array at `Cert.Spec.G` of the arguments and the arguments
  unchanged.
-/
import proofs.«202745_g55851754717770_cont_9to1_m_910_12_alg».proof.Proof.RefValue
import proofs.«202745_g55851754717770_cont_9to1_m_910_12_alg».proof.Proof.PreFacts

noncomputable section

namespace Cert.ReferenceIdeal.RefSpecRun

open Cert.ReferenceIdeal Idealize.ShloMosaic Idealize.ShloMosaic.TcCoe Idealize.SL.Sem

variable [Cert.ReferenceIdeal.Facts] [Cert.Pre_input_domain.Facts]

/-- The reference's result term is the specification, on any memory the precondition holds of. -/
theorem out_eq_spec (m : (ℓ : Loc nD τ sig) → Buf (Elt Ideal) ℓ) (hpre : Cert.Pre_ReferenceIdeal m) (c : Dev nD) :
    RefRun.out (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      = Cert.Spec.G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  obtain ⟨h1, h2, h3, h4, h5, h6⟩ := Cert.PreFacts.entries_real _ _ _ _ _ _ _ (hpre c)
  exact RefValue.ref_eq_G _ _ _ _ _ _ _ (fun i => Cert.PreFacts.ids_toNat_le _ _ _ _ _ _ _ (hpre c) i) h1 h2 h3 h4 h5 h6

/-- Under the precondition: the run, with the result named as the specification's function of the arguments. -/
theorem run_spec (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v46) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (out_eq_spec m hpre c), (h c).2⟩)
    (RefRun.run (F := Ideal) m ρ)

end Cert.ReferenceIdeal.RefSpecRun

end
-- ==== Proof.lean ====
/-
  The claim: a two-level embedding lookup, computed two ways, is one function of its seven arguments.

  The arguments: token ids [4096, 200]; three embedding tables W0 [20000, 128], W1 [80000, 32], W2 [900000, 8] for the
  three clusters [0, 20000), [20000, 100000), [100000, 1000000) of the vocabulary; three projections P0 [128, 128],
  P1 [128, 32], P2 [128, 8]. With c the f32 word of √128, the result at (b, s, j) for the token t = ids (b, s) of
  cluster i is  Σ_k W_i[t − l_i, k] · (P_i[j, k] · c).

  The kernel builds the whole projected table first — row r of a million is Σ_k W_i[r − l_i, k] · (P_i[j, k] · c),
  one matrix product per block of 20000 rows on the TensorCore, the scale folded into the transposed projection by
  host operations — and then gathers the rows the ids name on the SparseCore's thirty-two tiles, each tile streaming
  its 25600 ids' rows through four buffers. The reference gathers each cluster's rows at clamped local ids, projects
  them, masks the clusters the token is not in, adds the three, and scales last. Over the extended reals the two agree
  where every table and projection entry is a real number and every id is below a million (the precondition): exactly
  one mask holds, the other two terms are zero, and a finite sum of products of reals times c is the sum with c moved
  onto the second factor.

  The three frames: the kernel's two programs run to the end — the run is proved once for any float instance, from one
  tile's task and the TensorCore call — and leave their arguments unchanged; the reference's run is its operations in
  order. The idealization rewrote no operation.
-/
import proofs.«202745_g55851754717770_cont_9to1_m_910_12_alg».proof.Defs
import proofs.«202745_g55851754717770_cont_9to1_m_910_12_alg».proof.Proof.Gen.Kernel
import proofs.«202745_g55851754717770_cont_9to1_m_910_12_alg».proof.Proof.Gen.Kernel.Skeleton
import proofs.«202745_g55851754717770_cont_9to1_m_910_12_alg».proof.Proof.Gen.Kernel.Launch
import proofs.«202745_g55851754717770_cont_9to1_m_910_12_alg».proof.Proof.Gen.Kernel.Points
import proofs.«202745_g55851754717770_cont_9to1_m_910_12_alg».proof.Proof.Gen.KernelIdeal
import proofs.«202745_g55851754717770_cont_9to1_m_910_12_alg».proof.Proof.Gen.KernelIdeal.Skeleton
import proofs.«202745_g55851754717770_cont_9to1_m_910_12_alg».proof.Proof.Gen.KernelIdeal.Launch
import proofs.«202745_g55851754717770_cont_9to1_m_910_12_alg».proof.Proof.Gen.KernelIdeal.Points
import proofs.«202745_g55851754717770_cont_9to1_m_910_12_alg».proof.Proof.Gen.ReferenceIdeal
import proofs.«202745_g55851754717770_cont_9to1_m_910_12_alg».proof.Proof.Gen.Pre_input_domain
import proofs.«202745_g55851754717770_cont_9to1_m_910_12_alg».proof.Proof.KernelHand.Frame
import proofs.«202745_g55851754717770_cont_9to1_m_910_12_alg».proof.Proof.KernelHand.TableRegion
import proofs.«202745_g55851754717770_cont_9to1_m_910_12_alg».proof.Proof.KernelHand.TileBody
import proofs.«202745_g55851754717770_cont_9to1_m_910_12_alg».proof.Proof.KernelIdealHand.Frame
import proofs.«202745_g55851754717770_cont_9to1_m_910_12_alg».proof.Proof.KernelIdealHand.TableRegion
import proofs.«202745_g55851754717770_cont_9to1_m_910_12_alg».proof.Proof.KernelIdealHand.TileBody
import proofs.«202745_g55851754717770_cont_9to1_m_910_12_alg».proof.Proof.KernelValue
import proofs.«202745_g55851754717770_cont_9to1_m_910_12_alg».proof.Proof.RefRun
import proofs.«202745_g55851754717770_cont_9to1_m_910_12_alg».proof.Proof.RefSpecRun
import proofs.«202745_g55851754717770_cont_9to1_m_910_12_alg».proof.Proof.Spec
import Idealize.ShloMosaic.Adequacy
import Idealize.ShloMosaic.Init

noncomputable section

namespace Cert.Proof

open Idealize.ShloMosaic Idealize.SL.Sem

/-- The word-level kernel runs to the end and leaves its arguments unchanged: its run, the result's value dropped. -/
theorem frame_kernel : Cert.frame_Kernel := fun m ρ hpre =>
  (θ_run (Cert.Kernel.defs (F := Bits)) _ _).mono (fun _ h c => (h c).2)
    (Cert.Kernel.Hand.run_of_pre (F := Bits) m ρ Cert.Kernel.Hand.tile_body Cert.Kernel.Hand.table_region hpre)

/-- The same of the idealized kernel. -/
theorem frame_kernelIdeal : Cert.frame_KernelIdeal := fun m ρ hpre =>
  (θ_run (Cert.KernelIdeal.defs (F := Ideal)) _ _).mono (fun _ h c => (h c).2)
    (Cert.KernelIdeal.Hand.run_of_pre (F := Ideal) m ρ Cert.KernelIdeal.Hand.tile_body Cert.KernelIdeal.Hand.table_region hpre)

/-- The reference runs to the end and leaves its arguments unchanged. -/
theorem frame_reference : Cert.frame_ReferenceIdeal := Cert.ReferenceIdeal.RefRun.frame

/-- The idealization rewrote no operation. -/
theorem preserves : Cert.preserves_Kernel_KernelIdeal := trivial

/-- Both idealized programs end with the result at the one function of the arguments: the kernel's gathered rows of
    its projected table, entry by entry, and the reference's masked, summed and scaled projections. -/
theorem algebraic : Cert.algebraic_KernelIdeal_ReferenceIdeal := by
  intro m ρ m' ρ' hpre hagree
  have hpre' : Cert.Pre_ReferenceIdeal m' := by
    intro c
    obtain ⟨e0, e1, e2, e3, e4, e5, e6⟩ := hagree c
    rw [e0, e1, e2, e3, e4, e5, e6]
    exact hpre c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun r h c => ⟨(h c).1.trans (Cert.KernelIdeal.KernelValue.kernel_eq_G m c hpre), (h c).2⟩)
      (Cert.KernelIdeal.Hand.run_of_pre (F := Ideal) m ρ Cert.KernelIdeal.Hand.tile_body Cert.KernelIdeal.Hand.table_region hpre)
  · refine (θ_run (Cert.ReferenceIdeal.defs (F := Ideal)) _ _).mono (fun r h c => ⟨(h c).1.trans ?_, (h c).2⟩)
      (Cert.ReferenceIdeal.RefSpecRun.run_spec m' ρ' hpre')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_input_domain.Gen.facts,
    frame_kernel, frame_kernelIdeal, frame_reference, preserves, algebraic⟩

end Cert.Proof

end
